-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S6000x12000 : Shape := ⟨2, ![6000, 12000]⟩
abbrev S6000x64 : Shape := ⟨2, ![6000, 64]⟩
abbrev S12000x64 : Shape := ⟨2, ![12000, 64]⟩
abbrev S6000x256 : Shape := ⟨2, ![6000, 256]⟩
abbrev S12000x256 : Shape := ⟨2, ![12000, 256]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x64 : Shape := ⟨2, ![64, 64]⟩
abbrev S_ : Shape := ⟨0, ![]⟩

class Facts : Prop where
  bcast_S_S6000x12000 : S_.BroadcastsInDim S6000x12000 (![] : Fin 0 → Fin S6000x12000.rank)
  reducesTo_S6000x12000_S_d0_1 : S6000x12000.ReducesTo [0, 1] S_
  h_S_ : 0 < S_.numel
  bcast_S_S6000x64 : S_.BroadcastsInDim S6000x64 (![] : Fin 0 → Fin S6000x64.rank)
  reducesTo_S6000x64_S_d0_1 : S6000x64.ReducesTo [0, 1] S_
  bcast_S_S12000x64 : S_.BroadcastsInDim S12000x64 (![] : Fin 0 → Fin S12000x64.rank)
  reducesTo_S12000x64_S_d0_1 : S12000x64.ReducesTo [0, 1] S_
  bcast_S_S6000x256 : S_.BroadcastsInDim S6000x256 (![] : Fin 0 → Fin S6000x256.rank)
  reducesTo_S6000x256_S_d0_1 : S6000x256.ReducesTo [0, 1] S_
  bcast_S_S12000x256 : S_.BroadcastsInDim S12000x256 (![] : Fin 0 → Fin S12000x256.rank)
  reducesTo_S12000x256_S_d0_1 : S12000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg16 : FVec F S6000x64 .f32) (main_arg17 : FVec F S64x64 .f32) (main_arg18 : FVec F S64 .f32) (main_v63 : IVec S_ 1) (main_v67 : IVec S_ 1) : IVec S_ 1 :=
  let main_v68 : IVec S_ 1 := andi main_v63 main_v67
  let main_v69 : FVec F S6000x64 .f32 := Host.absf main_arg16
  let main_cst_26 : FVec F S_ .f32 := constant S_ .f32 0x7F800000#32
  let main_v70 : FVec F S6000x64 .f32 := broadcastInDim S6000x64 ![] bcast_S_S6000x64 main_cst_26
  let main_v71 : IVec S6000x64 1 := cmpf .olt main_v69 main_v70
  let main_c_27 : IVec S_ 1 := constantI S_ 1 1#1
  let main_v72 : IVec S_ 1 := (fun x v => Host.reduce IntOp.andi x v reducesTo_S6000x64_S_d0_1 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S128x1 .f32) (main_arg14 : FVec F S1 .f32) (main_arg15 : FVec F S12000x64 .f32) (main_arg16 : FVec F S6000x64 .f32) (main_arg17 : FVec F S64x64 .f32) (main_arg18 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S12000x64 .f32 := Host.absf main_arg15
  let main_cst_24 : FVec F S_ .f32 := constant S_ .f32 0x7F800000#32
  let main_v65 : FVec F S12000x64 .f32 := broadcastInDim S12000x64 ![] bcast_S_S12000x64 main_cst_24
  let main_v66 : IVec S12000x64 1 := cmpf .olt main_v64 main_v65
  let main_c_25 : IVec S_ 1 := constantI S_ 1 1#1
  let main_v67 : IVec S_ 1 := (fun x v => Host.reduce IntOp.andi x v reducesTo_S12000x64_S_d0_1 h_S_) main_v66 main_c_25
  fn_part4 (F := F) main_arg16 main_arg17 main_arg18 main_v63 main_v67

def fn_part2 {F : FTy → Type} [FloatOps F] (main_arg9 : FVec F S256x128 .f32) (main_arg10 : FVec F S128 .f32) (main_arg11 : FVec F S128x64 .f32) (main_arg12 : FVec F S64 .f32) (main_arg13 : FVec F S128x1 .f32) (main_arg14 : FVec F S1 .f32) (main_arg15 : FVec F S12000x64 .f32) (main_arg16 : FVec F S6000x64 .f32) (main_arg17 : FVec F S64x64 .f32) (main_arg18 : FVec F S64 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S12000x256 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S128x1 .f32) (main_arg14 : FVec F S1 .f32) (main_arg15 : FVec F S12000x64 .f32) (main_arg16 : FVec F S6000x64 .f32) (main_arg17 : FVec F S64x64 .f32) (main_arg18 : FVec F S64 .f32) (main_v13 : IVec S_ 1) (main_v16 : IVec S6000x256 1) : IVec S_ 1 :=
  let main_c_5 : IVec S_ 1 := constantI S_ 1 1#1
  let main_v17 : IVec S_ 1 := (fun x v => Host.reduce IntOp.andi x v reducesTo_S6000x256_S_d0_1 h_S_) main_v16 main_c_5
  let main_v18 : IVec S_ 1 := andi main_v13 main_v17
  let main_v19 : FVec F S12000x256 .f32 := Host.absf main_arg6
  let main_cst_6 : FVec F S_ .f32 := constant S_ .f32 0x7F800000#32
  let main_v20 : FVec F S12000x256 .f32 := broadcastInDim S12000x256 ![] bcast_S_S12000x256 main_cst_6
  let main_v21 : IVec S12000x256 1 := cmpf .olt main_v19 main_v20
  let main_c_7 : IVec S_ 1 := constantI S_ 1 1#1
  let main_v22 : IVec S_ 1 := (fun x v => Host.reduce IntOp.andi x v reducesTo_S12000x256_S_d0_1 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : IVec S8192 32) (main_arg1 : IVec S8192 32) (main_arg2 : FVec F S6000x12000 .f32) (main_arg3 : FVec F S6000x64 .f32) (main_arg4 : FVec F S12000x64 .f32) (main_arg5 : FVec F S6000x256 .f32) (main_arg6 : FVec F S12000x256 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S128x1 .f32) (main_arg14 : FVec F S1 .f32) (main_arg15 : FVec F S12000x64 .f32) (main_arg16 : FVec F S6000x64 .f32) (main_arg17 : FVec F S64x64 .f32) (main_arg18 : FVec F S64 .f32) : IVec S_ 1 :=
  let main_v0 : FVec F S6000x12000 .f32 := Host.absf main_arg2
  let main_cst : FVec F S_ .f32 := constant S_ .f32 0x7F800000#32
  let main_v1 : FVec F S6000x12000 .f32 := broadcastInDim S6000x12000 ![] bcast_S_S6000x12000 main_cst
  let main_v2 : IVec S6000x12000 1 := cmpf .olt main_v0 main_v1
  let main_c : IVec S_ 1 := constantI S_ 1 1#1
  let main_v3 : IVec S_ 1 := (fun x v => Host.reduce IntOp.andi x v reducesTo_S6000x12000_S_d0_1 h_S_) main_v2 main_c
  let main_v4 : FVec F S6000x64 .f32 := Host.absf main_arg3
  let main_cst_0 : FVec F S_ .f32 := constant S_ .f32 0x7F800000#32
  let main_v5 : FVec F S6000x64 .f32 := broadcastInDim S6000x64 ![] bcast_S_S6000x64 main_cst_0
  let main_v6 : IVec S6000x64 1 := cmpf .olt main_v4 main_v5
  let main_c_1 : IVec S_ 1 := constantI S_ 1 1#1
  let main_v7 : IVec S_ 1 := (fun x v => Host.reduce IntOp.andi x v reducesTo_S6000x64_S_d0_1 h_S_) main_v6 main_c_1
  let main_v8 : IVec S_ 1 := andi main_v3 main_v7
  let main_v9 : FVec F S12000x64 .f32 := Host.absf main_arg4
  let main_cst_2 : FVec F S_ .f32 := constant S_ .f32 0x7F800000#32
  let main_v10 : FVec F S12000x64 .f32 := broadcastInDim S12000x64 ![] bcast_S_S12000x64 main_cst_2
  let main_v11 : IVec S12000x64 1 := cmpf .olt main_v9 main_v10
  let main_c_3 : IVec S_ 1 := constantI S_ 1 1#1
  let main_v12 : IVec S_ 1 := (fun x v => Host.reduce IntOp.andi x v reducesTo_S12000x64_S_d0_1 h_S_) main_v11 main_c_3
  let main_v13 : IVec S_ 1 := andi main_v8 main_v12
  let main_v14 : FVec F S6000x256 .f32 := Host.absf main_arg5
  let main_cst_4 : FVec F S_ .f32 := constant S_ .f32 0x7F800000#32
  let main_v15 : FVec F S6000x256 .f32 := broadcastInDim S6000x256 ![] bcast_S_S6000x256 main_cst_4
  let main_v16 : IVec S6000x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S8192 : Shape := ⟨1, ![8192]⟩
abbrev S6000x12000 : Shape := ⟨2, ![6000, 12000]⟩
abbrev S6000x64 : Shape := ⟨2, ![6000, 64]⟩
abbrev S12000x64 : Shape := ⟨2, ![12000, 64]⟩
abbrev S6000x256 : Shape := ⟨2, ![6000, 256]⟩
abbrev S12000x256 : Shape := ⟨2, ![12000, 256]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x64 : Shape := ⟨2, ![64, 64]⟩
abbrev S64x12000 : Shape := ⟨2, ![64, 12000]⟩
abbrev S1x64 : Shape := ⟨2, ![1, 64]⟩
abbrev S64x256 : Shape := ⟨2, ![64, 256]⟩
abbrev S256x64 : Shape := ⟨2, ![256, 64]⟩
abbrev S256x6000 : Shape := ⟨2, ![256, 6000]⟩
abbrev S_ : Shape := ⟨0, ![]⟩
abbrev S8192x1 : Shape := ⟨2, ![8192, 1]⟩
abbrev S8192x64 : Shape := ⟨2, ![8192, 64]⟩
abbrev S8192x256 : Shape := ⟨2, ![8192, 256]⟩
abbrev S1x256 : Shape := ⟨2, ![1, 256]⟩
abbrev S1x128 : Shape := ⟨2, ![1, 128]⟩
abbrev S1x1 : Shape := ⟨2, ![1, 1]⟩
abbrev S2048x64 : Shape := ⟨2, ![2048, 64]⟩
abbrev S2048x256 : Shape := ⟨2, ![2048, 256]⟩
abbrev S2048x1 : Shape := ⟨2, ![2048, 1]⟩
abbrev S2048x512 : Shape := ⟨2, ![2048, 512]⟩
abbrev S2048x128 : Shape := ⟨2, ![2048, 128]⟩
abbrev S2048 : Shape := ⟨1, ![2048]⟩

abbrev nBuf : Space → Nat
  | .hbm => 96
  | .vmem => 38
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S6000x12000, .f32⟩
  | .hbm, ⟨3, _⟩ => ⟨S6000x64, .f32⟩
  | .hbm, ⟨4, _⟩ => ⟨S12000x64, .f32⟩
  | .hbm, ⟨5, _⟩ => ⟨S6000x256, .f32⟩
  | .hbm, ⟨6, _⟩ => ⟨S12000x256, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128x1, .f32⟩
  | .hbm, ⟨14, _⟩ => ⟨S1, .f32⟩
  | .hbm, ⟨15, _⟩ => ⟨S12000x64, .f32⟩
  | .hbm, ⟨16, _⟩ => ⟨S6000x64, .f32⟩
  | .hbm, ⟨17, _⟩ => ⟨S64x64, .f32⟩
  | .hbm, ⟨18, _⟩ => ⟨S64, .f32⟩
  | .hbm, ⟨19, _⟩ => ⟨S64x12000, .f32⟩
  | .hbm, ⟨20, _⟩ => ⟨S64x12000, .bf16⟩
  | .hbm, ⟨21, _⟩ => ⟨S6000x64, .bf16⟩
  | .hbm, ⟨22, _⟩ => ⟨S1x64, .f32⟩
  | .hbm, ⟨23, _⟩ => ⟨S6000x64, .f32⟩
  | .hbm, ⟨24, _⟩ => ⟨S12000x64, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x64, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x64, .f32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S8192x256, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192x256, .f32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x64, .f32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S8192x1, .i32⟩
  | .hbm, ⟨78, _⟩ => ⟨S8192x64, .f32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S8192x1, .i32⟩
  | .hbm, ⟨87, _⟩ => ⟨S8192x64, .f32⟩
  | .hbm, ⟨88, _⟩ => ⟨S1x256, .f32⟩
  | .hbm, ⟨89, _⟩ => ⟨S1x128, .f32⟩
  | .hbm, ⟨90, _⟩ => ⟨S1x64, .f32⟩
  | .hbm, ⟨91, _⟩ => ⟨S1x1, .f32⟩
  | .hbm, ⟨92, _⟩ => ⟨S8192x1, .f32⟩
  | .hbm, ⟨93, _⟩ => ⟨S8192x1, .f32⟩
  | .hbm, ⟨94, _⟩ => ⟨S8192, .f32⟩
  | .hbm, ⟨95, _⟩ => ⟨S8192, .f32⟩
  | .local _ .vmem, ⟨0, _⟩ => ⟨S6000x64, .f32⟩
  | .local _ .vmem, ⟨1, _⟩ => ⟨S64x64, .f32⟩
  | .local _ .vmem, ⟨2, _⟩ => ⟨S1x64, .f32⟩
  | .local _ .vmem, ⟨3, _⟩ => ⟨S6000x64, .f32⟩
  | .local _ .vmem, ⟨4, _⟩ => ⟨S64x256, .bf16⟩
  | .local _ .vmem, ⟨5, _⟩ => ⟨S64x256, .bf16⟩
  | .local _ .vmem, ⟨6, _⟩ => ⟨S6000x256, .f32⟩
  | .local _ .vmem, ⟨7, _⟩ => ⟨S6000x256, .f32⟩
  | .local _ .vmem, ⟨8, _⟩ => ⟨S6000x64, .f32⟩
  | .local _ .vmem, ⟨9, _⟩ => ⟨S6000x64, .bf16⟩
  | .local _ .vmem, ⟨10, _⟩ => ⟨S256x64, .f32⟩
  | .local _ .vmem, ⟨11, _⟩ => ⟨S256x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S512x256, .f32⟩
  | .local _ .vmem, ⟨27, _⟩ => ⟨S1x256, .f32⟩
  | .local _ .vmem, ⟨28, _⟩ => ⟨S256x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S128x1, .f32⟩
  | .local _ .vmem, ⟨33, _⟩ => ⟨S1x1, .f32⟩
  | .local _ .vmem, ⟨34, _⟩ => ⟨S2048x1, .f32⟩
  | .local _ .vmem, ⟨35, _⟩ => ⟨S2048x1, .f32⟩
  | .local _ .vmem, ⟨36, _⟩ => ⟨S2048x1, .f32⟩
  | .local _ .vmem, ⟨37, _⟩ => ⟨S2048x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59_0 : Ref sig .tc := ⟨.hbm, 92, rfl⟩
abbrev main_v59_1 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg15_1 : Ref sig .tc := ⟨.vmem, 35, rfl⟩
abbrev cc2_stg16_0 : Ref sig .tc := ⟨.vmem, 36, rfl⟩
abbrev cc2_stg16_1 : Ref sig .tc := ⟨.vmem, 37, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem15_1 : DmaSem sig := 35
abbrev cc2_sem16_0 : DmaSem sig := 36
abbrev cc2_sem16_1 : DmaSem sig := 37

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![47], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S512x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2048x1 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2048x1 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

class Facts₀ : Prop where
  transposes_S12000x64_S64x12000_1_0 : S12000x64.Transposes [1, 0] S64x12000
  bitsLt_bf16_f32 : FTy.bits .bf16 < FTy.bits .f32
  shapeCasts_S64_S1x64 : S64.ShapeCasts S1x64
  inb_S6000x64_S6000x64_0_0 : ∀ a, (![0, 0] : Fin 2 → Nat) a + S6000x64.size a ≤ S6000x64.size a
  h_S6000x64 : 0 < S6000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S6000x64_S6000x64 : S6000x64.ShapeCasts S6000x64
  inb_S6000x256_S6000x256_0_0 : ∀ a, (![0, 0] : Fin 2 → Nat) a + S6000x256.size a ≤ S6000x256.size a
  h_S6000x256 : 0 < S6000x256.numel
  transposes_S6000x256_p1_0_S256x6000 : S6000x256.Transposes [1, 0] S256x6000
  inb_S256x64_S256x64_0_0 : ∀ a, (![0, 0] : Fin 2 → Nat) a + S256x64.size a ≤ S256x64.size a
  h_S256x64 : 0 < S256x64.numel
  bcast_S_S8192 : S_.BroadcastsInDim S8192 (![] : Fin 0 → Fin S8192.rank)
  bcast_S8192_S8192x1_0 : S8192.BroadcastsInDim S8192x1 (![0] : Fin 1 → Fin S8192x1.rank)
  shapeCasts_S256_S1x256 : S256.ShapeCasts S1x256
  shapeCasts_S128_S1x128 : S128.ShapeCasts S1x128
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  concatenates_S2048x256_S2048x256_S2048x512_d1 : Shape.Concatenates [S2048x256, S2048x256] S2048x512 1
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  broadcasts_S1x64_S2048x64 : S1x64.Broadcasts S2048x64
  concatenates_S2048x64_S2048x64_S2048x128_d1 : Shape.Concatenates [S2048x64, S2048x64] S2048x128 1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  reduces_S2048x64_S2048 : S2048x64.Reduces [1] S2048
  shapeCasts_S2048_S2048x1 : S2048.ShapeCasts S2048x1
  shapeCasts_S8192x1_S8192 : S8192x1.ShapeCasts S8192
  dot_S6000x64_S64x64_S6000x64_1_0_0_1_n_n_wf : DotDims.WF S6000x64 S64x64 S6000x64 [1] [0] [0] [1] [] []
  dot_S6000x64_S64x256_S6000x256_1_0_0_1_n_n_wf : DotDims.WF S6000x64 S64x256 S6000x256 [1] [0] [0] [1] [] []
  dot_S256x6000_S6000x64_S256x64_1_0_0_1_n_n_wf : DotDims.WF S256x6000 S6000x64 S256x64 [1] [0] [0] [1] [] []
  gather_S6000x64_S8192x1_S8192x64_1_0_n_n_0_1_164_wf : GatherDims.WF S6000x64 S8192x1 S8192x64 [1] [0] [] [0] [] 1 ![1, 64]
  gather_S12000x64_S8192x1_S8192x64_1_0_n_n_0_1_164_wf : GatherDims.WF S12000x64 S8192x1 S8192x64 [1] [0] [] [0] [] 1 ![1, 64]
  gather_S6000x256_S8192x1_S8192x256_1_0_n_n_0_1_1256_wf : GatherDims.WF S6000x256 S8192x1 S8192x256 [1] [0] [] [0] [] 1 ![1, 256]
  gather_S12000x256_S8192x1_S8192x256_1_0_n_n_0_1_1256_wf : GatherDims.WF S12000x256 S8192x1 S8192x256 [1] [0] [] [0] [] 1 ![1, 256]
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S6000x64.size a
  hwx0_0 : ∀ i : grid0.Coords, EltTy.bits .f32 = 32 ∨ (Rect.block (s := S6000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S6000x64.size a
  hwx0_3 : ∀ i : grid0.Coords, EltTy.bits .f32 = 32 ∨ (Rect.block (s := S6000x64) S6000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S64x256.size a < S64x12000.size a
  hwx1_0 : ∀ i : grid1.Coords, EltTy.bits .bf16 = 32 ∨ (Rect.unit (s := S64x12000) (fun a => cc1_transform_0 i a * S64x256.size a) (fun a => (Pipeline.Clip.of (cc1_transform_0 i a) (S64x256.size a) (S64x12000.size a)).extent (S64x256.size a)) fun a => Pipeline.Clip.inb (Pipeline.Clip.ok_of (hstart1_0 i a))).WholeWords (EltTy.packing .bf16)
  hwxs1_0 : ∀ i : grid1.Coords, EltTy.bits .bf16 = 32 ∨ (Rect.unit (s := S64x256) (fun _ => 0) (fun a => (Pipeline.Clip.of (cc1_transform_0 i a) (S64x256.size a) (S64x12000.size a)).extent (S64x256.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S6000x256.size a < S6000x12000.size a
  hwx1_1 : ∀ i : grid1.Coords, EltTy.bits .f32 = 32 ∨ (Rect.unit (s := S6000x12000) (fun a => cc1_transform_1 i a * S6000x256.size a) (fun a => (Pipeline.Clip.of (cc1_transform_1 i a) (S6000x256.size a) (S6000x12000.size a)).extent (S6000x256.size a)) fun a => Pipeline.Clip.inb (Pipeline.Clip.ok_of (hstart1_1 i a))).WholeWords (EltTy.packing .f32)
  hwxs1_1 : ∀ i : grid1.Coords, EltTy.bits .f32 = 32 ∨ (Rect.unit (s := S6000x256) (fun _ => 0) (fun a => (Pipeline.Clip.of (cc1_transform_1 i a) (S6000x256.size a) (S6000x12000.size a)).extent (S6000x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S6000x64.size a
  hwx1_2 : ∀ i : grid1.Coords, EltTy.bits .f32 = 32 ∨ (Rect.block (s := S6000x64) S6000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6000x64.size a ≤ S6000x64.size a
  hwx1_3 : ∀ i : grid1.Coords, EltTy.bits .bf16 = 32 ∨ (Rect.block (s := S6000x64) S6000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S256x64.size a < S12000x64.size a
  hwx1_4 : ∀ i : grid1.Coords, EltTy.bits .f32 = 32 ∨ (Rect.unit (s := S12000x64) (fun a => cc1_transform_4 i a * S256x64.size a) (fun a => (Pipeline.Clip.of (cc1_transform_4 i a) (S256x64.size a) (S12000x64.size a)).extent (S256x64.size a)) fun a => Pipeline.Clip.inb (Pipeline.Clip.ok_of (hstart1_4 i a))).WholeWords (EltTy.packing .f32)
  hwxs1_4 : ∀ i : grid1.Coords, EltTy.bits .f32 = 32 ∨ (Rect.unit (s := S256x64) (fun _ => 0) (fun a => (Pipeline.Clip.of (cc1_transform_4 i a) (S256x64.size a) (S12000x64.size a)).extent (S256x64.size a)) fun a => (Nat.zero_add _).trans_le (Pipeline.Clip.extent_le (Pipeline.Clip.ok_of (hstart1_4 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .f32 = 32 ∨ (Rect.block (s := S8192x256) S2048x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S8192x256.size a
  hwx2_3 : ∀ i : grid2.Coords, EltTy.bits .f32 = 32 ∨ (Rect.block (s := S8192x256) S2048x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S8192x64.size a
  hwx2_4 : ∀ i : grid2.Coords, EltTy.bits .f32 = 32 ∨ (Rect.block (s := S8192x64) S2048x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S8192x64.size a
  hwx2_5 : ∀ i : grid2.Coords, EltTy.bits .f32 = 32 ∨ (Rect.block (s := S8192x64) S2048x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x64.size a ≤ S8192x64.size a
  hwx2_6 : ∀ i : grid2.Coords, EltTy.bits .f32 = 32 ∨ (Rect.block (s := S8192x64) S2048x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x256.size a ≤ S512x256.size a
  hwx2_7 : ∀ i : grid2.Coords, EltTy.bits .f32 = 32 ∨ (Rect.block (s := S512x256) S512x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S256x128.size a
  hwx2_9 : ∀ i : grid2.Coords, EltTy.bits .f32 = 32 ∨ (Rect.block (s := S256x128) S256x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x64.size a ≤ S128x64.size a
  hwx2_11 : ∀ i : grid2.Coords, EltTy.bits .f32 = 32 ∨ (Rect.block (s := S128x64) S128x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x1.size a ≤ S128x1.size a
  hwx2_13 : ∀ i : grid2.Coords, EltTy.bits .f32 = 32 ∨ (Rect.block (s := S128x1) S128x1.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x1.size a ≤ S1x1.size a
  hwx2_14 : ∀ i : grid2.Coords, EltTy.bits .f32 = 32 ∨ (Rect.block (s := S1x1) S1x1.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2048x1.size a ≤ S8192x1.size a
  hwx2_15 : ∀ i : grid2.Coords, EltTy.bits .f32 = 32 ∨ (Rect.block (s := S8192x1) S2048x1.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2048x1.size a ≤ S8192x1.size a
  hwx2_16 : ∀ i : grid2.Coords, EltTy.bits .f32 = 32 ∨ (Rect.block (s := S8192x1) S2048x1.size (cc2_transform_16 i) (hinb2_16 i)).WholeWords (EltTy.packing .f32)

variable [Facts₀]

def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def dot_S6000x64_S64x256_S6000x256_1_0_0_1_n_n : DotDims S6000x64 S64x256 S6000x256 where
  lhsContracting := [1]
  rhsContracting := [0]
  lhsNonContracting := [0]
  rhsNonContracting := [1]
  lhsBatch := []
  rhsBatch := []
  wf := dot_S6000x64_S64x256_S6000x256_1_0_0_1_n_n_wf
def dot_S256x6000_S6000x64_S256x64_1_0_0_1_n_n : DotDims S256x6000 S6000x64 S256x64 where
  lhsContracting := [1]
  rhsContracting := [0]
  lhsNonContracting := [0]
  rhsNonContracting := [1]
  lhsBatch := []
  rhsBatch := []
  wf := dot_S256x6000_S6000x64_S256x64_1_0_0_1_n_n_wf
def gather_S6000x64_S8192x1_S8192x64_1_0_n_n_0_1_164 : GatherDims S6000x64 S8192x1 S8192x64 where
  offsetDims := [1]
  collapsedSliceDims := [0]
  operandBatchingDims := []
  startIndicesBatchingDims := []
  startIndexMap := [0]
  indexVectorDim := 1
  sliceSizes := ![1, 64]
  wf := gather_S6000x64_S8192x1_S8192x64_1_0_n_n_0_1_164_wf
def gather_S12000x64_S8192x1_S8192x64_1_0_n_n_0_1_164 : GatherDims S12000x64 S8192x1 S8192x64 where
  offsetDims := [1]
  collapsedSliceDims := [0]
  operandBatchingDims := []
  startIndicesBatchingDims := []
  startIndexMap := [0]
  indexVectorDim := 1
  sliceSizes := ![1, 64]
  wf := gather_S12000x64_S8192x1_S8192x64_1_0_n_n_0_1_164_wf
def gather_S6000x256_S8192x1_S8192x256_1_0_n_n_0_1_1256 : GatherDims S6000x256 S8192x1 S8192x256 where
  offsetDims := [1]
  collapsedSliceDims := [0]
  operandBatchingDims := []
  startIndicesBatchingDims := []
  startIndexMap := [0]
  indexVectorDim := 1
  sliceSizes := ![1, 256]
  wf := gather_S6000x256_S8192x1_S8192x256_1_0_n_n_0_1_1256_wf
def gather_S12000x256_S8192x1_S8192x256_1_0_n_n_0_1_1256 : GatherDims S12000x256 S8192x1 S8192x256 where
  offsetDims := [1]
  collapsedSliceDims := [0]
  operandBatchingDims := []
  startIndicesBatchingDims := []
  startIndexMap := [0]
  indexVectorDim := 1
  sliceSizes := ![1, 256]
  wf := gather_S12000x256_S8192x1_S8192x256_1_0_n_n_0_1_1256_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg16) S6000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg17) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S6000x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v1) S64x256.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg2) S6000x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v4) S6000x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S6000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v5) S256x64.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S2048x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2048x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v47) S2048x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v54) S2048x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S512x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S256x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v56) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg11) S128x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v57) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg13) S128x1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v58) S1x1.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v59_0) S2048x1.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v59_1) S2048x1.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

class Facts : Prop extends Facts₀ where

variable [Facts]
-- ==== ReferenceIdeal.lean ====
abbrev S8192 : Shape := ⟨1, ![8192]⟩
abbrev S6000x12000 : Shape := ⟨2, ![6000, 12000]⟩
abbrev S6000x64 : Shape := ⟨2, ![6000, 64]⟩
abbrev S12000x64 : Shape := ⟨2, ![12000, 64]⟩
abbrev S6000x256 : Shape := ⟨2, ![6000, 256]⟩
abbrev S12000x256 : Shape := ⟨2, ![12000, 256]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S64x64 : Shape := ⟨2, ![64, 64]⟩
abbrev S_ : Shape := ⟨0, ![]⟩
abbrev S8192x1 : Shape := ⟨2, ![8192, 1]⟩
abbrev S8192x64 : Shape := ⟨2, ![8192, 64]⟩
abbrev S8192x256 : Shape := ⟨2, ![8192, 256]⟩
abbrev S8192x512 : Shape := ⟨2, ![8192, 512]⟩
abbrev S1x256 : Shape := ⟨2, ![1, 256]⟩
abbrev S8192x128 : Shape := ⟨2, ![8192, 128]⟩
abbrev S1x128 : Shape := ⟨2, ![1, 128]⟩
abbrev S1x64 : Shape := ⟨2, ![1, 64]⟩
abbrev S1x1 : Shape := ⟨2, ![1, 1]⟩
abbrev S64x6000 : Shape := ⟨2, ![64, 6000]⟩
abbrev S12000x6000 : Shape := ⟨2, ![12000, 6000]⟩

abbrev nBuf : Space → Nat
  | .hbm => 132
  | .vmem => 0
  | .smem => 0
  | _ => 0

abbrev hbmTy0_0 (i : Nat) : BufTy := match i % 128 with
  | 0 => ⟨S8192, .i32⟩
  | 1 => ⟨S8192, .i32⟩
  | 2 => ⟨S6000x12000, .f32⟩
  | 3 => ⟨S6000x64, .f32⟩
  | 4 => ⟨S12000x64, .f32⟩
  | 5 => ⟨S6000x256, .f32⟩
  | 6 => ⟨S12000x256, .f32⟩
  | 7 => ⟨S512x256, .f32⟩
  | 8 => ⟨S256, .f32⟩
  | 9 => ⟨S256x128, .f32⟩
  | 10 => ⟨S128, .f32⟩
  | 11 => ⟨S128x64, .f32⟩
  | 12 => ⟨S64, .f32⟩
  | 13 => ⟨S128x1, .f32⟩
  | 14 => ⟨S1, .f32⟩
  | 15 => ⟨S12000x64, .f32⟩
  | 16 => ⟨S6000x64, .f32⟩
  | 17 => ⟨S64x64, .f32⟩
  | 18 => ⟨S64, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x64, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x64, .f32⟩
  | 37 => ⟨S8192x64, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x256, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x256, .f32⟩
  | 56 => ⟨S8192x512, .f32⟩
  | 57 => ⟨S8192x256, .f32⟩
  | 58 => ⟨S1x256, .f32⟩
  | 59 => ⟨S8192x256, .f32⟩
  | 60 => ⟨S8192x256, .f32⟩
  | 61 => ⟨S_, .f32⟩
  | 62 => ⟨S8192x256, .f32⟩
  | 63 => ⟨S8192x256, .f32⟩
  | 64 => ⟨S8192x128, .f32⟩
  | 65 => ⟨S1x128, .f32⟩
  | 66 => ⟨S8192x128, .f32⟩
  | 67 => ⟨S8192x128, .f32⟩
  | 68 => ⟨S_, .f32⟩
  | 69 => ⟨S8192x128, .f32⟩
  | 70 => ⟨S8192x128, .f32⟩
  | 71 => ⟨S8192x64, .f32⟩
  | 72 => ⟨S1x64, .f32⟩
  | 73 => ⟨S8192x64, .f32⟩
  | 74 => ⟨S8192x64, .f32⟩
  | 75 => ⟨S_, .f32⟩
  | 76 => ⟨S8192x64, .f32⟩
  | 77 => ⟨S8192x64, .f32⟩
  | 78 => ⟨S8192x128, .f32⟩
  | 79 => ⟨S8192x1, .f32⟩
  | 80 => ⟨S1x1, .f32⟩
  | 81 => ⟨S8192x1, .f32⟩
  | 82 => ⟨S8192x1, .f32⟩
  | 83 => ⟨S8192, .f32⟩
  | 84 => ⟨S6000x64, .f32⟩
  | 85 => ⟨S1x64, .f32⟩
  | 86 => ⟨S6000x64, .f32⟩
  | 87 => ⟨S6000x64, .f32⟩
  | 88 => ⟨S64x6000, .f32⟩
  | 89 => ⟨S12000x6000, .f32⟩
  | 90 => ⟨S12000x6000, .f32⟩
  | 91 => ⟨S12000x6000, .f32⟩
  | 92 => ⟨S_, .f32⟩
  | 93 => ⟨S12000x6000, .f32⟩
  | 94 => ⟨S12000x6000, .f32⟩
  | 95 => ⟨S_, .f32⟩
  | 96 => ⟨S12000x6000, .f32⟩
  | 97 => ⟨S12000x6000, .f32⟩
  | 98 => ⟨S12000x6000, .f32⟩
  | 99 => ⟨S12000x6000, .f32⟩
  | 100 => ⟨S12000x64, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x64, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S8192x64, .f32⟩
  | 119 => ⟨S8192x64, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192, .i32⟩

abbrev hbmTy0_1 (i : Nat) : BufTy := match i % 128 with
  | 0 => ⟨S8192x64, .f32⟩
  | 1 => ⟨S8192x64, .f32⟩
  | 2 => ⟨S_, .f32⟩
  | 3 => ⟨S8192, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_c_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call0_cst : Ref sig .tc := ⟨.hbm, 61, rfl⟩
abbrev main_call0_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_cst : Ref sig .tc := ⟨.hbm, 68, rfl⟩
abbrev main_call1_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call2_cst : Ref sig .tc := ⟨.hbm, 75, rfl⟩
abbrev main_call2_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst : Ref sig .tc := ⟨.hbm, 92, rfl⟩
abbrev main_v59 : Ref sig .tc := ⟨.hbm, 93, rfl⟩
abbrev main_v60 : Ref sig .tc := ⟨.hbm, 94, rfl⟩
abbrev main_cst_7 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_8 : Ref sig .tc := ⟨.hbm, 101, rfl⟩
abbrev main_v66 : Ref sig .tc := ⟨.hbm, 102, rfl⟩
abbrev main_v67 : Ref sig .tc := ⟨.hbm, 103, rfl⟩
abbrev main_c_9 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_10 : Ref sig .tc := ⟨.hbm, 110, rfl⟩
abbrev main_v73 : Ref sig .tc := ⟨.hbm, 111, rfl⟩
abbrev main_v74 : Ref sig .tc := ⟨.hbm, 112, rfl⟩
abbrev main_c_11 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_12 : Ref sig .tc := ⟨.hbm, 120, rfl⟩
abbrev main_v81 : Ref sig .tc := ⟨.hbm, 121, rfl⟩
abbrev main_v82 : Ref sig .tc := ⟨.hbm, 122, rfl⟩
abbrev main_c_13 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_14 : Ref sig .tc := ⟨.hbm, 130, rfl⟩
abbrev main_v89 : Ref sig .tc := ⟨.hbm, 131, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x256_S8192x256_S8192x512_d1 : Shape.Concatenates [S8192x256, S8192x256] S8192x512 1
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  concatenates_S8192x64_S8192x64_S8192x128_d1 : Shape.Concatenates [S8192x64, S8192x64] S8192x128 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  bcast_S1x64_S6000x64_0_1 : S1x64.BroadcastsInDim S6000x64 (![0, 1] : Fin 2 → Fin S6000x64.rank)
  transposes_S6000x64_S64x6000_1_0 : S6000x64.Transposes [1, 0] S64x6000
  bcast_S_S12000x6000 : S_.BroadcastsInDim S12000x6000 (![] : Fin 0 → Fin S12000x6000.rank)
  transposes_S6000x12000_S12000x6000_1_0 : S6000x12000.Transposes [1, 0] S12000x6000
  reducesTo_S8192x64_S8192_d1 : S8192x64.ReducesTo [1] S8192
  h_S_ : 0 < S_.numel
  gather_S6000x64_S8192x1_S8192x64_1_0_n_n_0_1_164_wf : GatherDims.WF S6000x64 S8192x1 S8192x64 [1] [0] [] [0] [] 1 ![1, 64]
  gather_S12000x64_S8192x1_S8192x64_1_0_n_n_0_1_164_wf : GatherDims.WF S12000x64 S8192x1 S8192x64 [1] [0] [] [0] [] 1 ![1, 64]
  gather_S6000x256_S8192x1_S8192x256_1_0_n_n_0_1_1256_wf : GatherDims.WF S6000x256 S8192x1 S8192x256 [1] [0] [] [0] [] 1 ![1, 256]
  gather_S12000x256_S8192x1_S8192x256_1_0_n_n_0_1_1256_wf : GatherDims.WF S12000x256 S8192x1 S8192x256 [1] [0] [] [0] [] 1 ![1, 256]
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  dot_S8192x128_S128x1_S8192x1_1_0_0_1_n_n_wf : DotDims.WF S8192x128 S128x1 S8192x1 [1] [0] [0] [1] [] []
  dot_S6000x64_S64x64_S6000x64_1_0_0_1_n_n_wf : DotDims.WF S6000x64 S64x64 S6000x64 [1] [0] [0] [1] [] []
  dot_S12000x64_S64x6000_S12000x6000_1_0_0_1_n_n_wf : DotDims.WF S12000x64 S64x6000 S12000x6000 [1] [0] [0] [1] [] []
  dot_S12000x6000_S6000x64_S12000x64_1_0_0_1_n_n_wf : DotDims.WF S12000x6000 S6000x64 S12000x64 [1] [0] [0] [1] [] []

variable [Facts₀]

def gather_S6000x64_S8192x1_S8192x64_1_0_n_n_0_1_164 : GatherDims S6000x64 S8192x1 S8192x64 where
  offsetDims := [1]
  collapsedSliceDims := [0]
  operandBatchingDims := []
  startIndicesBatchingDims := []
  startIndexMap := [0]
  indexVectorDim := 1
  sliceSizes := ![1, 64]
  wf := gather_S6000x64_S8192x1_S8192x64_1_0_n_n_0_1_164_wf
def gather_S12000x64_S8192x1_S8192x64_1_0_n_n_0_1_164 : GatherDims S12000x64 S8192x1 S8192x64 where
  offsetDims := [1]
  collapsedSliceDims := [0]
  operandBatchingDims := []
  startIndicesBatchingDims := []
  startIndexMap := [0]
  indexVectorDim := 1
  sliceSizes := ![1, 64]
  wf := gather_S12000x64_S8192x1_S8192x64_1_0_n_n_0_1_164_wf
def gather_S6000x256_S8192x1_S8192x256_1_0_n_n_0_1_1256 : GatherDims S6000x256 S8192x1 S8192x256 where
  offsetDims := [1]
  collapsedSliceDims := [0]
  operandBatchingDims := []
  startIndicesBatchingDims := []
  startIndexMap := [0]
  indexVectorDim := 1
  sliceSizes := ![1, 256]
  wf := gather_S6000x256_S8192x1_S8192x256_1_0_n_n_0_1_1256_wf
def gather_S12000x256_S8192x1_S8192x256_1_0_n_n_0_1_1256 : GatherDims S12000x256 S8192x1 S8192x256 where
  offsetDims := [1]
  collapsedSliceDims := [0]
  operandBatchingDims := []
  startIndicesBatchingDims := []
  startIndexMap := [0]
  indexVectorDim := 1
  sliceSizes := ![1, 256]
  wf := gather_S12000x256_S8192x1_S8192x256_1_0_n_n_0_1_1256_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def dot_S12000x64_S64x6000_S12000x6000_1_0_0_1_n_n : DotDims S12000x64 S64x6000 S12000x6000 where
  lhsContracting := [1]
  rhsContracting := [0]
  lhsNonContracting := [0]
  rhsNonContracting := [1]
  lhsBatch := []
  rhsBatch := []
  wf := dot_S12000x64_S64x6000_S12000x6000_1_0_0_1_n_n_wf
def dot_S12000x6000_S6000x64_S12000x64_1_0_0_1_n_n : DotDims S12000x6000 S6000x64 S12000x64 where
  lhsContracting := [1]
  rhsContracting := [0]
  lhsNonContracting := [0]
  rhsNonContracting := [1]
  lhsBatch := []
  rhsBatch := []
  wf := dot_S12000x6000_S6000x64_S12000x64_1_0_0_1_n_n_wf

class Facts : Prop extends Facts₀ where

variable [Facts]
-- ==== Proof.Kit.lean ====
/-
  Two combinators over the launch library's host segments, for a program whose regions are entered with contents that
  are only known to EXIST (a region before them wrote an array at contents the proof does not name):

  * a family of host segments with one program, indexed by a witness, is ONE host segment whose thread states are the
    family's under an existential quantifier;
  * a kernel region whose proof data depend on such a witness is a host segment too, once the cells' ghost state of its
    pipeline rides in the thread state: the region rule is applied after the witness has been taken out.

  The ghost state comes from a SECOND copy of the pipeline library's algebra (the user algebra is a pair): the launch
  theorem funds its own copy, which no segment uses, and the certificate funds the second from its launch element.
-/
import proofs.«163843_j81870666596358_2_alg».proof.Proof.Gen.KernelIdeal.Launch
import Idealize.ShloMosaic.Lib.Pipeline.Kit
import Idealize.ShloMosaic.Lib.Pipeline.Regions
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

/-- Two copies of the pipeline library's algebra: the launch theorem's own, and the regions'. -/
abbrev Alg : Type := UR sig nD τ × UR sig nD τ

local notation "𝕄" => MT nD τ sig Unit (Elt F) ℕ Alg ℕ

/-- No pipeline has a prefetched table. -/
abbrev adm : (p : Fin 3) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- The copy of the algebra the regions' cells live in. -/
abbrev EPr : Emb (UR sig nD τ) (MT nD τ sig Unit (Elt F) ℕ Alg ℕ) := embR
/-- The launch theorem's own copy. -/
abbrev EPk : Emb (UR sig nD τ) (MT nD τ sig Unit (Elt F) ℕ Alg ℕ) := embL

/-- The host segments of this program. -/
abbrev HS : Type _ := HostSeg (Name := ℕ) (U := Alg) (pcfgs (F := F)) defs₀ 𝒱₀ L lv

/-- The regions' ghost state of the pipelines in S on core c. -/
abbrev ghost (S : Finset (Fin 3)) (c : Dev nD) : sProp 𝕄 := Pipeline.ghostOn (pcfgs (F := F)) adm (EPr (F := F)) S c

/-- A family of host segments with one program is one host segment: from SOME member's entry state to some member's
    exit state (the same member's). -/
def exSeg {X : Type} (prog : Prog (TpuEff nD τ sig (Elt F) (Pipeline.Sig Λ₀ (Fin 3) fun p => (pcfgs (F := F) p).Adm) .tc) PUnit)
    (H : X → HS (F := F)) (hp : ∀ x, (H x).prog = prog) : HS (F := F) where
  prog := prog
  pre c := iprop(∃ x, (H x).pre c)
  post c := iprop(∃ x, (H x).post c)
  run c {β} k K := by
    iintro ⟨Hk, Hbd, ⟨%x, Hpre⟩, Hla⟩
    rw [← hp x]
    iapply ((H x).run c k K)
    isplitl [Hk]
    · iintro ⟨Hb, Hp⟩
      iapply Hk
      isplitl [Hb]; · iexact Hb
      iexists x; iexact Hp
    isplitl [Hbd]; · iexact Hbd
    isplitl [Hpre]; · iexact Hpre
    iexact Hla

set_option backward.isDefEq.respectTransparency.types false in
/-- A kernel region whose proof data depend on a witness x, as a host segment: entered from SOME x's entry state beside
    the ghost state of a set S of pipelines containing its own, it leaves x's exit state beside the ghost state of the
    others. -/
def regionSeg {X : Type} {p : Fin 3}
    (rd : X → (p : Fin 3) → (c : Dev nD) → RDat τ (Elt F) Unit ℕ Alg ℕ (Pipeline.pin (pcfgs (F := F)) adm p) c)
    (R : (x : X) → Pipeline.RDat.RegionSeg (pcfgs (F := F)) adm (rd x) () defs₀ 𝒱₀ L lv p)
    (S : Finset (Fin 3)) (hp : p ∈ S) : HS (F := F) where
  prog := Prog.lift (.customCall (Pipeline.entry p) ())
  pre c := iprop(∃ x, (R x).pre c ∗ ghost (F := F) S c)
  post c := iprop(∃ x, (R x).post c ∗ ghost (F := F) (S.erase p) c)
  run c {β} k K := by
    iintro ⟨Hk, Hbd, ⟨%x, Hpre, Hg⟩, #Hla⟩
    have hwp := Pipeline.RDat.RegionSeg.wp (pcfgs (F := F)) adm (rd x) () cellOf_inj (EPr (F := F)) defs₀ 𝒱₀ L lv (R x) c none
      (fun u h => nomatch h) k K
    rw [show (Prog.lift (.customCall (Pipeline.entry p) ()) >>= k
        : Prog (TpuEff nD τ sig (Elt F) (Pipeline.Sig Λ₀ (Fin 3) fun p => (pcfgs (F := F) p).Adm) .tc) β)
        = .op (.customCall (Pipeline.entry p) ()) k from rfl]
    ihave Hg' := (Entails.of_eq (Pipeline.PerCore.ghostOn_erase (pcfgs (F := F)) (fun _ => adm) (EPr (F := F)) hp c)) $$ Hg
    icases Hg' with ⟨⟨Hcg, Ht⟩, Hrest⟩
    iapply hwp
    isplitl [Hk Hrest]
    · iintro ⟨Hb, Hp⟩
      iapply Hk
      isplitl [Hb]; · iexact Hb
      iexists x
      isplitl [Hp]; · iexact Hp
      iexact Hrest
    isplitl [Hbd]; · iexact Hbd
    isplitl [Hpre]; · iexact Hpre
    isplitr; · iexact Hla
    isplitl [Hcg]; · iexact Hcg
    iexact Ht

/-- The second copy of the launch element funds every pipeline's ghost state on every core. -/
theorem fund_regions :
    (BI.own ((EPr (F := F)) (initOf (Pipeline.cells cfgs cellOf_inj) (Pipeline.launchToks cfgs cellOf_inj))) : sProp 𝕄)
      ⊢ iprop(|==> bigSep Finset.univ fun c : Dev nD => ghost (F := F) Finset.univ c) := by
  refine (Pipeline.fund_ghost cfgs (EPr (F := F)) cellOf_inj).trans (BI.bupd_mono ?_)
  rw [← bigSep_sep']
  refine bigSep_mono fun c _ => ?_
  show _ ⊢ Pipeline.PerCore.ghostOn (pcfgs (F := F)) (fun _ => adm) (EPr (F := F)) Finset.univ c
  unfold Pipeline.PerCore.ghostOn
  rw [bigSep_sep']

end Cert.KernelIdeal.Hand

end
-- ==== Proof.Region.lean ====
/-
  One kernel region as the launch library's segment record, for any of the program's three pipelines p, from relational
  proof data whose arrays are entered at the contents a valuation gives them: the arrays are split out of the core's
  unscoped buffers at the entry and put back at the exit at SOME contents the write-backs may leave (the record's exit
  state names them by an existential quantifier); the generator register goes into the class invariant and comes back;
  nothing is owed and the kernel has no semaphore of its own.
-/
import proofs.«163843_j81870666596358_2_alg».proof.Proof.Kit
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ Alg ℕ

/-- A core's TensorCore buffers at some contents. -/
abbrev VT (c : Dev nD) : Type := (b : Ref sig .tc) → Buf (Elt F) ((c.tc : Thread nD τ).loc b)
/-- A valuation read at the TensorCore's references. -/
abbrev tcv (c : Dev nD) (W : Valuation τ sig (Elt F)) : VT (F := F) c := fun b => W (Proc.devRef .tc b)

/-- What rides beside the buffers through every segment: the generator register at some state, nothing owed. -/
abbrev Rr (c : Dev nD) : sProp 𝕄 :=
  iprop((∃ r, prngReg c r) ∗ ∃ W, owes (c.tc : Thread nD τ) (0 : CellTallies nD τ sig Unit) W)

/-- Proof data for every pipeline on every core. -/
abbrev Fam : Type _ := (p : Fin 3) → (c : Dev nD) → RDat τ (Elt F) Unit ℕ Alg ℕ (Pipeline.pin (pcfgs (F := F)) adm p) c

/-- Contents for pipeline p's arrays on core c. -/
abbrev ArrC (p : Fin 3) (c : Dev nD) : Type :=
  (w : Fin (Pipeline.pin (pcfgs (F := F)) adm p).W) → Buf (Elt F) (((Pipeline.pin (pcfgs (F := F)) adm p).win w).arr.view.loc (c.tc : Thread nD τ))

section Region

variable (p : Fin 3) (rds : Fam (F := F)) (kit : Pipeline.LaunchFacts (nD := nD) (τ := τ) cfgs p)
  (Went : Dev nD → Valuation τ sig (Elt F))

local notation "cfgp" => Pipeline.pin (pcfgs (F := F)) adm p

include kit in
set_option backward.isDefEq.respectTransparency.types false in
/-- EXIT, the arrays' part: the pipeline's arrays at contents A and the unscoped rest at V are the core's unscoped
    buffers at any contents V' that has the arrays at A and agrees with V off them. -/
theorem unscopedBufs_of_arraysR (c : Dev nD) (hshare : ∀ w, (rds p c).share w = fullShare)
    (V V' : VT (F := F) c) (A : ArrC (F := F) p c)
    (hF : ∀ w, A w = V' (Pipeline.arrRef (cfgp).spec w))
    (hrest : ∀ b, b ∉ Finset.univ.image (Pipeline.arrRef (cfgp).spec) → V' b = V b) :
    iprop((rds p c).arrays A ∗ Pipeline.unscopedRest (Ix := Unit) (Name := ℕ) (U := Alg) (Lvl := ℕ) (cfgp).spec c V)
      ⊢ (unscopedBufs (Ix := Unit) (Name := ℕ) (U := Alg) (Lvl := ℕ) c V' : sProp 𝕄) := by
  rw [Pipeline.unscopedBufs_split (Pipeline.pin (pcfgs (F := F)) adm) p kit.win.arr_unscoped kit.win.arr_inj c V',
    Pipeline.RDat.arrays_eq (pcfgs (F := F)) adm rds p c kit.arr_whole hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- The arrays after every write-back, opened: at SOME contents each may then hold. -/
theorem arraysAt_open (c : Dev nD) :
    ((rds p c).arraysAt (cfgp).N : sProp 𝕄)
      ⊢ iprop(∃ A : ArrC (F := F) p c, ⌜∀ w, (rds p c).ArrAt w (cfgp).N (A w)⌝ ∗ (rds p c).arrays A) := by
  unfold RDat.arraysAt RDat.arrays
  iintro Ha
  ihave Ha' := (BI.bigSep_exists_pi Finset.univ (fun w F => iprop(⌜(rds p c).ArrAt w (cfgp).N F⌝
      ∗ ((cfgp).win w).arr.view.loc (c.tc : Thread nD τ) ↦[((cfgp).win w).arr.view.set]{(rds p c).share w} F))) $$ Ha
  icases Ha' with ⟨%A, Ha⟩
  ihave Ha2 := (BI.bigSep_pure_sep Finset.univ (fun w => (rds p c).ArrAt w (cfgp).N (A w))
      (fun w => ((cfgp).win w).arr.view.loc (c.tc : Thread nD τ) ↦[((cfgp).win w).arr.view.set]{(rds p c).share w} A w)) $$ Ha
  icases Ha2 with ⟨%hA', Ha⟩
  iexists A; isplitr; · ipureintro; exact fun w => hA' w (Finset.mem_univ w)
  iexact Ha

variable (howed : ∀ c t, (rds p c).owed t = 0)
  (hq : ∀ c w, (rds p c).q w = fullShare)
  (hrec : ∀ c t, (rds p c).recorded t = Set.univ)
  (hbody : ∀ c, (rds p c).BodyObligation defs₀ 𝒱₀ () Set.univ)

/-- The region's entry state: every unscoped buffer at the entry valuation. -/
abbrev regPre (c : Dev nD) : sProp 𝕄 :=
  iprop(StableHlo.held (c.tc : Thread nD τ) (Pipeline.ucRefs τ sig) (Went c) ∗ Rr (F := F) c)
/-- The region's exit state: its arrays at some contents A the write-backs may leave, every other buffer as entered. -/
abbrev regPost (c : Dev nD) : sProp 𝕄 :=
  iprop(∃ A : ArrC (F := F) p c, ⌜∀ w, (rds p c).ArrAt w (cfgp).N (A w)⌝
      ∗ StableHlo.held (c.tc : Thread nD τ) (Pipeline.ucRefs τ sig) (Pipeline.withArrays (cfgp).spec c (Went c) A) ∗ Rr (F := F) c)
/-- What bypasses the region: the unscoped buffers that are none of its arrays. -/
abbrev regZ (c : Dev nD) : sProp 𝕄 :=
  Pipeline.unscopedRest (Ix := Unit) (Name := ℕ) (U := Alg) (Lvl := ℕ) (cfgp).spec c (tcv c (Went c))

include kit howed hq hrec in
set_option backward.isDefEq.respectTransparency.types false in
theorem reg_hentry (hA : ∀ c w, (rds p c).A w = tcv c (Went c) (Pipeline.arrRef (cfgp).spec w)) (c : Dev nD) :
    iprop(regPre (F := F) Went c ∗ Pipeline.ownSems0 (Ix := Unit) (Name := ℕ) (U := Alg) (Lvl := ℕ) (Val := Elt F) (τ := τ) (fun k : PEmpty => k.elim) c ∗ levAts L lv)
      ⊢ |={Set.univ}=> iprop((rds p c).arrays (rds p c).A ∗ Pipeline.prefHeld (pcfgs (F := F) p).pre c (fun _ => fullShare) (adm (F := F) p).1
          ∗ (rds p c).owesAt () 0 ∗ iprop(∃ r, prngReg c r) ∗ regZ (F := F) p Went c) := by
  rw [Pipeline.ownSems0_none]
  have hsplit := Pipeline.RDat.arrays_of_unscopedBufs (p := p) (pcfgs (F := F)) adm rds kit.win kit.arr_whole c
    ((rds p c).share_full fun w => hq c w) (tcv c (Went c)) fun w => hA c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.RDat.owesAt Pipeline.owesWithin
    rw [howed c 0]
    icases HO with ⟨%W, HO⟩; iexists W; isplitr; · ipureintro; exact fun _ _ => Or.inl (by rw [hrec c 0]; trivial)
    iexact HO
  isplitl [Hp]; · iexact Hp
  iexact Hrest

theorem reg_hin (hΦ : ∀ c t, (rds p c).Φ t = (Pipeline.ΦA (Val := Elt F) (U := Alg) (cfgp).spec c : sProp 𝕄)) (c : Dev nD) :
    iprop(iprop(∃ r, prngReg c r) ∗ Pipeline.prefHeld (pcfgs (F := F) p).pre c (fun _ => fullShare) (adm (F := F) p).1
        ∗ Pipeline.scopedRest (Ix := Unit) (Name := ℕ) (U := Alg) (Lvl := ℕ) (Val := Elt F) (cfgp).spec c) ⊢ (rds p c).Φ 0 := by
  rw [hΦ c 0]; unfold Pipeline.ΦA
  iintro ⟨Hp, -, Hr⟩
  isplitl [Hr]; · iexact Hr
  iexact Hp

theorem reg_hout (hΦ : ∀ c t, (rds p c).Φ t = (Pipeline.ΦA (Val := Elt F) (U := Alg) (cfgp).spec c : sProp 𝕄)) (c : Dev nD) :
    (rds p c).Φ (Fin.last (cfgp).N) ⊢ iprop(iprop(∃ r, prngReg c r)
        ∗ Pipeline.ownSems0 (Ix := Unit) (Name := ℕ) (U := Alg) (Lvl := ℕ) (Val := Elt F) (τ := τ) (fun k : PEmpty => k.elim) c
        ∗ Pipeline.scopedRest (Ix := Unit) (Name := ℕ) (U := Alg) (Lvl := ℕ) (Val := Elt F) (cfgp).spec c) := by
  rw [Pipeline.ownSems0_none, hΦ c (Fin.last _)]; unfold Pipeline.ΦA
  iintro ⟨Hr, Hp⟩
  isplitl [Hp]; · iexact Hp
  isplitr; · iempintro
  iexact Hr

include kit howed hq in
set_option backward.isDefEq.respectTransparency.types false in
theorem reg_hexit (c : Dev nD) :
    iprop((rds p c).arraysAt (cfgp).N ∗ (rds p c).owesAt () (Fin.last (cfgp).N) ∗ iprop(∃ r, prngReg c r) ∗ regZ (F := F) p Went c)
      ⊢ |={Set.univ}=> regPost (F := F) p rds Went c := by
  iintro ⟨Ha, HO, HY, Hrest⟩
  ihave Ha' := (arraysAt_open p rds c) $$ Ha
  icases Ha' with ⟨%A, %hArr, Ha⟩
  have hjoin := unscopedBufs_of_arraysR p rds kit c ((rds p c).share_full fun w => hq c w)
    (tcv c (Went c)) (tcv c (Pipeline.withArrays (cfgp).spec c (Went c) A)) A
    (fun w => (Pipeline.withArrays_arr (cfgp).spec kit.win.arr_inj c (Went c) A w).symm)
    (fun b hb => Pipeline.withArrays_of_ne (cfgp).spec c (Went c) A b fun w e => hb (Finset.mem_image.mpr ⟨w, Finset.mem_univ _, e⟩))
  rw [Pipeline.unscopedBufs_held] at hjoin
  imodintro
  iexists A
  isplitr; · ipureintro; exact hArr
  isplitl [Ha Hrest]
  · iapply hjoin; isplitl [Ha] <;> iassumption
  isplitl [HY]; · iexact HY
  unfold Pipeline.RDat.owesAt Pipeline.owesWithin
  rw [howed c (Fin.last _)]
  icases HO with ⟨%W, -, HO⟩; iexists W; iexact HO

include kit howed hq hrec hbody in
set_option backward.isDefEq.respectTransparency.types false in
/-- The region's record: entered from every unscoped buffer at `Went c`, left with the pipeline's arrays at some contents
    A the write-backs may leave and every other buffer as entered. -/
def regRec (hA : ∀ c w, (rds p c).A w = tcv c (Went c) (Pipeline.arrRef (cfgp).spec w))
    (hΦ : ∀ c t, (rds p c).Φ t = (Pipeline.ΦA (Val := Elt F) (U := Alg) (cfgp).spec c : sProp 𝕄)) :
    Pipeline.RDat.RegionSeg (pcfgs (F := F)) adm rds () defs₀ 𝒱₀ L lv p where
  win := kit.win.to₀
  block_pos := kit.block_pos
  stage_whole := kit.stage_whole
  K := PEmpty
  osem k := k.elim
  ho := Pipeline.OwnSemFacts.none _
  hbody := hbody
  hwaits := Pipeline.RDat.hwaits_of_owed_zero _ _ _ _ L lv p howed
  pre c := regPre (F := F) Went c
  post c := regPost (F := F) p rds Went c
  X c := iprop(∃ r, prngReg c r)
  Y c := iprop(∃ r, prngReg c r)
  Z c := regZ (F := F) p Went c
  hentry c := reg_hentry p rds kit Went howed hq hrec hA c
  hin c := reg_hin p rds hΦ c
  hout c := reg_hout p rds hΦ c
  hexit c := reg_hexit p rds kit Went howed hq c

end Region

end Cert.KernelIdeal.Hand

end
-- ==== Proof.Vals.lean ====
/-
  The contents of a core's buffers between the items of @main, as a fold from the launch memory: a stretch of host
  operations applies them; a region leaves its arrays at contents A (a parameter: what the write-backs may leave) and every
  other buffer as entered.
-/
import proofs.«163843_j81870666596358_2_alg».proof.Proof.Region

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The three pipelines' window specifications, spelt as the launch library pins them. -/
abbrev sp0 := (Pipeline.pin (pcfgs (F := F)) adm 0).spec
abbrev sp1 := (Pipeline.pin (pcfgs (F := F)) adm 1).spec
abbrev sp2 := (Pipeline.pin (pcfgs (F := F)) adm 2).spec

/-- Core c's buffers at launch. -/
abbrev W0 (c : Dev nD) : Valuation τ sig (Elt F) := fun b => m (c, b)
/-- After the first host stretch (region 0's entry). -/
abbrev W1 (c : Dev nD) : Valuation τ sig (Elt F) := StableHlo.after (main_part0_ops0 (F := F)) (W0 m c)
/-- After region 0, its arrays at A0 (region 1's entry). -/
def W2 (c : Dev nD) (A0 : ArrC (F := F) 0 c) : Valuation τ sig (Elt F) := Pipeline.withArrays (sp0 (F := F)) c (W1 m c) A0
/-- After region 1, its arrays at A1. -/
def W3 (c : Dev nD) (A0 : ArrC (F := F) 0 c) (A1 : ArrC (F := F) 1 c) : Valuation τ sig (Elt F) :=
  Pipeline.withArrays (sp1 (F := F)) c (W2 m c A0) A1
/-- After the second host stretch. -/
abbrev W4 (c : Dev nD) (A0 : ArrC (F := F) 0 c) (A1 : ArrC (F := F) 1 c) : Valuation τ sig (Elt F) :=
  StableHlo.after (main_part0_ops1 (F := F)) (W3 m c A0 A1)
/-- After the third host stretch (region 2's entry). -/
abbrev W5 (c : Dev nD) (A0 : ArrC (F := F) 0 c) (A1 : ArrC (F := F) 1 c) : Valuation τ sig (Elt F) :=
  StableHlo.after (main_part1_ops0 (F := F)) (W4 m c A0 A1)
/-- After region 2, its arrays at A2. -/
def W6 (c : Dev nD) (A0 : ArrC (F := F) 0 c) (A1 : ArrC (F := F) 1 c) (A2 : ArrC (F := F) 2 c) : Valuation τ sig (Elt F) :=
  Pipeline.withArrays (sp2 (F := F)) c (W5 m c A0 A1) A2
/-- After the last host stretch: what the program ends with. -/
abbrev W7 (c : Dev nD) (A0 : ArrC (F := F) 0 c) (A1 : ArrC (F := F) 1 c) (A2 : ArrC (F := F) 2 c) : Valuation τ sig (Elt F) :=
  StableHlo.after (main_part1_ops1 (F := F)) (W6 m c A0 A1 A2)

/-- There is one device: contents given on it are given on every device. -/
def spread {β : Dev nD → Type} (c : Dev nD) (a : β c) : (c' : Dev nD) → β c' :=
  fun c' => (Subsingleton.elim c c' : c = c') ▸ a

theorem spread_self {β : Dev nD → Type} (c : Dev nD) (a : β c) : spread c a c = a := rfl

end Cert.KernelIdeal.Hand

end
-- ==== Proof.Reg0.lean ====
import proofs.«163843_j81870666596358_2_alg».proof.Proof.Gen.KernelIdeal.Skeleton
import proofs.«163843_j81870666596358_2_alg».proof.Proof.Gen.KernelIdeal.Launch
import proofs.«163843_j81870666596358_2_alg».proof.Proof.Gen.KernelIdeal.Points
import Idealize.ShloMosaic.Lib.Pipeline.Kit
import Idealize.ShloMosaic.Lib.Pipeline.Frame
import Idealize.ShloMosaic.Lib.Tactic
import Idealize.ShloMosaic.Lib.Pipeline.Value

noncomputable section

namespace Cert.KernelIdeal.Reg0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

variable [Facts]
open Facts₀ Facts

/-- The contents of the core's TensorCore buffers at the region's entry. -/
abbrev VT (c : Dev nD) : Type := (b : Ref sig .tc) → Buf (Elt F) ((c.tc : Thread nD τ).loc b)

/-- The region's proof data over the entry contents `V`: every windowed array as at entry; each of the three
    operand windows is left as the body found it; the result's window is left at the payload of the three
    operands' entry contents (each operand's block is its whole array). -/
def rdat (c : Dev nD) (V : VT (F := F) c) : RDat τ (Elt F) Unit ℕ U ℕ cfg0 c where
  A w := V (Pipeline.arrRef spec0 w)
  after w := match w with
    | ⟨0, _⟩ => fun _t Y X => X = Y
    | ⟨1, _⟩ => fun _t Y X => X = Y
    | ⟨2, _⟩ => fun _t Y X => X = Y
    | ⟨3, _⟩ => fun _t _Y X => X = k0_pay1 (V main_arg16) (V main_arg17) (V main_v3)
  Φ _ := Pipeline.ΦA spec0 c
  q _ := fullShare
  owed _ := 0

theorem rdat_A (c : Dev nD) (V : VT (F := F) c) (w : Fin cfg0.W) : (rdat (U := U) c V).A w = V (Pipeline.arrRef spec0 w) := rfl
theorem rdat_Φ (c : Dev nD) (V : VT (F := F) c) (t : Fin (cfg0.N + 1)) : (rdat (U := U) c V).Φ t = Pipeline.ΦA spec0 c := rfl
theorem rdat_owed (c : Dev nD) (V : VT (F := F) c) (t : Fin (cfg0.N + 1)) : (rdat (U := U) c V).owed t = 0 := rfl
theorem rdat_q (c : Dev nD) (V : VT (F := F) c) (w : Fin cfg0.W) : (rdat (U := U) c V).q w = fullShare := rfl

/-! ## The body's triple -/

set_option maxHeartbeats 1000000 in
/-- The kernel body on whole staging memrefs, the operands' at contents `x0 x1 x2` and the result's at anything:
    a whole load of each buffer, one payload, one whole store. The operands' memrefs are left as found and the result's
    holds the payload of the three. -/
theorem sound_kernel (c : Dev nD) (E : Set ℕ) (i : grid0.Coords)
    (arg1 : Memref sig .tc .vmem S6000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S6000x64 .f32) (harg4 : arg4.IsWhole)
    (x0 : Vec F S6000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k0_pay1 x0 x1 x2)) -∗ K ⟨⟩))
      ⊢ wp frame (wpE (defs₀ (F := F)) Variants.none c none) E (cc0__keys_kernel i arg1 harg1 arg2 harg2 arg3 harg3 arg4 harg4) K := by
  simp only [cc0__keys_kernel_eq_skeleton]; unfold cc0__keys_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  refine (View.read_writes_eq_canon _ _ _ fun y => ⟨_, List.mem_singleton_self _, ?_⟩).trans ?_
  · exact View.mem_set_unit_zero hz Gen.inb_S6000x64_S6000x64_0_0 y
  rw [View.canon_unit_zero hz, View.readAt_eq_ld, View.readAt_eq_ld, View.readAt_eq_ld,
    View.ld_unit_zero hz, View.ld_unit_zero hz, View.ld_unit_zero hz]

/-! ## What the body finds in the operands' buffers -/

/-- Each operand's block at the one point is its whole array. -/
theorem blockOf_0 (c : Dev nD) (V : VT (F := F) c) (t : Fin cfg0.N) : (rdat (U := U) c V).blockOf 0 t = V main_arg16 :=
  Memref.read_access_unit_zero (Elt F) main_arg16 (funext fun a => by fin_cases a <;> rfl) _ _
theorem blockOf_1 (c : Dev nD) (V : VT (F := F) c) (t : Fin cfg0.N) : (rdat (U := U) c V).blockOf 1 t = V main_arg17 :=
  Memref.read_access_unit_zero (Elt F) main_arg17 (funext fun a => by fin_cases a <;> rfl) _ _
theorem blockOf_2 (c : Dev nD) (V : VT (F := F) c) (t : Fin cfg0.N) : (rdat (U := U) c V).blockOf 2 t = V main_v3 :=
  Memref.read_access_unit_zero (Elt F) main_v3 (funext fun a => by fin_cases a <;> rfl) _ _

/-- An operand's buffer just fetched holds the whole array, whatever it held: the window is not cut. -/
theorem fetched_0 (c : Dev nD) (V : VT (F := F) c) (t : Fin cfg0.N) (d) : (rdat (U := U) c V).fetched 0 t d = V main_arg16 := by
  funext j
  have hm : (cfg0.win 0).moved (cfg0.grid.coords t) j = true := ((cfg0.win 0).moved_iff _ j).mpr fun a => (j a).isLt
  unfold RDat.fetched Pipeline.Window.fill; rw [dif_pos hm, blockOf_0]; rfl
theorem fetched_1 (c : Dev nD) (V : VT (F := F) c) (t : Fin cfg0.N) (d) : (rdat (U := U) c V).fetched 1 t d = V main_arg17 := by
  funext j
  have hm : (cfg0.win 1).moved (cfg0.grid.coords t) j = true := ((cfg0.win 1).moved_iff _ j).mpr fun a => (j a).isLt
  unfold RDat.fetched Pipeline.Window.fill; rw [dif_pos hm, blockOf_1]; rfl
theorem fetched_2 (c : Dev nD) (V : VT (F := F) c) (t : Fin cfg0.N) (d) : (rdat (U := U) c V).fetched 2 t d = V main_v3 := by
  funext j
  have hm : (cfg0.win 2).moved (cfg0.grid.coords t) j = true := ((cfg0.win 2).moved_iff _ j).mpr fun a => (j a).isLt
  unfold RDat.fetched Pipeline.Window.fill; rw [dif_pos hm, blockOf_2]; rfl

/-- So what the body finds in an operand's buffer is the operand's array at the region's entry. -/
theorem finds_0 (c : Dev nD) (V : VT (F := F) c) (t : Fin cfg0.N) (Y) (h : (rdat (U := U) c V).Finds 0 t Y) : Y = V main_arg16 := by
  obtain ⟨d, rfl⟩ := ((rdat (U := U) c V).finds_of_fetch (fetch0_0 t) Y).mp h; exact fetched_0 c V t d
theorem finds_1 (c : Dev nD) (V : VT (F := F) c) (t : Fin cfg0.N) (Y) (h : (rdat (U := U) c V).Finds 1 t Y) : Y = V main_arg17 := by
  obtain ⟨d, rfl⟩ := ((rdat (U := U) c V).finds_of_fetch (fetch0_1 t) Y).mp h; exact fetched_1 c V t d
theorem finds_2 (c : Dev nD) (V : VT (F := F) c) (t : Fin cfg0.N) (Y) (h : (rdat (U := U) c V).Finds 2 t Y) : Y = V main_v3 := by
  obtain ⟨d, rfl⟩ := ((rdat (U := U) c V).finds_of_fetch (fetch0_2 t) Y).mp h; exact fetched_2 c V t d

/-! ## The body obligation -/

set_option maxHeartbeats 1000000 in
/-- At the one point, whatever the windows' buffers hold: the operands' hold their arrays (`finds_0`…), the body's
    triple applies, the invariant and what the core owes pass through unread. -/
theorem body (c : Dev nD) (V : VT (F := F) c) : (rdat (U := U) c V).BodyObligation defs₀ Variants.none () Set.univ := fun t Y hY => by
  have h0 : Y 0 = V main_arg16 := finds_0 c V t (Y 0) (hY 0)
  have h1 : Y 1 = V main_arg17 := finds_1 c V t (Y 1) (hY 1)
  have h2 : Y 2 = V main_v3 := finds_2 c V t (Y 2) (hY 2)
  rw [bigSep_W0, bigSep_W0]
  show iprop((rdat (U := U) c V).Φ t.castSucc ∗ (rdat (U := U) c V).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
        iprop((rdat (U := U) c V).Φ t.castSucc ∗ (rdat (U := U) c V).owesAt () t.castSucc
          ∗ (∃ X, ⌜X = Y 0⌝ ∗ owns (c : Thread nD τ) (st0_0 t) fullShare X)
          ∗ (∃ X, ⌜X = Y 1⌝ ∗ owns (c : Thread nD τ) (st0_1 t) fullShare X)
          ∗ (∃ X, ⌜X = Y 2⌝ ∗ owns (c : Thread nD τ) (st0_2 t) fullShare X)
          ∗ (∃ X, ⌜X = k0_pay1 (V main_arg16) (V main_arg17) (V main_v3)⌝ ∗ owns (c : Thread nD τ) (st0_3 t) fullShare X)))
  iintro ⟨HΦ, Ho, H0, H1, H2, H3⟩
  iapply (sound_kernel (U := U) c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists Y 0; isplitr; · ipureintro; rfl
    iexact H0
  isplitl [H1]
  · iexists Y 1; isplitr; · ipureintro; rfl
    iexact H1
  isplitl [H2]
  · iexists Y 2; isplitr; · ipureintro; rfl
    iexact H2
  iexists _; isplitr
  swap; · iexact H3
  ipureintro
  rw [h0, h1, h2]

/-! ## What the region leaves in the result's array -/

/-- After the one write-back the result's array holds the payload of the three operands' entry contents: the one
    block covers the whole array, and the body left the payload in the staging buffer. -/
theorem out_det (c : Dev nD) (V : VT (F := F) c) (o) (h : (rdat (U := U) c V).ArrAt 3 cfg0.N o) :
    o = k0_pay1 (V main_arg16) (V main_arg17) (V main_v3) := by
  have h1 : (rdat (U := U) c V).ArrAt 3 (0 + 1) o := by
    have e : cfg0.N = 0 + 1 := N_0
    rw [e] at h; exact h
  rw [RDat.ArrAt] at h1
  have hN : 0 < cfg0.N := by rw [show cfg0.N = 1 from N_0]; exact Nat.zero_lt_one
  rw [dif_pos hN] at h1
  split at h1
  case isFalse hf => exact absurd (flush0_3 _) hf
  obtain ⟨G₀, X, -, ⟨Y, -, hXY⟩, rfl⟩ := h1
  have hX : X = k0_pay1 (V main_arg16) (V main_arg17) (V main_v3) := hXY
  rw [hX]
  exact Memref.write_access_unit_zero_univ (Elt F) main_v4 (funext fun a => by fin_cases a <;> rfl) _ _ _

end Cert.KernelIdeal.Reg0

end
-- ==== Proof.Reg1.lean ====
import proofs.«163843_j81870666596358_2_alg».proof.Proof.Gen.KernelIdeal.Skeleton
import proofs.«163843_j81870666596358_2_alg».proof.Proof.Gen.KernelIdeal.Launch
import proofs.«163843_j81870666596358_2_alg».proof.Proof.Gen.KernelIdeal.Points
import Idealize.ShloMosaic.Lib.Pipeline.Kit
import Idealize.ShloMosaic.Lib.Pipeline.Frame
import Idealize.ShloMosaic.Lib.Pipeline.FrameBody
import Idealize.ShloMosaic.Lib.Tactic

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-- A core's TensorCore buffers, each at some contents: what the region is entered with. -/
abbrev VT (c : Dev nD) : Type := (b : Ref sig .tc) → Buf (Elt F) ((c.tc : Thread nD τ).loc b)

/-- What window `w`'s staging buffer holds once the fetch at point `t` has landed in it, if it held `d`: the
    array's block at `t` on the part the fetch moves, `d` elsewhere. -/
def fet (c : Dev nD) (V : VT (F := F) c) (w : Fin cfg1.W) (t : Fin cfg1.N)
    (d : (cfg1.win w).block.Idx → Elt F (cfg1.win w).elt) : (cfg1.win w).block.Idx → Elt F (cfg1.win w).elt :=
  (cfg1.win w).fill (cfg1.grid.coords t) d (((cfg1.win w).blk t).view.read (Elt F) (V (Pipeline.arrRef spec1 w)))

/-- What the body may leave in the output's staging buffer at point `t`: the product formula of the two blocks
    fetched at `t` (over whatever the buffers held past the arrays' ends) and of the two whole operands. -/
def outRel (c : Dev nD) (V : VT (F := F) c) (t : Fin cfg1.N) (X : S256x64.Idx → Elt F .f32) : Prop :=
  ∃ (d0 : (cfg1.win 0).block.Idx → Elt F (cfg1.win 0).elt) (d1 : (cfg1.win 1).block.Idx → Elt F (cfg1.win 1).elt),
    X = k1_pay1 (fet c V 0 t d0) (V main_v4) (fet c V 1 t d1) (V main_v2)

/-- The proof data of the region on core `c`, entered with the buffers at `V`: the body leaves each input's
    buffer as it found it, and the output's at the product formula of the blocks fetched at the point. -/
def rdat (c : Dev nD) (V : VT (F := F) c) : RDat τ (Elt F) Unit ℕ U ℕ cfg1 c where
  A w := V (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _Y X => outRel c V t X
  Φ _ := Pipeline.ΦA spec1 c
  q _ := fullShare
  owed _ := 0

theorem rdat_A (c : Dev nD) (V : VT (F := F) c) (w : Fin cfg1.W) : (rdat (U := U) c V).A w = V (Pipeline.arrRef spec1 w) := rfl
theorem rdat_Φ (c : Dev nD) (V : VT (F := F) c) (t : Fin (cfg1.N + 1)) : (rdat (U := U) c V).Φ t = Pipeline.ΦA spec1 c := rfl
theorem rdat_q (c : Dev nD) (V : VT (F := F) c) (w : Fin cfg1.W) : (rdat (U := U) c V).q w = fullShare := rfl
theorem rdat_owed (c : Dev nD) (V : VT (F := F) c) (t : Fin (cfg1.N + 1)) : (rdat (U := U) c V).owed t = 0 := rfl

theorem rdat_fetched (c : Dev nD) (V : VT (F := F) c) (w : Fin cfg1.W) (t : Fin cfg1.N) (d) :
    (rdat (U := U) c V).fetched w t d = fet c V w t d := rfl

theorem after_0 (c : Dev nD) (V : VT (F := F) c) (t : Fin cfg1.N) (Y X) : (rdat (U := U) c V).after 0 t Y X ↔ X = Y := Iff.rfl
theorem after_1 (c : Dev nD) (V : VT (F := F) c) (t : Fin cfg1.N) (Y X) : (rdat (U := U) c V).after 1 t Y X ↔ X = Y := Iff.rfl
theorem after_2 (c : Dev nD) (V : VT (F := F) c) (t : Fin cfg1.N) (Y X) : (rdat (U := U) c V).after 2 t Y X ↔ X = Y := Iff.rfl
theorem after_3 (c : Dev nD) (V : VT (F := F) c) (t : Fin cfg1.N) (Y X) : (rdat (U := U) c V).after 3 t Y X ↔ X = Y := Iff.rfl
theorem after_4 (c : Dev nD) (V : VT (F := F) c) (t : Fin cfg1.N) (Y X) : (rdat (U := U) c V).after 4 t Y X ↔ outRel c V t X := Iff.rfl

end Cert.KernelIdeal.Reg1

end
-- ==== Proof.Reg1Body.lean ====
import proofs.«163843_j81870666596358_2_alg».proof.Proof.Reg1
import Idealize.ShloMosaic.Lib.Pipeline.Value

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-! ## The body's triple -/

theorem hz2 : (![0, 0] : Fin 2 → Nat) = fun _ => 0 := funext fun a => by fin_cases a <;> rfl

set_option maxHeartbeats 1000000 in
/-- The kernel body on whole staging memrefs, the inputs' at read contents `x0 … x3` and the output's at anything,
    runs to the continuation holding the inputs' as they were and the output's at the payload of the inputs'. -/
theorem sound_kernel (c : Dev nD) (E : Set ℕ) (i : grid1.Coords)
    (arg1 : Memref sig .tc .vmem S64x256 .bf16) (harg1 : arg1.IsWhole) (arg2 : Memref sig .tc .vmem S6000x256 .f32) (harg2 : arg2.IsWhole)
    (arg3 : Memref sig .tc .vmem S6000x64 .f32) (harg3 : arg3.IsWhole) (arg4 : Memref sig .tc .vmem S6000x64 .bf16) (harg4 : arg4.IsWhole)
    (arg5 : Memref sig .tc .vmem S256x64 .f32) (harg5 : arg5.IsWhole)
    (x0 : Vec F S64x256 .bf16) (x1 : Vec F S6000x256 .f32) (x2 : Vec F S6000x64 .f32) (x3 : Vec F S6000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay1 x0 x2 x1 x3)) -∗ K ⟨⟩))
      ⊢ wp frame (wpE (defs₀ (F := F)) Variants.none c none) E (cc1__relation_kernel i arg1 harg1 arg2 harg2 arg3 harg3 arg4 harg4 arg5 harg5) K := by
  simp only [cc1__relation_kernel_eq_skeleton]; unfold cc1__relation_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz2 inb_S256x64_S256x64_0_0 y⟩),
    View.canon_unit_zero hz2]
  exact congr (congr (congr (congrArg k1_pay1 (View.ld_unit_zero hz2 _ _)) (View.ld_unit_zero hz2 _ _)) (View.ld_unit_zero hz2 _ _))
    (View.ld_unit_zero hz2 _ _)

/-! ## What the inputs' buffers hold -/

theorem moved_2 (t : Fin cfg1.N) (j : (cfg1.win 2).block.Idx) : (cfg1.win 2).moved (cfg1.grid.coords t) j = true :=
  ((cfg1.win 2).moved_iff _ j).mpr fun a => (j a).isLt
theorem moved_3 (t : Fin cfg1.N) (j : (cfg1.win 3).block.Idx) : (cfg1.win 3).moved (cfg1.grid.coords t) j = true :=
  ((cfg1.win 3).moved_iff _ j).mpr fun a => (j a).isLt

set_option maxHeartbeats 400000 in
/-- The first whole operand's block is the whole array, at every point. -/
theorem fet_2 (c : Dev nD) (V : VT (F := F) c) (t : Fin cfg1.N) (d) : fet c V 2 t d = V main_v4 := by
  funext j
  unfold fet Pipeline.Window.fill
  rw [dif_pos (moved_2 t j), View.read_apply]
  refine congrArg (V main_v4) (funext fun a => Fin.ext ?_)
  show (cfg1.win 2).index t a * (cfg1.win 2).size a + 1 * (j a).val = (j a).val
  have hi : (cfg1.win 2).index t a = 0 := by
    show cc1_transform_2 (grid1.coords t) a = 0
    unfold cc1_transform_2; fin_cases a <;> rfl
  rw [hi]; omega

set_option maxHeartbeats 400000 in
/-- The second whole operand's block is the whole array, at every point. -/
theorem fet_3 (c : Dev nD) (V : VT (F := F) c) (t : Fin cfg1.N) (d) : fet c V 3 t d = V main_v2 := by
  funext j
  unfold fet Pipeline.Window.fill
  rw [dif_pos (moved_3 t j), View.read_apply]
  refine congrArg (V main_v2) (funext fun a => Fin.ext ?_)
  show (cfg1.win 3).index t a * (cfg1.win 3).size a + 1 * (j a).val = (j a).val
  have hi : (cfg1.win 3).index t a = 0 := by
    show cc1_transform_3 (grid1.coords t) a = 0
    unfold cc1_transform_3; fin_cases a <;> rfl
  rw [hi]; omega

/-! ## The body obligation -/

set_option maxHeartbeats 1000000 in
/-- The body at point `t`, its buffers at contents `Y w` of which the inputs' are what the fetches left: it leaves
    the inputs' as found and the output's at the product formula of the inputs'; the invariant and what the core
    owes pass through unread. -/
theorem sound_body (c : Dev nD) (V : VT (F := F) c) (t : Fin cfg1.N)
    (Y : (w : Fin cfg1.W) → (cfg1.win w).block.Idx → Elt F (cfg1.win w).elt)
    (d0 : (cfg1.win 0).block.Idx → Elt F (cfg1.win 0).elt) (d1 : (cfg1.win 1).block.Idx → Elt F (cfg1.win 1).elt)
    (h0 : Y 0 = fet c V 0 t d0) (h1 : Y 1 = fet c V 1 t d1) (h2 : Y 2 = V main_v4) (h3 : Y 3 = V main_v2) :
    iprop((rdat (U := U) c V).Φ t.castSucc ∗ (rdat (U := U) c V).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4))
      ⊢ wp frame (wpE (defs₀ (F := F)) Variants.none c none) Set.univ (bodyAt1 t) (fun _ =>
          iprop((rdat (U := U) c V).Φ t.succ ∗ (rdat (U := U) c V).owesAt () t.succ
            ∗ (∃ X, ⌜(rdat (U := U) c V).after 0 t (Y 0) X⌝ ∗ owns (c : Thread nD τ) (st1_0 t) fullShare X)
            ∗ (∃ X, ⌜(rdat (U := U) c V).after 1 t (Y 1) X⌝ ∗ owns (c : Thread nD τ) (st1_1 t) fullShare X)
            ∗ (∃ X, ⌜(rdat (U := U) c V).after 2 t (Y 2) X⌝ ∗ owns (c : Thread nD τ) (st1_2 t) fullShare X)
            ∗ (∃ X, ⌜(rdat (U := U) c V).after 3 t (Y 3) X⌝ ∗ owns (c : Thread nD τ) (st1_3 t) fullShare X)
            ∗ (∃ X, ⌜(rdat (U := U) c V).after 4 t (Y 4) X⌝ ∗ owns (c : Thread nD τ) (st1_4 t) fullShare X))) := by
  unfold bodyAt1
  rw [show (rdat (U := U) c V).Φ t.succ = (rdat (U := U) c V).Φ t.castSucc from rfl,
    show (rdat (U := U) c V).owesAt () t.succ = (rdat (U := U) c V).owesAt () t.castSucc from rfl]
  iintro ⟨HΦ, Ho, H0, H1, H2, H3, H4⟩
  iapply (sound_kernel (U := U) c Set.univ (grid1.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists Y 0; isplitr; · ipureintro; exact (after_0 c V t _ _).mpr rfl
    iexact H0
  isplitl [H1]
  · iexists Y 1; isplitr; · ipureintro; exact (after_1 c V t _ _).mpr rfl
    iexact H1
  isplitl [H2]
  · iexists Y 2; isplitr; · ipureintro; exact (after_2 c V t _ _).mpr rfl
    iexact H2
  isplitl [H3]
  · iexists Y 3; isplitr; · ipureintro; exact (after_3 c V t _ _).mpr rfl
    iexact H3
  · iexists k1_pay1 (Y 0) (Y 2) (Y 1) (Y 3); isplitr
    · ipureintro; exact (after_4 c V t _ _).mpr ⟨d0, d1, by rw [h0, h1, h2, h3]⟩
    iexact H4

set_option maxHeartbeats 1000000 in
/-- The region's body obligation: at every point, whatever the buffers may then hold. The two blocked inputs are
    fetched at every point and hold what the fetch left; the two whole operands, fetched at the first point only and
    left as found ever since, hold the whole arrays. -/
theorem body (c : Dev nD) (V : VT (F := F) c) : (rdat (U := U) c V).BodyObligation defs₀ Variants.none () Set.univ := fun t Y hY => by
  obtain ⟨d0, h0⟩ := ((rdat (U := U) c V).finds_of_fetch (fetch1_0 t) (Y 0)).mp (hY 0)
  obtain ⟨d1, h1⟩ := ((rdat (U := U) c V).finds_of_fetch (fetch1_1 t) (Y 1)).mp (hY 1)
  obtain ⟨d2, h2⟩ := RDat.finds_in_eq_fetched (rdat (U := U) c V) 2 rfl (fun _ _ _ => rfl) (fun _ _ _ h => h) t (Y 2) (hY 2)
  obtain ⟨d3, h3⟩ := RDat.finds_in_eq_fetched (rdat (U := U) c V) 3 rfl (fun _ _ _ => rfl) (fun _ _ _ h => h) t (Y 3) (hY 3)
  rw [rdat_fetched] at h0 h1 h2 h3
  rw [fet_2] at h2; rw [fet_3] at h3
  rw [bigSep_W1, bigSep_W1]
  exact sound_body c V t Y d0 d1 h0 h1 h2 h3

end Cert.KernelIdeal.Reg1

end
-- ==== Proof.Reg2.lean ====
import proofs.«163843_j81870666596358_2_alg».proof.Proof.Gen.KernelIdeal.Skeleton
import proofs.«163843_j81870666596358_2_alg».proof.Proof.Gen.KernelIdeal.Launch
import proofs.«163843_j81870666596358_2_alg».proof.Proof.Gen.KernelIdeal.Points
import Idealize.ShloMosaic.Lib.Pipeline.Kit
import Idealize.ShloMosaic.Lib.Pipeline.Frame
import Idealize.ShloMosaic.Lib.Tactic

noncomputable section

namespace Cert.KernelIdeal.Reg2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-- A core's TensorCore buffers at the region's entry. -/
abbrev VT (c : Dev nD) : Type := (b : Ref sig .tc) → Buf (Elt F) ((c.tc : Thread nD τ).loc b)

/-- Window `w`'s block at point `t`, read off its array as the region finds it. -/
def B (c : Dev nD) (V : VT (F := F) c) (w : Fin cfg2.W) (t : Fin cfg2.N) :
    ((cfg2.win w).xblock (cfg2.grid.coords t)).Idx → Elt F (cfg2.win w).elt :=
  ((cfg2.win w).blk t).view.read (Elt F) (V (Pipeline.arrRef spec2 w))

/-- What the body leaves in the first output's buffer at point `t`: the prediction block. -/
def out15 (c : Dev nD) (V : VT (F := F) c) (t : Fin cfg2.N) : FVec F S2048x1 .f32 :=
  k2_pay1 (k2_pay3 (B c V 0 t) (B c V 1 t))
    (k2_pay4 (B c V 2 t) (B c V 3 t) (V main_arg7) (V main_v55) (V main_arg9) (V main_v56) (V main_arg11))
    (V main_v57) (V main_arg13) (V main_v58)

/-- What the body leaves in the second output's buffer at point `t`: the relation-score block. -/
def out16 (c : Dev nD) (V : VT (F := F) c) (t : Fin cfg2.N) : FVec F S2048x1 .f32 :=
  k2_pay2 (B c V 4 t) (B c V 6 t) (B c V 5 t)

/-- The proof data of region 2 on core `c`, entered with the buffers at `V`: the body leaves every input
    buffer as it found it, and each output's buffer at its payload of the input blocks. -/
def rdat (c : Dev nD) (V : VT (F := F) c) : RDat τ (Elt F) Unit ℕ U ℕ cfg2 c where
  A w := V (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun _Y X => X = out15 c V t
    | ⟨16, _⟩ => fun _Y X => X = out16 c V t
    | ⟨_ + 17, h⟩ => absurd h (Nat.not_lt.2 (Nat.le_add_left _ _))
  Φ _ := Pipeline.ΦA spec2 c
  q _ := fullShare
  owed _ := 0

theorem rdat_A (c : Dev nD) (V : VT (F := F) c) (w : Fin cfg2.W) :
    (rdat (U := U) c V).A w = V (Pipeline.arrRef spec2 w) := rfl
theorem rdat_Φ (c : Dev nD) (V : VT (F := F) c) (t : Fin (cfg2.N + 1)) :
    (rdat (U := U) c V).Φ t = Pipeline.ΦA spec2 c := rfl
theorem rdat_owed (c : Dev nD) (V : VT (F := F) c) (t : Fin (cfg2.N + 1)) : (rdat (U := U) c V).owed t = 0 := rfl
theorem rdat_q (c : Dev nD) (V : VT (F := F) c) (w : Fin cfg2.W) : (rdat (U := U) c V).q w = fullShare := rfl

/-- The relations, window by window. -/
theorem after_0 (c : Dev nD) (V : VT (F := F) c) (t : Fin cfg2.N) (Y X) : (rdat (U := U) c V).after 0 t Y X ↔ X = Y := Iff.rfl
theorem after_1 (c : Dev nD) (V : VT (F := F) c) (t : Fin cfg2.N) (Y X) : (rdat (U := U) c V).after 1 t Y X ↔ X = Y := Iff.rfl
theorem after_2 (c : Dev nD) (V : VT (F := F) c) (t : Fin cfg2.N) (Y X) : (rdat (U := U) c V).after 2 t Y X ↔ X = Y := Iff.rfl
theorem after_3 (c : Dev nD) (V : VT (F := F) c) (t : Fin cfg2.N) (Y X) : (rdat (U := U) c V).after 3 t Y X ↔ X = Y := Iff.rfl
theorem after_4 (c : Dev nD) (V : VT (F := F) c) (t : Fin cfg2.N) (Y X) : (rdat (U := U) c V).after 4 t Y X ↔ X = Y := Iff.rfl
theorem after_5 (c : Dev nD) (V : VT (F := F) c) (t : Fin cfg2.N) (Y X) : (rdat (U := U) c V).after 5 t Y X ↔ X = Y := Iff.rfl
theorem after_6 (c : Dev nD) (V : VT (F := F) c) (t : Fin cfg2.N) (Y X) : (rdat (U := U) c V).after 6 t Y X ↔ X = Y := Iff.rfl
theorem after_7 (c : Dev nD) (V : VT (F := F) c) (t : Fin cfg2.N) (Y X) : (rdat (U := U) c V).after 7 t Y X ↔ X = Y := Iff.rfl
theorem after_8 (c : Dev nD) (V : VT (F := F) c) (t : Fin cfg2.N) (Y X) : (rdat (U := U) c V).after 8 t Y X ↔ X = Y := Iff.rfl
theorem after_9 (c : Dev nD) (V : VT (F := F) c) (t : Fin cfg2.N) (Y X) : (rdat (U := U) c V).after 9 t Y X ↔ X = Y := Iff.rfl
theorem after_10 (c : Dev nD) (V : VT (F := F) c) (t : Fin cfg2.N) (Y X) : (rdat (U := U) c V).after 10 t Y X ↔ X = Y := Iff.rfl
theorem after_11 (c : Dev nD) (V : VT (F := F) c) (t : Fin cfg2.N) (Y X) : (rdat (U := U) c V).after 11 t Y X ↔ X = Y := Iff.rfl
theorem after_12 (c : Dev nD) (V : VT (F := F) c) (t : Fin cfg2.N) (Y X) : (rdat (U := U) c V).after 12 t Y X ↔ X = Y := Iff.rfl
theorem after_13 (c : Dev nD) (V : VT (F := F) c) (t : Fin cfg2.N) (Y X) : (rdat (U := U) c V).after 13 t Y X ↔ X = Y := Iff.rfl
theorem after_14 (c : Dev nD) (V : VT (F := F) c) (t : Fin cfg2.N) (Y X) : (rdat (U := U) c V).after 14 t Y X ↔ X = Y := Iff.rfl
theorem after_15 (c : Dev nD) (V : VT (F := F) c) (t : Fin cfg2.N) (Y X) : (rdat (U := U) c V).after 15 t Y X ↔ X = out15 c V t := Iff.rfl
theorem after_16 (c : Dev nD) (V : VT (F := F) c) (t : Fin cfg2.N) (Y X) : (rdat (U := U) c V).after 16 t Y X ↔ X = out16 c V t := Iff.rfl

end Cert.KernelIdeal.Reg2

end
-- ==== Proof.Reg2Body.lean ====
/-
  Region 2's body obligation. The kernel function loads each input staging buffer whole, computes two payloads
  (the prediction block and the relation-score block) and stores each whole into its output staging buffer.
  So from the inputs' buffers at any contents the body leaves them unchanged and leaves each output's buffer at
  its payload of the inputs' contents (`sound_kernel`). What the inputs' buffers hold when the body runs follows
  from the relational proof data: a window fetched at every point holds its block of the array, whatever it
  held before, since no block overhangs its array (`finds_0` … `finds_6`); a window whose one block is the whole
  array, fetched at the first point only and left as found by the body, holds the array at every point
  (`finds_7` … `finds_14`). The two together give the obligation (`sound_body`, `body`).
-/
import proofs.«163843_j81870666596358_2_alg».proof.Proof.Gen.KernelIdeal.Skeleton
import proofs.«163843_j81870666596358_2_alg».proof.Proof.Gen.KernelIdeal.Launch
import proofs.«163843_j81870666596358_2_alg».proof.Proof.Gen.KernelIdeal.Points
import proofs.«163843_j81870666596358_2_alg».proof.Proof.Reg2
import Idealize.ShloMosaic.Lib.Pipeline.FrameBody
import Idealize.ShloMosaic.Lib.Pipeline.Value
import Idealize.ShloMosaic.Lib.Pipeline.Kit
import Idealize.ShloMosaic.Lib.Pipeline.Frame
import Idealize.ShloMosaic.Lib.Tactic

noncomputable section

namespace Cert.KernelIdeal.Reg2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-- The zero offsets of a rank-2 access, however spelt. -/
theorem hz2 : (![0, 0] : Fin 2 → Nat) = fun _ => 0 := funext fun a => by fin_cases a <;> rfl

/-- The one whole store into an output buffer covers it. -/
theorem cover_out (p : Vec F S2048x1 .f32) (y : S2048x1.Idx) :
    ∃ pc ∈ ([⟨Rect.unit (s := S2048x1) ![0, 0] S2048x1.size inb_S2048x1_S2048x1_0_0, p⟩] : List (View.Piece (Elt F) S2048x1 .f32)), y ∈ pc.1.set :=
  ⟨_, List.mem_singleton_self _, View.mem_set_unit_zero hz2 inb_S2048x1_S2048x1_0_0 y⟩

/-! ## What the body finds in the inputs' buffers -/

/-- Input window 0 is fetched at every point, and its blocks tile its array: its buffer holds the block. -/
theorem finds_0 (c : Dev nD) (V : VT (F := F) c) (t : Fin cfg2.N) (Y) (h : (rdat (U := U) c V).Finds 0 t Y) : Y = B c V 0 t := by
  obtain ⟨d, rfl⟩ := ((rdat (U := U) c V).finds_of_fetch (fetch2_0 t) Y).mp h
  rfl

/-- Input window 1 is fetched at every point, and its blocks tile its array: its buffer holds the block. -/
theorem finds_1 (c : Dev nD) (V : VT (F := F) c) (t : Fin cfg2.N) (Y) (h : (rdat (U := U) c V).Finds 1 t Y) : Y = B c V 1 t := by
  obtain ⟨d, rfl⟩ := ((rdat (U := U) c V).finds_of_fetch (fetch2_1 t) Y).mp h
  rfl

/-- Input window 2 is fetched at every point, and its blocks tile its array: its buffer holds the block. -/
theorem finds_2 (c : Dev nD) (V : VT (F := F) c) (t : Fin cfg2.N) (Y) (h : (rdat (U := U) c V).Finds 2 t Y) : Y = B c V 2 t := by
  obtain ⟨d, rfl⟩ := ((rdat (U := U) c V).finds_of_fetch (fetch2_2 t) Y).mp h
  rfl

/-- Input window 3 is fetched at every point, and its blocks tile its array: its buffer holds the block. -/
theorem finds_3 (c : Dev nD) (V : VT (F := F) c) (t : Fin cfg2.N) (Y) (h : (rdat (U := U) c V).Finds 3 t Y) : Y = B c V 3 t := by
  obtain ⟨d, rfl⟩ := ((rdat (U := U) c V).finds_of_fetch (fetch2_3 t) Y).mp h
  rfl

/-- Input window 4 is fetched at every point, and its blocks tile its array: its buffer holds the block. -/
theorem finds_4 (c : Dev nD) (V : VT (F := F) c) (t : Fin cfg2.N) (Y) (h : (rdat (U := U) c V).Finds 4 t Y) : Y = B c V 4 t := by
  obtain ⟨d, rfl⟩ := ((rdat (U := U) c V).finds_of_fetch (fetch2_4 t) Y).mp h
  rfl

/-- Input window 5 is fetched at every point, and its blocks tile its array: its buffer holds the block. -/
theorem finds_5 (c : Dev nD) (V : VT (F := F) c) (t : Fin cfg2.N) (Y) (h : (rdat (U := U) c V).Finds 5 t Y) : Y = B c V 5 t := by
  obtain ⟨d, rfl⟩ := ((rdat (U := U) c V).finds_of_fetch (fetch2_5 t) Y).mp h
  rfl

/-- Input window 6 is fetched at every point, and its blocks tile its array: its buffer holds the block. -/
theorem finds_6 (c : Dev nD) (V : VT (F := F) c) (t : Fin cfg2.N) (Y) (h : (rdat (U := U) c V).Finds 6 t Y) : Y = B c V 6 t := by
  obtain ⟨d, rfl⟩ := ((rdat (U := U) c V).finds_of_fetch (fetch2_6 t) Y).mp h
  rfl

set_option maxHeartbeats 400000 in
/-- Input window 7's one block is its whole array, fetched at the first point and left in place by the body at
    every point: its buffer holds the array's contents at every point. -/
theorem finds_7 (c : Dev nD) (V : VT (F := F) c) (t : Fin cfg2.N) (Y) (h : (rdat (U := U) c V).Finds 7 t Y) : Y = V main_arg7 := by
  obtain ⟨d, rfl⟩ := RDat.finds_in_eq_fetched (rdat (U := U) c V) 7 rfl (fun _ _ _ => rfl) (fun _ _ _ h => h) t Y h
  funext j
  have hm : (cfg2.win 7).moved (cfg2.grid.coords t) j = true := rfl
  unfold RDat.fetched Pipeline.Window.fill
  rw [dif_pos hm]
  unfold RDat.blockOf
  rw [View.read_apply]
  show V main_arg7 ((win2_7.rect t).emb fun a => ⟨(j a).val, _⟩) = V main_arg7 j
  congr 1
  funext a; apply Fin.ext
  have h0 : win2_7.index t a = 0 := by
    show cc2_transform_7 (grid2.coords t) a = 0
    unfold cc2_transform_7
    match a with
    | ⟨0, _⟩ => rfl
    | ⟨1, _⟩ => rfl
  exact Pipeline.Window.rect_emb_val_of_index_zero win2_7 t a h0 _

set_option maxHeartbeats 400000 in
/-- Input window 8's one block is its whole array, fetched at the first point and left in place by the body at
    every point: its buffer holds the array's contents at every point. -/
theorem finds_8 (c : Dev nD) (V : VT (F := F) c) (t : Fin cfg2.N) (Y) (h : (rdat (U := U) c V).Finds 8 t Y) : Y = V main_v55 := by
  obtain ⟨d, rfl⟩ := RDat.finds_in_eq_fetched (rdat (U := U) c V) 8 rfl (fun _ _ _ => rfl) (fun _ _ _ h => h) t Y h
  funext j
  have hm : (cfg2.win 8).moved (cfg2.grid.coords t) j = true := rfl
  unfold RDat.fetched Pipeline.Window.fill
  rw [dif_pos hm]
  unfold RDat.blockOf
  rw [View.read_apply]
  show V main_v55 ((win2_8.rect t).emb fun a => ⟨(j a).val, _⟩) = V main_v55 j
  congr 1
  funext a; apply Fin.ext
  have h0 : win2_8.index t a = 0 := by
    show cc2_transform_8 (grid2.coords t) a = 0
    unfold cc2_transform_8
    match a with
    | ⟨0, _⟩ => rfl
    | ⟨1, _⟩ => rfl
  exact Pipeline.Window.rect_emb_val_of_index_zero win2_8 t a h0 _

set_option maxHeartbeats 400000 in
/-- Input window 9's one block is its whole array, fetched at the first point and left in place by the body at
    every point: its buffer holds the array's contents at every point. -/
theorem finds_9 (c : Dev nD) (V : VT (F := F) c) (t : Fin cfg2.N) (Y) (h : (rdat (U := U) c V).Finds 9 t Y) : Y = V main_arg9 := by
  obtain ⟨d, rfl⟩ := RDat.finds_in_eq_fetched (rdat (U := U) c V) 9 rfl (fun _ _ _ => rfl) (fun _ _ _ h => h) t Y h
  funext j
  have hm : (cfg2.win 9).moved (cfg2.grid.coords t) j = true := rfl
  unfold RDat.fetched Pipeline.Window.fill
  rw [dif_pos hm]
  unfold RDat.blockOf
  rw [View.read_apply]
  show V main_arg9 ((win2_9.rect t).emb fun a => ⟨(j a).val, _⟩) = V main_arg9 j
  congr 1
  funext a; apply Fin.ext
  have h0 : win2_9.index t a = 0 := by
    show cc2_transform_9 (grid2.coords t) a = 0
    unfold cc2_transform_9
    match a with
    | ⟨0, _⟩ => rfl
    | ⟨1, _⟩ => rfl
  exact Pipeline.Window.rect_emb_val_of_index_zero win2_9 t a h0 _

set_option maxHeartbeats 400000 in
/-- Input window 10's one block is its whole array, fetched at the first point and left in place by the body at
    every point: its buffer holds the array's contents at every point. -/
theorem finds_10 (c : Dev nD) (V : VT (F := F) c) (t : Fin cfg2.N) (Y) (h : (rdat (U := U) c V).Finds 10 t Y) : Y = V main_v56 := by
  obtain ⟨d, rfl⟩ := RDat.finds_in_eq_fetched (rdat (U := U) c V) 10 rfl (fun _ _ _ => rfl) (fun _ _ _ h => h) t Y h
  funext j
  have hm : (cfg2.win 10).moved (cfg2.grid.coords t) j = true := rfl
  unfold RDat.fetched Pipeline.Window.fill
  rw [dif_pos hm]
  unfold RDat.blockOf
  rw [View.read_apply]
  show V main_v56 ((win2_10.rect t).emb fun a => ⟨(j a).val, _⟩) = V main_v56 j
  congr 1
  funext a; apply Fin.ext
  have h0 : win2_10.index t a = 0 := by
    show cc2_transform_10 (grid2.coords t) a = 0
    unfold cc2_transform_10
    match a with
    | ⟨0, _⟩ => rfl
    | ⟨1, _⟩ => rfl
  exact Pipeline.Window.rect_emb_val_of_index_zero win2_10 t a h0 _

set_option maxHeartbeats 400000 in
/-- Input window 11's one block is its whole array, fetched at the first point and left in place by the body at
    every point: its buffer holds the array's contents at every point. -/
theorem finds_11 (c : Dev nD) (V : VT (F := F) c) (t : Fin cfg2.N) (Y) (h : (rdat (U := U) c V).Finds 11 t Y) : Y = V main_arg11 := by
  obtain ⟨d, rfl⟩ := RDat.finds_in_eq_fetched (rdat (U := U) c V) 11 rfl (fun _ _ _ => rfl) (fun _ _ _ h => h) t Y h
  funext j
  have hm : (cfg2.win 11).moved (cfg2.grid.coords t) j = true := rfl
  unfold RDat.fetched Pipeline.Window.fill
  rw [dif_pos hm]
  unfold RDat.blockOf
  rw [View.read_apply]
  show V main_arg11 ((win2_11.rect t).emb fun a => ⟨(j a).val, _⟩) = V main_arg11 j
  congr 1
  funext a; apply Fin.ext
  have h0 : win2_11.index t a = 0 := by
    show cc2_transform_11 (grid2.coords t) a = 0
    unfold cc2_transform_11
    match a with
    | ⟨0, _⟩ => rfl
    | ⟨1, _⟩ => rfl
  exact Pipeline.Window.rect_emb_val_of_index_zero win2_11 t a h0 _

set_option maxHeartbeats 400000 in
/-- Input window 12's one block is its whole array, fetched at the first point and left in place by the body at
    every point: its buffer holds the array's contents at every point. -/
theorem finds_12 (c : Dev nD) (V : VT (F := F) c) (t : Fin cfg2.N) (Y) (h : (rdat (U := U) c V).Finds 12 t Y) : Y = V main_v57 := by
  obtain ⟨d, rfl⟩ := RDat.finds_in_eq_fetched (rdat (U := U) c V) 12 rfl (fun _ _ _ => rfl) (fun _ _ _ h => h) t Y h
  funext j
  have hm : (cfg2.win 12).moved (cfg2.grid.coords t) j = true := rfl
  unfold RDat.fetched Pipeline.Window.fill
  rw [dif_pos hm]
  unfold RDat.blockOf
  rw [View.read_apply]
  show V main_v57 ((win2_12.rect t).emb fun a => ⟨(j a).val, _⟩) = V main_v57 j
  congr 1
  funext a; apply Fin.ext
  have h0 : win2_12.index t a = 0 := by
    show cc2_transform_12 (grid2.coords t) a = 0
    unfold cc2_transform_12
    match a with
    | ⟨0, _⟩ => rfl
    | ⟨1, _⟩ => rfl
  exact Pipeline.Window.rect_emb_val_of_index_zero win2_12 t a h0 _

set_option maxHeartbeats 400000 in
/-- Input window 13's one block is its whole array, fetched at the first point and left in place by the body at
    every point: its buffer holds the array's contents at every point. -/
theorem finds_13 (c : Dev nD) (V : VT (F := F) c) (t : Fin cfg2.N) (Y) (h : (rdat (U := U) c V).Finds 13 t Y) : Y = V main_arg13 := by
  obtain ⟨d, rfl⟩ := RDat.finds_in_eq_fetched (rdat (U := U) c V) 13 rfl (fun _ _ _ => rfl) (fun _ _ _ h => h) t Y h
  funext j
  have hm : (cfg2.win 13).moved (cfg2.grid.coords t) j = true := rfl
  unfold RDat.fetched Pipeline.Window.fill
  rw [dif_pos hm]
  unfold RDat.blockOf
  rw [View.read_apply]
  show V main_arg13 ((win2_13.rect t).emb fun a => ⟨(j a).val, _⟩) = V main_arg13 j
  congr 1
  funext a; apply Fin.ext
  have h0 : win2_13.index t a = 0 := by
    show cc2_transform_13 (grid2.coords t) a = 0
    unfold cc2_transform_13
    match a with
    | ⟨0, _⟩ => rfl
    | ⟨1, _⟩ => rfl
  exact Pipeline.Window.rect_emb_val_of_index_zero win2_13 t a h0 _

set_option maxHeartbeats 400000 in
/-- Input window 14's one block is its whole array, fetched at the first point and left in place by the body at
    every point: its buffer holds the array's contents at every point. -/
theorem finds_14 (c : Dev nD) (V : VT (F := F) c) (t : Fin cfg2.N) (Y) (h : (rdat (U := U) c V).Finds 14 t Y) : Y = V main_v58 := by
  obtain ⟨d, rfl⟩ := RDat.finds_in_eq_fetched (rdat (U := U) c V) 14 rfl (fun _ _ _ => rfl) (fun _ _ _ h => h) t Y h
  funext j
  have hm : (cfg2.win 14).moved (cfg2.grid.coords t) j = true := rfl
  unfold RDat.fetched Pipeline.Window.fill
  rw [dif_pos hm]
  unfold RDat.blockOf
  rw [View.read_apply]
  show V main_v58 ((win2_14.rect t).emb fun a => ⟨(j a).val, _⟩) = V main_v58 j
  congr 1
  funext a; apply Fin.ext
  have h0 : win2_14.index t a = 0 := by
    show cc2_transform_14 (grid2.coords t) a = 0
    unfold cc2_transform_14
    match a with
    | ⟨0, _⟩ => rfl
    | ⟨1, _⟩ => rfl
  exact Pipeline.Window.rect_emb_val_of_index_zero win2_14 t a h0 _

/-! ## The kernel function's triple -/

set_option maxHeartbeats 2000000 in
/-- The kernel body on whole staging memrefs, the inputs' at read contents `xW` and the outputs' at anything, runs to the
    continuation holding the inputs' as they were and each output's at its payload of the inputs'. -/
theorem sound_kernel (c : Dev nD) (E : Set ℕ) (i : grid2.Coords) (arg1 : Memref sig .tc .vmem S2048x64 .f32) (harg1 : arg1.IsWhole) (arg2 : Memref sig .tc .vmem S2048x64 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S1x1 .f32) (harg15 : arg15.IsWhole) (arg16 : Memref sig .tc .vmem S2048x1 .f32) (harg16 : arg16.IsWhole) (arg17 : Memref sig .tc .vmem S2048x1 .f32) (harg17 : arg17.IsWhole)
    (x0 : Vec F S2048x64 .f32) (x1 : Vec F S2048x64 .f32) (x2 : Vec F S2048x256 .f32) (x3 : Vec F S2048x256 .f32) (x4 : Vec F S2048x64 .f32) (x5 : Vec F S2048x64 .f32) (x6 : Vec F S2048x64 .f32) (x7 : Vec F S512x256 .f32) (x8 : Vec F S1x256 .f32) (x9 : Vec F S256x128 .f32) (x10 : Vec F S1x128 .f32) (x11 : Vec F S128x64 .f32) (x12 : Vec F S1x64 .f32) (x13 : Vec F S128x1 .f32) (x14 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ (∃ d, owns (c : Thread nD τ) arg16 fullShare d)
        ∗ (∃ d, owns (c : Thread nD τ) arg17 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare (k2_pay1 (k2_pay3 x0 x1) (k2_pay4 x2 x3 x7 x8 x9 x10 x11) x12 x13 x14)
          ∗ owns (c : Thread nD τ) arg17 fullShare (k2_pay2 x4 x6 x5)) -∗ K ⟨⟩))
      ⊢ wp frame (wpE (defs₀ (F := F)) Variants.none c none) E (cc2__ncf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__ncf_kernel_eq_skeleton]; unfold cc2__ncf_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    rw [View.read_writes_eq_canon _ _ _ (cover_out _), View.canon_unit_zero hz2]
    simp only [View.readAt_eq_ld, View.ld_unit_zero (S := S2048x64) hz2, View.ld_unit_zero (S := S2048x256) hz2, View.ld_unit_zero (S := S512x256) hz2, View.ld_unit_zero (S := S1x256) hz2, View.ld_unit_zero (S := S256x128) hz2, View.ld_unit_zero (S := S1x128) hz2, View.ld_unit_zero (S := S128x64) hz2, View.ld_unit_zero (S := S1x64) hz2, View.ld_unit_zero (S := S128x1) hz2, View.ld_unit_zero (S := S1x1) hz2]
  iexists _; isplitr
  swap; · iexact H16
  ipureintro
  try dsimp only
  rw [View.read_writes_eq_canon _ _ _ (cover_out _), View.canon_unit_zero hz2]
  simp only [View.readAt_eq_ld, View.ld_unit_zero (S := S2048x64) hz2]

/-! ## The body obligation -/

set_option maxHeartbeats 2000000 in
/-- The body at any point, the windows' buffers one by one: each input's buffer holds its block (`finds_W`), so
    `sound_kernel` applies; the invariant and the core's `owes` pass through unread. -/
theorem sound_body (c : Dev nD) (V : VT (F := F) c) (t : Fin cfg2.N)
    (Y0 : Vec F S2048x64 .f32) (Y1 : Vec F S2048x64 .f32) (Y2 : Vec F S2048x256 .f32) (Y3 : Vec F S2048x256 .f32) (Y4 : Vec F S2048x64 .f32) (Y5 : Vec F S2048x64 .f32) (Y6 : Vec F S2048x64 .f32) (Y7 : Vec F S512x256 .f32) (Y8 : Vec F S1x256 .f32) (Y9 : Vec F S256x128 .f32) (Y10 : Vec F S1x128 .f32) (Y11 : Vec F S128x64 .f32) (Y12 : Vec F S1x64 .f32) (Y13 : Vec F S128x1 .f32) (Y14 : Vec F S1x1 .f32) (Y15 : Vec F S2048x1 .f32) (Y16 : Vec F S2048x1 .f32)
    (h0 : (rdat (U := U) c V).Finds 0 t Y0)
    (h1 : (rdat (U := U) c V).Finds 1 t Y1)
    (h2 : (rdat (U := U) c V).Finds 2 t Y2)
    (h3 : (rdat (U := U) c V).Finds 3 t Y3)
    (h4 : (rdat (U := U) c V).Finds 4 t Y4)
    (h5 : (rdat (U := U) c V).Finds 5 t Y5)
    (h6 : (rdat (U := U) c V).Finds 6 t Y6)
    (h7 : (rdat (U := U) c V).Finds 7 t Y7)
    (h8 : (rdat (U := U) c V).Finds 8 t Y8)
    (h9 : (rdat (U := U) c V).Finds 9 t Y9)
    (h10 : (rdat (U := U) c V).Finds 10 t Y10)
    (h11 : (rdat (U := U) c V).Finds 11 t Y11)
    (h12 : (rdat (U := U) c V).Finds 12 t Y12)
    (h13 : (rdat (U := U) c V).Finds 13 t Y13)
    (h14 : (rdat (U := U) c V).Finds 14 t Y14) :
    iprop((rdat (U := U) c V).Φ t.castSucc ∗ (rdat (U := U) c V).owesAt () t.castSucc
        ∗ owns (c : Thread nD τ) (st2_0 t) fullShare Y0
        ∗ owns (c : Thread nD τ) (st2_1 t) fullShare Y1
        ∗ owns (c : Thread nD τ) (st2_2 t) fullShare Y2
        ∗ owns (c : Thread nD τ) (st2_3 t) fullShare Y3
        ∗ owns (c : Thread nD τ) (st2_4 t) fullShare Y4
        ∗ owns (c : Thread nD τ) (st2_5 t) fullShare Y5
        ∗ owns (c : Thread nD τ) (st2_6 t) fullShare Y6
        ∗ owns (c : Thread nD τ) (st2_7 t) fullShare Y7
        ∗ owns (c : Thread nD τ) (st2_8 t) fullShare Y8
        ∗ owns (c : Thread nD τ) (st2_9 t) fullShare Y9
        ∗ owns (c : Thread nD τ) (st2_10 t) fullShare Y10
        ∗ owns (c : Thread nD τ) (st2_11 t) fullShare Y11
        ∗ owns (c : Thread nD τ) (st2_12 t) fullShare Y12
        ∗ owns (c : Thread nD τ) (st2_13 t) fullShare Y13
        ∗ owns (c : Thread nD τ) (st2_14 t) fullShare Y14
        ∗ owns (c : Thread nD τ) (st2_15 t) fullShare Y15
        ∗ owns (c : Thread nD τ) (st2_16 t) fullShare Y16)
      ⊢ wp frame (wpE (defs₀ (F := F)) Variants.none c none) Set.univ (bodyAt2 t) (fun _ =>
        iprop((rdat (U := U) c V).Φ t.succ ∗ (rdat (U := U) c V).owesAt () t.succ
          ∗ (∃ X, ⌜(rdat (U := U) c V).after 0 t Y0 X⌝ ∗ owns (c : Thread nD τ) (st2_0 t) fullShare X)
          ∗ (∃ X, ⌜(rdat (U := U) c V).after 1 t Y1 X⌝ ∗ owns (c : Thread nD τ) (st2_1 t) fullShare X)
          ∗ (∃ X, ⌜(rdat (U := U) c V).after 2 t Y2 X⌝ ∗ owns (c : Thread nD τ) (st2_2 t) fullShare X)
          ∗ (∃ X, ⌜(rdat (U := U) c V).after 3 t Y3 X⌝ ∗ owns (c : Thread nD τ) (st2_3 t) fullShare X)
          ∗ (∃ X, ⌜(rdat (U := U) c V).after 4 t Y4 X⌝ ∗ owns (c : Thread nD τ) (st2_4 t) fullShare X)
          ∗ (∃ X, ⌜(rdat (U := U) c V).after 5 t Y5 X⌝ ∗ owns (c : Thread nD τ) (st2_5 t) fullShare X)
          ∗ (∃ X, ⌜(rdat (U := U) c V).after 6 t Y6 X⌝ ∗ owns (c : Thread nD τ) (st2_6 t) fullShare X)
          ∗ (∃ X, ⌜(rdat (U := U) c V).after 7 t Y7 X⌝ ∗ owns (c : Thread nD τ) (st2_7 t) fullShare X)
          ∗ (∃ X, ⌜(rdat (U := U) c V).after 8 t Y8 X⌝ ∗ owns (c : Thread nD τ) (st2_8 t) fullShare X)
          ∗ (∃ X, ⌜(rdat (U := U) c V).after 9 t Y9 X⌝ ∗ owns (c : Thread nD τ) (st2_9 t) fullShare X)
          ∗ (∃ X, ⌜(rdat (U := U) c V).after 10 t Y10 X⌝ ∗ owns (c : Thread nD τ) (st2_10 t) fullShare X)
          ∗ (∃ X, ⌜(rdat (U := U) c V).after 11 t Y11 X⌝ ∗ owns (c : Thread nD τ) (st2_11 t) fullShare X)
          ∗ (∃ X, ⌜(rdat (U := U) c V).after 12 t Y12 X⌝ ∗ owns (c : Thread nD τ) (st2_12 t) fullShare X)
          ∗ (∃ X, ⌜(rdat (U := U) c V).after 13 t Y13 X⌝ ∗ owns (c : Thread nD τ) (st2_13 t) fullShare X)
          ∗ (∃ X, ⌜(rdat (U := U) c V).after 14 t Y14 X⌝ ∗ owns (c : Thread nD τ) (st2_14 t) fullShare X)
          ∗ (∃ X, ⌜(rdat (U := U) c V).after 15 t Y15 X⌝ ∗ owns (c : Thread nD τ) (st2_15 t) fullShare X)
          ∗ (∃ X, ⌜(rdat (U := U) c V).after 16 t Y16 X⌝ ∗ owns (c : Thread nD τ) (st2_16 t) fullShare X))) := by
  obtain rfl := finds_0 c V t Y0 h0
  obtain rfl := finds_1 c V t Y1 h1
  obtain rfl := finds_2 c V t Y2 h2
  obtain rfl := finds_3 c V t Y3 h3
  obtain rfl := finds_4 c V t Y4 h4
  obtain rfl := finds_5 c V t Y5 h5
  obtain rfl := finds_6 c V t Y6 h6
  obtain rfl := finds_7 c V t Y7 h7
  obtain rfl := finds_8 c V t Y8 h8
  obtain rfl := finds_9 c V t Y9 h9
  obtain rfl := finds_10 c V t Y10 h10
  obtain rfl := finds_11 c V t Y11 h11
  obtain rfl := finds_12 c V t Y12 h12
  obtain rfl := finds_13 c V t Y13 h13
  obtain rfl := finds_14 c V t Y14 h14
  rw [show (rdat (U := U) c V).Φ t.succ = (rdat (U := U) c V).Φ t.castSucc from rfl,
    show (rdat (U := U) c V).owesAt () t.succ = (rdat (U := U) c V).owesAt () t.castSucc from rfl]
  unfold bodyAt2
  iintro ⟨HΦ, Ho, H0, H1, H2, H3, H4, H5, H6, H7, H8, H9, H10, H11, H12, H13, H14, H15, H16⟩
  iapply (sound_kernel c Set.univ (grid2.coords t) _ _ _ _ _ _ _ _ _ _ _ _ _ _ _ _ _ _ _ _ _ _ _ _ _ _ _ _ _ _ _ _ _ _
    (B c V 0 t) (B c V 1 t) (B c V 2 t) (B c V 3 t) (B c V 4 t) (B c V 5 t) (B c V 6 t) (V main_arg7) (V main_v55) (V main_arg9) (V main_v56) (V main_arg11) (V main_v57) (V main_arg13) (V main_v58) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; rfl
  isplitl [H15]
  · iexists _; isplitr
    swap; · iexact H15
    ipureintro; rfl
  · iexists _; isplitr
    swap; · iexact H16
    ipureintro; rfl

/-- The body obligation of region 2's proof data, at every point. -/
theorem body (c : Dev nD) (V : VT (F := F) c) :
    (rdat (U := U) c V).BodyObligation defs₀ Variants.none () Set.univ := fun t Y hY => by
  rw [bigSep_W2, bigSep_W2]
  exact sound_body c V t (Y 0) (Y 1) (Y 2) (Y 3) (Y 4) (Y 5) (Y 6) (Y 7) (Y 8) (Y 9) (Y 10) (Y 11) (Y 12) (Y 13) (Y 14) (Y 15) (Y 16) (hY 0) (hY 1) (hY 2) (hY 3) (hY 4) (hY 5) (hY 6) (hY 7) (hY 8) (hY 9) (hY 10) (hY 11) (hY 12) (hY 13) (hY 14)

end Cert.KernelIdeal.Reg2

end
-- ==== Proof.Run.lean ====
/-
  The run of @main: three kernel regions among four stretches of host operations, from any launch memory, for any float
  instance. Between two items a core holds every unscoped buffer at a valuation (Vals.lean); what a region leaves in its
  arrays is known to exist and to satisfy the region's relation (RDat.ArrAt), so the thread states after a region are
  quantified over those contents, and every item is a host segment of the launch library (Kit.lean): a stretch of
  operations under the quantifier, a region by the region rule at the proof data the witness gives.
  The conclusion: every weakly fair execution terminates, and every final memory holds each unscoped buffer at the last
  valuation for SOME contents the three regions may have left.
-/
import proofs.«163843_j81870666596358_2_alg».proof.Proof.Vals
import proofs.«163843_j81870666596358_2_alg».proof.Proof.Reg0
import proofs.«163843_j81870666596358_2_alg».proof.Proof.Reg1Body
import proofs.«163843_j81870666596358_2_alg».proof.Proof.Reg2Body

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [Facts]

local notation "𝕄" => MT nD τ sig Unit (Elt F) ℕ Alg ℕ

variable (m : (ℓ : Loc nD τ sig) → Buf (Elt F) ℓ) (ρ : Dev nD → PrngReg)

/-- Every pipeline's proof data, each at a region-entry valuation of its own. -/
def fam (V0 V1 V2 : Dev nD → Valuation τ sig (Elt F)) : Fam (F := F)
  | ⟨0, _⟩ => fun c => Reg0.rdat (U := Alg) c (tcv c (V0 c))
  | ⟨1, _⟩ => fun c => Reg1.rdat (U := Alg) c (tcv c (V1 c))
  | ⟨2, _⟩ => fun c => Reg2.rdat (U := Alg) c (tcv c (V2 c))

/-- What region 0 may have left in its arrays, on every core. -/
structure St1 where
  A0 : (c : Dev nD) → ArrC (F := F) 0 c
  h0 : ∀ c w, (Reg0.rdat (U := Alg) c (tcv c (W1 m c))).ArrAt w cfg0.N (A0 c w)
/-- and region 1 after it, -/
structure St2 extends St1 m where
  A1 : (c : Dev nD) → ArrC (F := F) 1 c
  h1 : ∀ c w, (Reg1.rdat (U := Alg) c (tcv c (W2 m c (A0 c)))).ArrAt w cfg1.N (A1 c w)
/-- and region 2 after both. -/
structure St3 extends St2 m where
  A2 : (c : Dev nD) → ArrC (F := F) 2 c
  h2 : ∀ c w, (Reg2.rdat (U := Alg) c (tcv c (W5 m c (A0 c) (A1 c)))).ArrAt w cfg2.N (A2 c w)

/-- The pipelines whose ghost state is still unspent after region 0, 1, 2. -/
abbrev S1 : Finset (Fin 3) := Finset.univ.erase 0
abbrev S2 : Finset (Fin 3) := S1.erase 1
abbrev S3 : Finset (Fin 3) := S2.erase 2

/-- What rides beside the buffers: the register, nothing owed, the unspent ghost state. -/
abbrev Rg (S : Finset (Fin 3)) (c : Dev nD) : sProp 𝕄 := iprop(Rr (F := F) c ∗ ghost (F := F) S c)

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem ops3_fresh : (main_part1_ops1 : List (HloOp τ sig (Elt F))).Forall fun op => op.fresh = ∅ := by
  simp only [List.Forall]; repeat' constructor

/-- A stretch of host operations from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) : HS (F := F) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Region 0's record, entered at W1. -/
def R0 : Pipeline.RDat.RegionSeg (pcfgs (F := F)) adm (fam (W1 m) (W1 m) (W1 m)) () defs₀ 𝒱₀ L lv 0 :=
  regRec 0 (fam (W1 m) (W1 m) (W1 m)) launch0 (W1 m) (fun _ _ => rfl) (fun _ _ => rfl) (fun _ _ => rfl)
    (fun c => Reg0.body c _) (fun _ _ => rfl) (fun _ _ => rfl)

/-- Region 1's record, entered at W2 of what region 0 left. -/
def R1 (x : St1 m) : Pipeline.RDat.RegionSeg (pcfgs (F := F)) adm (fam (W1 m) (fun c => W2 m c (x.A0 c)) (W1 m)) () defs₀ 𝒱₀ L lv 1 :=
  regRec 1 (fam (W1 m) (fun c => W2 m c (x.A0 c)) (W1 m)) launch1 (fun c => W2 m c (x.A0 c)) (fun _ _ => rfl) (fun _ _ => rfl) (fun _ _ => rfl)
    (fun c => Reg1.body c _) (fun _ _ => rfl) (fun _ _ => rfl)

/-- Region 2's record, entered at W5 of what regions 0 and 1 left. -/
def R2 (x : St2 m) : Pipeline.RDat.RegionSeg (pcfgs (F := F)) adm (fam (W1 m) (W1 m) (fun c => W5 m c (x.A0 c) (x.A1 c))) () defs₀ 𝒱₀ L lv 2 :=
  regRec 2 (fam (W1 m) (W1 m) (fun c => W5 m c (x.A0 c) (x.A1 c))) launch2 (fun c => W5 m c (x.A0 c) (x.A1 c)) (fun _ _ => rfl) (fun _ _ => rfl) (fun _ _ => rfl)
    (fun c => Reg2.body c _) (fun _ _ => rfl) (fun _ _ => rfl)

/-- The seven items as host segments. -/
def seg0 : HS (F := F) := hseg main_part0_ops0 main_part0_ops0_sub ops0_fresh (W0 m) (Rg Finset.univ)
def seg1 : HS (F := F) := regionSeg (X := Unit) (fun _ => fam (W1 m) (W1 m) (W1 m)) (fun _ => R0 m) Finset.univ (Finset.mem_univ 0)
def seg2 : HS (F := F) := regionSeg (X := St1 m) (fun x => fam (W1 m) (fun c => W2 m c (x.A0 c)) (W1 m)) (R1 m) S1 (by decide)
def seg3 : HS (F := F) := exSeg (X := St2 m) (StableHlo.seq main_part0_ops1)
  (fun x => hseg main_part0_ops1 main_part0_ops1_sub ops1_fresh (fun c => W3 m c (x.A0 c) (x.A1 c)) (Rg S2)) (fun _ => rfl)
def seg4 : HS (F := F) := exSeg (X := St2 m) (StableHlo.seq main_part1_ops0)
  (fun x => hseg main_part1_ops0 main_part1_ops0_sub ops2_fresh (fun c => W4 m c (x.A0 c) (x.A1 c)) (Rg S2)) (fun _ => rfl)
def seg5 : HS (F := F) := regionSeg (X := St2 m) (fun x => fam (W1 m) (W1 m) (fun c => W5 m c (x.A0 c) (x.A1 c))) (R2 m) S2 (by decide)
def seg6 : HS (F := F) := exSeg (X := St3 m) (StableHlo.seq main_part1_ops1)
  (fun x => hseg main_part1_ops1 main_part1_ops1_sub ops3_fresh (fun c => W6 m c (x.A0 c) (x.A1 c) (x.A2 c)) (Rg S3)) (fun _ => rfl)

/-! ## The thread states chain -/

theorem ch01 (c : Dev nD) : (seg0 m).post c ⊢ (seg1 m).pre c := by
  show iprop(StableHlo.held (c.tc : Thread nD τ) (Pipeline.ucRefs τ sig) (W1 m c) ∗ Rg (F := F) Finset.univ c)
    ⊢ iprop(∃ _x : Unit, regPre (F := F) (W1 m) c ∗ ghost (F := F) Finset.univ c)
  iintro ⟨Hh, ⟨Hr, Hg⟩⟩
  iexists ()
  isplitl [Hh Hr]
  · isplitl [Hh]; · iexact Hh
    iexact Hr
  iexact Hg

theorem ch12 (c : Dev nD) : (seg1 m).post c ⊢ (seg2 m).pre c := by
  show iprop(∃ _x : Unit, regPost (F := F) 0 (fam (W1 m) (W1 m) (W1 m)) (W1 m) c ∗ ghost (F := F) S1 c)
    ⊢ iprop(∃ x : St1 m, regPre (F := F) (fun c => W2 m c (x.A0 c)) c ∗ ghost (F := F) S1 c)
  iintro ⟨%u, ⟨%A, %hA, Hh, Hr⟩, Hg⟩
  iexists (⟨spread c A, fun c' w => by obtain rfl := Subsingleton.elim c c'; exact hA w⟩ : St1 m)
  isplitl [Hh Hr]
  · isplitl [Hh]; · iexact Hh
    iexact Hr
  iexact Hg

theorem ch23 (c : Dev nD) : (seg2 m).post c ⊢ (seg3 m).pre c := by
  show iprop(∃ x : St1 m, regPost (F := F) 1 (fam (W1 m) (fun c => W2 m c (x.A0 c)) (W1 m)) (fun c => W2 m c (x.A0 c)) c ∗ ghost (F := F) S2 c)
    ⊢ iprop(∃ x : St2 m, StableHlo.held (c.tc : Thread nD τ) (Pipeline.ucRefs τ sig) (W3 m c (x.A0 c) (x.A1 c)) ∗ Rg (F := F) S2 c)
  iintro ⟨%x, ⟨%A, %hA, Hh, Hr⟩, Hg⟩
  iexists ({ toSt1 := x, A1 := spread c A, h1 := fun c' w => by obtain rfl := Subsingleton.elim c c'; exact hA w } : St2 m)
  isplitl [Hh]; · iexact Hh
  isplitl [Hr]; · iexact Hr
  iexact Hg

theorem ch45 (c : Dev nD) : (seg4 m).post c ⊢ (seg5 m).pre c := by
  show iprop(∃ x : St2 m, StableHlo.held (c.tc : Thread nD τ) (Pipeline.ucRefs τ sig) (W5 m c (x.A0 c) (x.A1 c)) ∗ Rg (F := F) S2 c)
    ⊢ iprop(∃ x : St2 m, regPre (F := F) (fun c => W5 m c (x.A0 c) (x.A1 c)) c ∗ ghost (F := F) S2 c)
  iintro ⟨%x, Hh, ⟨Hr, Hg⟩⟩
  iexists x
  isplitl [Hh Hr]
  · isplitl [Hh]; · iexact Hh
    iexact Hr
  iexact Hg

theorem ch56 (c : Dev nD) : (seg5 m).post c ⊢ (seg6 m).pre c := by
  show iprop(∃ x : St2 m, regPost (F := F) 2 (fam (W1 m) (W1 m) (fun c => W5 m c (x.A0 c) (x.A1 c))) (fun c => W5 m c (x.A0 c) (x.A1 c)) c ∗ ghost (F := F) S3 c)
    ⊢ iprop(∃ x : St3 m, StableHlo.held (c.tc : Thread nD τ) (Pipeline.ucRefs τ sig) (W6 m c (x.A0 c) (x.A1 c) (x.A2 c)) ∗ Rg (F := F) S3 c)
  iintro ⟨%x, ⟨%A, %hA, Hh, Hr⟩, Hg⟩
  iexists ({ toSt2 := x, A2 := spread c A, h2 := fun c' w => by obtain rfl := Subsingleton.elim c c'; exact hA w } : St3 m)
  isplitl [Hh]; · iexact Hh
  isplitl [Hr]; · iexact Hr
  iexact Hg

/-- The last thread state without the owes: every unscoped buffer at the last valuation for some contents the regions
    may have left, the register, the unspent ghost state. -/
abbrev Tn (c : Dev nD) : sProp 𝕄 :=
  iprop(∃ x : St3 m, StableHlo.held (c.tc : Thread nD τ) (Pipeline.ucRefs τ sig) (W7 m c (x.A0 c) (x.A1 c) (x.A2 c))
    ∗ (∃ r, prngReg c r) ∗ ghost (F := F) S3 c)

theorem ch6n (c : Dev nD) : (seg6 m).post c
    ⊢ iprop(Tn m c ∗ ∃ W, owes (c.tc : Thread nD τ) (0 : CellTallies nD τ sig Unit) W) := by
  show iprop(∃ x : St3 m, StableHlo.held (c.tc : Thread nD τ) (Pipeline.ucRefs τ sig) (W7 m c (x.A0 c) (x.A1 c) (x.A2 c)) ∗ Rg (F := F) S3 c) ⊢ _
  iintro ⟨%x, Hh, ⟨⟨Hp, HO⟩, Hg⟩⟩
  isplitr [HO]
  · iexists x
    isplitl [Hh]; · iexact Hh
    isplitl [Hp]; · iexact Hp
    iexact Hg
  iexact HO

/-! ## The run -/

/-- @main's seven items in order. -/
def segs : List (Pipeline.RDat.Seg (pcfgs (F := F)) adm (fam (W0 m) (W0 m) (W0 m)) () defs₀ 𝒱₀ L lv) :=
  [.host (seg0 m), .host (seg1 m), .host (seg2 m), .host (seg3 m), .host (seg4 m), .host (seg5 m), .host (seg6 m)]

theorem segs_prog : (segs m).map Pipeline.RDat.Seg.prog =
    [ StableHlo.seq main_part0_ops0,
      Prog.lift (.customCall (Pipeline.entry 0) ()),
      Prog.lift (.customCall (Pipeline.entry 1) ()),
      StableHlo.seq main_part0_ops1,
      StableHlo.seq main_part1_ops0,
      Prog.lift (.customCall (Pipeline.entry 2) ()),
      StableHlo.seq main_part1_ops1 ] := rfl

/-- @main IS the run of the seven items. -/
theorem main_run (c : Dev nD) : main (F := F) c = Pipeline.RDat.Seg.run (segs m) := by
  rw [Pipeline.RDat.Seg.run_eq_chain, segs_prog]
  exact main_chain_windows c

/-- The launch element: one copy of the pipeline library's element for the launch theorem, one for the regions, which
    funds every pipeline's ghost state on every core. -/
theorem launch_elt :
    (ownU ((initOf (Pipeline.cells cfgs cellOf_inj) (Pipeline.launchToks cfgs cellOf_inj),
        initOf (Pipeline.cells cfgs cellOf_inj) (Pipeline.launchToks cfgs cellOf_inj)) : Alg) : sProp 𝕄)
      ⊢ |={Set.univ}=> iprop(BI.own ((EPk (F := F)) (initOf (Pipeline.cells cfgs cellOf_inj) (Pipeline.launchToks cfgs cellOf_inj)))
          ∗ bigSep Finset.univ fun c : Dev nD => ghost (F := F) Finset.univ c) := by
  iintro Hu
  ihave H := (ownU_pair (initOf (Pipeline.cells cfgs cellOf_inj) (Pipeline.launchToks cfgs cellOf_inj))
    (initOf (Pipeline.cells cfgs cellOf_inj) (Pipeline.launchToks cfgs cellOf_inj))) $$ Hu
  icases H with ⟨HP, HQ⟩
  imod (fund_regions (F := F)) $$ HQ with HG
  imodintro
  isplitl [HP]; · iexact HP
  iexact HG

theorem segs_pipes : (Pipeline.RDat.Seg.pipes (segs m)).Nodup := by
  simp only [segs, Pipeline.RDat.Seg.pipes_host, Pipeline.RDat.Seg.pipes_nil]; exact List.nodup_nil

set_option maxHeartbeats 4000000 in
set_option backward.isDefEq.respectTransparency.types false in
/-- From any launch memory with zero counters, every weakly fair execution of @main terminates, nothing faulting, and
    every final memory holds every unscoped buffer at the last valuation W7 for SOME contents the three regions may have
    left in their arrays (each satisfying its region's relation). -/
theorem run : θ_run (defs (F := F)) (onTc (τ := τ) (main (F := F))) ⟨m, fun _ => 0, ρ⟩
    (fun r => ∀ c : Dev nD, ∃ x : St3 m, ∀ b ∈ Pipeline.ucRefs τ sig,
      r.2.mem ((c.tc : Thread nD τ).1, b) = W7 m c (x.A0 c) (x.A1 c) (x.A2 c) b) :=
  Pipeline.RDat.θ_run_regions_kit (pcfgs (F := F)) adm (fam (W0 m) (W0 m) (W0 m)) () cellOf_inj (EPk (F := F)) defs₀ 𝒱₀ L lv m ρ main
    (segs m)
    (fun c Q => Entails.of_eq (congrArg (fun pr => wp frame (wpE (Pipeline.defs (pcfgs (F := F)) defs₀) (Variants.lift 𝒱₀) (c.tc : Thread nD τ) none) Set.univ pr Q) (main_run m c).symm))
    (segs_pipes m)
    (O₀ := 0) (hL := fun _ _ => rfl) (G := fun c => ghost (F := F) Finset.univ c)
    (u₀ := (initOf (Pipeline.cells cfgs cellOf_inj) (Pipeline.launchToks cfgs cellOf_inj),
      initOf (Pipeline.cells cfgs cellOf_inj) (Pipeline.launchToks cfgs cellOf_inj)))
    (hu₀ := launch_elt)
    (T₀ := fun c => iprop(StableHlo.held (c.tc : Thread nD τ) (Pipeline.ucRefs τ sig) (W0 m c) ∗ Rg (F := F) Finset.univ c))
    (Tₙ := Tn m)
    (hch := ⟨fun _ => .rfl, ch01 m, ch12 m, ch23 m, fun _ => .rfl, ch45 m, ch56 m, ch6n m⟩)
    (hinit := by
      refine Pipeline.initEach L lv fun c => ?_
      rw [show unscopedBufs c (fun b => m ((c.tc : Thread nD τ).loc b)) = StableHlo.held (c.tc : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitl [Hp HO]
      · isplitl [Hp]; · iexists _; iexact Hp
        iexists ∅; iexact HO
      iexact HG)
    (QY := fun c s => ∃ x : St3 m, ∀ b ∈ Pipeline.ucRefs τ sig,
      s.mem ((c.tc : Thread nD τ).1, b) = W7 m c (x.A0 c) (x.A1 c) (x.A2 c) b)
    (hfin := fun c s' => by
      unfold Tn StableHlo.held
      iintro ⟨⟨%x, Hh, -⟩, HSI⟩
      ihave Hr := (pointsTo_read_all (Pipeline.ucRefs τ sig) (fun b => ((c.tc : Thread nD τ).1, b)) (W7 m c (x.A0 c) (x.A1 c) (x.A2 c)) s') $$ [Hh HSI]
      · isplitl [Hh] <;> iassumption
      icases Hr with ⟨%h, HSI⟩
      imodintro
      isplitr
      · ipureintro; exact ⟨x, h⟩
      · iexact HSI)
    (hQ := fun _ h => h)

end Cert.KernelIdeal.Hand

end
-- ==== Proof.Glue.lean ====
/-
  What the kernel program's host stretches leave in the buffers the regions read, as the operations' terms over an
  arbitrary valuation of the buffers; the gathers identified with the reference's gather stages; the layout
  operations read at an index.
-/
import proofs.«163843_j81870666596358_2_alg».proof.Proof.Gen.KernelIdeal.Launch
import proofs.«163843_j81870666596358_2_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Glue

open Cert.KernelIdeal Cert.KernelIdeal.Gen Idealize.ShloMosaic Idealize.ShloMosaic.TcCoe Idealize.ShloMosaic.StableHlo
  Idealize.ShloMosaic.ValueIdx Idealize.SL.Sem

variable {F : FTy → Type} [FloatOps F]

/-- A row index wrapped the way a gather's start indices are: a negative index counts from the end (`bound` is added),
    then the vector is made a column. -/
abbrev rowIdx (bound : BitVec 32) (x : (⟨S8192, .i32⟩ : BufTy).Contents (Elt F)) : (⟨S8192x1, .i32⟩ : BufTy).Contents (Elt F) :=
  broadcastInDim S8192x1 ![0] bcast_S8192_S8192x1_0
    (select (cmpi .slt x (broadcastInDim S8192 ![] bcast_S_S8192 (constantI S_ 32 0#32)))
      (addi x (broadcastInDim S8192 ![] bcast_S_S8192 (constantI S_ 32 bound))) x)

/-! ## The first host stretch of the first window: the operands of the two attention regions -/

/-- The references the operations of `main_part0_ops0` write. -/
abbrev p0o0_W : List (Ref sig .tc) := [main_v0, main_v1, main_v2, main_v3]
theorem p0o0_writes : (main_part0_ops0 : List (HloOp τ sig (Elt F))).Forall fun op => op.writes ⊆ (p0o0_W.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p0o0_keep (W : Valuation τ sig (Elt F)) {r : Ref sig .tc} (h : r ∉ p0o0_W) :
    StableHlo.after (main_part0_ops0 (F := F)) W (Proc.devRef .tc r) = W (Proc.devRef .tc r) :=
  StableHlo.after_of_writes_sub main_part0_ops0 W p0o0_writes h

theorem p0o0_v1 (W : Valuation τ sig (Elt F)) :
    (StableHlo.after (main_part0_ops0 (F := F)) W (Proc.devRef .tc main_v1) : (⟨S64x12000, .bf16⟩ : BufTy).Contents (Elt F))
      = truncf .bf16 (transpose S64x12000 [1, 0] (W (Proc.devRef .tc main_arg15)) transposes_S12000x64_S64x12000_1_0) bitsLt_bf16_f32 := by
  after_results_simp

theorem p0o0_v2 (W : Valuation τ sig (Elt F)) :
    (StableHlo.after (main_part0_ops0 (F := F)) W (Proc.devRef .tc main_v2) : (⟨S6000x64, .bf16⟩ : BufTy).Contents (Elt F))
      = truncf .bf16 (W (Proc.devRef .tc main_arg16)) bitsLt_bf16_f32 := by
  after_results_simp

theorem p0o0_v3 (W : Valuation τ sig (Elt F)) :
    (StableHlo.after (main_part0_ops0 (F := F)) W (Proc.devRef .tc main_v3) : (⟨S1x64, .f32⟩ : BufTy).Contents (Elt F))
      = shapeCast S1x64 (W (Proc.devRef .tc main_arg18)) shapeCasts_S64_S1x64 := by
  after_results_simp
  rfl

/-! ## The second host stretch of the first window: the six gathers -/

/-- The references the operations of `main_part0_ops1` write. -/
abbrev p0o1_W : List (Ref sig .tc) := [main_c, main_v6, main_v7, main_c_0, main_v8, main_v9, main_v10, main_v11, main_v12, main_c_1, main_v13, main_v14, main_c_2, main_v15, main_v16, main_v17, main_v18, main_v19, main_c_3, main_v20, main_v21, main_c_4, main_v22, main_v23, main_v24, main_v25, main_v26, main_c_5, main_v27, main_v28, main_c_6, main_v29, main_v30, main_v31, main_v32, main_v33, main_c_7, main_v34, main_v35, main_c_8, main_v36, main_v37, main_v38, main_v39, main_v40, main_c_9, main_v41, main_v42, main_c_10, main_v43, main_v44, main_v45, main_v46, main_v47]
theorem p0o1_writes : (main_part0_ops1 : List (HloOp τ sig (Elt F))).Forall fun op => op.writes ⊆ (p0o1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p0o1_keep (W : Valuation τ sig (Elt F)) {r : Ref sig .tc} (h : r ∉ p0o1_W) :
    StableHlo.after (main_part0_ops1 (F := F)) W (Proc.devRef .tc r) = W (Proc.devRef .tc r) :=
  StableHlo.after_of_writes_sub main_part0_ops1 W p0o1_writes h

theorem p0o1_v12 (W : Valuation τ sig (Elt F)) :
    (StableHlo.after (main_part0_ops1 (F := F)) W (Proc.devRef .tc main_v12) : (⟨S8192x64, .f32⟩ : BufTy).Contents (Elt F))
      = Host.gather gather_S6000x64_S8192x1_S8192x64_1_0_n_n_0_1_164 (W (Proc.devRef .tc main_arg3)) (rowIdx 6000#32 (W (Proc.devRef .tc main_arg0))) := by
  after_results_simp

theorem p0o1_v19 (W : Valuation τ sig (Elt F)) :
    (StableHlo.after (main_part0_ops1 (F := F)) W (Proc.devRef .tc main_v19) : (⟨S8192x64, .f32⟩ : BufTy).Contents (Elt F))
      = Host.gather gather_S12000x64_S8192x1_S8192x64_1_0_n_n_0_1_164 (W (Proc.devRef .tc main_arg4)) (rowIdx 12000#32 (W (Proc.devRef .tc main_arg1))) := by
  after_results_simp

theorem p0o1_v26 (W : Valuation τ sig (Elt F)) :
    (StableHlo.after (main_part0_ops1 (F := F)) W (Proc.devRef .tc main_v26) : (⟨S8192x256, .f32⟩ : BufTy).Contents (Elt F))
      = Host.gather gather_S6000x256_S8192x1_S8192x256_1_0_n_n_0_1_1256 (W (Proc.devRef .tc main_arg5)) (rowIdx 6000#32 (W (Proc.devRef .tc main_arg0))) := by
  after_results_simp

theorem p0o1_v33 (W : Valuation τ sig (Elt F)) :
    (StableHlo.after (main_part0_ops1 (F := F)) W (Proc.devRef .tc main_v33) : (⟨S8192x256, .f32⟩ : BufTy).Contents (Elt F))
      = Host.gather gather_S12000x256_S8192x1_S8192x256_1_0_n_n_0_1_1256 (W (Proc.devRef .tc main_arg6)) (rowIdx 12000#32 (W (Proc.devRef .tc main_arg1))) := by
  after_results_simp

theorem p0o1_v40 (W : Valuation τ sig (Elt F)) :
    (StableHlo.after (main_part0_ops1 (F := F)) W (Proc.devRef .tc main_v40) : (⟨S8192x64, .f32⟩ : BufTy).Contents (Elt F))
      = Host.gather gather_S6000x64_S8192x1_S8192x64_1_0_n_n_0_1_164 (W (Proc.devRef .tc main_arg16)) (rowIdx 6000#32 (W (Proc.devRef .tc main_arg0))) := by
  after_results_simp

theorem p0o1_v47 (W : Valuation τ sig (Elt F)) :
    (StableHlo.after (main_part0_ops1 (F := F)) W (Proc.devRef .tc main_v47) : (⟨S8192x64, .f32⟩ : BufTy).Contents (Elt F))
      = Host.gather gather_S12000x64_S8192x1_S8192x64_1_0_n_n_0_1_164 (W (Proc.devRef .tc main_arg15)) (rowIdx 12000#32 (W (Proc.devRef .tc main_arg1))) := by
  after_results_simp

/-! ## The first host stretch of the second window: the gather of items_relation and the bias rows -/

/-- The references the operations of `main_part1_ops0` write. -/
abbrev p1o0_W : List (Ref sig .tc) := [main_c_11, main_v48, main_v49, main_c_12, main_v50, main_v51, main_v52, main_v53, main_v54, main_v55, main_v56, main_v57, main_v58]
theorem p1o0_writes : (main_part1_ops0 : List (HloOp τ sig (Elt F))).Forall fun op => op.writes ⊆ (p1o0_W.map (Proc.devRef (τ := τ) .tc)).toFinset := by
  simp only [List.Forall]
  refine ⟨?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p1o0_keep (W : Valuation τ sig (Elt F)) {r : Ref sig .tc} (h : r ∉ p1o0_W) :
    StableHlo.after (main_part1_ops0 (F := F)) W (Proc.devRef .tc r) = W (Proc.devRef .tc r) :=
  StableHlo.after_of_writes_sub main_part1_ops0 W p1o0_writes h

theorem p1o0_v54 (W : Valuation τ sig (Elt F)) :
    (StableHlo.after (main_part1_ops0 (F := F)) W (Proc.devRef .tc main_v54) : (⟨S8192x64, .f32⟩ : BufTy).Contents (Elt F))
      = Host.gather gather_S12000x64_S8192x1_S8192x64_1_0_n_n_0_1_164 (W (Proc.devRef .tc main_v5)) (rowIdx 12000#32 (W (Proc.devRef .tc main_arg1))) := by
  after_results_simp

theorem p1o0_v55 (W : Valuation τ sig (Elt F)) :
    (StableHlo.after (main_part1_ops0 (F := F)) W (Proc.devRef .tc main_v55) : (⟨S1x256, .f32⟩ : BufTy).Contents (Elt F))
      = shapeCast S1x256 (W (Proc.devRef .tc main_arg8)) shapeCasts_S256_S1x256 := by
  after_results_simp
  rfl

theorem p1o0_v56 (W : Valuation τ sig (Elt F)) :
    (StableHlo.after (main_part1_ops0 (F := F)) W (Proc.devRef .tc main_v56) : (⟨S1x128, .f32⟩ : BufTy).Contents (Elt F))
      = shapeCast S1x128 (W (Proc.devRef .tc main_arg10)) shapeCasts_S128_S1x128 := by
  after_results_simp
  rfl

theorem p1o0_v57 (W : Valuation τ sig (Elt F)) :
    (StableHlo.after (main_part1_ops0 (F := F)) W (Proc.devRef .tc main_v57) : (⟨S1x64, .f32⟩ : BufTy).Contents (Elt F))
      = shapeCast S1x64 (W (Proc.devRef .tc main_arg12)) shapeCasts_S64_S1x64 := by
  after_results_simp
  rfl

theorem p1o0_v58 (W : Valuation τ sig (Elt F)) :
    (StableHlo.after (main_part1_ops0 (F := F)) W (Proc.devRef .tc main_v58) : (⟨S1x1, .f32⟩ : BufTy).Contents (Elt F))
      = shapeCast S1x1 (W (Proc.devRef .tc main_arg14)) shapeCasts_S1_S1x1 := by
  after_results_simp
  rfl

/-! ## The last host stretch: the two results made vectors -/

/-- The references the operations of `main_part1_ops1` write. -/
abbrev p1o1_W : List (Ref sig .tc) := [main_v60, main_v61]
theorem p1o1_writes : (main_part1_ops1 : List (HloOp τ sig (Elt F))).Forall fun op => op.writes ⊆ (p1o1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p1o1_keep (W : Valuation τ sig (Elt F)) {r : Ref sig .tc} (h : r ∉ p1o1_W) :
    StableHlo.after (main_part1_ops1 (F := F)) W (Proc.devRef .tc r) = W (Proc.devRef .tc r) :=
  StableHlo.after_of_writes_sub main_part1_ops1 W p1o1_writes h

theorem p1o1_v60 (W : Valuation τ sig (Elt F)) :
    (StableHlo.after (main_part1_ops1 (F := F)) W (Proc.devRef .tc main_v60) : (⟨S8192, .f32⟩ : BufTy).Contents (Elt F))
      = shapeCast S8192 (W (Proc.devRef .tc main_v59_0)) shapeCasts_S8192x1_S8192 := by
  after_results_simp
  rfl

theorem p1o1_v61 (W : Valuation τ sig (Elt F)) :
    (StableHlo.after (main_part1_ops1 (F := F)) W (Proc.devRef .tc main_v61) : (⟨S8192, .f32⟩ : BufTy).Contents (Elt F))
      = shapeCast S8192 (W (Proc.devRef .tc main_v59_1)) shapeCasts_S8192x1_S8192 := by
  after_results_simp
  rfl

/-! ## The gathers are the reference's

The reference wraps and gathers with the same operations over its own copies of the shapes and of the gather's
dimension record; the two copies are the same literals. -/

theorem gather_v12_ref (x0 : (⟨S8192, .i32⟩ : BufTy).Contents (Elt F)) (x3 : (⟨S6000x64, .f32⟩ : BufTy).Contents (Elt F)) :
    Host.gather gather_S6000x64_S8192x1_S8192x64_1_0_n_n_0_1_164 x3 (rowIdx 6000#32 x0) = Cert.ReferenceIdeal.Read.val_main_v6 (F := F) x0 x3 := rfl

theorem gather_v19_ref (x1 : (⟨S8192, .i32⟩ : BufTy).Contents (Elt F)) (x4 : (⟨S12000x64, .f32⟩ : BufTy).Contents (Elt F)) :
    Host.gather gather_S12000x64_S8192x1_S8192x64_1_0_n_n_0_1_164 x4 (rowIdx 12000#32 x1) = Cert.ReferenceIdeal.Read.val_main_v13 (F := F) x1 x4 := rfl

theorem gather_v26_ref (x0 : (⟨S8192, .i32⟩ : BufTy).Contents (Elt F)) (x5 : (⟨S6000x256, .f32⟩ : BufTy).Contents (Elt F)) :
    Host.gather gather_S6000x256_S8192x1_S8192x256_1_0_n_n_0_1_1256 x5 (rowIdx 6000#32 x0) = Cert.ReferenceIdeal.Read.val_main_v21 (F := F) x0 x5 := rfl

theorem gather_v33_ref (x1 : (⟨S8192, .i32⟩ : BufTy).Contents (Elt F)) (x6 : (⟨S12000x256, .f32⟩ : BufTy).Contents (Elt F)) :
    Host.gather gather_S12000x256_S8192x1_S8192x256_1_0_n_n_0_1_1256 x6 (rowIdx 12000#32 x1) = Cert.ReferenceIdeal.Read.val_main_v28 (F := F) x1 x6 := rfl

theorem gather_v40_ref (x0 : (⟨S8192, .i32⟩ : BufTy).Contents (Elt F)) (x16 : (⟨S6000x64, .f32⟩ : BufTy).Contents (Elt F)) :
    Host.gather gather_S6000x64_S8192x1_S8192x64_1_0_n_n_0_1_164 x16 (rowIdx 6000#32 x0) = Cert.ReferenceIdeal.Read.val_main_v72 (F := F) x0 x16 := rfl

theorem gather_v47_ref (x1 : (⟨S8192, .i32⟩ : BufTy).Contents (Elt F)) (x15 : (⟨S12000x64, .f32⟩ : BufTy).Contents (Elt F)) :
    Host.gather gather_S12000x64_S8192x1_S8192x64_1_0_n_n_0_1_164 x15 (rowIdx 12000#32 x1) = Cert.ReferenceIdeal.Read.val_main_v87 (F := F) x1 x15 := rfl

/-- The gather of items_relation: over any array that is the reference's items_relation stage entry by entry, it is the
    reference's gather stage. -/
theorem gather_v54_ref (x1 : (⟨S8192, .i32⟩ : BufTy).Contents (Elt F)) (x2 : (⟨S6000x12000, .f32⟩ : BufTy).Contents (Elt F))
    (x15 : (⟨S12000x64, .f32⟩ : BufTy).Contents (Elt F)) (x16 : (⟨S6000x64, .f32⟩ : BufTy).Contents (Elt F))
    (x17 : (⟨S64x64, .f32⟩ : BufTy).Contents (Elt F)) (x18 : (⟨S64, .f32⟩ : BufTy).Contents (Elt F))
    (G : (⟨S12000x64, .f32⟩ : BufTy).Contents (Elt F))
    (hG : ∀ (i : Fin 12000) (d : Fin 64), G (ix2 i d) = Cert.ReferenceIdeal.Read.val_main_v65 (F := F) x2 x15 x16 x17 x18 (ix2 i d)) :
    Host.gather gather_S12000x64_S8192x1_S8192x64_1_0_n_n_0_1_164 G (rowIdx 12000#32 x1) = Cert.ReferenceIdeal.Read.val_main_v79 (F := F) x1 x2 x15 x16 x17 x18 := by
  have e : G = Cert.ReferenceIdeal.Read.val_main_v65 (F := F) x2 x15 x16 x17 x18 := funext fun j => by rw [eq_ix2 j]; exact hG _ _
  rw [e]
  rfl

/-! ## The layout operations read at an index -/

/-- A bias vector made a row reads, at (0, d), the vector at d. -/
theorem row_apply {D : Nat} {α : Type} (b : (⟨1, ![D]⟩ : Shape).Idx → α) (h : (⟨1, ![D]⟩ : Shape).ShapeCasts ⟨2, ![1, D]⟩) (d : Fin D) :
    shapeCast ⟨2, ![1, D]⟩ b h (ix2 (0 : Fin 1) d) = b (ix1 d) :=
  shapeCast_a_1a_apply b h 0 d

/-- A one-column array made a vector reads, at b, the column at (b, 0). -/
theorem col_apply {n : Nat} {α : Type} (o : (⟨2, ![n, 1]⟩ : Shape).Idx → α) (h : (⟨2, ![n, 1]⟩ : Shape).ShapeCasts ⟨1, ![n]⟩) (b : Fin n) :
    shapeCast ⟨1, ![n]⟩ o h (ix1 b) = o (ix2 b (0 : Fin 1)) :=
  shapeCast_apply o h _ _ (by
    rw [Shape.rowMajor_val_two, Shape.rowMajor_val_one]
    show b.val * 1 + 0 = b.val
    rw [Nat.mul_one, Nat.add_zero])

/-! ## At the ideal values a narrowing conversion is the identity -/

/-- The transposed and narrowed item_rel reads, at (e, i), item_rel at (i, e). -/
theorem itemT_apply (x15 : (⟨S12000x64, .f32⟩ : BufTy).Contents (Elt Ideal)) (e : Fin 64) (i : Fin 12000) :
    (truncf (F := Ideal) .bf16 (transpose S64x12000 [1, 0] x15 transposes_S12000x64_S64x12000_1_0) bitsLt_bf16_f32
        : (⟨S64x12000, .bf16⟩ : BufTy).Contents (Elt Ideal)) (ix2 e i) = x15 (ix2 i e) :=
  transpose_ix2_apply x15 transposes_S12000x64_S64x12000_1_0 e i

/-- The narrowed user_rel is user_rel. -/
theorem userB_eq (x16 : (⟨S6000x64, .f32⟩ : BufTy).Contents (Elt Ideal)) :
    (truncf (F := Ideal) .bf16 x16 bitsLt_bf16_f32 : (⟨S6000x64, .bf16⟩ : BufTy).Contents (Elt Ideal)) = x16 := rfl

end Cert.KernelIdeal.Glue

end
-- ==== Proof.ArgsKept.lean ====
/-
  The program's arguments end as launched: no host operation writes one, and a region either bypasses it or reads it
  through an input window, whose array no write-back touches.
-/
import proofs.«163843_j81870666596358_2_alg».proof.Proof.Vals
import proofs.«163843_j81870666596358_2_alg».proof.Proof.Glue

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-! ## What each item leaves unchanged -/

/-- A host stretch keeps every reference it does not write. -/
theorem W1_of (c : Dev nD) {r : Ref sig .tc} (h : r ∉ Glue.p0o0_W) :
    W1 m c (Proc.devRef .tc r) = W0 m c (Proc.devRef .tc r) := Glue.p0o0_keep _ h
theorem W4_of (c : Dev nD) (A0 : ArrC (F := F) 0 c) (A1 : ArrC (F := F) 1 c) {r : Ref sig .tc} (h : r ∉ Glue.p0o1_W) :
    W4 m c A0 A1 (Proc.devRef .tc r) = W3 m c A0 A1 (Proc.devRef .tc r) := Glue.p0o1_keep _ h
theorem W5_of (c : Dev nD) (A0 : ArrC (F := F) 0 c) (A1 : ArrC (F := F) 1 c) {r : Ref sig .tc} (h : r ∉ Glue.p1o0_W) :
    W5 m c A0 A1 (Proc.devRef .tc r) = W4 m c A0 A1 (Proc.devRef .tc r) := Glue.p1o0_keep _ h
theorem W7_of (c : Dev nD) (A0 : ArrC (F := F) 0 c) (A1 : ArrC (F := F) 1 c) (A2 : ArrC (F := F) 2 c) {r : Ref sig .tc}
    (h : r ∉ Glue.p1o1_W) : W7 m c A0 A1 A2 (Proc.devRef .tc r) = W6 m c A0 A1 A2 (Proc.devRef .tc r) := Glue.p1o1_keep _ h

/-- A region keeps every buffer that is none of its arrays, -/
theorem W2_of_ne (c : Dev nD) (A0 : ArrC (F := F) 0 c) (r : Ref sig .tc) (h : ∀ w, Pipeline.arrRef (sp0 (F := F)) w ≠ r) :
    W2 m c A0 (Proc.devRef .tc r) = W1 m c (Proc.devRef .tc r) := Pipeline.withArrays_of_ne _ c _ A0 r h
theorem W3_of_ne (c : Dev nD) (A0 : ArrC (F := F) 0 c) (A1 : ArrC (F := F) 1 c) (r : Ref sig .tc)
    (h : ∀ w, Pipeline.arrRef (sp1 (F := F)) w ≠ r) :
    W3 m c A0 A1 (Proc.devRef .tc r) = W2 m c A0 (Proc.devRef .tc r) := Pipeline.withArrays_of_ne _ c _ A1 r h
theorem W6_of_ne (c : Dev nD) (A0 : ArrC (F := F) 0 c) (A1 : ArrC (F := F) 1 c) (A2 : ArrC (F := F) 2 c) (r : Ref sig .tc)
    (h : ∀ w, Pipeline.arrRef (sp2 (F := F)) w ≠ r) :
    W6 m c A0 A1 A2 (Proc.devRef .tc r) = W5 m c A0 A1 (Proc.devRef .tc r) := Pipeline.withArrays_of_ne _ c _ A2 r h

/-- and leaves each of its arrays at the contents given for it. -/
theorem W2_arr (c : Dev nD) (A0 : ArrC (F := F) 0 c) (w) :
    W2 m c A0 (Proc.devRef .tc (Pipeline.arrRef (sp0 (F := F)) w)) = A0 w :=
  Pipeline.withArrays_arr _ launch0.win.arr_inj c _ A0 w
theorem W3_arr (c : Dev nD) (A0 : ArrC (F := F) 0 c) (A1 : ArrC (F := F) 1 c) (w) :
    W3 m c A0 A1 (Proc.devRef .tc (Pipeline.arrRef (sp1 (F := F)) w)) = A1 w :=
  Pipeline.withArrays_arr _ launch1.win.arr_inj c _ A1 w
theorem W6_arr (c : Dev nD) (A0 : ArrC (F := F) 0 c) (A1 : ArrC (F := F) 1 c) (A2 : ArrC (F := F) 2 c) (w) :
    W6 m c A0 A1 A2 (Proc.devRef .tc (Pipeline.arrRef (sp2 (F := F)) w)) = A2 w :=
  Pipeline.withArrays_arr _ launch2.win.arr_inj c _ A2 w

/-! ## The arguments -/

/-- What is known of the contents a region's arrays are left at: an input window's array is as the region was entered. -/
abbrev Kept0 (c : Dev nD) (A0 : ArrC (F := F) 0 c) : Prop :=
  ∀ w, w ≠ 3 → A0 w = W1 m c (Proc.devRef .tc (Pipeline.arrRef (sp0 (F := F)) w))
abbrev Kept1 (c : Dev nD) (A0 : ArrC (F := F) 0 c) (A1 : ArrC (F := F) 1 c) : Prop :=
  ∀ w, w ≠ 4 → A1 w = W2 m c A0 (Proc.devRef .tc (Pipeline.arrRef (sp1 (F := F)) w))
abbrev Kept2 (c : Dev nD) (A0 : ArrC (F := F) 0 c) (A1 : ArrC (F := F) 1 c) (A2 : ArrC (F := F) 2 c) : Prop :=
  ∀ w, w ≠ 15 → w ≠ 16 → A2 w = W5 m c A0 A1 (Proc.devRef .tc (Pipeline.arrRef (sp2 (F := F)) w))

/-- An argument no region stages and no host operation writes is as launched at the end. -/
theorem W7_bypass (c : Dev nD) (A0 : ArrC (F := F) 0 c) (A1 : ArrC (F := F) 1 c) (A2 : ArrC (F := F) 2 c) (r : Ref sig .tc)
    (k3 : r ∉ Glue.p1o1_W) (n2 : ∀ w, Pipeline.arrRef (sp2 (F := F)) w ≠ r) (k2 : r ∉ Glue.p1o0_W) (k1 : r ∉ Glue.p0o1_W)
    (n1 : ∀ w, Pipeline.arrRef (sp1 (F := F)) w ≠ r) (n0 : ∀ w, Pipeline.arrRef (sp0 (F := F)) w ≠ r) (k0 : r ∉ Glue.p0o0_W) :
    W7 m c A0 A1 A2 (Proc.devRef .tc r) = m ((c.tc : Thread nD τ).loc r) :=
  calc W7 m c A0 A1 A2 (Proc.devRef .tc r)
    _ = W6 m c A0 A1 A2 (Proc.devRef .tc r) := W7_of m c A0 A1 A2 k3
    _ = W5 m c A0 A1 (Proc.devRef .tc r) := W6_of_ne m c A0 A1 A2 r n2
    _ = W4 m c A0 A1 (Proc.devRef .tc r) := W5_of m c A0 A1 k2
    _ = W3 m c A0 A1 (Proc.devRef .tc r) := W4_of m c A0 A1 k1
    _ = W2 m c A0 (Proc.devRef .tc r) := W3_of_ne m c A0 A1 r n1
    _ = W1 m c (Proc.devRef .tc r) := W2_of_ne m c A0 r n0
    _ = W0 m c (Proc.devRef .tc r) := W1_of m c k0
    _ = m ((c.tc : Thread nD τ).loc r) := rfl

theorem W7_arg0 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg0) = m ((c.tc : Thread nD τ).loc main_arg0) :=
  W7_bypass m c A0 A1 A2 main_arg0 (by decide) (by decide : ∀ w : Fin 17, Pipeline.arrRef spec2 w ≠ main_arg0) (by decide) (by decide)
    (by decide : ∀ w : Fin 5, Pipeline.arrRef spec1 w ≠ main_arg0) (by decide : ∀ w : Fin 4, Pipeline.arrRef spec0 w ≠ main_arg0) (by decide)

theorem W7_arg1 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg1) = m ((c.tc : Thread nD τ).loc main_arg1) :=
  W7_bypass m c A0 A1 A2 main_arg1 (by decide) (by decide : ∀ w : Fin 17, Pipeline.arrRef spec2 w ≠ main_arg1) (by decide) (by decide)
    (by decide : ∀ w : Fin 5, Pipeline.arrRef spec1 w ≠ main_arg1) (by decide : ∀ w : Fin 4, Pipeline.arrRef spec0 w ≠ main_arg1) (by decide)

theorem W7_arg2 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg2) = m ((c.tc : Thread nD τ).loc main_arg2) :=
  calc W7 m c A0 A1 A2 (Proc.devRef .tc main_arg2)
    _ = W6 m c A0 A1 A2 (Proc.devRef .tc main_arg2) := W7_of m c A0 A1 A2 (by decide)
    _ = W5 m c A0 A1 (Proc.devRef .tc main_arg2) := W6_of_ne m c A0 A1 A2 main_arg2 (by decide : ∀ w : Fin 17, Pipeline.arrRef spec2 w ≠ main_arg2)
    _ = W4 m c A0 A1 (Proc.devRef .tc main_arg2) := W5_of m c A0 A1 (by decide)
    _ = W3 m c A0 A1 (Proc.devRef .tc main_arg2) := W4_of m c A0 A1 (by decide)
    _ = W2 m c A0 (Proc.devRef .tc main_arg2) := (W3_arr m c A0 A1 1).trans (h1 1 (by decide : (1 : Fin 5) ≠ 4))
    _ = W1 m c (Proc.devRef .tc main_arg2) := W2_of_ne m c A0 main_arg2 (by decide : ∀ w : Fin 4, Pipeline.arrRef spec0 w ≠ main_arg2)
    _ = W0 m c (Proc.devRef .tc main_arg2) := W1_of m c (by decide)
    _ = m ((c.tc : Thread nD τ).loc main_arg2) := rfl

theorem W7_arg3 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg3) = m ((c.tc : Thread nD τ).loc main_arg3) :=
  W7_bypass m c A0 A1 A2 main_arg3 (by decide) (by decide : ∀ w : Fin 17, Pipeline.arrRef spec2 w ≠ main_arg3) (by decide) (by decide)
    (by decide : ∀ w : Fin 5, Pipeline.arrRef spec1 w ≠ main_arg3) (by decide : ∀ w : Fin 4, Pipeline.arrRef spec0 w ≠ main_arg3) (by decide)

theorem W7_arg4 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg4) = m ((c.tc : Thread nD τ).loc main_arg4) :=
  W7_bypass m c A0 A1 A2 main_arg4 (by decide) (by decide : ∀ w : Fin 17, Pipeline.arrRef spec2 w ≠ main_arg4) (by decide) (by decide)
    (by decide : ∀ w : Fin 5, Pipeline.arrRef spec1 w ≠ main_arg4) (by decide : ∀ w : Fin 4, Pipeline.arrRef spec0 w ≠ main_arg4) (by decide)

theorem W7_arg5 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg5) = m ((c.tc : Thread nD τ).loc main_arg5) :=
  W7_bypass m c A0 A1 A2 main_arg5 (by decide) (by decide : ∀ w : Fin 17, Pipeline.arrRef spec2 w ≠ main_arg5) (by decide) (by decide)
    (by decide : ∀ w : Fin 5, Pipeline.arrRef spec1 w ≠ main_arg5) (by decide : ∀ w : Fin 4, Pipeline.arrRef spec0 w ≠ main_arg5) (by decide)

theorem W7_arg6 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg6) = m ((c.tc : Thread nD τ).loc main_arg6) :=
  W7_bypass m c A0 A1 A2 main_arg6 (by decide) (by decide : ∀ w : Fin 17, Pipeline.arrRef spec2 w ≠ main_arg6) (by decide) (by decide)
    (by decide : ∀ w : Fin 5, Pipeline.arrRef spec1 w ≠ main_arg6) (by decide : ∀ w : Fin 4, Pipeline.arrRef spec0 w ≠ main_arg6) (by decide)

theorem W7_arg7 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg7) = m ((c.tc : Thread nD τ).loc main_arg7) :=
  calc W7 m c A0 A1 A2 (Proc.devRef .tc main_arg7)
    _ = W6 m c A0 A1 A2 (Proc.devRef .tc main_arg7) := W7_of m c A0 A1 A2 (by decide)
    _ = W5 m c A0 A1 (Proc.devRef .tc main_arg7) := (W6_arr m c A0 A1 A2 7).trans (h2 7 (by decide : (7 : Fin 17) ≠ 15) (by decide : (7 : Fin 17) ≠ 16))
    _ = W4 m c A0 A1 (Proc.devRef .tc main_arg7) := W5_of m c A0 A1 (by decide)
    _ = W3 m c A0 A1 (Proc.devRef .tc main_arg7) := W4_of m c A0 A1 (by decide)
    _ = W2 m c A0 (Proc.devRef .tc main_arg7) := W3_of_ne m c A0 A1 main_arg7 (by decide : ∀ w : Fin 5, Pipeline.arrRef spec1 w ≠ main_arg7)
    _ = W1 m c (Proc.devRef .tc main_arg7) := W2_of_ne m c A0 main_arg7 (by decide : ∀ w : Fin 4, Pipeline.arrRef spec0 w ≠ main_arg7)
    _ = W0 m c (Proc.devRef .tc main_arg7) := W1_of m c (by decide)
    _ = m ((c.tc : Thread nD τ).loc main_arg7) := rfl

theorem W7_arg8 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg8) = m ((c.tc : Thread nD τ).loc main_arg8) :=
  W7_bypass m c A0 A1 A2 main_arg8 (by decide) (by decide : ∀ w : Fin 17, Pipeline.arrRef spec2 w ≠ main_arg8) (by decide) (by decide)
    (by decide : ∀ w : Fin 5, Pipeline.arrRef spec1 w ≠ main_arg8) (by decide : ∀ w : Fin 4, Pipeline.arrRef spec0 w ≠ main_arg8) (by decide)

theorem W7_arg9 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg9) = m ((c.tc : Thread nD τ).loc main_arg9) :=
  calc W7 m c A0 A1 A2 (Proc.devRef .tc main_arg9)
    _ = W6 m c A0 A1 A2 (Proc.devRef .tc main_arg9) := W7_of m c A0 A1 A2 (by decide)
    _ = W5 m c A0 A1 (Proc.devRef .tc main_arg9) := (W6_arr m c A0 A1 A2 9).trans (h2 9 (by decide : (9 : Fin 17) ≠ 15) (by decide : (9 : Fin 17) ≠ 16))
    _ = W4 m c A0 A1 (Proc.devRef .tc main_arg9) := W5_of m c A0 A1 (by decide)
    _ = W3 m c A0 A1 (Proc.devRef .tc main_arg9) := W4_of m c A0 A1 (by decide)
    _ = W2 m c A0 (Proc.devRef .tc main_arg9) := W3_of_ne m c A0 A1 main_arg9 (by decide : ∀ w : Fin 5, Pipeline.arrRef spec1 w ≠ main_arg9)
    _ = W1 m c (Proc.devRef .tc main_arg9) := W2_of_ne m c A0 main_arg9 (by decide : ∀ w : Fin 4, Pipeline.arrRef spec0 w ≠ main_arg9)
    _ = W0 m c (Proc.devRef .tc main_arg9) := W1_of m c (by decide)
    _ = m ((c.tc : Thread nD τ).loc main_arg9) := rfl

theorem W7_arg10 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg10) = m ((c.tc : Thread nD τ).loc main_arg10) :=
  W7_bypass m c A0 A1 A2 main_arg10 (by decide) (by decide : ∀ w : Fin 17, Pipeline.arrRef spec2 w ≠ main_arg10) (by decide) (by decide)
    (by decide : ∀ w : Fin 5, Pipeline.arrRef spec1 w ≠ main_arg10) (by decide : ∀ w : Fin 4, Pipeline.arrRef spec0 w ≠ main_arg10) (by decide)

theorem W7_arg11 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg11) = m ((c.tc : Thread nD τ).loc main_arg11) :=
  calc W7 m c A0 A1 A2 (Proc.devRef .tc main_arg11)
    _ = W6 m c A0 A1 A2 (Proc.devRef .tc main_arg11) := W7_of m c A0 A1 A2 (by decide)
    _ = W5 m c A0 A1 (Proc.devRef .tc main_arg11) := (W6_arr m c A0 A1 A2 11).trans (h2 11 (by decide : (11 : Fin 17) ≠ 15) (by decide : (11 : Fin 17) ≠ 16))
    _ = W4 m c A0 A1 (Proc.devRef .tc main_arg11) := W5_of m c A0 A1 (by decide)
    _ = W3 m c A0 A1 (Proc.devRef .tc main_arg11) := W4_of m c A0 A1 (by decide)
    _ = W2 m c A0 (Proc.devRef .tc main_arg11) := W3_of_ne m c A0 A1 main_arg11 (by decide : ∀ w : Fin 5, Pipeline.arrRef spec1 w ≠ main_arg11)
    _ = W1 m c (Proc.devRef .tc main_arg11) := W2_of_ne m c A0 main_arg11 (by decide : ∀ w : Fin 4, Pipeline.arrRef spec0 w ≠ main_arg11)
    _ = W0 m c (Proc.devRef .tc main_arg11) := W1_of m c (by decide)
    _ = m ((c.tc : Thread nD τ).loc main_arg11) := rfl

theorem W7_arg12 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg12) = m ((c.tc : Thread nD τ).loc main_arg12) :=
  W7_bypass m c A0 A1 A2 main_arg12 (by decide) (by decide : ∀ w : Fin 17, Pipeline.arrRef spec2 w ≠ main_arg12) (by decide) (by decide)
    (by decide : ∀ w : Fin 5, Pipeline.arrRef spec1 w ≠ main_arg12) (by decide : ∀ w : Fin 4, Pipeline.arrRef spec0 w ≠ main_arg12) (by decide)

theorem W7_arg13 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg13) = m ((c.tc : Thread nD τ).loc main_arg13) :=
  calc W7 m c A0 A1 A2 (Proc.devRef .tc main_arg13)
    _ = W6 m c A0 A1 A2 (Proc.devRef .tc main_arg13) := W7_of m c A0 A1 A2 (by decide)
    _ = W5 m c A0 A1 (Proc.devRef .tc main_arg13) := (W6_arr m c A0 A1 A2 13).trans (h2 13 (by decide : (13 : Fin 17) ≠ 15) (by decide : (13 : Fin 17) ≠ 16))
    _ = W4 m c A0 A1 (Proc.devRef .tc main_arg13) := W5_of m c A0 A1 (by decide)
    _ = W3 m c A0 A1 (Proc.devRef .tc main_arg13) := W4_of m c A0 A1 (by decide)
    _ = W2 m c A0 (Proc.devRef .tc main_arg13) := W3_of_ne m c A0 A1 main_arg13 (by decide : ∀ w : Fin 5, Pipeline.arrRef spec1 w ≠ main_arg13)
    _ = W1 m c (Proc.devRef .tc main_arg13) := W2_of_ne m c A0 main_arg13 (by decide : ∀ w : Fin 4, Pipeline.arrRef spec0 w ≠ main_arg13)
    _ = W0 m c (Proc.devRef .tc main_arg13) := W1_of m c (by decide)
    _ = m ((c.tc : Thread nD τ).loc main_arg13) := rfl

theorem W7_arg14 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg14) = m ((c.tc : Thread nD τ).loc main_arg14) :=
  W7_bypass m c A0 A1 A2 main_arg14 (by decide) (by decide : ∀ w : Fin 17, Pipeline.arrRef spec2 w ≠ main_arg14) (by decide) (by decide)
    (by decide : ∀ w : Fin 5, Pipeline.arrRef spec1 w ≠ main_arg14) (by decide : ∀ w : Fin 4, Pipeline.arrRef spec0 w ≠ main_arg14) (by decide)

theorem W7_arg15 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg15) = m ((c.tc : Thread nD τ).loc main_arg15) :=
  W7_bypass m c A0 A1 A2 main_arg15 (by decide) (by decide : ∀ w : Fin 17, Pipeline.arrRef spec2 w ≠ main_arg15) (by decide) (by decide)
    (by decide : ∀ w : Fin 5, Pipeline.arrRef spec1 w ≠ main_arg15) (by decide : ∀ w : Fin 4, Pipeline.arrRef spec0 w ≠ main_arg15) (by decide)

theorem W7_arg16 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg16) = m ((c.tc : Thread nD τ).loc main_arg16) :=
  calc W7 m c A0 A1 A2 (Proc.devRef .tc main_arg16)
    _ = W6 m c A0 A1 A2 (Proc.devRef .tc main_arg16) := W7_of m c A0 A1 A2 (by decide)
    _ = W5 m c A0 A1 (Proc.devRef .tc main_arg16) := W6_of_ne m c A0 A1 A2 main_arg16 (by decide : ∀ w : Fin 17, Pipeline.arrRef spec2 w ≠ main_arg16)
    _ = W4 m c A0 A1 (Proc.devRef .tc main_arg16) := W5_of m c A0 A1 (by decide)
    _ = W3 m c A0 A1 (Proc.devRef .tc main_arg16) := W4_of m c A0 A1 (by decide)
    _ = W2 m c A0 (Proc.devRef .tc main_arg16) := W3_of_ne m c A0 A1 main_arg16 (by decide : ∀ w : Fin 5, Pipeline.arrRef spec1 w ≠ main_arg16)
    _ = W1 m c (Proc.devRef .tc main_arg16) := (W2_arr m c A0 0).trans (h0 0 (by decide : (0 : Fin 4) ≠ 3))
    _ = W0 m c (Proc.devRef .tc main_arg16) := W1_of m c (by decide)
    _ = m ((c.tc : Thread nD τ).loc main_arg16) := rfl

theorem W7_arg17 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg17) = m ((c.tc : Thread nD τ).loc main_arg17) :=
  calc W7 m c A0 A1 A2 (Proc.devRef .tc main_arg17)
    _ = W6 m c A0 A1 A2 (Proc.devRef .tc main_arg17) := W7_of m c A0 A1 A2 (by decide)
    _ = W5 m c A0 A1 (Proc.devRef .tc main_arg17) := W6_of_ne m c A0 A1 A2 main_arg17 (by decide : ∀ w : Fin 17, Pipeline.arrRef spec2 w ≠ main_arg17)
    _ = W4 m c A0 A1 (Proc.devRef .tc main_arg17) := W5_of m c A0 A1 (by decide)
    _ = W3 m c A0 A1 (Proc.devRef .tc main_arg17) := W4_of m c A0 A1 (by decide)
    _ = W2 m c A0 (Proc.devRef .tc main_arg17) := W3_of_ne m c A0 A1 main_arg17 (by decide : ∀ w : Fin 5, Pipeline.arrRef spec1 w ≠ main_arg17)
    _ = W1 m c (Proc.devRef .tc main_arg17) := (W2_arr m c A0 1).trans (h0 1 (by decide : (1 : Fin 4) ≠ 3))
    _ = W0 m c (Proc.devRef .tc main_arg17) := W1_of m c (by decide)
    _ = m ((c.tc : Thread nD τ).loc main_arg17) := rfl

theorem W7_arg18 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg18) = m ((c.tc : Thread nD τ).loc main_arg18) :=
  W7_bypass m c A0 A1 A2 main_arg18 (by decide) (by decide : ∀ w : Fin 17, Pipeline.arrRef spec2 w ≠ main_arg18) (by decide) (by decide)
    (by decide : ∀ w : Fin 5, Pipeline.arrRef spec1 w ≠ main_arg18) (by decide : ∀ w : Fin 4, Pipeline.arrRef spec0 w ≠ main_arg18) (by decide)

/-- Every argument ends as launched. -/
theorem args_kept (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg0) = m ((c.tc : Thread nD τ).loc main_arg0)
      ∧ W7 m c A0 A1 A2 (Proc.devRef .tc main_arg1) = m ((c.tc : Thread nD τ).loc main_arg1)
      ∧ W7 m c A0 A1 A2 (Proc.devRef .tc main_arg2) = m ((c.tc : Thread nD τ).loc main_arg2)
      ∧ W7 m c A0 A1 A2 (Proc.devRef .tc main_arg3) = m ((c.tc : Thread nD τ).loc main_arg3)
      ∧ W7 m c A0 A1 A2 (Proc.devRef .tc main_arg4) = m ((c.tc : Thread nD τ).loc main_arg4)
      ∧ W7 m c A0 A1 A2 (Proc.devRef .tc main_arg5) = m ((c.tc : Thread nD τ).loc main_arg5)
      ∧ W7 m c A0 A1 A2 (Proc.devRef .tc main_arg6) = m ((c.tc : Thread nD τ).loc main_arg6)
      ∧ W7 m c A0 A1 A2 (Proc.devRef .tc main_arg7) = m ((c.tc : Thread nD τ).loc main_arg7)
      ∧ W7 m c A0 A1 A2 (Proc.devRef .tc main_arg8) = m ((c.tc : Thread nD τ).loc main_arg8)
      ∧ W7 m c A0 A1 A2 (Proc.devRef .tc main_arg9) = m ((c.tc : Thread nD τ).loc main_arg9)
      ∧ W7 m c A0 A1 A2 (Proc.devRef .tc main_arg10) = m ((c.tc : Thread nD τ).loc main_arg10)
      ∧ W7 m c A0 A1 A2 (Proc.devRef .tc main_arg11) = m ((c.tc : Thread nD τ).loc main_arg11)
      ∧ W7 m c A0 A1 A2 (Proc.devRef .tc main_arg12) = m ((c.tc : Thread nD τ).loc main_arg12)
      ∧ W7 m c A0 A1 A2 (Proc.devRef .tc main_arg13) = m ((c.tc : Thread nD τ).loc main_arg13)
      ∧ W7 m c A0 A1 A2 (Proc.devRef .tc main_arg14) = m ((c.tc : Thread nD τ).loc main_arg14)
      ∧ W7 m c A0 A1 A2 (Proc.devRef .tc main_arg15) = m ((c.tc : Thread nD τ).loc main_arg15)
      ∧ W7 m c A0 A1 A2 (Proc.devRef .tc main_arg16) = m ((c.tc : Thread nD τ).loc main_arg16)
      ∧ W7 m c A0 A1 A2 (Proc.devRef .tc main_arg17) = m ((c.tc : Thread nD τ).loc main_arg17)
      ∧ W7 m c A0 A1 A2 (Proc.devRef .tc main_arg18) = m ((c.tc : Thread nD τ).loc main_arg18) :=
  ⟨W7_arg0 m c A0 A1 A2 h0 h1 h2,
    W7_arg1 m c A0 A1 A2 h0 h1 h2,
    W7_arg2 m c A0 A1 A2 h0 h1 h2,
    W7_arg3 m c A0 A1 A2 h0 h1 h2,
    W7_arg4 m c A0 A1 A2 h0 h1 h2,
    W7_arg5 m c A0 A1 A2 h0 h1 h2,
    W7_arg6 m c A0 A1 A2 h0 h1 h2,
    W7_arg7 m c A0 A1 A2 h0 h1 h2,
    W7_arg8 m c A0 A1 A2 h0 h1 h2,
    W7_arg9 m c A0 A1 A2 h0 h1 h2,
    W7_arg10 m c A0 A1 A2 h0 h1 h2,
    W7_arg11 m c A0 A1 A2 h0 h1 h2,
    W7_arg12 m c A0 A1 A2 h0 h1 h2,
    W7_arg13 m c A0 A1 A2 h0 h1 h2,
    W7_arg14 m c A0 A1 A2 h0 h1 h2,
    W7_arg15 m c A0 A1 A2 h0 h1 h2,
    W7_arg16 m c A0 A1 A2 h0 h1 h2,
    W7_arg17 m c A0 A1 A2 h0 h1 h2,
    W7_arg18 m c A0 A1 A2 h0 h1 h2⟩

end Cert.KernelIdeal.Hand

end
-- ==== Proof.Kept.lean ====
/-
  A region's operand arrays leave the region as they entered it: an array only input windows read is never written
  back, so after any number of points it holds its entry contents. For any float instance.
-/
import proofs.«163843_j81870666596358_2_alg».proof.Proof.Vals
import proofs.«163843_j81870666596358_2_alg».proof.Proof.Reg0
import proofs.«163843_j81870666596358_2_alg».proof.Proof.Reg1
import proofs.«163843_j81870666596358_2_alg».proof.Proof.Reg2
import proofs.«163843_j81870666596358_2_alg».proof.Proof.ArgsKept

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat RDat)

/-- Every window of a region but its results' is an input. -/
theorem win0_in : ∀ w : Fin cfg0.W, w ≠ 3 → (cfg0.win w).isOut = false := by decide
theorem win1_in : ∀ w : Fin cfg1.W, w ≠ 4 → (cfg1.win w).isOut = false := by decide
theorem win2_in : ∀ w : Fin cfg2.W, w ≠ 15 → w ≠ 16 → (cfg2.win w).isOut = false := by decide

variable {F : FTy → Type} [FloatOps F] [Facts]
variable (m : (ℓ : Loc nD τ sig) → Buf (Elt F) ℓ)

/-- Region 0's three operand arrays leave the region as they entered it. -/
theorem kept0 (c : Dev nD) (A0 : ArrC (F := F) 0 c)
    (hA0 : ∀ w, (Reg0.rdat (U := Alg) c (tcv c (W1 m c))).ArrAt w cfg0.N (A0 w)) : Kept0 m c A0 := by
  intro w h3
  exact (congrFun ((Reg0.rdat (U := Alg) c (tcv c (W1 m c))).ArrAt_in w (win0_in w h3) cfg0.N) (A0 w)).mp (hA0 w)

/-- Region 1's four operand arrays leave the region as they entered it. -/
theorem kept1 (c : Dev nD) (A0 : ArrC (F := F) 0 c) (A1 : ArrC (F := F) 1 c)
    (hA1 : ∀ w, (Reg1.rdat (U := Alg) c (tcv c (W2 m c A0))).ArrAt w cfg1.N (A1 w)) : Kept1 m c A0 A1 := by
  intro w h4
  exact (congrFun ((Reg1.rdat (U := Alg) c (tcv c (W2 m c A0))).ArrAt_in w (win1_in w h4) cfg1.N) (A1 w)).mp (hA1 w)

/-- Region 2's fifteen operand arrays leave the region as they entered it. -/
theorem kept2 (c : Dev nD) (A0 : ArrC (F := F) 0 c) (A1 : ArrC (F := F) 1 c) (A2 : ArrC (F := F) 2 c)
    (hA2 : ∀ w, (Reg2.rdat (U := Alg) c (tcv c (W5 m c A0 A1))).ArrAt w cfg2.N (A2 w)) : Kept2 m c A0 A1 A2 := by
  intro w h15 h16
  exact (congrFun ((Reg2.rdat (U := Alg) c (tcv c (W5 m c A0 A1))).ArrAt_in w (win2_in w h15 h16) cfg2.N) (A2 w)).mp (hA2 w)

/-- The three together. -/
theorem kept_all (c : Dev nD) (A0 : ArrC (F := F) 0 c) (A1 : ArrC (F := F) 1 c) (A2 : ArrC (F := F) 2 c)
    (hA0 : ∀ w, (Reg0.rdat (U := Alg) c (tcv c (W1 m c))).ArrAt w cfg0.N (A0 w))
    (hA1 : ∀ w, (Reg1.rdat (U := Alg) c (tcv c (W2 m c A0))).ArrAt w cfg1.N (A1 w))
    (hA2 : ∀ w, (Reg2.rdat (U := Alg) c (tcv c (W5 m c A0 A1))).ArrAt w cfg2.N (A2 w)) :
    Kept0 m c A0 ∧ Kept1 m c A0 A1 ∧ Kept2 m c A0 A1 A2 :=
  ⟨kept0 m c A0 hA0, kept1 m c A0 A1 hA1, kept2 m c A0 A1 A2 hA2⟩

end Cert.KernelIdeal.Hand

end
-- ==== Proof.FrameOf.lean ====
/-
  The frame from the run: every final memory holds every unscoped buffer at the last valuation, and the last valuation
  at an argument is the launch memory; the two result buffers are read off the same valuation for the value claim.
-/
import proofs.«163843_j81870666596358_2_alg».proof.Proof.Run
import proofs.«163843_j81870666596358_2_alg».proof.Proof.ArgsKept
import proofs.«163843_j81870666596358_2_alg».proof.Proof.Kept

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat RDat)

/-- An unscoped TensorCore buffer is one of the buffers the run's post speaks of. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

variable {F : FTy → Type} [FloatOps F] [Facts]
variable (m : (ℓ : Loc nD τ sig) → Buf (Elt F) ℓ) (ρ : Dev nD → PrngReg)

/-- What the three regions may have left, read as what is known of their operand arrays. -/
theorem St3.kept (x : St3 m) (c : Dev nD) :
    Kept0 m c (x.A0 c) ∧ Kept1 m c (x.A0 c) (x.A1 c) ∧ Kept2 m c (x.A0 c) (x.A1 c) (x.A2 c) :=
  kept_all m c (x.A0 c) (x.A1 c) (x.A2 c) (x.h0 c) (x.h1 c) (x.h2 c)

/-- THE FRAME: every weakly fair execution of @main terminates and every final memory holds each argument as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run _ _ _).mono (fun r h c => by
    obtain ⟨x, hx⟩ := h c
    have hk := x.kept m c
    exact ⟨(hx _ (mem_uc main_arg0 (by decide))).trans (W7_arg0 m c _ _ _ hk.1 hk.2.1 hk.2.2),
      (hx _ (mem_uc main_arg1 (by decide))).trans (W7_arg1 m c _ _ _ hk.1 hk.2.1 hk.2.2),
      (hx _ (mem_uc main_arg2 (by decide))).trans (W7_arg2 m c _ _ _ hk.1 hk.2.1 hk.2.2),
      (hx _ (mem_uc main_arg3 (by decide))).trans (W7_arg3 m c _ _ _ hk.1 hk.2.1 hk.2.2),
      (hx _ (mem_uc main_arg4 (by decide))).trans (W7_arg4 m c _ _ _ hk.1 hk.2.1 hk.2.2),
      (hx _ (mem_uc main_arg5 (by decide))).trans (W7_arg5 m c _ _ _ hk.1 hk.2.1 hk.2.2),
      (hx _ (mem_uc main_arg6 (by decide))).trans (W7_arg6 m c _ _ _ hk.1 hk.2.1 hk.2.2),
      (hx _ (mem_uc main_arg7 (by decide))).trans (W7_arg7 m c _ _ _ hk.1 hk.2.1 hk.2.2),
      (hx _ (mem_uc main_arg8 (by decide))).trans (W7_arg8 m c _ _ _ hk.1 hk.2.1 hk.2.2),
      (hx _ (mem_uc main_arg9 (by decide))).trans (W7_arg9 m c _ _ _ hk.1 hk.2.1 hk.2.2),
      (hx _ (mem_uc main_arg10 (by decide))).trans (W7_arg10 m c _ _ _ hk.1 hk.2.1 hk.2.2),
      (hx _ (mem_uc main_arg11 (by decide))).trans (W7_arg11 m c _ _ _ hk.1 hk.2.1 hk.2.2),
      (hx _ (mem_uc main_arg12 (by decide))).trans (W7_arg12 m c _ _ _ hk.1 hk.2.1 hk.2.2),
      (hx _ (mem_uc main_arg13 (by decide))).trans (W7_arg13 m c _ _ _ hk.1 hk.2.1 hk.2.2),
      (hx _ (mem_uc main_arg14 (by decide))).trans (W7_arg14 m c _ _ _ hk.1 hk.2.1 hk.2.2),
      (hx _ (mem_uc main_arg15 (by decide))).trans (W7_arg15 m c _ _ _ hk.1 hk.2.1 hk.2.2),
      (hx _ (mem_uc main_arg16 (by decide))).trans (W7_arg16 m c _ _ _ hk.1 hk.2.1 hk.2.2),
      (hx _ (mem_uc main_arg17 (by decide))).trans (W7_arg17 m c _ _ _ hk.1 hk.2.1 hk.2.2),
      (hx _ (mem_uc main_arg18 (by decide))).trans (W7_arg18 m c _ _ _ hk.1 hk.2.1 hk.2.2)⟩) (run m ρ)

/-- The same run with the two result buffers kept in the post, each at the last valuation for SOME contents the three
    regions may have left (each satisfying its region's relation). -/
theorem run_results : θ_run (defs (F := F)) (onTc (τ := τ) (main (F := F))) ⟨m, fun _ => 0, ρ⟩ (fun r => ∀ c : Dev nD,
      ∃ x : St3 m,
        r.2.mem ((c.tc : Thread nD τ).loc main_v60) = W7 m c (x.A0 c) (x.A1 c) (x.A2 c) (Proc.devRef .tc main_v60)
        ∧ r.2.mem ((c.tc : Thread nD τ).loc main_v61) = W7 m c (x.A0 c) (x.A1 c) (x.A2 c) (Proc.devRef .tc main_v61)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)) :=
  (θ_run _ _ _).mono (fun r h c => by
    obtain ⟨x, hx⟩ := h c
    have hk := x.kept m c
    exact ⟨x, hx _ (mem_uc main_v60 (by decide)), hx _ (mem_uc main_v61 (by decide)),
      (hx _ (mem_uc main_arg0 (by decide))).trans (W7_arg0 m c _ _ _ hk.1 hk.2.1 hk.2.2),
      (hx _ (mem_uc main_arg1 (by decide))).trans (W7_arg1 m c _ _ _ hk.1 hk.2.1 hk.2.2),
      (hx _ (mem_uc main_arg2 (by decide))).trans (W7_arg2 m c _ _ _ hk.1 hk.2.1 hk.2.2),
      (hx _ (mem_uc main_arg3 (by decide))).trans (W7_arg3 m c _ _ _ hk.1 hk.2.1 hk.2.2),
      (hx _ (mem_uc main_arg4 (by decide))).trans (W7_arg4 m c _ _ _ hk.1 hk.2.1 hk.2.2),
      (hx _ (mem_uc main_arg5 (by decide))).trans (W7_arg5 m c _ _ _ hk.1 hk.2.1 hk.2.2),
      (hx _ (mem_uc main_arg6 (by decide))).trans (W7_arg6 m c _ _ _ hk.1 hk.2.1 hk.2.2),
      (hx _ (mem_uc main_arg7 (by decide))).trans (W7_arg7 m c _ _ _ hk.1 hk.2.1 hk.2.2),
      (hx _ (mem_uc main_arg8 (by decide))).trans (W7_arg8 m c _ _ _ hk.1 hk.2.1 hk.2.2),
      (hx _ (mem_uc main_arg9 (by decide))).trans (W7_arg9 m c _ _ _ hk.1 hk.2.1 hk.2.2),
      (hx _ (mem_uc main_arg10 (by decide))).trans (W7_arg10 m c _ _ _ hk.1 hk.2.1 hk.2.2),
      (hx _ (mem_uc main_arg11 (by decide))).trans (W7_arg11 m c _ _ _ hk.1 hk.2.1 hk.2.2),
      (hx _ (mem_uc main_arg12 (by decide))).trans (W7_arg12 m c _ _ _ hk.1 hk.2.1 hk.2.2),
      (hx _ (mem_uc main_arg13 (by decide))).trans (W7_arg13 m c _ _ _ hk.1 hk.2.1 hk.2.2),
      (hx _ (mem_uc main_arg14 (by decide))).trans (W7_arg14 m c _ _ _ hk.1 hk.2.1 hk.2.2),
      (hx _ (mem_uc main_arg15 (by decide))).trans (W7_arg15 m c _ _ _ hk.1 hk.2.1 hk.2.2),
      (hx _ (mem_uc main_arg16 (by decide))).trans (W7_arg16 m c _ _ _ hk.1 hk.2.1 hk.2.2),
      (hx _ (mem_uc main_arg17 (by decide))).trans (W7_arg17 m c _ _ _ hk.1 hk.2.1 hk.2.2),
      (hx _ (mem_uc main_arg18 (by decide))).trans (W7_arg18 m c _ _ _ hk.1 hk.2.1 hk.2.2)⟩) (run m ρ)

end Cert.KernelIdeal.Hand

end
-- ==== Proof.KKit.lean ====
/-
  Two combinators over the launch library's host segments, for a program whose regions are entered with contents that
  are only known to EXIST (a region before them wrote an array at contents the proof does not name):

  * a family of host segments with one program, indexed by a witness, is ONE host segment whose thread states are the
    family's under an existential quantifier;
  * a kernel region whose proof data depend on such a witness is a host segment too, once the cells' ghost state of its
    pipeline rides in the thread state: the region rule is applied after the witness has been taken out.

  The ghost state comes from a SECOND copy of the pipeline library's algebra (the user algebra is a pair): the launch
  theorem funds its own copy, which no segment uses, and the certificate funds the second from its launch element.
-/
import proofs.«163843_j81870666596358_2_alg».proof.Proof.Gen.Kernel.Launch
import Idealize.ShloMosaic.Lib.Pipeline.Kit
import Idealize.ShloMosaic.Lib.Pipeline.Regions
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

/-- Two copies of the pipeline library's algebra: the launch theorem's own, and the regions'. -/
abbrev Alg : Type := UR sig nD τ × UR sig nD τ

local notation "𝕄" => MT nD τ sig Unit (Elt F) ℕ Alg ℕ

/-- No pipeline has a prefetched table. -/
abbrev adm : (p : Fin 3) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- The copy of the algebra the regions' cells live in. -/
abbrev EPr : Emb (UR sig nD τ) (MT nD τ sig Unit (Elt F) ℕ Alg ℕ) := embR
/-- The launch theorem's own copy. -/
abbrev EPk : Emb (UR sig nD τ) (MT nD τ sig Unit (Elt F) ℕ Alg ℕ) := embL

/-- The host segments of this program. -/
abbrev HS : Type _ := HostSeg (Name := ℕ) (U := Alg) (pcfgs (F := F)) defs₀ 𝒱₀ L lv

/-- The regions' ghost state of the pipelines in S on core c. -/
abbrev ghost (S : Finset (Fin 3)) (c : Dev nD) : sProp 𝕄 := Pipeline.ghostOn (pcfgs (F := F)) adm (EPr (F := F)) S c

/-- A family of host segments with one program is one host segment: from SOME member's entry state to some member's
    exit state (the same member's). -/
def exSeg {X : Type} (prog : Prog (TpuEff nD τ sig (Elt F) (Pipeline.Sig Λ₀ (Fin 3) fun p => (pcfgs (F := F) p).Adm) .tc) PUnit)
    (H : X → HS (F := F)) (hp : ∀ x, (H x).prog = prog) : HS (F := F) where
  prog := prog
  pre c := iprop(∃ x, (H x).pre c)
  post c := iprop(∃ x, (H x).post c)
  run c {β} k K := by
    iintro ⟨Hk, Hbd, ⟨%x, Hpre⟩, Hla⟩
    rw [← hp x]
    iapply ((H x).run c k K)
    isplitl [Hk]
    · iintro ⟨Hb, Hp⟩
      iapply Hk
      isplitl [Hb]; · iexact Hb
      iexists x; iexact Hp
    isplitl [Hbd]; · iexact Hbd
    isplitl [Hpre]; · iexact Hpre
    iexact Hla

set_option backward.isDefEq.respectTransparency.types false in
/-- A kernel region whose proof data depend on a witness x, as a host segment: entered from SOME x's entry state beside
    the ghost state of a set S of pipelines containing its own, it leaves x's exit state beside the ghost state of the
    others. -/
def regionSeg {X : Type} {p : Fin 3}
    (rd : X → (p : Fin 3) → (c : Dev nD) → RDat τ (Elt F) Unit ℕ Alg ℕ (Pipeline.pin (pcfgs (F := F)) adm p) c)
    (R : (x : X) → Pipeline.RDat.RegionSeg (pcfgs (F := F)) adm (rd x) () defs₀ 𝒱₀ L lv p)
    (S : Finset (Fin 3)) (hp : p ∈ S) : HS (F := F) where
  prog := Prog.lift (.customCall (Pipeline.entry p) ())
  pre c := iprop(∃ x, (R x).pre c ∗ ghost (F := F) S c)
  post c := iprop(∃ x, (R x).post c ∗ ghost (F := F) (S.erase p) c)
  run c {β} k K := by
    iintro ⟨Hk, Hbd, ⟨%x, Hpre, Hg⟩, #Hla⟩
    have hwp := Pipeline.RDat.RegionSeg.wp (pcfgs (F := F)) adm (rd x) () cellOf_inj (EPr (F := F)) defs₀ 𝒱₀ L lv (R x) c none
      (fun u h => nomatch h) k K
    rw [show (Prog.lift (.customCall (Pipeline.entry p) ()) >>= k
        : Prog (TpuEff nD τ sig (Elt F) (Pipeline.Sig Λ₀ (Fin 3) fun p => (pcfgs (F := F) p).Adm) .tc) β)
        = .op (.customCall (Pipeline.entry p) ()) k from rfl]
    ihave Hg' := (Entails.of_eq (Pipeline.PerCore.ghostOn_erase (pcfgs (F := F)) (fun _ => adm) (EPr (F := F)) hp c)) $$ Hg
    icases Hg' with ⟨⟨Hcg, Ht⟩, Hrest⟩
    iapply hwp
    isplitl [Hk Hrest]
    · iintro ⟨Hb, Hp⟩
      iapply Hk
      isplitl [Hb]; · iexact Hb
      iexists x
      isplitl [Hp]; · iexact Hp
      iexact Hrest
    isplitl [Hbd]; · iexact Hbd
    isplitl [Hpre]; · iexact Hpre
    isplitr; · iexact Hla
    isplitl [Hcg]; · iexact Hcg
    iexact Ht

/-- The second copy of the launch element funds every pipeline's ghost state on every core. -/
theorem fund_regions :
    (BI.own ((EPr (F := F)) (initOf (Pipeline.cells cfgs cellOf_inj) (Pipeline.launchToks cfgs cellOf_inj))) : sProp 𝕄)
      ⊢ iprop(|==> bigSep Finset.univ fun c : Dev nD => ghost (F := F) Finset.univ c) := by
  refine (Pipeline.fund_ghost cfgs (EPr (F := F)) cellOf_inj).trans (BI.bupd_mono ?_)
  rw [← bigSep_sep']
  refine bigSep_mono fun c _ => ?_
  show _ ⊢ Pipeline.PerCore.ghostOn (pcfgs (F := F)) (fun _ => adm) (EPr (F := F)) Finset.univ c
  unfold Pipeline.PerCore.ghostOn
  rw [bigSep_sep']

end Cert.Kernel.Hand

end
-- ==== Proof.KRegion.lean ====
/-
  One kernel region as the launch library's segment record, for any of the program's three pipelines p, from relational
  proof data whose arrays are entered at the contents a valuation gives them: the arrays are split out of the core's
  unscoped buffers at the entry and put back at the exit at SOME contents the write-backs may leave (the record's exit
  state names them by an existential quantifier); the generator register goes into the class invariant and comes back;
  nothing is owed and the kernel has no semaphore of its own.
-/
import proofs.«163843_j81870666596358_2_alg».proof.Proof.KKit
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ Alg ℕ

/-- A core's TensorCore buffers at some contents. -/
abbrev VT (c : Dev nD) : Type := (b : Ref sig .tc) → Buf (Elt F) ((c.tc : Thread nD τ).loc b)
/-- A valuation read at the TensorCore's references. -/
abbrev tcv (c : Dev nD) (W : Valuation τ sig (Elt F)) : VT (F := F) c := fun b => W (Proc.devRef .tc b)

/-- What rides beside the buffers through every segment: the generator register at some state, nothing owed. -/
abbrev Rr (c : Dev nD) : sProp 𝕄 :=
  iprop((∃ r, prngReg c r) ∗ ∃ W, owes (c.tc : Thread nD τ) (0 : CellTallies nD τ sig Unit) W)

/-- Proof data for every pipeline on every core. -/
abbrev Fam : Type _ := (p : Fin 3) → (c : Dev nD) → RDat τ (Elt F) Unit ℕ Alg ℕ (Pipeline.pin (pcfgs (F := F)) adm p) c

/-- Contents for pipeline p's arrays on core c. -/
abbrev ArrC (p : Fin 3) (c : Dev nD) : Type :=
  (w : Fin (Pipeline.pin (pcfgs (F := F)) adm p).W) → Buf (Elt F) (((Pipeline.pin (pcfgs (F := F)) adm p).win w).arr.view.loc (c.tc : Thread nD τ))

section Region

variable (p : Fin 3) (rds : Fam (F := F)) (kit : Pipeline.LaunchFacts (nD := nD) (τ := τ) cfgs p)
  (Went : Dev nD → Valuation τ sig (Elt F))

local notation "cfgp" => Pipeline.pin (pcfgs (F := F)) adm p

include kit in
set_option backward.isDefEq.respectTransparency.types false in
/-- EXIT, the arrays' part: the pipeline's arrays at contents A and the unscoped rest at V are the core's unscoped
    buffers at any contents V' that has the arrays at A and agrees with V off them. -/
theorem unscopedBufs_of_arraysR (c : Dev nD) (hshare : ∀ w, (rds p c).share w = fullShare)
    (V V' : VT (F := F) c) (A : ArrC (F := F) p c)
    (hF : ∀ w, A w = V' (Pipeline.arrRef (cfgp).spec w))
    (hrest : ∀ b, b ∉ Finset.univ.image (Pipeline.arrRef (cfgp).spec) → V' b = V b) :
    iprop((rds p c).arrays A ∗ Pipeline.unscopedRest (Ix := Unit) (Name := ℕ) (U := Alg) (Lvl := ℕ) (cfgp).spec c V)
      ⊢ (unscopedBufs (Ix := Unit) (Name := ℕ) (U := Alg) (Lvl := ℕ) c V' : sProp 𝕄) := by
  rw [Pipeline.unscopedBufs_split (Pipeline.pin (pcfgs (F := F)) adm) p kit.win.arr_unscoped kit.win.arr_inj c V',
    Pipeline.RDat.arrays_eq (pcfgs (F := F)) adm rds p c kit.arr_whole hshare]
  refine sep_mono (Entails.of_eq (bigSep_congr fun w _ => by rw [hF])) (Entails.of_eq ?_)
  unfold Pipeline.unscopedRest
  exact bigSep_congr fun b hb => by rw [hrest b (Finset.mem_sdiff.mp hb).2]

set_option backward.isDefEq.respectTransparency.types false in
/-- The arrays after every write-back, opened: at SOME contents each may then hold. -/
theorem arraysAt_open (c : Dev nD) :
    ((rds p c).arraysAt (cfgp).N : sProp 𝕄)
      ⊢ iprop(∃ A : ArrC (F := F) p c, ⌜∀ w, (rds p c).ArrAt w (cfgp).N (A w)⌝ ∗ (rds p c).arrays A) := by
  unfold RDat.arraysAt RDat.arrays
  iintro Ha
  ihave Ha' := (BI.bigSep_exists_pi Finset.univ (fun w F => iprop(⌜(rds p c).ArrAt w (cfgp).N F⌝
      ∗ ((cfgp).win w).arr.view.loc (c.tc : Thread nD τ) ↦[((cfgp).win w).arr.view.set]{(rds p c).share w} F))) $$ Ha
  icases Ha' with ⟨%A, Ha⟩
  ihave Ha2 := (BI.bigSep_pure_sep Finset.univ (fun w => (rds p c).ArrAt w (cfgp).N (A w))
      (fun w => ((cfgp).win w).arr.view.loc (c.tc : Thread nD τ) ↦[((cfgp).win w).arr.view.set]{(rds p c).share w} A w)) $$ Ha
  icases Ha2 with ⟨%hA', Ha⟩
  iexists A; isplitr; · ipureintro; exact fun w => hA' w (Finset.mem_univ w)
  iexact Ha

variable (howed : ∀ c t, (rds p c).owed t = 0)
  (hq : ∀ c w, (rds p c).q w = fullShare)
  (hrec : ∀ c t, (rds p c).recorded t = Set.univ)
  (hbody : ∀ c, (rds p c).BodyObligation defs₀ 𝒱₀ () Set.univ)

/-- The region's entry state: every unscoped buffer at the entry valuation. -/
abbrev regPre (c : Dev nD) : sProp 𝕄 :=
  iprop(StableHlo.held (c.tc : Thread nD τ) (Pipeline.ucRefs τ sig) (Went c) ∗ Rr (F := F) c)
/-- The region's exit state: its arrays at some contents A the write-backs may leave, every other buffer as entered. -/
abbrev regPost (c : Dev nD) : sProp 𝕄 :=
  iprop(∃ A : ArrC (F := F) p c, ⌜∀ w, (rds p c).ArrAt w (cfgp).N (A w)⌝
      ∗ StableHlo.held (c.tc : Thread nD τ) (Pipeline.ucRefs τ sig) (Pipeline.withArrays (cfgp).spec c (Went c) A) ∗ Rr (F := F) c)
/-- What bypasses the region: the unscoped buffers that are none of its arrays. -/
abbrev regZ (c : Dev nD) : sProp 𝕄 :=
  Pipeline.unscopedRest (Ix := Unit) (Name := ℕ) (U := Alg) (Lvl := ℕ) (cfgp).spec c (tcv c (Went c))

include kit howed hq hrec in
set_option backward.isDefEq.respectTransparency.types false in
theorem reg_hentry (hA : ∀ c w, (rds p c).A w = tcv c (Went c) (Pipeline.arrRef (cfgp).spec w)) (c : Dev nD) :
    iprop(regPre (F := F) Went c ∗ Pipeline.ownSems0 (Ix := Unit) (Name := ℕ) (U := Alg) (Lvl := ℕ) (Val := Elt F) (τ := τ) (fun k : PEmpty => k.elim) c ∗ levAts L lv)
      ⊢ |={Set.univ}=> iprop((rds p c).arrays (rds p c).A ∗ Pipeline.prefHeld (pcfgs (F := F) p).pre c (fun _ => fullShare) (adm (F := F) p).1
          ∗ (rds p c).owesAt () 0 ∗ iprop(∃ r, prngReg c r) ∗ regZ (F := F) p Went c) := by
  rw [Pipeline.ownSems0_none]
  have hsplit := Pipeline.RDat.arrays_of_unscopedBufs (p := p) (pcfgs (F := F)) adm rds kit.win kit.arr_whole c
    ((rds p c).share_full fun w => hq c w) (tcv c (Went c)) fun w => hA c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.RDat.owesAt Pipeline.owesWithin
    rw [howed c 0]
    icases HO with ⟨%W, HO⟩; iexists W; isplitr; · ipureintro; exact fun _ _ => Or.inl (by rw [hrec c 0]; trivial)
    iexact HO
  isplitl [Hp]; · iexact Hp
  iexact Hrest

theorem reg_hin (hΦ : ∀ c t, (rds p c).Φ t = (Pipeline.ΦA (Val := Elt F) (U := Alg) (cfgp).spec c : sProp 𝕄)) (c : Dev nD) :
    iprop(iprop(∃ r, prngReg c r) ∗ Pipeline.prefHeld (pcfgs (F := F) p).pre c (fun _ => fullShare) (adm (F := F) p).1
        ∗ Pipeline.scopedRest (Ix := Unit) (Name := ℕ) (U := Alg) (Lvl := ℕ) (Val := Elt F) (cfgp).spec c) ⊢ (rds p c).Φ 0 := by
  rw [hΦ c 0]; unfold Pipeline.ΦA
  iintro ⟨Hp, -, Hr⟩
  isplitl [Hr]; · iexact Hr
  iexact Hp

theorem reg_hout (hΦ : ∀ c t, (rds p c).Φ t = (Pipeline.ΦA (Val := Elt F) (U := Alg) (cfgp).spec c : sProp 𝕄)) (c : Dev nD) :
    (rds p c).Φ (Fin.last (cfgp).N) ⊢ iprop(iprop(∃ r, prngReg c r)
        ∗ Pipeline.ownSems0 (Ix := Unit) (Name := ℕ) (U := Alg) (Lvl := ℕ) (Val := Elt F) (τ := τ) (fun k : PEmpty => k.elim) c
        ∗ Pipeline.scopedRest (Ix := Unit) (Name := ℕ) (U := Alg) (Lvl := ℕ) (Val := Elt F) (cfgp).spec c) := by
  rw [Pipeline.ownSems0_none, hΦ c (Fin.last _)]; unfold Pipeline.ΦA
  iintro ⟨Hr, Hp⟩
  isplitl [Hp]; · iexact Hp
  isplitr; · iempintro
  iexact Hr

include kit howed hq in
set_option backward.isDefEq.respectTransparency.types false in
theorem reg_hexit (c : Dev nD) :
    iprop((rds p c).arraysAt (cfgp).N ∗ (rds p c).owesAt () (Fin.last (cfgp).N) ∗ iprop(∃ r, prngReg c r) ∗ regZ (F := F) p Went c)
      ⊢ |={Set.univ}=> regPost (F := F) p rds Went c := by
  iintro ⟨Ha, HO, HY, Hrest⟩
  ihave Ha' := (arraysAt_open p rds c) $$ Ha
  icases Ha' with ⟨%A, %hArr, Ha⟩
  have hjoin := unscopedBufs_of_arraysR p rds kit c ((rds p c).share_full fun w => hq c w)
    (tcv c (Went c)) (tcv c (Pipeline.withArrays (cfgp).spec c (Went c) A)) A
    (fun w => (Pipeline.withArrays_arr (cfgp).spec kit.win.arr_inj c (Went c) A w).symm)
    (fun b hb => Pipeline.withArrays_of_ne (cfgp).spec c (Went c) A b fun w e => hb (Finset.mem_image.mpr ⟨w, Finset.mem_univ _, e⟩))
  rw [Pipeline.unscopedBufs_held] at hjoin
  imodintro
  iexists A
  isplitr; · ipureintro; exact hArr
  isplitl [Ha Hrest]
  · iapply hjoin; isplitl [Ha] <;> iassumption
  isplitl [HY]; · iexact HY
  unfold Pipeline.RDat.owesAt Pipeline.owesWithin
  rw [howed c (Fin.last _)]
  icases HO with ⟨%W, -, HO⟩; iexists W; iexact HO

include kit howed hq hrec hbody in
set_option backward.isDefEq.respectTransparency.types false in
/-- The region's record: entered from every unscoped buffer at `Went c`, left with the pipeline's arrays at some contents
    A the write-backs may leave and every other buffer as entered. -/
def regRec (hA : ∀ c w, (rds p c).A w = tcv c (Went c) (Pipeline.arrRef (cfgp).spec w))
    (hΦ : ∀ c t, (rds p c).Φ t = (Pipeline.ΦA (Val := Elt F) (U := Alg) (cfgp).spec c : sProp 𝕄)) :
    Pipeline.RDat.RegionSeg (pcfgs (F := F)) adm rds () defs₀ 𝒱₀ L lv p where
  win := kit.win.to₀
  block_pos := kit.block_pos
  stage_whole := kit.stage_whole
  K := PEmpty
  osem k := k.elim
  ho := Pipeline.OwnSemFacts.none _
  hbody := hbody
  hwaits := Pipeline.RDat.hwaits_of_owed_zero _ _ _ _ L lv p howed
  pre c := regPre (F := F) Went c
  post c := regPost (F := F) p rds Went c
  X c := iprop(∃ r, prngReg c r)
  Y c := iprop(∃ r, prngReg c r)
  Z c := regZ (F := F) p Went c
  hentry c := reg_hentry p rds kit Went howed hq hrec hA c
  hin c := reg_hin p rds hΦ c
  hout c := reg_hout p rds hΦ c
  hexit c := reg_hexit p rds kit Went howed hq c

end Region

end Cert.Kernel.Hand

end
-- ==== Proof.KVals.lean ====
/-
  The contents of a core's buffers between the items of @main, as a fold from the launch memory: a stretch of host
  operations applies them; a region leaves its arrays at contents A (a parameter: what the write-backs may leave) and every
  other buffer as entered.
-/
import proofs.«163843_j81870666596358_2_alg».proof.Proof.KRegion

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- The three pipelines' window specifications, spelt as the launch library pins them. -/
abbrev sp0 := (Pipeline.pin (pcfgs (F := F)) adm 0).spec
abbrev sp1 := (Pipeline.pin (pcfgs (F := F)) adm 1).spec
abbrev sp2 := (Pipeline.pin (pcfgs (F := F)) adm 2).spec

/-- Core c's buffers at launch. -/
abbrev W0 (c : Dev nD) : Valuation τ sig (Elt F) := fun b => m (c, b)
/-- After the first host stretch (region 0's entry). -/
abbrev W1 (c : Dev nD) : Valuation τ sig (Elt F) := StableHlo.after (main_part0_ops0 (F := F)) (W0 m c)
/-- After region 0, its arrays at A0 (region 1's entry). -/
def W2 (c : Dev nD) (A0 : ArrC (F := F) 0 c) : Valuation τ sig (Elt F) := Pipeline.withArrays (sp0 (F := F)) c (W1 m c) A0
/-- After region 1, its arrays at A1. -/
def W3 (c : Dev nD) (A0 : ArrC (F := F) 0 c) (A1 : ArrC (F := F) 1 c) : Valuation τ sig (Elt F) :=
  Pipeline.withArrays (sp1 (F := F)) c (W2 m c A0) A1
/-- After the second host stretch. -/
abbrev W4 (c : Dev nD) (A0 : ArrC (F := F) 0 c) (A1 : ArrC (F := F) 1 c) : Valuation τ sig (Elt F) :=
  StableHlo.after (main_part0_ops1 (F := F)) (W3 m c A0 A1)
/-- After the third host stretch (region 2's entry). -/
abbrev W5 (c : Dev nD) (A0 : ArrC (F := F) 0 c) (A1 : ArrC (F := F) 1 c) : Valuation τ sig (Elt F) :=
  StableHlo.after (main_part1_ops0 (F := F)) (W4 m c A0 A1)
/-- After region 2, its arrays at A2. -/
def W6 (c : Dev nD) (A0 : ArrC (F := F) 0 c) (A1 : ArrC (F := F) 1 c) (A2 : ArrC (F := F) 2 c) : Valuation τ sig (Elt F) :=
  Pipeline.withArrays (sp2 (F := F)) c (W5 m c A0 A1) A2
/-- After the last host stretch: what the program ends with. -/
abbrev W7 (c : Dev nD) (A0 : ArrC (F := F) 0 c) (A1 : ArrC (F := F) 1 c) (A2 : ArrC (F := F) 2 c) : Valuation τ sig (Elt F) :=
  StableHlo.after (main_part1_ops1 (F := F)) (W6 m c A0 A1 A2)

/-- There is one device: contents given on it are given on every device. -/
def spread {β : Dev nD → Type} (c : Dev nD) (a : β c) : (c' : Dev nD) → β c' :=
  fun c' => (Subsingleton.elim c c' : c = c') ▸ a

theorem spread_self {β : Dev nD → Type} (c : Dev nD) (a : β c) : spread c a c = a := rfl

end Cert.Kernel.Hand

end
-- ==== Proof.KReg0.lean ====
import proofs.«163843_j81870666596358_2_alg».proof.Proof.Gen.Kernel.Skeleton
import proofs.«163843_j81870666596358_2_alg».proof.Proof.Gen.Kernel.Launch
import proofs.«163843_j81870666596358_2_alg».proof.Proof.Gen.Kernel.Points
import Idealize.ShloMosaic.Lib.Pipeline.Kit
import Idealize.ShloMosaic.Lib.Pipeline.Frame
import Idealize.ShloMosaic.Lib.Tactic
import Idealize.ShloMosaic.Lib.Pipeline.Value

noncomputable section

namespace Cert.Kernel.Reg0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

variable [Facts]
open Facts₀ Facts

/-- The contents of the core's TensorCore buffers at the region's entry. -/
abbrev VT (c : Dev nD) : Type := (b : Ref sig .tc) → Buf (Elt F) ((c.tc : Thread nD τ).loc b)

/-- The region's proof data over the entry contents `V`: every windowed array as at entry; each of the three
    operand windows is left as the body found it; the result's window is left at the payload of the three
    operands' entry contents (each operand's block is its whole array). -/
def rdat (c : Dev nD) (V : VT (F := F) c) : RDat τ (Elt F) Unit ℕ U ℕ cfg0 c where
  A w := V (Pipeline.arrRef spec0 w)
  after w := match w with
    | ⟨0, _⟩ => fun _t Y X => X = Y
    | ⟨1, _⟩ => fun _t Y X => X = Y
    | ⟨2, _⟩ => fun _t Y X => X = Y
    | ⟨3, _⟩ => fun _t _Y X => X = k0_pay1 (V main_arg16) (V main_arg17) (V main_v3)
  Φ _ := Pipeline.ΦA spec0 c
  q _ := fullShare
  owed _ := 0

theorem rdat_A (c : Dev nD) (V : VT (F := F) c) (w : Fin cfg0.W) : (rdat (U := U) c V).A w = V (Pipeline.arrRef spec0 w) := rfl
theorem rdat_Φ (c : Dev nD) (V : VT (F := F) c) (t : Fin (cfg0.N + 1)) : (rdat (U := U) c V).Φ t = Pipeline.ΦA spec0 c := rfl
theorem rdat_owed (c : Dev nD) (V : VT (F := F) c) (t : Fin (cfg0.N + 1)) : (rdat (U := U) c V).owed t = 0 := rfl
theorem rdat_q (c : Dev nD) (V : VT (F := F) c) (w : Fin cfg0.W) : (rdat (U := U) c V).q w = fullShare := rfl

/-! ## The body's triple -/

set_option maxHeartbeats 1000000 in
/-- The kernel body on whole staging memrefs, the operands' at contents `x0 x1 x2` and the result's at anything:
    a whole load of each buffer, one payload, one whole store. The operands' memrefs are left as found and the result's
    holds the payload of the three. -/
theorem sound_kernel (c : Dev nD) (E : Set ℕ) (i : grid0.Coords)
    (arg1 : Memref sig .tc .vmem S6000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S6000x64 .f32) (harg4 : arg4.IsWhole)
    (x0 : Vec F S6000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k0_pay1 x0 x1 x2)) -∗ K ⟨⟩))
      ⊢ wp frame (wpE (defs₀ (F := F)) Variants.none c none) E (cc0__keys_kernel i arg1 harg1 arg2 harg2 arg3 harg3 arg4 harg4) K := by
  simp only [cc0__keys_kernel_eq_skeleton]; unfold cc0__keys_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  refine (View.read_writes_eq_canon _ _ _ fun y => ⟨_, List.mem_singleton_self _, ?_⟩).trans ?_
  · exact View.mem_set_unit_zero hz Gen.inb_S6000x64_S6000x64_0_0 y
  rw [View.canon_unit_zero hz, View.readAt_eq_ld, View.readAt_eq_ld, View.readAt_eq_ld,
    View.ld_unit_zero hz, View.ld_unit_zero hz, View.ld_unit_zero hz]

/-! ## What the body finds in the operands' buffers -/

/-- Each operand's block at the one point is its whole array. -/
theorem blockOf_0 (c : Dev nD) (V : VT (F := F) c) (t : Fin cfg0.N) : (rdat (U := U) c V).blockOf 0 t = V main_arg16 :=
  Memref.read_access_unit_zero (Elt F) main_arg16 (funext fun a => by fin_cases a <;> rfl) _ _
theorem blockOf_1 (c : Dev nD) (V : VT (F := F) c) (t : Fin cfg0.N) : (rdat (U := U) c V).blockOf 1 t = V main_arg17 :=
  Memref.read_access_unit_zero (Elt F) main_arg17 (funext fun a => by fin_cases a <;> rfl) _ _
theorem blockOf_2 (c : Dev nD) (V : VT (F := F) c) (t : Fin cfg0.N) : (rdat (U := U) c V).blockOf 2 t = V main_v3 :=
  Memref.read_access_unit_zero (Elt F) main_v3 (funext fun a => by fin_cases a <;> rfl) _ _

/-- An operand's buffer just fetched holds the whole array, whatever it held: the window is not cut. -/
theorem fetched_0 (c : Dev nD) (V : VT (F := F) c) (t : Fin cfg0.N) (d) : (rdat (U := U) c V).fetched 0 t d = V main_arg16 := by
  funext j
  have hm : (cfg0.win 0).moved (cfg0.grid.coords t) j = true := ((cfg0.win 0).moved_iff _ j).mpr fun a => (j a).isLt
  unfold RDat.fetched Pipeline.Window.fill; rw [dif_pos hm, blockOf_0]; rfl
theorem fetched_1 (c : Dev nD) (V : VT (F := F) c) (t : Fin cfg0.N) (d) : (rdat (U := U) c V).fetched 1 t d = V main_arg17 := by
  funext j
  have hm : (cfg0.win 1).moved (cfg0.grid.coords t) j = true := ((cfg0.win 1).moved_iff _ j).mpr fun a => (j a).isLt
  unfold RDat.fetched Pipeline.Window.fill; rw [dif_pos hm, blockOf_1]; rfl
theorem fetched_2 (c : Dev nD) (V : VT (F := F) c) (t : Fin cfg0.N) (d) : (rdat (U := U) c V).fetched 2 t d = V main_v3 := by
  funext j
  have hm : (cfg0.win 2).moved (cfg0.grid.coords t) j = true := ((cfg0.win 2).moved_iff _ j).mpr fun a => (j a).isLt
  unfold RDat.fetched Pipeline.Window.fill; rw [dif_pos hm, blockOf_2]; rfl

/-- So what the body finds in an operand's buffer is the operand's array at the region's entry. -/
theorem finds_0 (c : Dev nD) (V : VT (F := F) c) (t : Fin cfg0.N) (Y) (h : (rdat (U := U) c V).Finds 0 t Y) : Y = V main_arg16 := by
  obtain ⟨d, rfl⟩ := ((rdat (U := U) c V).finds_of_fetch (fetch0_0 t) Y).mp h; exact fetched_0 c V t d
theorem finds_1 (c : Dev nD) (V : VT (F := F) c) (t : Fin cfg0.N) (Y) (h : (rdat (U := U) c V).Finds 1 t Y) : Y = V main_arg17 := by
  obtain ⟨d, rfl⟩ := ((rdat (U := U) c V).finds_of_fetch (fetch0_1 t) Y).mp h; exact fetched_1 c V t d
theorem finds_2 (c : Dev nD) (V : VT (F := F) c) (t : Fin cfg0.N) (Y) (h : (rdat (U := U) c V).Finds 2 t Y) : Y = V main_v3 := by
  obtain ⟨d, rfl⟩ := ((rdat (U := U) c V).finds_of_fetch (fetch0_2 t) Y).mp h; exact fetched_2 c V t d

/-! ## The body obligation -/

set_option maxHeartbeats 1000000 in
/-- At the one point, whatever the windows' buffers hold: the operands' hold their arrays (`finds_0`…), the body's
    triple applies, the invariant and what the core owes pass through unread. -/
theorem body (c : Dev nD) (V : VT (F := F) c) : (rdat (U := U) c V).BodyObligation defs₀ Variants.none () Set.univ := fun t Y hY => by
  have h0 : Y 0 = V main_arg16 := finds_0 c V t (Y 0) (hY 0)
  have h1 : Y 1 = V main_arg17 := finds_1 c V t (Y 1) (hY 1)
  have h2 : Y 2 = V main_v3 := finds_2 c V t (Y 2) (hY 2)
  rw [bigSep_W0, bigSep_W0]
  show iprop((rdat (U := U) c V).Φ t.castSucc ∗ (rdat (U := U) c V).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
        iprop((rdat (U := U) c V).Φ t.castSucc ∗ (rdat (U := U) c V).owesAt () t.castSucc
          ∗ (∃ X, ⌜X = Y 0⌝ ∗ owns (c : Thread nD τ) (st0_0 t) fullShare X)
          ∗ (∃ X, ⌜X = Y 1⌝ ∗ owns (c : Thread nD τ) (st0_1 t) fullShare X)
          ∗ (∃ X, ⌜X = Y 2⌝ ∗ owns (c : Thread nD τ) (st0_2 t) fullShare X)
          ∗ (∃ X, ⌜X = k0_pay1 (V main_arg16) (V main_arg17) (V main_v3)⌝ ∗ owns (c : Thread nD τ) (st0_3 t) fullShare X)))
  iintro ⟨HΦ, Ho, H0, H1, H2, H3⟩
  iapply (sound_kernel (U := U) c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists Y 0; isplitr; · ipureintro; rfl
    iexact H0
  isplitl [H1]
  · iexists Y 1; isplitr; · ipureintro; rfl
    iexact H1
  isplitl [H2]
  · iexists Y 2; isplitr; · ipureintro; rfl
    iexact H2
  iexists _; isplitr
  swap; · iexact H3
  ipureintro
  rw [h0, h1, h2]

/-! ## What the region leaves in the result's array -/

/-- After the one write-back the result's array holds the payload of the three operands' entry contents: the one
    block covers the whole array, and the body left the payload in the staging buffer. -/
theorem out_det (c : Dev nD) (V : VT (F := F) c) (o) (h : (rdat (U := U) c V).ArrAt 3 cfg0.N o) :
    o = k0_pay1 (V main_arg16) (V main_arg17) (V main_v3) := by
  have h1 : (rdat (U := U) c V).ArrAt 3 (0 + 1) o := by
    have e : cfg0.N = 0 + 1 := N_0
    rw [e] at h; exact h
  rw [RDat.ArrAt] at h1
  have hN : 0 < cfg0.N := by rw [show cfg0.N = 1 from N_0]; exact Nat.zero_lt_one
  rw [dif_pos hN] at h1
  split at h1
  case isFalse hf => exact absurd (flush0_3 _) hf
  obtain ⟨G₀, X, -, ⟨Y, -, hXY⟩, rfl⟩ := h1
  have hX : X = k0_pay1 (V main_arg16) (V main_arg17) (V main_v3) := hXY
  rw [hX]
  exact Memref.write_access_unit_zero_univ (Elt F) main_v4 (funext fun a => by fin_cases a <;> rfl) _ _ _

end Cert.Kernel.Reg0

end
-- ==== Proof.KReg1.lean ====
import proofs.«163843_j81870666596358_2_alg».proof.Proof.Gen.Kernel.Skeleton
import proofs.«163843_j81870666596358_2_alg».proof.Proof.Gen.Kernel.Launch
import proofs.«163843_j81870666596358_2_alg».proof.Proof.Gen.Kernel.Points
import Idealize.ShloMosaic.Lib.Pipeline.Kit
import Idealize.ShloMosaic.Lib.Pipeline.Frame
import Idealize.ShloMosaic.Lib.Pipeline.FrameBody
import Idealize.ShloMosaic.Lib.Tactic

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-- A core's TensorCore buffers, each at some contents: what the region is entered with. -/
abbrev VT (c : Dev nD) : Type := (b : Ref sig .tc) → Buf (Elt F) ((c.tc : Thread nD τ).loc b)

/-- What window `w`'s staging buffer holds once the fetch at point `t` has landed in it, if it held `d`: the
    array's block at `t` on the part the fetch moves, `d` elsewhere. -/
def fet (c : Dev nD) (V : VT (F := F) c) (w : Fin cfg1.W) (t : Fin cfg1.N)
    (d : (cfg1.win w).block.Idx → Elt F (cfg1.win w).elt) : (cfg1.win w).block.Idx → Elt F (cfg1.win w).elt :=
  (cfg1.win w).fill (cfg1.grid.coords t) d (((cfg1.win w).blk t).view.read (Elt F) (V (Pipeline.arrRef spec1 w)))

/-- What the body may leave in the output's staging buffer at point `t`: the product formula of the two blocks
    fetched at `t` (over whatever the buffers held past the arrays' ends) and of the two whole operands. -/
def outRel (c : Dev nD) (V : VT (F := F) c) (t : Fin cfg1.N) (X : S256x64.Idx → Elt F .f32) : Prop :=
  ∃ (d0 : (cfg1.win 0).block.Idx → Elt F (cfg1.win 0).elt) (d1 : (cfg1.win 1).block.Idx → Elt F (cfg1.win 1).elt),
    X = k1_pay1 (fet c V 0 t d0) (V main_v4) (fet c V 1 t d1) (V main_v2)

/-- The proof data of the region on core `c`, entered with the buffers at `V`: the body leaves each input's
    buffer as it found it, and the output's at the product formula of the blocks fetched at the point. -/
def rdat (c : Dev nD) (V : VT (F := F) c) : RDat τ (Elt F) Unit ℕ U ℕ cfg1 c where
  A w := V (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _Y X => outRel c V t X
  Φ _ := Pipeline.ΦA spec1 c
  q _ := fullShare
  owed _ := 0

theorem rdat_A (c : Dev nD) (V : VT (F := F) c) (w : Fin cfg1.W) : (rdat (U := U) c V).A w = V (Pipeline.arrRef spec1 w) := rfl
theorem rdat_Φ (c : Dev nD) (V : VT (F := F) c) (t : Fin (cfg1.N + 1)) : (rdat (U := U) c V).Φ t = Pipeline.ΦA spec1 c := rfl
theorem rdat_q (c : Dev nD) (V : VT (F := F) c) (w : Fin cfg1.W) : (rdat (U := U) c V).q w = fullShare := rfl
theorem rdat_owed (c : Dev nD) (V : VT (F := F) c) (t : Fin (cfg1.N + 1)) : (rdat (U := U) c V).owed t = 0 := rfl

theorem rdat_fetched (c : Dev nD) (V : VT (F := F) c) (w : Fin cfg1.W) (t : Fin cfg1.N) (d) :
    (rdat (U := U) c V).fetched w t d = fet c V w t d := rfl

theorem after_0 (c : Dev nD) (V : VT (F := F) c) (t : Fin cfg1.N) (Y X) : (rdat (U := U) c V).after 0 t Y X ↔ X = Y := Iff.rfl
theorem after_1 (c : Dev nD) (V : VT (F := F) c) (t : Fin cfg1.N) (Y X) : (rdat (U := U) c V).after 1 t Y X ↔ X = Y := Iff.rfl
theorem after_2 (c : Dev nD) (V : VT (F := F) c) (t : Fin cfg1.N) (Y X) : (rdat (U := U) c V).after 2 t Y X ↔ X = Y := Iff.rfl
theorem after_3 (c : Dev nD) (V : VT (F := F) c) (t : Fin cfg1.N) (Y X) : (rdat (U := U) c V).after 3 t Y X ↔ X = Y := Iff.rfl
theorem after_4 (c : Dev nD) (V : VT (F := F) c) (t : Fin cfg1.N) (Y X) : (rdat (U := U) c V).after 4 t Y X ↔ outRel c V t X := Iff.rfl

end Cert.Kernel.Reg1

end
-- ==== Proof.KReg1Body.lean ====
import proofs.«163843_j81870666596358_2_alg».proof.Proof.KReg1
import Idealize.ShloMosaic.Lib.Pipeline.Value

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-! ## The body's triple -/

theorem hz2 : (![0, 0] : Fin 2 → Nat) = fun _ => 0 := funext fun a => by fin_cases a <;> rfl

set_option maxHeartbeats 1000000 in
/-- The kernel body on whole staging memrefs, the inputs' at read contents `x0 … x3` and the output's at anything,
    runs to the continuation holding the inputs' as they were and the output's at the payload of the inputs'. -/
theorem sound_kernel (c : Dev nD) (E : Set ℕ) (i : grid1.Coords)
    (arg1 : Memref sig .tc .vmem S64x256 .bf16) (harg1 : arg1.IsWhole) (arg2 : Memref sig .tc .vmem S6000x256 .f32) (harg2 : arg2.IsWhole)
    (arg3 : Memref sig .tc .vmem S6000x64 .f32) (harg3 : arg3.IsWhole) (arg4 : Memref sig .tc .vmem S6000x64 .bf16) (harg4 : arg4.IsWhole)
    (arg5 : Memref sig .tc .vmem S256x64 .f32) (harg5 : arg5.IsWhole)
    (x0 : Vec F S64x256 .bf16) (x1 : Vec F S6000x256 .f32) (x2 : Vec F S6000x64 .f32) (x3 : Vec F S6000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay1 x0 x2 x1 x3)) -∗ K ⟨⟩))
      ⊢ wp frame (wpE (defs₀ (F := F)) Variants.none c none) E (cc1__relation_kernel i arg1 harg1 arg2 harg2 arg3 harg3 arg4 harg4 arg5 harg5) K := by
  simp only [cc1__relation_kernel_eq_skeleton]; unfold cc1__relation_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz2 inb_S256x64_S256x64_0_0 y⟩),
    View.canon_unit_zero hz2]
  exact congr (congr (congr (congrArg k1_pay1 (View.ld_unit_zero hz2 _ _)) (View.ld_unit_zero hz2 _ _)) (View.ld_unit_zero hz2 _ _))
    (View.ld_unit_zero hz2 _ _)

/-! ## What the inputs' buffers hold -/

theorem moved_2 (t : Fin cfg1.N) (j : (cfg1.win 2).block.Idx) : (cfg1.win 2).moved (cfg1.grid.coords t) j = true :=
  ((cfg1.win 2).moved_iff _ j).mpr fun a => (j a).isLt
theorem moved_3 (t : Fin cfg1.N) (j : (cfg1.win 3).block.Idx) : (cfg1.win 3).moved (cfg1.grid.coords t) j = true :=
  ((cfg1.win 3).moved_iff _ j).mpr fun a => (j a).isLt

set_option maxHeartbeats 400000 in
/-- The first whole operand's block is the whole array, at every point. -/
theorem fet_2 (c : Dev nD) (V : VT (F := F) c) (t : Fin cfg1.N) (d) : fet c V 2 t d = V main_v4 := by
  funext j
  unfold fet Pipeline.Window.fill
  rw [dif_pos (moved_2 t j), View.read_apply]
  refine congrArg (V main_v4) (funext fun a => Fin.ext ?_)
  show (cfg1.win 2).index t a * (cfg1.win 2).size a + 1 * (j a).val = (j a).val
  have hi : (cfg1.win 2).index t a = 0 := by
    show cc1_transform_2 (grid1.coords t) a = 0
    unfold cc1_transform_2; fin_cases a <;> rfl
  rw [hi]; omega

set_option maxHeartbeats 400000 in
/-- The second whole operand's block is the whole array, at every point. -/
theorem fet_3 (c : Dev nD) (V : VT (F := F) c) (t : Fin cfg1.N) (d) : fet c V 3 t d = V main_v2 := by
  funext j
  unfold fet Pipeline.Window.fill
  rw [dif_pos (moved_3 t j), View.read_apply]
  refine congrArg (V main_v2) (funext fun a => Fin.ext ?_)
  show (cfg1.win 3).index t a * (cfg1.win 3).size a + 1 * (j a).val = (j a).val
  have hi : (cfg1.win 3).index t a = 0 := by
    show cc1_transform_3 (grid1.coords t) a = 0
    unfold cc1_transform_3; fin_cases a <;> rfl
  rw [hi]; omega

/-! ## The body obligation -/

set_option maxHeartbeats 1000000 in
/-- The body at point `t`, its buffers at contents `Y w` of which the inputs' are what the fetches left: it leaves
    the inputs' as found and the output's at the product formula of the inputs'; the invariant and what the core
    owes pass through unread. -/
theorem sound_body (c : Dev nD) (V : VT (F := F) c) (t : Fin cfg1.N)
    (Y : (w : Fin cfg1.W) → (cfg1.win w).block.Idx → Elt F (cfg1.win w).elt)
    (d0 : (cfg1.win 0).block.Idx → Elt F (cfg1.win 0).elt) (d1 : (cfg1.win 1).block.Idx → Elt F (cfg1.win 1).elt)
    (h0 : Y 0 = fet c V 0 t d0) (h1 : Y 1 = fet c V 1 t d1) (h2 : Y 2 = V main_v4) (h3 : Y 3 = V main_v2) :
    iprop((rdat (U := U) c V).Φ t.castSucc ∗ (rdat (U := U) c V).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3)
        ∗ owns (c : Thread nD τ) (st1_4 t) fullShare (Y 4))
      ⊢ wp frame (wpE (defs₀ (F := F)) Variants.none c none) Set.univ (bodyAt1 t) (fun _ =>
          iprop((rdat (U := U) c V).Φ t.succ ∗ (rdat (U := U) c V).owesAt () t.succ
            ∗ (∃ X, ⌜(rdat (U := U) c V).after 0 t (Y 0) X⌝ ∗ owns (c : Thread nD τ) (st1_0 t) fullShare X)
            ∗ (∃ X, ⌜(rdat (U := U) c V).after 1 t (Y 1) X⌝ ∗ owns (c : Thread nD τ) (st1_1 t) fullShare X)
            ∗ (∃ X, ⌜(rdat (U := U) c V).after 2 t (Y 2) X⌝ ∗ owns (c : Thread nD τ) (st1_2 t) fullShare X)
            ∗ (∃ X, ⌜(rdat (U := U) c V).after 3 t (Y 3) X⌝ ∗ owns (c : Thread nD τ) (st1_3 t) fullShare X)
            ∗ (∃ X, ⌜(rdat (U := U) c V).after 4 t (Y 4) X⌝ ∗ owns (c : Thread nD τ) (st1_4 t) fullShare X))) := by
  unfold bodyAt1
  rw [show (rdat (U := U) c V).Φ t.succ = (rdat (U := U) c V).Φ t.castSucc from rfl,
    show (rdat (U := U) c V).owesAt () t.succ = (rdat (U := U) c V).owesAt () t.castSucc from rfl]
  iintro ⟨HΦ, Ho, H0, H1, H2, H3, H4⟩
  iapply (sound_kernel (U := U) c Set.univ (grid1.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists Y 0; isplitr; · ipureintro; exact (after_0 c V t _ _).mpr rfl
    iexact H0
  isplitl [H1]
  · iexists Y 1; isplitr; · ipureintro; exact (after_1 c V t _ _).mpr rfl
    iexact H1
  isplitl [H2]
  · iexists Y 2; isplitr; · ipureintro; exact (after_2 c V t _ _).mpr rfl
    iexact H2
  isplitl [H3]
  · iexists Y 3; isplitr; · ipureintro; exact (after_3 c V t _ _).mpr rfl
    iexact H3
  · iexists k1_pay1 (Y 0) (Y 2) (Y 1) (Y 3); isplitr
    · ipureintro; exact (after_4 c V t _ _).mpr ⟨d0, d1, by rw [h0, h1, h2, h3]⟩
    iexact H4

set_option maxHeartbeats 1000000 in
/-- The region's body obligation: at every point, whatever the buffers may then hold. The two blocked inputs are
    fetched at every point and hold what the fetch left; the two whole operands, fetched at the first point only and
    left as found ever since, hold the whole arrays. -/
theorem body (c : Dev nD) (V : VT (F := F) c) : (rdat (U := U) c V).BodyObligation defs₀ Variants.none () Set.univ := fun t Y hY => by
  obtain ⟨d0, h0⟩ := ((rdat (U := U) c V).finds_of_fetch (fetch1_0 t) (Y 0)).mp (hY 0)
  obtain ⟨d1, h1⟩ := ((rdat (U := U) c V).finds_of_fetch (fetch1_1 t) (Y 1)).mp (hY 1)
  obtain ⟨d2, h2⟩ := RDat.finds_in_eq_fetched (rdat (U := U) c V) 2 rfl (fun _ _ _ => rfl) (fun _ _ _ h => h) t (Y 2) (hY 2)
  obtain ⟨d3, h3⟩ := RDat.finds_in_eq_fetched (rdat (U := U) c V) 3 rfl (fun _ _ _ => rfl) (fun _ _ _ h => h) t (Y 3) (hY 3)
  rw [rdat_fetched] at h0 h1 h2 h3
  rw [fet_2] at h2; rw [fet_3] at h3
  rw [bigSep_W1, bigSep_W1]
  exact sound_body c V t Y d0 d1 h0 h1 h2 h3

end Cert.Kernel.Reg1

end
-- ==== Proof.KReg2.lean ====
import proofs.«163843_j81870666596358_2_alg».proof.Proof.Gen.Kernel.Skeleton
import proofs.«163843_j81870666596358_2_alg».proof.Proof.Gen.Kernel.Launch
import proofs.«163843_j81870666596358_2_alg».proof.Proof.Gen.Kernel.Points
import Idealize.ShloMosaic.Lib.Pipeline.Kit
import Idealize.ShloMosaic.Lib.Pipeline.Frame
import Idealize.ShloMosaic.Lib.Tactic

noncomputable section

namespace Cert.Kernel.Reg2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-- A core's TensorCore buffers at the region's entry. -/
abbrev VT (c : Dev nD) : Type := (b : Ref sig .tc) → Buf (Elt F) ((c.tc : Thread nD τ).loc b)

/-- Window `w`'s block at point `t`, read off its array as the region finds it. -/
def B (c : Dev nD) (V : VT (F := F) c) (w : Fin cfg2.W) (t : Fin cfg2.N) :
    ((cfg2.win w).xblock (cfg2.grid.coords t)).Idx → Elt F (cfg2.win w).elt :=
  ((cfg2.win w).blk t).view.read (Elt F) (V (Pipeline.arrRef spec2 w))

/-- What the body leaves in the first output's buffer at point `t`: the prediction block. -/
def out15 (c : Dev nD) (V : VT (F := F) c) (t : Fin cfg2.N) : FVec F S2048x1 .f32 :=
  k2_pay1 (k2_pay3 (B c V 0 t) (B c V 1 t))
    (k2_pay4 (B c V 2 t) (B c V 3 t) (V main_arg7) (V main_v55) (V main_arg9) (V main_v56) (V main_arg11))
    (V main_v57) (V main_arg13) (V main_v58)

/-- What the body leaves in the second output's buffer at point `t`: the relation-score block. -/
def out16 (c : Dev nD) (V : VT (F := F) c) (t : Fin cfg2.N) : FVec F S2048x1 .f32 :=
  k2_pay2 (B c V 4 t) (B c V 6 t) (B c V 5 t)

/-- The proof data of region 2 on core `c`, entered with the buffers at `V`: the body leaves every input
    buffer as it found it, and each output's buffer at its payload of the input blocks. -/
def rdat (c : Dev nD) (V : VT (F := F) c) : RDat τ (Elt F) Unit ℕ U ℕ cfg2 c where
  A w := V (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun _Y X => X = out15 c V t
    | ⟨16, _⟩ => fun _Y X => X = out16 c V t
    | ⟨_ + 17, h⟩ => absurd h (Nat.not_lt.2 (Nat.le_add_left _ _))
  Φ _ := Pipeline.ΦA spec2 c
  q _ := fullShare
  owed _ := 0

theorem rdat_A (c : Dev nD) (V : VT (F := F) c) (w : Fin cfg2.W) :
    (rdat (U := U) c V).A w = V (Pipeline.arrRef spec2 w) := rfl
theorem rdat_Φ (c : Dev nD) (V : VT (F := F) c) (t : Fin (cfg2.N + 1)) :
    (rdat (U := U) c V).Φ t = Pipeline.ΦA spec2 c := rfl
theorem rdat_owed (c : Dev nD) (V : VT (F := F) c) (t : Fin (cfg2.N + 1)) : (rdat (U := U) c V).owed t = 0 := rfl
theorem rdat_q (c : Dev nD) (V : VT (F := F) c) (w : Fin cfg2.W) : (rdat (U := U) c V).q w = fullShare := rfl

/-- The relations, window by window. -/
theorem after_0 (c : Dev nD) (V : VT (F := F) c) (t : Fin cfg2.N) (Y X) : (rdat (U := U) c V).after 0 t Y X ↔ X = Y := Iff.rfl
theorem after_1 (c : Dev nD) (V : VT (F := F) c) (t : Fin cfg2.N) (Y X) : (rdat (U := U) c V).after 1 t Y X ↔ X = Y := Iff.rfl
theorem after_2 (c : Dev nD) (V : VT (F := F) c) (t : Fin cfg2.N) (Y X) : (rdat (U := U) c V).after 2 t Y X ↔ X = Y := Iff.rfl
theorem after_3 (c : Dev nD) (V : VT (F := F) c) (t : Fin cfg2.N) (Y X) : (rdat (U := U) c V).after 3 t Y X ↔ X = Y := Iff.rfl
theorem after_4 (c : Dev nD) (V : VT (F := F) c) (t : Fin cfg2.N) (Y X) : (rdat (U := U) c V).after 4 t Y X ↔ X = Y := Iff.rfl
theorem after_5 (c : Dev nD) (V : VT (F := F) c) (t : Fin cfg2.N) (Y X) : (rdat (U := U) c V).after 5 t Y X ↔ X = Y := Iff.rfl
theorem after_6 (c : Dev nD) (V : VT (F := F) c) (t : Fin cfg2.N) (Y X) : (rdat (U := U) c V).after 6 t Y X ↔ X = Y := Iff.rfl
theorem after_7 (c : Dev nD) (V : VT (F := F) c) (t : Fin cfg2.N) (Y X) : (rdat (U := U) c V).after 7 t Y X ↔ X = Y := Iff.rfl
theorem after_8 (c : Dev nD) (V : VT (F := F) c) (t : Fin cfg2.N) (Y X) : (rdat (U := U) c V).after 8 t Y X ↔ X = Y := Iff.rfl
theorem after_9 (c : Dev nD) (V : VT (F := F) c) (t : Fin cfg2.N) (Y X) : (rdat (U := U) c V).after 9 t Y X ↔ X = Y := Iff.rfl
theorem after_10 (c : Dev nD) (V : VT (F := F) c) (t : Fin cfg2.N) (Y X) : (rdat (U := U) c V).after 10 t Y X ↔ X = Y := Iff.rfl
theorem after_11 (c : Dev nD) (V : VT (F := F) c) (t : Fin cfg2.N) (Y X) : (rdat (U := U) c V).after 11 t Y X ↔ X = Y := Iff.rfl
theorem after_12 (c : Dev nD) (V : VT (F := F) c) (t : Fin cfg2.N) (Y X) : (rdat (U := U) c V).after 12 t Y X ↔ X = Y := Iff.rfl
theorem after_13 (c : Dev nD) (V : VT (F := F) c) (t : Fin cfg2.N) (Y X) : (rdat (U := U) c V).after 13 t Y X ↔ X = Y := Iff.rfl
theorem after_14 (c : Dev nD) (V : VT (F := F) c) (t : Fin cfg2.N) (Y X) : (rdat (U := U) c V).after 14 t Y X ↔ X = Y := Iff.rfl
theorem after_15 (c : Dev nD) (V : VT (F := F) c) (t : Fin cfg2.N) (Y X) : (rdat (U := U) c V).after 15 t Y X ↔ X = out15 c V t := Iff.rfl
theorem after_16 (c : Dev nD) (V : VT (F := F) c) (t : Fin cfg2.N) (Y X) : (rdat (U := U) c V).after 16 t Y X ↔ X = out16 c V t := Iff.rfl

end Cert.Kernel.Reg2

end
-- ==== Proof.KReg2Body.lean ====
/-
  Region 2's body obligation. The kernel function loads each input staging buffer whole, computes two payloads
  (the prediction block and the relation-score block) and stores each whole into its output staging buffer.
  So from the inputs' buffers at any contents the body leaves them unchanged and leaves each output's buffer at
  its payload of the inputs' contents (`sound_kernel`). What the inputs' buffers hold when the body runs follows
  from the relational proof data: a window fetched at every point holds its block of the array, whatever it
  held before, since no block overhangs its array (`finds_0` … `finds_6`); a window whose one block is the whole
  array, fetched at the first point only and left as found by the body, holds the array at every point
  (`finds_7` … `finds_14`). The two together give the obligation (`sound_body`, `body`).
-/
import proofs.«163843_j81870666596358_2_alg».proof.Proof.Gen.Kernel.Skeleton
import proofs.«163843_j81870666596358_2_alg».proof.Proof.Gen.Kernel.Launch
import proofs.«163843_j81870666596358_2_alg».proof.Proof.Gen.Kernel.Points
import proofs.«163843_j81870666596358_2_alg».proof.Proof.KReg2
import Idealize.ShloMosaic.Lib.Pipeline.FrameBody
import Idealize.ShloMosaic.Lib.Pipeline.Value
import Idealize.ShloMosaic.Lib.Pipeline.Kit
import Idealize.ShloMosaic.Lib.Pipeline.Frame
import Idealize.ShloMosaic.Lib.Tactic

noncomputable section

namespace Cert.Kernel.Reg2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F] {U : Type} [URA U]

local notation "𝕄" => MT nD τ sig Unit (Elt F) ℕ U ℕ

/-- The zero offsets of a rank-2 access, however spelt. -/
theorem hz2 : (![0, 0] : Fin 2 → Nat) = fun _ => 0 := funext fun a => by fin_cases a <;> rfl

/-- The one whole store into an output buffer covers it. -/
theorem cover_out (p : Vec F S2048x1 .f32) (y : S2048x1.Idx) :
    ∃ pc ∈ ([⟨Rect.unit (s := S2048x1) ![0, 0] S2048x1.size inb_S2048x1_S2048x1_0_0, p⟩] : List (View.Piece (Elt F) S2048x1 .f32)), y ∈ pc.1.set :=
  ⟨_, List.mem_singleton_self _, View.mem_set_unit_zero hz2 inb_S2048x1_S2048x1_0_0 y⟩

/-! ## What the body finds in the inputs' buffers -/

/-- Input window 0 is fetched at every point, and its blocks tile its array: its buffer holds the block. -/
theorem finds_0 (c : Dev nD) (V : VT (F := F) c) (t : Fin cfg2.N) (Y) (h : (rdat (U := U) c V).Finds 0 t Y) : Y = B c V 0 t := by
  obtain ⟨d, rfl⟩ := ((rdat (U := U) c V).finds_of_fetch (fetch2_0 t) Y).mp h
  rfl

/-- Input window 1 is fetched at every point, and its blocks tile its array: its buffer holds the block. -/
theorem finds_1 (c : Dev nD) (V : VT (F := F) c) (t : Fin cfg2.N) (Y) (h : (rdat (U := U) c V).Finds 1 t Y) : Y = B c V 1 t := by
  obtain ⟨d, rfl⟩ := ((rdat (U := U) c V).finds_of_fetch (fetch2_1 t) Y).mp h
  rfl

/-- Input window 2 is fetched at every point, and its blocks tile its array: its buffer holds the block. -/
theorem finds_2 (c : Dev nD) (V : VT (F := F) c) (t : Fin cfg2.N) (Y) (h : (rdat (U := U) c V).Finds 2 t Y) : Y = B c V 2 t := by
  obtain ⟨d, rfl⟩ := ((rdat (U := U) c V).finds_of_fetch (fetch2_2 t) Y).mp h
  rfl

/-- Input window 3 is fetched at every point, and its blocks tile its array: its buffer holds the block. -/
theorem finds_3 (c : Dev nD) (V : VT (F := F) c) (t : Fin cfg2.N) (Y) (h : (rdat (U := U) c V).Finds 3 t Y) : Y = B c V 3 t := by
  obtain ⟨d, rfl⟩ := ((rdat (U := U) c V).finds_of_fetch (fetch2_3 t) Y).mp h
  rfl

/-- Input window 4 is fetched at every point, and its blocks tile its array: its buffer holds the block. -/
theorem finds_4 (c : Dev nD) (V : VT (F := F) c) (t : Fin cfg2.N) (Y) (h : (rdat (U := U) c V).Finds 4 t Y) : Y = B c V 4 t := by
  obtain ⟨d, rfl⟩ := ((rdat (U := U) c V).finds_of_fetch (fetch2_4 t) Y).mp h
  rfl

/-- Input window 5 is fetched at every point, and its blocks tile its array: its buffer holds the block. -/
theorem finds_5 (c : Dev nD) (V : VT (F := F) c) (t : Fin cfg2.N) (Y) (h : (rdat (U := U) c V).Finds 5 t Y) : Y = B c V 5 t := by
  obtain ⟨d, rfl⟩ := ((rdat (U := U) c V).finds_of_fetch (fetch2_5 t) Y).mp h
  rfl

/-- Input window 6 is fetched at every point, and its blocks tile its array: its buffer holds the block. -/
theorem finds_6 (c : Dev nD) (V : VT (F := F) c) (t : Fin cfg2.N) (Y) (h : (rdat (U := U) c V).Finds 6 t Y) : Y = B c V 6 t := by
  obtain ⟨d, rfl⟩ := ((rdat (U := U) c V).finds_of_fetch (fetch2_6 t) Y).mp h
  rfl

set_option maxHeartbeats 400000 in
/-- Input window 7's one block is its whole array, fetched at the first point and left in place by the body at
    every point: its buffer holds the array's contents at every point. -/
theorem finds_7 (c : Dev nD) (V : VT (F := F) c) (t : Fin cfg2.N) (Y) (h : (rdat (U := U) c V).Finds 7 t Y) : Y = V main_arg7 := by
  obtain ⟨d, rfl⟩ := RDat.finds_in_eq_fetched (rdat (U := U) c V) 7 rfl (fun _ _ _ => rfl) (fun _ _ _ h => h) t Y h
  funext j
  have hm : (cfg2.win 7).moved (cfg2.grid.coords t) j = true := rfl
  unfold RDat.fetched Pipeline.Window.fill
  rw [dif_pos hm]
  unfold RDat.blockOf
  rw [View.read_apply]
  show V main_arg7 ((win2_7.rect t).emb fun a => ⟨(j a).val, _⟩) = V main_arg7 j
  congr 1
  funext a; apply Fin.ext
  have h0 : win2_7.index t a = 0 := by
    show cc2_transform_7 (grid2.coords t) a = 0
    unfold cc2_transform_7
    match a with
    | ⟨0, _⟩ => rfl
    | ⟨1, _⟩ => rfl
  exact Pipeline.Window.rect_emb_val_of_index_zero win2_7 t a h0 _

set_option maxHeartbeats 400000 in
/-- Input window 8's one block is its whole array, fetched at the first point and left in place by the body at
    every point: its buffer holds the array's contents at every point. -/
theorem finds_8 (c : Dev nD) (V : VT (F := F) c) (t : Fin cfg2.N) (Y) (h : (rdat (U := U) c V).Finds 8 t Y) : Y = V main_v55 := by
  obtain ⟨d, rfl⟩ := RDat.finds_in_eq_fetched (rdat (U := U) c V) 8 rfl (fun _ _ _ => rfl) (fun _ _ _ h => h) t Y h
  funext j
  have hm : (cfg2.win 8).moved (cfg2.grid.coords t) j = true := rfl
  unfold RDat.fetched Pipeline.Window.fill
  rw [dif_pos hm]
  unfold RDat.blockOf
  rw [View.read_apply]
  show V main_v55 ((win2_8.rect t).emb fun a => ⟨(j a).val, _⟩) = V main_v55 j
  congr 1
  funext a; apply Fin.ext
  have h0 : win2_8.index t a = 0 := by
    show cc2_transform_8 (grid2.coords t) a = 0
    unfold cc2_transform_8
    match a with
    | ⟨0, _⟩ => rfl
    | ⟨1, _⟩ => rfl
  exact Pipeline.Window.rect_emb_val_of_index_zero win2_8 t a h0 _

set_option maxHeartbeats 400000 in
/-- Input window 9's one block is its whole array, fetched at the first point and left in place by the body at
    every point: its buffer holds the array's contents at every point. -/
theorem finds_9 (c : Dev nD) (V : VT (F := F) c) (t : Fin cfg2.N) (Y) (h : (rdat (U := U) c V).Finds 9 t Y) : Y = V main_arg9 := by
  obtain ⟨d, rfl⟩ := RDat.finds_in_eq_fetched (rdat (U := U) c V) 9 rfl (fun _ _ _ => rfl) (fun _ _ _ h => h) t Y h
  funext j
  have hm : (cfg2.win 9).moved (cfg2.grid.coords t) j = true := rfl
  unfold RDat.fetched Pipeline.Window.fill
  rw [dif_pos hm]
  unfold RDat.blockOf
  rw [View.read_apply]
  show V main_arg9 ((win2_9.rect t).emb fun a => ⟨(j a).val, _⟩) = V main_arg9 j
  congr 1
  funext a; apply Fin.ext
  have h0 : win2_9.index t a = 0 := by
    show cc2_transform_9 (grid2.coords t) a = 0
    unfold cc2_transform_9
    match a with
    | ⟨0, _⟩ => rfl
    | ⟨1, _⟩ => rfl
  exact Pipeline.Window.rect_emb_val_of_index_zero win2_9 t a h0 _

set_option maxHeartbeats 400000 in
/-- Input window 10's one block is its whole array, fetched at the first point and left in place by the body at
    every point: its buffer holds the array's contents at every point. -/
theorem finds_10 (c : Dev nD) (V : VT (F := F) c) (t : Fin cfg2.N) (Y) (h : (rdat (U := U) c V).Finds 10 t Y) : Y = V main_v56 := by
  obtain ⟨d, rfl⟩ := RDat.finds_in_eq_fetched (rdat (U := U) c V) 10 rfl (fun _ _ _ => rfl) (fun _ _ _ h => h) t Y h
  funext j
  have hm : (cfg2.win 10).moved (cfg2.grid.coords t) j = true := rfl
  unfold RDat.fetched Pipeline.Window.fill
  rw [dif_pos hm]
  unfold RDat.blockOf
  rw [View.read_apply]
  show V main_v56 ((win2_10.rect t).emb fun a => ⟨(j a).val, _⟩) = V main_v56 j
  congr 1
  funext a; apply Fin.ext
  have h0 : win2_10.index t a = 0 := by
    show cc2_transform_10 (grid2.coords t) a = 0
    unfold cc2_transform_10
    match a with
    | ⟨0, _⟩ => rfl
    | ⟨1, _⟩ => rfl
  exact Pipeline.Window.rect_emb_val_of_index_zero win2_10 t a h0 _

set_option maxHeartbeats 400000 in
/-- Input window 11's one block is its whole array, fetched at the first point and left in place by the body at
    every point: its buffer holds the array's contents at every point. -/
theorem finds_11 (c : Dev nD) (V : VT (F := F) c) (t : Fin cfg2.N) (Y) (h : (rdat (U := U) c V).Finds 11 t Y) : Y = V main_arg11 := by
  obtain ⟨d, rfl⟩ := RDat.finds_in_eq_fetched (rdat (U := U) c V) 11 rfl (fun _ _ _ => rfl) (fun _ _ _ h => h) t Y h
  funext j
  have hm : (cfg2.win 11).moved (cfg2.grid.coords t) j = true := rfl
  unfold RDat.fetched Pipeline.Window.fill
  rw [dif_pos hm]
  unfold RDat.blockOf
  rw [View.read_apply]
  show V main_arg11 ((win2_11.rect t).emb fun a => ⟨(j a).val, _⟩) = V main_arg11 j
  congr 1
  funext a; apply Fin.ext
  have h0 : win2_11.index t a = 0 := by
    show cc2_transform_11 (grid2.coords t) a = 0
    unfold cc2_transform_11
    match a with
    | ⟨0, _⟩ => rfl
    | ⟨1, _⟩ => rfl
  exact Pipeline.Window.rect_emb_val_of_index_zero win2_11 t a h0 _

set_option maxHeartbeats 400000 in
/-- Input window 12's one block is its whole array, fetched at the first point and left in place by the body at
    every point: its buffer holds the array's contents at every point. -/
theorem finds_12 (c : Dev nD) (V : VT (F := F) c) (t : Fin cfg2.N) (Y) (h : (rdat (U := U) c V).Finds 12 t Y) : Y = V main_v57 := by
  obtain ⟨d, rfl⟩ := RDat.finds_in_eq_fetched (rdat (U := U) c V) 12 rfl (fun _ _ _ => rfl) (fun _ _ _ h => h) t Y h
  funext j
  have hm : (cfg2.win 12).moved (cfg2.grid.coords t) j = true := rfl
  unfold RDat.fetched Pipeline.Window.fill
  rw [dif_pos hm]
  unfold RDat.blockOf
  rw [View.read_apply]
  show V main_v57 ((win2_12.rect t).emb fun a => ⟨(j a).val, _⟩) = V main_v57 j
  congr 1
  funext a; apply Fin.ext
  have h0 : win2_12.index t a = 0 := by
    show cc2_transform_12 (grid2.coords t) a = 0
    unfold cc2_transform_12
    match a with
    | ⟨0, _⟩ => rfl
    | ⟨1, _⟩ => rfl
  exact Pipeline.Window.rect_emb_val_of_index_zero win2_12 t a h0 _

set_option maxHeartbeats 400000 in
/-- Input window 13's one block is its whole array, fetched at the first point and left in place by the body at
    every point: its buffer holds the array's contents at every point. -/
theorem finds_13 (c : Dev nD) (V : VT (F := F) c) (t : Fin cfg2.N) (Y) (h : (rdat (U := U) c V).Finds 13 t Y) : Y = V main_arg13 := by
  obtain ⟨d, rfl⟩ := RDat.finds_in_eq_fetched (rdat (U := U) c V) 13 rfl (fun _ _ _ => rfl) (fun _ _ _ h => h) t Y h
  funext j
  have hm : (cfg2.win 13).moved (cfg2.grid.coords t) j = true := rfl
  unfold RDat.fetched Pipeline.Window.fill
  rw [dif_pos hm]
  unfold RDat.blockOf
  rw [View.read_apply]
  show V main_arg13 ((win2_13.rect t).emb fun a => ⟨(j a).val, _⟩) = V main_arg13 j
  congr 1
  funext a; apply Fin.ext
  have h0 : win2_13.index t a = 0 := by
    show cc2_transform_13 (grid2.coords t) a = 0
    unfold cc2_transform_13
    match a with
    | ⟨0, _⟩ => rfl
    | ⟨1, _⟩ => rfl
  exact Pipeline.Window.rect_emb_val_of_index_zero win2_13 t a h0 _

set_option maxHeartbeats 400000 in
/-- Input window 14's one block is its whole array, fetched at the first point and left in place by the body at
    every point: its buffer holds the array's contents at every point. -/
theorem finds_14 (c : Dev nD) (V : VT (F := F) c) (t : Fin cfg2.N) (Y) (h : (rdat (U := U) c V).Finds 14 t Y) : Y = V main_v58 := by
  obtain ⟨d, rfl⟩ := RDat.finds_in_eq_fetched (rdat (U := U) c V) 14 rfl (fun _ _ _ => rfl) (fun _ _ _ h => h) t Y h
  funext j
  have hm : (cfg2.win 14).moved (cfg2.grid.coords t) j = true := rfl
  unfold RDat.fetched Pipeline.Window.fill
  rw [dif_pos hm]
  unfold RDat.blockOf
  rw [View.read_apply]
  show V main_v58 ((win2_14.rect t).emb fun a => ⟨(j a).val, _⟩) = V main_v58 j
  congr 1
  funext a; apply Fin.ext
  have h0 : win2_14.index t a = 0 := by
    show cc2_transform_14 (grid2.coords t) a = 0
    unfold cc2_transform_14
    match a with
    | ⟨0, _⟩ => rfl
    | ⟨1, _⟩ => rfl
  exact Pipeline.Window.rect_emb_val_of_index_zero win2_14 t a h0 _

/-! ## The kernel function's triple -/

set_option maxHeartbeats 2000000 in
/-- The kernel body on whole staging memrefs, the inputs' at read contents `xW` and the outputs' at anything, runs to the
    continuation holding the inputs' as they were and each output's at its payload of the inputs'. -/
theorem sound_kernel (c : Dev nD) (E : Set ℕ) (i : grid2.Coords) (arg1 : Memref sig .tc .vmem S2048x64 .f32) (harg1 : arg1.IsWhole) (arg2 : Memref sig .tc .vmem S2048x64 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S128x64 .f32) (harg12 : arg12.IsWhole) (arg13 : Memref sig .tc .vmem S1x64 .f32) (harg13 : arg13.IsWhole) (arg14 : Memref sig .tc .vmem S128x1 .f32) (harg14 : arg14.IsWhole) (arg15 : Memref sig .tc .vmem S1x1 .f32) (harg15 : arg15.IsWhole) (arg16 : Memref sig .tc .vmem S2048x1 .f32) (harg16 : arg16.IsWhole) (arg17 : Memref sig .tc .vmem S2048x1 .f32) (harg17 : arg17.IsWhole)
    (x0 : Vec F S2048x64 .f32) (x1 : Vec F S2048x64 .f32) (x2 : Vec F S2048x256 .f32) (x3 : Vec F S2048x256 .f32) (x4 : Vec F S2048x64 .f32) (x5 : Vec F S2048x64 .f32) (x6 : Vec F S2048x64 .f32) (x7 : Vec F S512x256 .f32) (x8 : Vec F S1x256 .f32) (x9 : Vec F S256x128 .f32) (x10 : Vec F S1x128 .f32) (x11 : Vec F S128x64 .f32) (x12 : Vec F S1x64 .f32) (x13 : Vec F S128x1 .f32) (x14 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ (∃ d, owns (c : Thread nD τ) arg16 fullShare d)
        ∗ (∃ d, owns (c : Thread nD τ) arg17 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare (k2_pay1 (k2_pay3 x0 x1) (k2_pay4 x2 x3 x7 x8 x9 x10 x11) x12 x13 x14)
          ∗ owns (c : Thread nD τ) arg17 fullShare (k2_pay2 x4 x6 x5)) -∗ K ⟨⟩))
      ⊢ wp frame (wpE (defs₀ (F := F)) Variants.none c none) E (cc2__ncf_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__ncf_kernel_eq_skeleton]; unfold cc2__ncf_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    rw [View.read_writes_eq_canon _ _ _ (cover_out _), View.canon_unit_zero hz2]
    simp only [View.readAt_eq_ld, View.ld_unit_zero (S := S2048x64) hz2, View.ld_unit_zero (S := S2048x256) hz2, View.ld_unit_zero (S := S512x256) hz2, View.ld_unit_zero (S := S1x256) hz2, View.ld_unit_zero (S := S256x128) hz2, View.ld_unit_zero (S := S1x128) hz2, View.ld_unit_zero (S := S128x64) hz2, View.ld_unit_zero (S := S1x64) hz2, View.ld_unit_zero (S := S128x1) hz2, View.ld_unit_zero (S := S1x1) hz2]
  iexists _; isplitr
  swap; · iexact H16
  ipureintro
  try dsimp only
  rw [View.read_writes_eq_canon _ _ _ (cover_out _), View.canon_unit_zero hz2]
  simp only [View.readAt_eq_ld, View.ld_unit_zero (S := S2048x64) hz2]

/-! ## The body obligation -/

set_option maxHeartbeats 2000000 in
/-- The body at any point, the windows' buffers one by one: each input's buffer holds its block (`finds_W`), so
    `sound_kernel` applies; the invariant and the core's `owes` pass through unread. -/
theorem sound_body (c : Dev nD) (V : VT (F := F) c) (t : Fin cfg2.N)
    (Y0 : Vec F S2048x64 .f32) (Y1 : Vec F S2048x64 .f32) (Y2 : Vec F S2048x256 .f32) (Y3 : Vec F S2048x256 .f32) (Y4 : Vec F S2048x64 .f32) (Y5 : Vec F S2048x64 .f32) (Y6 : Vec F S2048x64 .f32) (Y7 : Vec F S512x256 .f32) (Y8 : Vec F S1x256 .f32) (Y9 : Vec F S256x128 .f32) (Y10 : Vec F S1x128 .f32) (Y11 : Vec F S128x64 .f32) (Y12 : Vec F S1x64 .f32) (Y13 : Vec F S128x1 .f32) (Y14 : Vec F S1x1 .f32) (Y15 : Vec F S2048x1 .f32) (Y16 : Vec F S2048x1 .f32)
    (h0 : (rdat (U := U) c V).Finds 0 t Y0)
    (h1 : (rdat (U := U) c V).Finds 1 t Y1)
    (h2 : (rdat (U := U) c V).Finds 2 t Y2)
    (h3 : (rdat (U := U) c V).Finds 3 t Y3)
    (h4 : (rdat (U := U) c V).Finds 4 t Y4)
    (h5 : (rdat (U := U) c V).Finds 5 t Y5)
    (h6 : (rdat (U := U) c V).Finds 6 t Y6)
    (h7 : (rdat (U := U) c V).Finds 7 t Y7)
    (h8 : (rdat (U := U) c V).Finds 8 t Y8)
    (h9 : (rdat (U := U) c V).Finds 9 t Y9)
    (h10 : (rdat (U := U) c V).Finds 10 t Y10)
    (h11 : (rdat (U := U) c V).Finds 11 t Y11)
    (h12 : (rdat (U := U) c V).Finds 12 t Y12)
    (h13 : (rdat (U := U) c V).Finds 13 t Y13)
    (h14 : (rdat (U := U) c V).Finds 14 t Y14) :
    iprop((rdat (U := U) c V).Φ t.castSucc ∗ (rdat (U := U) c V).owesAt () t.castSucc
        ∗ owns (c : Thread nD τ) (st2_0 t) fullShare Y0
        ∗ owns (c : Thread nD τ) (st2_1 t) fullShare Y1
        ∗ owns (c : Thread nD τ) (st2_2 t) fullShare Y2
        ∗ owns (c : Thread nD τ) (st2_3 t) fullShare Y3
        ∗ owns (c : Thread nD τ) (st2_4 t) fullShare Y4
        ∗ owns (c : Thread nD τ) (st2_5 t) fullShare Y5
        ∗ owns (c : Thread nD τ) (st2_6 t) fullShare Y6
        ∗ owns (c : Thread nD τ) (st2_7 t) fullShare Y7
        ∗ owns (c : Thread nD τ) (st2_8 t) fullShare Y8
        ∗ owns (c : Thread nD τ) (st2_9 t) fullShare Y9
        ∗ owns (c : Thread nD τ) (st2_10 t) fullShare Y10
        ∗ owns (c : Thread nD τ) (st2_11 t) fullShare Y11
        ∗ owns (c : Thread nD τ) (st2_12 t) fullShare Y12
        ∗ owns (c : Thread nD τ) (st2_13 t) fullShare Y13
        ∗ owns (c : Thread nD τ) (st2_14 t) fullShare Y14
        ∗ owns (c : Thread nD τ) (st2_15 t) fullShare Y15
        ∗ owns (c : Thread nD τ) (st2_16 t) fullShare Y16)
      ⊢ wp frame (wpE (defs₀ (F := F)) Variants.none c none) Set.univ (bodyAt2 t) (fun _ =>
        iprop((rdat (U := U) c V).Φ t.succ ∗ (rdat (U := U) c V).owesAt () t.succ
          ∗ (∃ X, ⌜(rdat (U := U) c V).after 0 t Y0 X⌝ ∗ owns (c : Thread nD τ) (st2_0 t) fullShare X)
          ∗ (∃ X, ⌜(rdat (U := U) c V).after 1 t Y1 X⌝ ∗ owns (c : Thread nD τ) (st2_1 t) fullShare X)
          ∗ (∃ X, ⌜(rdat (U := U) c V).after 2 t Y2 X⌝ ∗ owns (c : Thread nD τ) (st2_2 t) fullShare X)
          ∗ (∃ X, ⌜(rdat (U := U) c V).after 3 t Y3 X⌝ ∗ owns (c : Thread nD τ) (st2_3 t) fullShare X)
          ∗ (∃ X, ⌜(rdat (U := U) c V).after 4 t Y4 X⌝ ∗ owns (c : Thread nD τ) (st2_4 t) fullShare X)
          ∗ (∃ X, ⌜(rdat (U := U) c V).after 5 t Y5 X⌝ ∗ owns (c : Thread nD τ) (st2_5 t) fullShare X)
          ∗ (∃ X, ⌜(rdat (U := U) c V).after 6 t Y6 X⌝ ∗ owns (c : Thread nD τ) (st2_6 t) fullShare X)
          ∗ (∃ X, ⌜(rdat (U := U) c V).after 7 t Y7 X⌝ ∗ owns (c : Thread nD τ) (st2_7 t) fullShare X)
          ∗ (∃ X, ⌜(rdat (U := U) c V).after 8 t Y8 X⌝ ∗ owns (c : Thread nD τ) (st2_8 t) fullShare X)
          ∗ (∃ X, ⌜(rdat (U := U) c V).after 9 t Y9 X⌝ ∗ owns (c : Thread nD τ) (st2_9 t) fullShare X)
          ∗ (∃ X, ⌜(rdat (U := U) c V).after 10 t Y10 X⌝ ∗ owns (c : Thread nD τ) (st2_10 t) fullShare X)
          ∗ (∃ X, ⌜(rdat (U := U) c V).after 11 t Y11 X⌝ ∗ owns (c : Thread nD τ) (st2_11 t) fullShare X)
          ∗ (∃ X, ⌜(rdat (U := U) c V).after 12 t Y12 X⌝ ∗ owns (c : Thread nD τ) (st2_12 t) fullShare X)
          ∗ (∃ X, ⌜(rdat (U := U) c V).after 13 t Y13 X⌝ ∗ owns (c : Thread nD τ) (st2_13 t) fullShare X)
          ∗ (∃ X, ⌜(rdat (U := U) c V).after 14 t Y14 X⌝ ∗ owns (c : Thread nD τ) (st2_14 t) fullShare X)
          ∗ (∃ X, ⌜(rdat (U := U) c V).after 15 t Y15 X⌝ ∗ owns (c : Thread nD τ) (st2_15 t) fullShare X)
          ∗ (∃ X, ⌜(rdat (U := U) c V).after 16 t Y16 X⌝ ∗ owns (c : Thread nD τ) (st2_16 t) fullShare X))) := by
  obtain rfl := finds_0 c V t Y0 h0
  obtain rfl := finds_1 c V t Y1 h1
  obtain rfl := finds_2 c V t Y2 h2
  obtain rfl := finds_3 c V t Y3 h3
  obtain rfl := finds_4 c V t Y4 h4
  obtain rfl := finds_5 c V t Y5 h5
  obtain rfl := finds_6 c V t Y6 h6
  obtain rfl := finds_7 c V t Y7 h7
  obtain rfl := finds_8 c V t Y8 h8
  obtain rfl := finds_9 c V t Y9 h9
  obtain rfl := finds_10 c V t Y10 h10
  obtain rfl := finds_11 c V t Y11 h11
  obtain rfl := finds_12 c V t Y12 h12
  obtain rfl := finds_13 c V t Y13 h13
  obtain rfl := finds_14 c V t Y14 h14
  rw [show (rdat (U := U) c V).Φ t.succ = (rdat (U := U) c V).Φ t.castSucc from rfl,
    show (rdat (U := U) c V).owesAt () t.succ = (rdat (U := U) c V).owesAt () t.castSucc from rfl]
  unfold bodyAt2
  iintro ⟨HΦ, Ho, H0, H1, H2, H3, H4, H5, H6, H7, H8, H9, H10, H11, H12, H13, H14, H15, H16⟩
  iapply (sound_kernel c Set.univ (grid2.coords t) _ _ _ _ _ _ _ _ _ _ _ _ _ _ _ _ _ _ _ _ _ _ _ _ _ _ _ _ _ _ _ _ _ _
    (B c V 0 t) (B c V 1 t) (B c V 2 t) (B c V 3 t) (B c V 4 t) (B c V 5 t) (B c V 6 t) (V main_arg7) (V main_v55) (V main_arg9) (V main_v56) (V main_arg11) (V main_v57) (V main_arg13) (V main_v58) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; rfl
  isplitl [H15]
  · iexists _; isplitr
    swap; · iexact H15
    ipureintro; rfl
  · iexists _; isplitr
    swap; · iexact H16
    ipureintro; rfl

/-- The body obligation of region 2's proof data, at every point. -/
theorem body (c : Dev nD) (V : VT (F := F) c) :
    (rdat (U := U) c V).BodyObligation defs₀ Variants.none () Set.univ := fun t Y hY => by
  rw [bigSep_W2, bigSep_W2]
  exact sound_body c V t (Y 0) (Y 1) (Y 2) (Y 3) (Y 4) (Y 5) (Y 6) (Y 7) (Y 8) (Y 9) (Y 10) (Y 11) (Y 12) (Y 13) (Y 14) (Y 15) (Y 16) (hY 0) (hY 1) (hY 2) (hY 3) (hY 4) (hY 5) (hY 6) (hY 7) (hY 8) (hY 9) (hY 10) (hY 11) (hY 12) (hY 13) (hY 14)

end Cert.Kernel.Reg2

end
-- ==== Proof.KRun.lean ====
/-
  The run of @main: three kernel regions among four stretches of host operations, from any launch memory, for any float
  instance. Between two items a core holds every unscoped buffer at a valuation (Vals.lean); what a region leaves in its
  arrays is known to exist and to satisfy the region's relation (RDat.ArrAt), so the thread states after a region are
  quantified over those contents, and every item is a host segment of the launch library (Kit.lean): a stretch of
  operations under the quantifier, a region by the region rule at the proof data the witness gives.
  The conclusion: every weakly fair execution terminates, and every final memory holds each unscoped buffer at the last
  valuation for SOME contents the three regions may have left.
-/
import proofs.«163843_j81870666596358_2_alg».proof.Proof.KVals
import proofs.«163843_j81870666596358_2_alg».proof.Proof.KReg0
import proofs.«163843_j81870666596358_2_alg».proof.Proof.KReg1Body
import proofs.«163843_j81870666596358_2_alg».proof.Proof.KReg2Body

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [Facts]

local notation "𝕄" => MT nD τ sig Unit (Elt F) ℕ Alg ℕ

variable (m : (ℓ : Loc nD τ sig) → Buf (Elt F) ℓ) (ρ : Dev nD → PrngReg)

/-- Every pipeline's proof data, each at a region-entry valuation of its own. -/
def fam (V0 V1 V2 : Dev nD → Valuation τ sig (Elt F)) : Fam (F := F)
  | ⟨0, _⟩ => fun c => Reg0.rdat (U := Alg) c (tcv c (V0 c))
  | ⟨1, _⟩ => fun c => Reg1.rdat (U := Alg) c (tcv c (V1 c))
  | ⟨2, _⟩ => fun c => Reg2.rdat (U := Alg) c (tcv c (V2 c))

/-- What region 0 may have left in its arrays, on every core. -/
structure St1 where
  A0 : (c : Dev nD) → ArrC (F := F) 0 c
  h0 : ∀ c w, (Reg0.rdat (U := Alg) c (tcv c (W1 m c))).ArrAt w cfg0.N (A0 c w)
/-- and region 1 after it, -/
structure St2 extends St1 m where
  A1 : (c : Dev nD) → ArrC (F := F) 1 c
  h1 : ∀ c w, (Reg1.rdat (U := Alg) c (tcv c (W2 m c (A0 c)))).ArrAt w cfg1.N (A1 c w)
/-- and region 2 after both. -/
structure St3 extends St2 m where
  A2 : (c : Dev nD) → ArrC (F := F) 2 c
  h2 : ∀ c w, (Reg2.rdat (U := Alg) c (tcv c (W5 m c (A0 c) (A1 c)))).ArrAt w cfg2.N (A2 c w)

/-- The pipelines whose ghost state is still unspent after region 0, 1, 2. -/
abbrev S1 : Finset (Fin 3) := Finset.univ.erase 0
abbrev S2 : Finset (Fin 3) := S1.erase 1
abbrev S3 : Finset (Fin 3) := S2.erase 2

/-- What rides beside the buffers: the register, nothing owed, the unspent ghost state. -/
abbrev Rg (S : Finset (Fin 3)) (c : Dev nD) : sProp 𝕄 := iprop(Rr (F := F) c ∗ ghost (F := F) S c)

theorem ops0_fresh : (main_part0_ops0 : List (HloOp τ sig (Elt F))).Forall fun op => op.fresh = ∅ := by
  simp only [List.Forall]; repeat' constructor
theorem ops1_fresh : (main_part0_ops1 : List (HloOp τ sig (Elt F))).Forall fun op => op.fresh = ∅ := by
  simp only [List.Forall]; repeat' constructor
theorem ops2_fresh : (main_part1_ops0 : List (HloOp τ sig (Elt F))).Forall fun op => op.fresh = ∅ := by
  simp only [List.Forall]; repeat' constructor
theorem ops3_fresh : (main_part1_ops1 : List (HloOp τ sig (Elt F))).Forall fun op => op.fresh = ∅ := by
  simp only [List.Forall]; repeat' constructor

/-- A stretch of host operations from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) : HS (F := F) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Region 0's record, entered at W1. -/
def R0 : Pipeline.RDat.RegionSeg (pcfgs (F := F)) adm (fam (W1 m) (W1 m) (W1 m)) () defs₀ 𝒱₀ L lv 0 :=
  regRec 0 (fam (W1 m) (W1 m) (W1 m)) launch0 (W1 m) (fun _ _ => rfl) (fun _ _ => rfl) (fun _ _ => rfl)
    (fun c => Reg0.body c _) (fun _ _ => rfl) (fun _ _ => rfl)

/-- Region 1's record, entered at W2 of what region 0 left. -/
def R1 (x : St1 m) : Pipeline.RDat.RegionSeg (pcfgs (F := F)) adm (fam (W1 m) (fun c => W2 m c (x.A0 c)) (W1 m)) () defs₀ 𝒱₀ L lv 1 :=
  regRec 1 (fam (W1 m) (fun c => W2 m c (x.A0 c)) (W1 m)) launch1 (fun c => W2 m c (x.A0 c)) (fun _ _ => rfl) (fun _ _ => rfl) (fun _ _ => rfl)
    (fun c => Reg1.body c _) (fun _ _ => rfl) (fun _ _ => rfl)

/-- Region 2's record, entered at W5 of what regions 0 and 1 left. -/
def R2 (x : St2 m) : Pipeline.RDat.RegionSeg (pcfgs (F := F)) adm (fam (W1 m) (W1 m) (fun c => W5 m c (x.A0 c) (x.A1 c))) () defs₀ 𝒱₀ L lv 2 :=
  regRec 2 (fam (W1 m) (W1 m) (fun c => W5 m c (x.A0 c) (x.A1 c))) launch2 (fun c => W5 m c (x.A0 c) (x.A1 c)) (fun _ _ => rfl) (fun _ _ => rfl) (fun _ _ => rfl)
    (fun c => Reg2.body c _) (fun _ _ => rfl) (fun _ _ => rfl)

/-- The seven items as host segments. -/
def seg0 : HS (F := F) := hseg main_part0_ops0 main_part0_ops0_sub ops0_fresh (W0 m) (Rg Finset.univ)
def seg1 : HS (F := F) := regionSeg (X := Unit) (fun _ => fam (W1 m) (W1 m) (W1 m)) (fun _ => R0 m) Finset.univ (Finset.mem_univ 0)
def seg2 : HS (F := F) := regionSeg (X := St1 m) (fun x => fam (W1 m) (fun c => W2 m c (x.A0 c)) (W1 m)) (R1 m) S1 (by decide)
def seg3 : HS (F := F) := exSeg (X := St2 m) (StableHlo.seq main_part0_ops1)
  (fun x => hseg main_part0_ops1 main_part0_ops1_sub ops1_fresh (fun c => W3 m c (x.A0 c) (x.A1 c)) (Rg S2)) (fun _ => rfl)
def seg4 : HS (F := F) := exSeg (X := St2 m) (StableHlo.seq main_part1_ops0)
  (fun x => hseg main_part1_ops0 main_part1_ops0_sub ops2_fresh (fun c => W4 m c (x.A0 c) (x.A1 c)) (Rg S2)) (fun _ => rfl)
def seg5 : HS (F := F) := regionSeg (X := St2 m) (fun x => fam (W1 m) (W1 m) (fun c => W5 m c (x.A0 c) (x.A1 c))) (R2 m) S2 (by decide)
def seg6 : HS (F := F) := exSeg (X := St3 m) (StableHlo.seq main_part1_ops1)
  (fun x => hseg main_part1_ops1 main_part1_ops1_sub ops3_fresh (fun c => W6 m c (x.A0 c) (x.A1 c) (x.A2 c)) (Rg S3)) (fun _ => rfl)

/-! ## The thread states chain -/

theorem ch01 (c : Dev nD) : (seg0 m).post c ⊢ (seg1 m).pre c := by
  show iprop(StableHlo.held (c.tc : Thread nD τ) (Pipeline.ucRefs τ sig) (W1 m c) ∗ Rg (F := F) Finset.univ c)
    ⊢ iprop(∃ _x : Unit, regPre (F := F) (W1 m) c ∗ ghost (F := F) Finset.univ c)
  iintro ⟨Hh, ⟨Hr, Hg⟩⟩
  iexists ()
  isplitl [Hh Hr]
  · isplitl [Hh]; · iexact Hh
    iexact Hr
  iexact Hg

theorem ch12 (c : Dev nD) : (seg1 m).post c ⊢ (seg2 m).pre c := by
  show iprop(∃ _x : Unit, regPost (F := F) 0 (fam (W1 m) (W1 m) (W1 m)) (W1 m) c ∗ ghost (F := F) S1 c)
    ⊢ iprop(∃ x : St1 m, regPre (F := F) (fun c => W2 m c (x.A0 c)) c ∗ ghost (F := F) S1 c)
  iintro ⟨%u, ⟨%A, %hA, Hh, Hr⟩, Hg⟩
  iexists (⟨spread c A, fun c' w => by obtain rfl := Subsingleton.elim c c'; exact hA w⟩ : St1 m)
  isplitl [Hh Hr]
  · isplitl [Hh]; · iexact Hh
    iexact Hr
  iexact Hg

theorem ch23 (c : Dev nD) : (seg2 m).post c ⊢ (seg3 m).pre c := by
  show iprop(∃ x : St1 m, regPost (F := F) 1 (fam (W1 m) (fun c => W2 m c (x.A0 c)) (W1 m)) (fun c => W2 m c (x.A0 c)) c ∗ ghost (F := F) S2 c)
    ⊢ iprop(∃ x : St2 m, StableHlo.held (c.tc : Thread nD τ) (Pipeline.ucRefs τ sig) (W3 m c (x.A0 c) (x.A1 c)) ∗ Rg (F := F) S2 c)
  iintro ⟨%x, ⟨%A, %hA, Hh, Hr⟩, Hg⟩
  iexists ({ toSt1 := x, A1 := spread c A, h1 := fun c' w => by obtain rfl := Subsingleton.elim c c'; exact hA w } : St2 m)
  isplitl [Hh]; · iexact Hh
  isplitl [Hr]; · iexact Hr
  iexact Hg

theorem ch45 (c : Dev nD) : (seg4 m).post c ⊢ (seg5 m).pre c := by
  show iprop(∃ x : St2 m, StableHlo.held (c.tc : Thread nD τ) (Pipeline.ucRefs τ sig) (W5 m c (x.A0 c) (x.A1 c)) ∗ Rg (F := F) S2 c)
    ⊢ iprop(∃ x : St2 m, regPre (F := F) (fun c => W5 m c (x.A0 c) (x.A1 c)) c ∗ ghost (F := F) S2 c)
  iintro ⟨%x, Hh, ⟨Hr, Hg⟩⟩
  iexists x
  isplitl [Hh Hr]
  · isplitl [Hh]; · iexact Hh
    iexact Hr
  iexact Hg

theorem ch56 (c : Dev nD) : (seg5 m).post c ⊢ (seg6 m).pre c := by
  show iprop(∃ x : St2 m, regPost (F := F) 2 (fam (W1 m) (W1 m) (fun c => W5 m c (x.A0 c) (x.A1 c))) (fun c => W5 m c (x.A0 c) (x.A1 c)) c ∗ ghost (F := F) S3 c)
    ⊢ iprop(∃ x : St3 m, StableHlo.held (c.tc : Thread nD τ) (Pipeline.ucRefs τ sig) (W6 m c (x.A0 c) (x.A1 c) (x.A2 c)) ∗ Rg (F := F) S3 c)
  iintro ⟨%x, ⟨%A, %hA, Hh, Hr⟩, Hg⟩
  iexists ({ toSt2 := x, A2 := spread c A, h2 := fun c' w => by obtain rfl := Subsingleton.elim c c'; exact hA w } : St3 m)
  isplitl [Hh]; · iexact Hh
  isplitl [Hr]; · iexact Hr
  iexact Hg

/-- The last thread state without the owes: every unscoped buffer at the last valuation for some contents the regions
    may have left, the register, the unspent ghost state. -/
abbrev Tn (c : Dev nD) : sProp 𝕄 :=
  iprop(∃ x : St3 m, StableHlo.held (c.tc : Thread nD τ) (Pipeline.ucRefs τ sig) (W7 m c (x.A0 c) (x.A1 c) (x.A2 c))
    ∗ (∃ r, prngReg c r) ∗ ghost (F := F) S3 c)

theorem ch6n (c : Dev nD) : (seg6 m).post c
    ⊢ iprop(Tn m c ∗ ∃ W, owes (c.tc : Thread nD τ) (0 : CellTallies nD τ sig Unit) W) := by
  show iprop(∃ x : St3 m, StableHlo.held (c.tc : Thread nD τ) (Pipeline.ucRefs τ sig) (W7 m c (x.A0 c) (x.A1 c) (x.A2 c)) ∗ Rg (F := F) S3 c) ⊢ _
  iintro ⟨%x, Hh, ⟨⟨Hp, HO⟩, Hg⟩⟩
  isplitr [HO]
  · iexists x
    isplitl [Hh]; · iexact Hh
    isplitl [Hp]; · iexact Hp
    iexact Hg
  iexact HO

/-! ## The run -/

/-- @main's seven items in order. -/
def segs : List (Pipeline.RDat.Seg (pcfgs (F := F)) adm (fam (W0 m) (W0 m) (W0 m)) () defs₀ 𝒱₀ L lv) :=
  [.host (seg0 m), .host (seg1 m), .host (seg2 m), .host (seg3 m), .host (seg4 m), .host (seg5 m), .host (seg6 m)]

theorem segs_prog : (segs m).map Pipeline.RDat.Seg.prog =
    [ StableHlo.seq main_part0_ops0,
      Prog.lift (.customCall (Pipeline.entry 0) ()),
      Prog.lift (.customCall (Pipeline.entry 1) ()),
      StableHlo.seq main_part0_ops1,
      StableHlo.seq main_part1_ops0,
      Prog.lift (.customCall (Pipeline.entry 2) ()),
      StableHlo.seq main_part1_ops1 ] := rfl

/-- @main IS the run of the seven items. -/
theorem main_run (c : Dev nD) : main (F := F) c = Pipeline.RDat.Seg.run (segs m) := by
  rw [Pipeline.RDat.Seg.run_eq_chain, segs_prog]
  exact main_chain_windows c

/-- The launch element: one copy of the pipeline library's element for the launch theorem, one for the regions, which
    funds every pipeline's ghost state on every core. -/
theorem launch_elt :
    (ownU ((initOf (Pipeline.cells cfgs cellOf_inj) (Pipeline.launchToks cfgs cellOf_inj),
        initOf (Pipeline.cells cfgs cellOf_inj) (Pipeline.launchToks cfgs cellOf_inj)) : Alg) : sProp 𝕄)
      ⊢ |={Set.univ}=> iprop(BI.own ((EPk (F := F)) (initOf (Pipeline.cells cfgs cellOf_inj) (Pipeline.launchToks cfgs cellOf_inj)))
          ∗ bigSep Finset.univ fun c : Dev nD => ghost (F := F) Finset.univ c) := by
  iintro Hu
  ihave H := (ownU_pair (initOf (Pipeline.cells cfgs cellOf_inj) (Pipeline.launchToks cfgs cellOf_inj))
    (initOf (Pipeline.cells cfgs cellOf_inj) (Pipeline.launchToks cfgs cellOf_inj))) $$ Hu
  icases H with ⟨HP, HQ⟩
  imod (fund_regions (F := F)) $$ HQ with HG
  imodintro
  isplitl [HP]; · iexact HP
  iexact HG

theorem segs_pipes : (Pipeline.RDat.Seg.pipes (segs m)).Nodup := by
  simp only [segs, Pipeline.RDat.Seg.pipes_host, Pipeline.RDat.Seg.pipes_nil]; exact List.nodup_nil

set_option maxHeartbeats 4000000 in
set_option backward.isDefEq.respectTransparency.types false in
/-- From any launch memory with zero counters, every weakly fair execution of @main terminates, nothing faulting, and
    every final memory holds every unscoped buffer at the last valuation W7 for SOME contents the three regions may have
    left in their arrays (each satisfying its region's relation). -/
theorem run : θ_run (defs (F := F)) (onTc (τ := τ) (main (F := F))) ⟨m, fun _ => 0, ρ⟩
    (fun r => ∀ c : Dev nD, ∃ x : St3 m, ∀ b ∈ Pipeline.ucRefs τ sig,
      r.2.mem ((c.tc : Thread nD τ).1, b) = W7 m c (x.A0 c) (x.A1 c) (x.A2 c) b) :=
  Pipeline.RDat.θ_run_regions_kit (pcfgs (F := F)) adm (fam (W0 m) (W0 m) (W0 m)) () cellOf_inj (EPk (F := F)) defs₀ 𝒱₀ L lv m ρ main
    (segs m)
    (fun c Q => Entails.of_eq (congrArg (fun pr => wp frame (wpE (Pipeline.defs (pcfgs (F := F)) defs₀) (Variants.lift 𝒱₀) (c.tc : Thread nD τ) none) Set.univ pr Q) (main_run m c).symm))
    (segs_pipes m)
    (O₀ := 0) (hL := fun _ _ => rfl) (G := fun c => ghost (F := F) Finset.univ c)
    (u₀ := (initOf (Pipeline.cells cfgs cellOf_inj) (Pipeline.launchToks cfgs cellOf_inj),
      initOf (Pipeline.cells cfgs cellOf_inj) (Pipeline.launchToks cfgs cellOf_inj)))
    (hu₀ := launch_elt)
    (T₀ := fun c => iprop(StableHlo.held (c.tc : Thread nD τ) (Pipeline.ucRefs τ sig) (W0 m c) ∗ Rg (F := F) Finset.univ c))
    (Tₙ := Tn m)
    (hch := ⟨fun _ => .rfl, ch01 m, ch12 m, ch23 m, fun _ => .rfl, ch45 m, ch56 m, ch6n m⟩)
    (hinit := by
      refine Pipeline.initEach L lv fun c => ?_
      rw [show unscopedBufs c (fun b => m ((c.tc : Thread nD τ).loc b)) = StableHlo.held (c.tc : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitl [Hp HO]
      · isplitl [Hp]; · iexists _; iexact Hp
        iexists ∅; iexact HO
      iexact HG)
    (QY := fun c s => ∃ x : St3 m, ∀ b ∈ Pipeline.ucRefs τ sig,
      s.mem ((c.tc : Thread nD τ).1, b) = W7 m c (x.A0 c) (x.A1 c) (x.A2 c) b)
    (hfin := fun c s' => by
      unfold Tn StableHlo.held
      iintro ⟨⟨%x, Hh, -⟩, HSI⟩
      ihave Hr := (pointsTo_read_all (Pipeline.ucRefs τ sig) (fun b => ((c.tc : Thread nD τ).1, b)) (W7 m c (x.A0 c) (x.A1 c) (x.A2 c)) s') $$ [Hh HSI]
      · isplitl [Hh] <;> iassumption
      icases Hr with ⟨%h, HSI⟩
      imodintro
      isplitr
      · ipureintro; exact ⟨x, h⟩
      · iexact HSI)
    (hQ := fun _ h => h)

end Cert.Kernel.Hand

end
-- ==== Proof.KGlue.lean ====
/-
  What the kernel program's host stretches leave in the buffers the regions read, as the operations' terms over an
  arbitrary valuation of the buffers; the layout operations read at an index.
-/
import proofs.«163843_j81870666596358_2_alg».proof.Proof.Gen.Kernel.Launch
import Idealize.ShloMosaic.Lib.StableHlo.Run
import Idealize.ShloMosaic.Lib.ValueIdx
import Idealize.ShloMosaic.Lib.Pipeline.Value
import Idealize.ShloMosaic.Lib.ValueLayout

noncomputable section

namespace Cert.Kernel.Glue

open Cert.Kernel Cert.Kernel.Gen Idealize.ShloMosaic Idealize.ShloMosaic.TcCoe Idealize.ShloMosaic.StableHlo
  Idealize.ShloMosaic.ValueIdx Idealize.SL.Sem

variable {F : FTy → Type} [FloatOps F]

/-- A row index wrapped the way a gather's start indices are: a negative index counts from the end (`bound` is added),
    then the vector is made a column. -/
abbrev rowIdx (bound : BitVec 32) (x : (⟨S8192, .i32⟩ : BufTy).Contents (Elt F)) : (⟨S8192x1, .i32⟩ : BufTy).Contents (Elt F) :=
  broadcastInDim S8192x1 ![0] bcast_S8192_S8192x1_0
    (select (cmpi .slt x (broadcastInDim S8192 ![] bcast_S_S8192 (constantI S_ 32 0#32)))
      (addi x (broadcastInDim S8192 ![] bcast_S_S8192 (constantI S_ 32 bound))) x)

/-! ## The first host stretch of the first window: the operands of the two attention regions -/

/-- The references the operations of `main_part0_ops0` write. -/
abbrev p0o0_W : List (Ref sig .tc) := [main_v0, main_v1, main_v2, main_v3]
theorem p0o0_writes : (main_part0_ops0 : List (HloOp τ sig (Elt F))).Forall fun op => op.writes ⊆ (p0o0_W.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p0o0_keep (W : Valuation τ sig (Elt F)) {r : Ref sig .tc} (h : r ∉ p0o0_W) :
    StableHlo.after (main_part0_ops0 (F := F)) W (Proc.devRef .tc r) = W (Proc.devRef .tc r) :=
  StableHlo.after_of_writes_sub main_part0_ops0 W p0o0_writes h

theorem p0o0_v1 (W : Valuation τ sig (Elt F)) :
    (StableHlo.after (main_part0_ops0 (F := F)) W (Proc.devRef .tc main_v1) : (⟨S64x12000, .bf16⟩ : BufTy).Contents (Elt F))
      = truncf .bf16 (transpose S64x12000 [1, 0] (W (Proc.devRef .tc main_arg15)) transposes_S12000x64_S64x12000_1_0) bitsLt_bf16_f32 := by
  after_results_simp

theorem p0o0_v2 (W : Valuation τ sig (Elt F)) :
    (StableHlo.after (main_part0_ops0 (F := F)) W (Proc.devRef .tc main_v2) : (⟨S6000x64, .bf16⟩ : BufTy).Contents (Elt F))
      = truncf .bf16 (W (Proc.devRef .tc main_arg16)) bitsLt_bf16_f32 := by
  after_results_simp

theorem p0o0_v3 (W : Valuation τ sig (Elt F)) :
    (StableHlo.after (main_part0_ops0 (F := F)) W (Proc.devRef .tc main_v3) : (⟨S1x64, .f32⟩ : BufTy).Contents (Elt F))
      = shapeCast S1x64 (W (Proc.devRef .tc main_arg18)) shapeCasts_S64_S1x64 := by
  after_results_simp
  rfl

/-! ## The second host stretch of the first window: the six gathers -/

/-- The references the operations of `main_part0_ops1` write. -/
abbrev p0o1_W : List (Ref sig .tc) := [main_c, main_v6, main_v7, main_c_0, main_v8, main_v9, main_v10, main_v11, main_v12, main_c_1, main_v13, main_v14, main_c_2, main_v15, main_v16, main_v17, main_v18, main_v19, main_c_3, main_v20, main_v21, main_c_4, main_v22, main_v23, main_v24, main_v25, main_v26, main_c_5, main_v27, main_v28, main_c_6, main_v29, main_v30, main_v31, main_v32, main_v33, main_c_7, main_v34, main_v35, main_c_8, main_v36, main_v37, main_v38, main_v39, main_v40, main_c_9, main_v41, main_v42, main_c_10, main_v43, main_v44, main_v45, main_v46, main_v47]
theorem p0o1_writes : (main_part0_ops1 : List (HloOp τ sig (Elt F))).Forall fun op => op.writes ⊆ (p0o1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p0o1_keep (W : Valuation τ sig (Elt F)) {r : Ref sig .tc} (h : r ∉ p0o1_W) :
    StableHlo.after (main_part0_ops1 (F := F)) W (Proc.devRef .tc r) = W (Proc.devRef .tc r) :=
  StableHlo.after_of_writes_sub main_part0_ops1 W p0o1_writes h

theorem p0o1_v12 (W : Valuation τ sig (Elt F)) :
    (StableHlo.after (main_part0_ops1 (F := F)) W (Proc.devRef .tc main_v12) : (⟨S8192x64, .f32⟩ : BufTy).Contents (Elt F))
      = Host.gather gather_S6000x64_S8192x1_S8192x64_1_0_n_n_0_1_164 (W (Proc.devRef .tc main_arg3)) (rowIdx 6000#32 (W (Proc.devRef .tc main_arg0))) := by
  after_results_simp

theorem p0o1_v19 (W : Valuation τ sig (Elt F)) :
    (StableHlo.after (main_part0_ops1 (F := F)) W (Proc.devRef .tc main_v19) : (⟨S8192x64, .f32⟩ : BufTy).Contents (Elt F))
      = Host.gather gather_S12000x64_S8192x1_S8192x64_1_0_n_n_0_1_164 (W (Proc.devRef .tc main_arg4)) (rowIdx 12000#32 (W (Proc.devRef .tc main_arg1))) := by
  after_results_simp

theorem p0o1_v26 (W : Valuation τ sig (Elt F)) :
    (StableHlo.after (main_part0_ops1 (F := F)) W (Proc.devRef .tc main_v26) : (⟨S8192x256, .f32⟩ : BufTy).Contents (Elt F))
      = Host.gather gather_S6000x256_S8192x1_S8192x256_1_0_n_n_0_1_1256 (W (Proc.devRef .tc main_arg5)) (rowIdx 6000#32 (W (Proc.devRef .tc main_arg0))) := by
  after_results_simp

theorem p0o1_v33 (W : Valuation τ sig (Elt F)) :
    (StableHlo.after (main_part0_ops1 (F := F)) W (Proc.devRef .tc main_v33) : (⟨S8192x256, .f32⟩ : BufTy).Contents (Elt F))
      = Host.gather gather_S12000x256_S8192x1_S8192x256_1_0_n_n_0_1_1256 (W (Proc.devRef .tc main_arg6)) (rowIdx 12000#32 (W (Proc.devRef .tc main_arg1))) := by
  after_results_simp

theorem p0o1_v40 (W : Valuation τ sig (Elt F)) :
    (StableHlo.after (main_part0_ops1 (F := F)) W (Proc.devRef .tc main_v40) : (⟨S8192x64, .f32⟩ : BufTy).Contents (Elt F))
      = Host.gather gather_S6000x64_S8192x1_S8192x64_1_0_n_n_0_1_164 (W (Proc.devRef .tc main_arg16)) (rowIdx 6000#32 (W (Proc.devRef .tc main_arg0))) := by
  after_results_simp

theorem p0o1_v47 (W : Valuation τ sig (Elt F)) :
    (StableHlo.after (main_part0_ops1 (F := F)) W (Proc.devRef .tc main_v47) : (⟨S8192x64, .f32⟩ : BufTy).Contents (Elt F))
      = Host.gather gather_S12000x64_S8192x1_S8192x64_1_0_n_n_0_1_164 (W (Proc.devRef .tc main_arg15)) (rowIdx 12000#32 (W (Proc.devRef .tc main_arg1))) := by
  after_results_simp

/-! ## The first host stretch of the second window: the gather of items_relation and the bias rows -/

/-- The references the operations of `main_part1_ops0` write. -/
abbrev p1o0_W : List (Ref sig .tc) := [main_c_11, main_v48, main_v49, main_c_12, main_v50, main_v51, main_v52, main_v53, main_v54, main_v55, main_v56, main_v57, main_v58]
theorem p1o0_writes : (main_part1_ops0 : List (HloOp τ sig (Elt F))).Forall fun op => op.writes ⊆ (p1o0_W.map (Proc.devRef (τ := τ) .tc)).toFinset := by
  simp only [List.Forall]
  refine ⟨?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p1o0_keep (W : Valuation τ sig (Elt F)) {r : Ref sig .tc} (h : r ∉ p1o0_W) :
    StableHlo.after (main_part1_ops0 (F := F)) W (Proc.devRef .tc r) = W (Proc.devRef .tc r) :=
  StableHlo.after_of_writes_sub main_part1_ops0 W p1o0_writes h

theorem p1o0_v54 (W : Valuation τ sig (Elt F)) :
    (StableHlo.after (main_part1_ops0 (F := F)) W (Proc.devRef .tc main_v54) : (⟨S8192x64, .f32⟩ : BufTy).Contents (Elt F))
      = Host.gather gather_S12000x64_S8192x1_S8192x64_1_0_n_n_0_1_164 (W (Proc.devRef .tc main_v5)) (rowIdx 12000#32 (W (Proc.devRef .tc main_arg1))) := by
  after_results_simp

theorem p1o0_v55 (W : Valuation τ sig (Elt F)) :
    (StableHlo.after (main_part1_ops0 (F := F)) W (Proc.devRef .tc main_v55) : (⟨S1x256, .f32⟩ : BufTy).Contents (Elt F))
      = shapeCast S1x256 (W (Proc.devRef .tc main_arg8)) shapeCasts_S256_S1x256 := by
  after_results_simp
  rfl

theorem p1o0_v56 (W : Valuation τ sig (Elt F)) :
    (StableHlo.after (main_part1_ops0 (F := F)) W (Proc.devRef .tc main_v56) : (⟨S1x128, .f32⟩ : BufTy).Contents (Elt F))
      = shapeCast S1x128 (W (Proc.devRef .tc main_arg10)) shapeCasts_S128_S1x128 := by
  after_results_simp
  rfl

theorem p1o0_v57 (W : Valuation τ sig (Elt F)) :
    (StableHlo.after (main_part1_ops0 (F := F)) W (Proc.devRef .tc main_v57) : (⟨S1x64, .f32⟩ : BufTy).Contents (Elt F))
      = shapeCast S1x64 (W (Proc.devRef .tc main_arg12)) shapeCasts_S64_S1x64 := by
  after_results_simp
  rfl

theorem p1o0_v58 (W : Valuation τ sig (Elt F)) :
    (StableHlo.after (main_part1_ops0 (F := F)) W (Proc.devRef .tc main_v58) : (⟨S1x1, .f32⟩ : BufTy).Contents (Elt F))
      = shapeCast S1x1 (W (Proc.devRef .tc main_arg14)) shapeCasts_S1_S1x1 := by
  after_results_simp
  rfl

/-! ## The last host stretch: the two results made vectors -/

/-- The references the operations of `main_part1_ops1` write. -/
abbrev p1o1_W : List (Ref sig .tc) := [main_v60, main_v61]
theorem p1o1_writes : (main_part1_ops1 : List (HloOp τ sig (Elt F))).Forall fun op => op.writes ⊆ (p1o1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A reference the stretch does not write keeps its contents. -/
theorem p1o1_keep (W : Valuation τ sig (Elt F)) {r : Ref sig .tc} (h : r ∉ p1o1_W) :
    StableHlo.after (main_part1_ops1 (F := F)) W (Proc.devRef .tc r) = W (Proc.devRef .tc r) :=
  StableHlo.after_of_writes_sub main_part1_ops1 W p1o1_writes h

theorem p1o1_v60 (W : Valuation τ sig (Elt F)) :
    (StableHlo.after (main_part1_ops1 (F := F)) W (Proc.devRef .tc main_v60) : (⟨S8192, .f32⟩ : BufTy).Contents (Elt F))
      = shapeCast S8192 (W (Proc.devRef .tc main_v59_0)) shapeCasts_S8192x1_S8192 := by
  after_results_simp
  rfl

theorem p1o1_v61 (W : Valuation τ sig (Elt F)) :
    (StableHlo.after (main_part1_ops1 (F := F)) W (Proc.devRef .tc main_v61) : (⟨S8192, .f32⟩ : BufTy).Contents (Elt F))
      = shapeCast S8192 (W (Proc.devRef .tc main_v59_1)) shapeCasts_S8192x1_S8192 := by
  after_results_simp
  rfl

/-! ## The layout operations read at an index -/

/-- A bias vector made a row reads, at (0, d), the vector at d. -/
theorem row_apply {D : Nat} {α : Type} (b : (⟨1, ![D]⟩ : Shape).Idx → α) (h : (⟨1, ![D]⟩ : Shape).ShapeCasts ⟨2, ![1, D]⟩) (d : Fin D) :
    shapeCast ⟨2, ![1, D]⟩ b h (ix2 (0 : Fin 1) d) = b (ix1 d) :=
  shapeCast_a_1a_apply b h 0 d

/-- A one-column array made a vector reads, at b, the column at (b, 0). -/
theorem col_apply {n : Nat} {α : Type} (o : (⟨2, ![n, 1]⟩ : Shape).Idx → α) (h : (⟨2, ![n, 1]⟩ : Shape).ShapeCasts ⟨1, ![n]⟩) (b : Fin n) :
    shapeCast ⟨1, ![n]⟩ o h (ix1 b) = o (ix2 b (0 : Fin 1)) :=
  shapeCast_apply o h _ _ (by
    rw [Shape.rowMajor_val_two, Shape.rowMajor_val_one]
    show b.val * 1 + 0 = b.val
    rw [Nat.mul_one, Nat.add_zero])

end Cert.Kernel.Glue

end
-- ==== Proof.KArgsKept.lean ====
/-
  The program's arguments end as launched: no host operation writes one, and a region either bypasses it or reads it
  through an input window, whose array no write-back touches.
-/
import proofs.«163843_j81870666596358_2_alg».proof.Proof.KVals
import proofs.«163843_j81870666596358_2_alg».proof.Proof.KGlue

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-! ## What each item leaves unchanged -/

/-- A host stretch keeps every reference it does not write. -/
theorem W1_of (c : Dev nD) {r : Ref sig .tc} (h : r ∉ Glue.p0o0_W) :
    W1 m c (Proc.devRef .tc r) = W0 m c (Proc.devRef .tc r) := Glue.p0o0_keep _ h
theorem W4_of (c : Dev nD) (A0 : ArrC (F := F) 0 c) (A1 : ArrC (F := F) 1 c) {r : Ref sig .tc} (h : r ∉ Glue.p0o1_W) :
    W4 m c A0 A1 (Proc.devRef .tc r) = W3 m c A0 A1 (Proc.devRef .tc r) := Glue.p0o1_keep _ h
theorem W5_of (c : Dev nD) (A0 : ArrC (F := F) 0 c) (A1 : ArrC (F := F) 1 c) {r : Ref sig .tc} (h : r ∉ Glue.p1o0_W) :
    W5 m c A0 A1 (Proc.devRef .tc r) = W4 m c A0 A1 (Proc.devRef .tc r) := Glue.p1o0_keep _ h
theorem W7_of (c : Dev nD) (A0 : ArrC (F := F) 0 c) (A1 : ArrC (F := F) 1 c) (A2 : ArrC (F := F) 2 c) {r : Ref sig .tc}
    (h : r ∉ Glue.p1o1_W) : W7 m c A0 A1 A2 (Proc.devRef .tc r) = W6 m c A0 A1 A2 (Proc.devRef .tc r) := Glue.p1o1_keep _ h

/-- A region keeps every buffer that is none of its arrays, -/
theorem W2_of_ne (c : Dev nD) (A0 : ArrC (F := F) 0 c) (r : Ref sig .tc) (h : ∀ w, Pipeline.arrRef (sp0 (F := F)) w ≠ r) :
    W2 m c A0 (Proc.devRef .tc r) = W1 m c (Proc.devRef .tc r) := Pipeline.withArrays_of_ne _ c _ A0 r h
theorem W3_of_ne (c : Dev nD) (A0 : ArrC (F := F) 0 c) (A1 : ArrC (F := F) 1 c) (r : Ref sig .tc)
    (h : ∀ w, Pipeline.arrRef (sp1 (F := F)) w ≠ r) :
    W3 m c A0 A1 (Proc.devRef .tc r) = W2 m c A0 (Proc.devRef .tc r) := Pipeline.withArrays_of_ne _ c _ A1 r h
theorem W6_of_ne (c : Dev nD) (A0 : ArrC (F := F) 0 c) (A1 : ArrC (F := F) 1 c) (A2 : ArrC (F := F) 2 c) (r : Ref sig .tc)
    (h : ∀ w, Pipeline.arrRef (sp2 (F := F)) w ≠ r) :
    W6 m c A0 A1 A2 (Proc.devRef .tc r) = W5 m c A0 A1 (Proc.devRef .tc r) := Pipeline.withArrays_of_ne _ c _ A2 r h

/-- and leaves each of its arrays at the contents given for it. -/
theorem W2_arr (c : Dev nD) (A0 : ArrC (F := F) 0 c) (w) :
    W2 m c A0 (Proc.devRef .tc (Pipeline.arrRef (sp0 (F := F)) w)) = A0 w :=
  Pipeline.withArrays_arr _ launch0.win.arr_inj c _ A0 w
theorem W3_arr (c : Dev nD) (A0 : ArrC (F := F) 0 c) (A1 : ArrC (F := F) 1 c) (w) :
    W3 m c A0 A1 (Proc.devRef .tc (Pipeline.arrRef (sp1 (F := F)) w)) = A1 w :=
  Pipeline.withArrays_arr _ launch1.win.arr_inj c _ A1 w
theorem W6_arr (c : Dev nD) (A0 : ArrC (F := F) 0 c) (A1 : ArrC (F := F) 1 c) (A2 : ArrC (F := F) 2 c) (w) :
    W6 m c A0 A1 A2 (Proc.devRef .tc (Pipeline.arrRef (sp2 (F := F)) w)) = A2 w :=
  Pipeline.withArrays_arr _ launch2.win.arr_inj c _ A2 w

/-! ## The arguments -/

/-- What is known of the contents a region's arrays are left at: an input window's array is as the region was entered. -/
abbrev Kept0 (c : Dev nD) (A0 : ArrC (F := F) 0 c) : Prop :=
  ∀ w, w ≠ 3 → A0 w = W1 m c (Proc.devRef .tc (Pipeline.arrRef (sp0 (F := F)) w))
abbrev Kept1 (c : Dev nD) (A0 : ArrC (F := F) 0 c) (A1 : ArrC (F := F) 1 c) : Prop :=
  ∀ w, w ≠ 4 → A1 w = W2 m c A0 (Proc.devRef .tc (Pipeline.arrRef (sp1 (F := F)) w))
abbrev Kept2 (c : Dev nD) (A0 : ArrC (F := F) 0 c) (A1 : ArrC (F := F) 1 c) (A2 : ArrC (F := F) 2 c) : Prop :=
  ∀ w, w ≠ 15 → w ≠ 16 → A2 w = W5 m c A0 A1 (Proc.devRef .tc (Pipeline.arrRef (sp2 (F := F)) w))

/-- An argument no region stages and no host operation writes is as launched at the end. -/
theorem W7_bypass (c : Dev nD) (A0 : ArrC (F := F) 0 c) (A1 : ArrC (F := F) 1 c) (A2 : ArrC (F := F) 2 c) (r : Ref sig .tc)
    (k3 : r ∉ Glue.p1o1_W) (n2 : ∀ w, Pipeline.arrRef (sp2 (F := F)) w ≠ r) (k2 : r ∉ Glue.p1o0_W) (k1 : r ∉ Glue.p0o1_W)
    (n1 : ∀ w, Pipeline.arrRef (sp1 (F := F)) w ≠ r) (n0 : ∀ w, Pipeline.arrRef (sp0 (F := F)) w ≠ r) (k0 : r ∉ Glue.p0o0_W) :
    W7 m c A0 A1 A2 (Proc.devRef .tc r) = m ((c.tc : Thread nD τ).loc r) :=
  calc W7 m c A0 A1 A2 (Proc.devRef .tc r)
    _ = W6 m c A0 A1 A2 (Proc.devRef .tc r) := W7_of m c A0 A1 A2 k3
    _ = W5 m c A0 A1 (Proc.devRef .tc r) := W6_of_ne m c A0 A1 A2 r n2
    _ = W4 m c A0 A1 (Proc.devRef .tc r) := W5_of m c A0 A1 k2
    _ = W3 m c A0 A1 (Proc.devRef .tc r) := W4_of m c A0 A1 k1
    _ = W2 m c A0 (Proc.devRef .tc r) := W3_of_ne m c A0 A1 r n1
    _ = W1 m c (Proc.devRef .tc r) := W2_of_ne m c A0 r n0
    _ = W0 m c (Proc.devRef .tc r) := W1_of m c k0
    _ = m ((c.tc : Thread nD τ).loc r) := rfl

theorem W7_arg0 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg0) = m ((c.tc : Thread nD τ).loc main_arg0) :=
  W7_bypass m c A0 A1 A2 main_arg0 (by decide) (by decide : ∀ w : Fin 17, Pipeline.arrRef spec2 w ≠ main_arg0) (by decide) (by decide)
    (by decide : ∀ w : Fin 5, Pipeline.arrRef spec1 w ≠ main_arg0) (by decide : ∀ w : Fin 4, Pipeline.arrRef spec0 w ≠ main_arg0) (by decide)

theorem W7_arg1 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg1) = m ((c.tc : Thread nD τ).loc main_arg1) :=
  W7_bypass m c A0 A1 A2 main_arg1 (by decide) (by decide : ∀ w : Fin 17, Pipeline.arrRef spec2 w ≠ main_arg1) (by decide) (by decide)
    (by decide : ∀ w : Fin 5, Pipeline.arrRef spec1 w ≠ main_arg1) (by decide : ∀ w : Fin 4, Pipeline.arrRef spec0 w ≠ main_arg1) (by decide)

theorem W7_arg2 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg2) = m ((c.tc : Thread nD τ).loc main_arg2) :=
  calc W7 m c A0 A1 A2 (Proc.devRef .tc main_arg2)
    _ = W6 m c A0 A1 A2 (Proc.devRef .tc main_arg2) := W7_of m c A0 A1 A2 (by decide)
    _ = W5 m c A0 A1 (Proc.devRef .tc main_arg2) := W6_of_ne m c A0 A1 A2 main_arg2 (by decide : ∀ w : Fin 17, Pipeline.arrRef spec2 w ≠ main_arg2)
    _ = W4 m c A0 A1 (Proc.devRef .tc main_arg2) := W5_of m c A0 A1 (by decide)
    _ = W3 m c A0 A1 (Proc.devRef .tc main_arg2) := W4_of m c A0 A1 (by decide)
    _ = W2 m c A0 (Proc.devRef .tc main_arg2) := (W3_arr m c A0 A1 1).trans (h1 1 (by decide : (1 : Fin 5) ≠ 4))
    _ = W1 m c (Proc.devRef .tc main_arg2) := W2_of_ne m c A0 main_arg2 (by decide : ∀ w : Fin 4, Pipeline.arrRef spec0 w ≠ main_arg2)
    _ = W0 m c (Proc.devRef .tc main_arg2) := W1_of m c (by decide)
    _ = m ((c.tc : Thread nD τ).loc main_arg2) := rfl

theorem W7_arg3 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg3) = m ((c.tc : Thread nD τ).loc main_arg3) :=
  W7_bypass m c A0 A1 A2 main_arg3 (by decide) (by decide : ∀ w : Fin 17, Pipeline.arrRef spec2 w ≠ main_arg3) (by decide) (by decide)
    (by decide : ∀ w : Fin 5, Pipeline.arrRef spec1 w ≠ main_arg3) (by decide : ∀ w : Fin 4, Pipeline.arrRef spec0 w ≠ main_arg3) (by decide)

theorem W7_arg4 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg4) = m ((c.tc : Thread nD τ).loc main_arg4) :=
  W7_bypass m c A0 A1 A2 main_arg4 (by decide) (by decide : ∀ w : Fin 17, Pipeline.arrRef spec2 w ≠ main_arg4) (by decide) (by decide)
    (by decide : ∀ w : Fin 5, Pipeline.arrRef spec1 w ≠ main_arg4) (by decide : ∀ w : Fin 4, Pipeline.arrRef spec0 w ≠ main_arg4) (by decide)

theorem W7_arg5 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg5) = m ((c.tc : Thread nD τ).loc main_arg5) :=
  W7_bypass m c A0 A1 A2 main_arg5 (by decide) (by decide : ∀ w : Fin 17, Pipeline.arrRef spec2 w ≠ main_arg5) (by decide) (by decide)
    (by decide : ∀ w : Fin 5, Pipeline.arrRef spec1 w ≠ main_arg5) (by decide : ∀ w : Fin 4, Pipeline.arrRef spec0 w ≠ main_arg5) (by decide)

theorem W7_arg6 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg6) = m ((c.tc : Thread nD τ).loc main_arg6) :=
  W7_bypass m c A0 A1 A2 main_arg6 (by decide) (by decide : ∀ w : Fin 17, Pipeline.arrRef spec2 w ≠ main_arg6) (by decide) (by decide)
    (by decide : ∀ w : Fin 5, Pipeline.arrRef spec1 w ≠ main_arg6) (by decide : ∀ w : Fin 4, Pipeline.arrRef spec0 w ≠ main_arg6) (by decide)

theorem W7_arg7 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg7) = m ((c.tc : Thread nD τ).loc main_arg7) :=
  calc W7 m c A0 A1 A2 (Proc.devRef .tc main_arg7)
    _ = W6 m c A0 A1 A2 (Proc.devRef .tc main_arg7) := W7_of m c A0 A1 A2 (by decide)
    _ = W5 m c A0 A1 (Proc.devRef .tc main_arg7) := (W6_arr m c A0 A1 A2 7).trans (h2 7 (by decide : (7 : Fin 17) ≠ 15) (by decide : (7 : Fin 17) ≠ 16))
    _ = W4 m c A0 A1 (Proc.devRef .tc main_arg7) := W5_of m c A0 A1 (by decide)
    _ = W3 m c A0 A1 (Proc.devRef .tc main_arg7) := W4_of m c A0 A1 (by decide)
    _ = W2 m c A0 (Proc.devRef .tc main_arg7) := W3_of_ne m c A0 A1 main_arg7 (by decide : ∀ w : Fin 5, Pipeline.arrRef spec1 w ≠ main_arg7)
    _ = W1 m c (Proc.devRef .tc main_arg7) := W2_of_ne m c A0 main_arg7 (by decide : ∀ w : Fin 4, Pipeline.arrRef spec0 w ≠ main_arg7)
    _ = W0 m c (Proc.devRef .tc main_arg7) := W1_of m c (by decide)
    _ = m ((c.tc : Thread nD τ).loc main_arg7) := rfl

theorem W7_arg8 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg8) = m ((c.tc : Thread nD τ).loc main_arg8) :=
  W7_bypass m c A0 A1 A2 main_arg8 (by decide) (by decide : ∀ w : Fin 17, Pipeline.arrRef spec2 w ≠ main_arg8) (by decide) (by decide)
    (by decide : ∀ w : Fin 5, Pipeline.arrRef spec1 w ≠ main_arg8) (by decide : ∀ w : Fin 4, Pipeline.arrRef spec0 w ≠ main_arg8) (by decide)

theorem W7_arg9 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg9) = m ((c.tc : Thread nD τ).loc main_arg9) :=
  calc W7 m c A0 A1 A2 (Proc.devRef .tc main_arg9)
    _ = W6 m c A0 A1 A2 (Proc.devRef .tc main_arg9) := W7_of m c A0 A1 A2 (by decide)
    _ = W5 m c A0 A1 (Proc.devRef .tc main_arg9) := (W6_arr m c A0 A1 A2 9).trans (h2 9 (by decide : (9 : Fin 17) ≠ 15) (by decide : (9 : Fin 17) ≠ 16))
    _ = W4 m c A0 A1 (Proc.devRef .tc main_arg9) := W5_of m c A0 A1 (by decide)
    _ = W3 m c A0 A1 (Proc.devRef .tc main_arg9) := W4_of m c A0 A1 (by decide)
    _ = W2 m c A0 (Proc.devRef .tc main_arg9) := W3_of_ne m c A0 A1 main_arg9 (by decide : ∀ w : Fin 5, Pipeline.arrRef spec1 w ≠ main_arg9)
    _ = W1 m c (Proc.devRef .tc main_arg9) := W2_of_ne m c A0 main_arg9 (by decide : ∀ w : Fin 4, Pipeline.arrRef spec0 w ≠ main_arg9)
    _ = W0 m c (Proc.devRef .tc main_arg9) := W1_of m c (by decide)
    _ = m ((c.tc : Thread nD τ).loc main_arg9) := rfl

theorem W7_arg10 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg10) = m ((c.tc : Thread nD τ).loc main_arg10) :=
  W7_bypass m c A0 A1 A2 main_arg10 (by decide) (by decide : ∀ w : Fin 17, Pipeline.arrRef spec2 w ≠ main_arg10) (by decide) (by decide)
    (by decide : ∀ w : Fin 5, Pipeline.arrRef spec1 w ≠ main_arg10) (by decide : ∀ w : Fin 4, Pipeline.arrRef spec0 w ≠ main_arg10) (by decide)

theorem W7_arg11 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg11) = m ((c.tc : Thread nD τ).loc main_arg11) :=
  calc W7 m c A0 A1 A2 (Proc.devRef .tc main_arg11)
    _ = W6 m c A0 A1 A2 (Proc.devRef .tc main_arg11) := W7_of m c A0 A1 A2 (by decide)
    _ = W5 m c A0 A1 (Proc.devRef .tc main_arg11) := (W6_arr m c A0 A1 A2 11).trans (h2 11 (by decide : (11 : Fin 17) ≠ 15) (by decide : (11 : Fin 17) ≠ 16))
    _ = W4 m c A0 A1 (Proc.devRef .tc main_arg11) := W5_of m c A0 A1 (by decide)
    _ = W3 m c A0 A1 (Proc.devRef .tc main_arg11) := W4_of m c A0 A1 (by decide)
    _ = W2 m c A0 (Proc.devRef .tc main_arg11) := W3_of_ne m c A0 A1 main_arg11 (by decide : ∀ w : Fin 5, Pipeline.arrRef spec1 w ≠ main_arg11)
    _ = W1 m c (Proc.devRef .tc main_arg11) := W2_of_ne m c A0 main_arg11 (by decide : ∀ w : Fin 4, Pipeline.arrRef spec0 w ≠ main_arg11)
    _ = W0 m c (Proc.devRef .tc main_arg11) := W1_of m c (by decide)
    _ = m ((c.tc : Thread nD τ).loc main_arg11) := rfl

theorem W7_arg12 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg12) = m ((c.tc : Thread nD τ).loc main_arg12) :=
  W7_bypass m c A0 A1 A2 main_arg12 (by decide) (by decide : ∀ w : Fin 17, Pipeline.arrRef spec2 w ≠ main_arg12) (by decide) (by decide)
    (by decide : ∀ w : Fin 5, Pipeline.arrRef spec1 w ≠ main_arg12) (by decide : ∀ w : Fin 4, Pipeline.arrRef spec0 w ≠ main_arg12) (by decide)

theorem W7_arg13 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg13) = m ((c.tc : Thread nD τ).loc main_arg13) :=
  calc W7 m c A0 A1 A2 (Proc.devRef .tc main_arg13)
    _ = W6 m c A0 A1 A2 (Proc.devRef .tc main_arg13) := W7_of m c A0 A1 A2 (by decide)
    _ = W5 m c A0 A1 (Proc.devRef .tc main_arg13) := (W6_arr m c A0 A1 A2 13).trans (h2 13 (by decide : (13 : Fin 17) ≠ 15) (by decide : (13 : Fin 17) ≠ 16))
    _ = W4 m c A0 A1 (Proc.devRef .tc main_arg13) := W5_of m c A0 A1 (by decide)
    _ = W3 m c A0 A1 (Proc.devRef .tc main_arg13) := W4_of m c A0 A1 (by decide)
    _ = W2 m c A0 (Proc.devRef .tc main_arg13) := W3_of_ne m c A0 A1 main_arg13 (by decide : ∀ w : Fin 5, Pipeline.arrRef spec1 w ≠ main_arg13)
    _ = W1 m c (Proc.devRef .tc main_arg13) := W2_of_ne m c A0 main_arg13 (by decide : ∀ w : Fin 4, Pipeline.arrRef spec0 w ≠ main_arg13)
    _ = W0 m c (Proc.devRef .tc main_arg13) := W1_of m c (by decide)
    _ = m ((c.tc : Thread nD τ).loc main_arg13) := rfl

theorem W7_arg14 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg14) = m ((c.tc : Thread nD τ).loc main_arg14) :=
  W7_bypass m c A0 A1 A2 main_arg14 (by decide) (by decide : ∀ w : Fin 17, Pipeline.arrRef spec2 w ≠ main_arg14) (by decide) (by decide)
    (by decide : ∀ w : Fin 5, Pipeline.arrRef spec1 w ≠ main_arg14) (by decide : ∀ w : Fin 4, Pipeline.arrRef spec0 w ≠ main_arg14) (by decide)

theorem W7_arg15 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg15) = m ((c.tc : Thread nD τ).loc main_arg15) :=
  W7_bypass m c A0 A1 A2 main_arg15 (by decide) (by decide : ∀ w : Fin 17, Pipeline.arrRef spec2 w ≠ main_arg15) (by decide) (by decide)
    (by decide : ∀ w : Fin 5, Pipeline.arrRef spec1 w ≠ main_arg15) (by decide : ∀ w : Fin 4, Pipeline.arrRef spec0 w ≠ main_arg15) (by decide)

theorem W7_arg16 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg16) = m ((c.tc : Thread nD τ).loc main_arg16) :=
  calc W7 m c A0 A1 A2 (Proc.devRef .tc main_arg16)
    _ = W6 m c A0 A1 A2 (Proc.devRef .tc main_arg16) := W7_of m c A0 A1 A2 (by decide)
    _ = W5 m c A0 A1 (Proc.devRef .tc main_arg16) := W6_of_ne m c A0 A1 A2 main_arg16 (by decide : ∀ w : Fin 17, Pipeline.arrRef spec2 w ≠ main_arg16)
    _ = W4 m c A0 A1 (Proc.devRef .tc main_arg16) := W5_of m c A0 A1 (by decide)
    _ = W3 m c A0 A1 (Proc.devRef .tc main_arg16) := W4_of m c A0 A1 (by decide)
    _ = W2 m c A0 (Proc.devRef .tc main_arg16) := W3_of_ne m c A0 A1 main_arg16 (by decide : ∀ w : Fin 5, Pipeline.arrRef spec1 w ≠ main_arg16)
    _ = W1 m c (Proc.devRef .tc main_arg16) := (W2_arr m c A0 0).trans (h0 0 (by decide : (0 : Fin 4) ≠ 3))
    _ = W0 m c (Proc.devRef .tc main_arg16) := W1_of m c (by decide)
    _ = m ((c.tc : Thread nD τ).loc main_arg16) := rfl

theorem W7_arg17 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg17) = m ((c.tc : Thread nD τ).loc main_arg17) :=
  calc W7 m c A0 A1 A2 (Proc.devRef .tc main_arg17)
    _ = W6 m c A0 A1 A2 (Proc.devRef .tc main_arg17) := W7_of m c A0 A1 A2 (by decide)
    _ = W5 m c A0 A1 (Proc.devRef .tc main_arg17) := W6_of_ne m c A0 A1 A2 main_arg17 (by decide : ∀ w : Fin 17, Pipeline.arrRef spec2 w ≠ main_arg17)
    _ = W4 m c A0 A1 (Proc.devRef .tc main_arg17) := W5_of m c A0 A1 (by decide)
    _ = W3 m c A0 A1 (Proc.devRef .tc main_arg17) := W4_of m c A0 A1 (by decide)
    _ = W2 m c A0 (Proc.devRef .tc main_arg17) := W3_of_ne m c A0 A1 main_arg17 (by decide : ∀ w : Fin 5, Pipeline.arrRef spec1 w ≠ main_arg17)
    _ = W1 m c (Proc.devRef .tc main_arg17) := (W2_arr m c A0 1).trans (h0 1 (by decide : (1 : Fin 4) ≠ 3))
    _ = W0 m c (Proc.devRef .tc main_arg17) := W1_of m c (by decide)
    _ = m ((c.tc : Thread nD τ).loc main_arg17) := rfl

theorem W7_arg18 (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg18) = m ((c.tc : Thread nD τ).loc main_arg18) :=
  W7_bypass m c A0 A1 A2 main_arg18 (by decide) (by decide : ∀ w : Fin 17, Pipeline.arrRef spec2 w ≠ main_arg18) (by decide) (by decide)
    (by decide : ∀ w : Fin 5, Pipeline.arrRef spec1 w ≠ main_arg18) (by decide : ∀ w : Fin 4, Pipeline.arrRef spec0 w ≠ main_arg18) (by decide)

/-- Every argument ends as launched. -/
theorem args_kept (c : Dev nD) (A0 : ArrC (F := F) 0 c) (A1 : ArrC (F := F) 1 c) (A2 : ArrC (F := F) 2 c)
    (h0 : Kept0 m c A0) (h1 : Kept1 m c A0 A1) (h2 : Kept2 m c A0 A1 A2) :
    W7 m c A0 A1 A2 (Proc.devRef .tc main_arg0) = m ((c.tc : Thread nD τ).loc main_arg0)
      ∧ W7 m c A0 A1 A2 (Proc.devRef .tc main_arg1) = m ((c.tc : Thread nD τ).loc main_arg1)
      ∧ W7 m c A0 A1 A2 (Proc.devRef .tc main_arg2) = m ((c.tc : Thread nD τ).loc main_arg2)
      ∧ W7 m c A0 A1 A2 (Proc.devRef .tc main_arg3) = m ((c.tc : Thread nD τ).loc main_arg3)
      ∧ W7 m c A0 A1 A2 (Proc.devRef .tc main_arg4) = m ((c.tc : Thread nD τ).loc main_arg4)
      ∧ W7 m c A0 A1 A2 (Proc.devRef .tc main_arg5) = m ((c.tc : Thread nD τ).loc main_arg5)
      ∧ W7 m c A0 A1 A2 (Proc.devRef .tc main_arg6) = m ((c.tc : Thread nD τ).loc main_arg6)
      ∧ W7 m c A0 A1 A2 (Proc.devRef .tc main_arg7) = m ((c.tc : Thread nD τ).loc main_arg7)
      ∧ W7 m c A0 A1 A2 (Proc.devRef .tc main_arg8) = m ((c.tc : Thread nD τ).loc main_arg8)
      ∧ W7 m c A0 A1 A2 (Proc.devRef .tc main_arg9) = m ((c.tc : Thread nD τ).loc main_arg9)
      ∧ W7 m c A0 A1 A2 (Proc.devRef .tc main_arg10) = m ((c.tc : Thread nD τ).loc main_arg10)
      ∧ W7 m c A0 A1 A2 (Proc.devRef .tc main_arg11) = m ((c.tc : Thread nD τ).loc main_arg11)
      ∧ W7 m c A0 A1 A2 (Proc.devRef .tc main_arg12) = m ((c.tc : Thread nD τ).loc main_arg12)
      ∧ W7 m c A0 A1 A2 (Proc.devRef .tc main_arg13) = m ((c.tc : Thread nD τ).loc main_arg13)
      ∧ W7 m c A0 A1 A2 (Proc.devRef .tc main_arg14) = m ((c.tc : Thread nD τ).loc main_arg14)
      ∧ W7 m c A0 A1 A2 (Proc.devRef .tc main_arg15) = m ((c.tc : Thread nD τ).loc main_arg15)
      ∧ W7 m c A0 A1 A2 (Proc.devRef .tc main_arg16) = m ((c.tc : Thread nD τ).loc main_arg16)
      ∧ W7 m c A0 A1 A2 (Proc.devRef .tc main_arg17) = m ((c.tc : Thread nD τ).loc main_arg17)
      ∧ W7 m c A0 A1 A2 (Proc.devRef .tc main_arg18) = m ((c.tc : Thread nD τ).loc main_arg18) :=
  ⟨W7_arg0 m c A0 A1 A2 h0 h1 h2,
    W7_arg1 m c A0 A1 A2 h0 h1 h2,
    W7_arg2 m c A0 A1 A2 h0 h1 h2,
    W7_arg3 m c A0 A1 A2 h0 h1 h2,
    W7_arg4 m c A0 A1 A2 h0 h1 h2,
    W7_arg5 m c A0 A1 A2 h0 h1 h2,
    W7_arg6 m c A0 A1 A2 h0 h1 h2,
    W7_arg7 m c A0 A1 A2 h0 h1 h2,
    W7_arg8 m c A0 A1 A2 h0 h1 h2,
    W7_arg9 m c A0 A1 A2 h0 h1 h2,
    W7_arg10 m c A0 A1 A2 h0 h1 h2,
    W7_arg11 m c A0 A1 A2 h0 h1 h2,
    W7_arg12 m c A0 A1 A2 h0 h1 h2,
    W7_arg13 m c A0 A1 A2 h0 h1 h2,
    W7_arg14 m c A0 A1 A2 h0 h1 h2,
    W7_arg15 m c A0 A1 A2 h0 h1 h2,
    W7_arg16 m c A0 A1 A2 h0 h1 h2,
    W7_arg17 m c A0 A1 A2 h0 h1 h2,
    W7_arg18 m c A0 A1 A2 h0 h1 h2⟩

end Cert.Kernel.Hand

end
-- ==== Proof.KKept.lean ====
/-
  A region's operand arrays leave the region as they entered it: an array only input windows read is never written
  back, so after any number of points it holds its entry contents. For any float instance.
-/
import proofs.«163843_j81870666596358_2_alg».proof.Proof.KVals
import proofs.«163843_j81870666596358_2_alg».proof.Proof.KReg0
import proofs.«163843_j81870666596358_2_alg».proof.Proof.KReg1
import proofs.«163843_j81870666596358_2_alg».proof.Proof.KReg2
import proofs.«163843_j81870666596358_2_alg».proof.Proof.KArgsKept

noncomputable section

namespace Cert.Kernel.Hand

open Cert.Kernel Cert.Kernel.Gen
open Idealize.ShloMosaic Idealize.ShloMosaic.TcCoe
open Idealize.SL Idealize.SL.RA Idealize.SL.Sem
open Idealize.ShloMosaic.Pipeline (Dat RDat)

/-- Every window of a region but its results' is an input. -/
theorem win0_in : ∀ w : Fin cfg0.W, w ≠ 3 → (cfg0.win w).isOut = false := by decide
theorem win1_in : ∀ w : Fin cfg1.W, w ≠ 4 → (cfg1.win w).isOut = false := by decide
theorem win2_in : ∀ w : Fin cfg2.W, w ≠ 15 → w ≠ 16 → (cfg2.win w).isOut = false := by decide

variable {F : FTy → Type} [FloatOps F] [Facts]
variable (m : (ℓ : Loc nD τ sig) → Buf (Elt F) ℓ)

/-- Region 0's three operand arrays leave the region as they entered it. -/
theorem kept0 (c : Dev nD) (A0 : ArrC (F := F) 0 c)
    (hA0 : ∀ w, (Reg0.rdat (U := Alg) c (tcv c (W1 m c))).ArrAt w cfg0.N (A0 w)) : Kept0 m c A0 := by
  intro w h3
  exact (congrFun ((Reg0.rdat (U := Alg) c (tcv c (W1 m c))).ArrAt_in w (win0_in w h3) cfg0.N) (A0 w)).mp (hA0 w)

/-- Region 1's four operand arrays leave the region as they entered it. -/
theorem kept1 (c : Dev nD) (A0 : ArrC (F := F) 0 c) (A1 : ArrC (F := F) 1 c)
    (hA1 : ∀ w, (Reg1.rdat (U := Alg) c (tcv c (W2 m c A0))).ArrAt w cfg1.N (A1 w)) : Kept1 m c A0 A1 := by
  intro w h4
  exact (congrFun ((Reg1.rdat (U := Alg) c (tcv c (W2 m c A0))).ArrAt_in w (win1_in w h4) cfg1.N) (A1 w)).mp (hA1 w)

/-- Region 2's fifteen operand arrays leave the region as they entered it. -/
theorem kept2 (c : Dev nD) (A0 : ArrC (F := F) 0 c) (A1 : ArrC (F := F) 1 c) (A2 : ArrC (F := F) 2 c)
    (hA2 : ∀ w, (Reg2.rdat (U := Alg) c (tcv c (W5 m c A0 A1))).ArrAt w cfg2.N (A2 w)) : Kept2 m c A0 A1 A2 := by
  intro w h15 h16
  exact (congrFun ((Reg2.rdat (U := Alg) c (tcv c (W5 m c A0 A1))).ArrAt_in w (win2_in w h15 h16) cfg2.N) (A2 w)).mp (hA2 w)

/-- The three together. -/
theorem kept_all (c : Dev nD) (A0 : ArrC (F := F) 0 c) (A1 : ArrC (F := F) 1 c) (A2 : ArrC (F := F) 2 c)
    (hA0 : ∀ w, (Reg0.rdat (U := Alg) c (tcv c (W1 m c))).ArrAt w cfg0.N (A0 w))
    (hA1 : ∀ w, (Reg1.rdat (U := Alg) c (tcv c (W2 m c A0))).ArrAt w cfg1.N (A1 w))
    (hA2 : ∀ w, (Reg2.rdat (U := Alg) c (tcv c (W5 m c A0 A1))).ArrAt w cfg2.N (A2 w)) :
    Kept0 m c A0 ∧ Kept1 m c A0 A1 ∧ Kept2 m c A0 A1 A2 :=
  ⟨kept0 m c A0 hA0, kept1 m c A0 A1 hA1, kept2 m c A0 A1 A2 hA2⟩

end Cert.Kernel.Hand

end
-- ==== Proof.KFrameOf.lean ====
/-
  The frame from the run: every final memory holds every unscoped buffer at the last valuation, and the last valuation
  at an argument is the launch memory; the two result buffers are read off the same valuation for the value claim.
-/
import proofs.«163843_j81870666596358_2_alg».proof.Proof.KRun
import proofs.«163843_j81870666596358_2_alg».proof.Proof.KArgsKept
import proofs.«163843_j81870666596358_2_alg».proof.Proof.KKept

noncomputable section

namespace Cert.Kernel.Hand

open Cert.Kernel Cert.Kernel.Gen
open Idealize.ShloMosaic Idealize.ShloMosaic.TcCoe
open Idealize.SL Idealize.SL.RA Idealize.SL.Sem
open Idealize.ShloMosaic.Pipeline (Dat RDat)

/-- An unscoped TensorCore buffer is one of the buffers the run's post speaks of. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

variable {F : FTy → Type} [FloatOps F] [Facts]
variable (m : (ℓ : Loc nD τ sig) → Buf (Elt F) ℓ) (ρ : Dev nD → PrngReg)

/-- What the three regions may have left, read as what is known of their operand arrays. -/
theorem St3.kept (x : St3 m) (c : Dev nD) :
    Kept0 m c (x.A0 c) ∧ Kept1 m c (x.A0 c) (x.A1 c) ∧ Kept2 m c (x.A0 c) (x.A1 c) (x.A2 c) :=
  kept_all m c (x.A0 c) (x.A1 c) (x.A2 c) (x.h0 c) (x.h1 c) (x.h2 c)

/-- THE FRAME: every weakly fair execution of @main terminates and every final memory holds each argument as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run _ _ _).mono (fun r h c => by
    obtain ⟨x, hx⟩ := h c
    have hk := x.kept m c
    exact ⟨(hx _ (mem_uc main_arg0 (by decide))).trans (W7_arg0 m c _ _ _ hk.1 hk.2.1 hk.2.2),
      (hx _ (mem_uc main_arg1 (by decide))).trans (W7_arg1 m c _ _ _ hk.1 hk.2.1 hk.2.2),
      (hx _ (mem_uc main_arg2 (by decide))).trans (W7_arg2 m c _ _ _ hk.1 hk.2.1 hk.2.2),
      (hx _ (mem_uc main_arg3 (by decide))).trans (W7_arg3 m c _ _ _ hk.1 hk.2.1 hk.2.2),
      (hx _ (mem_uc main_arg4 (by decide))).trans (W7_arg4 m c _ _ _ hk.1 hk.2.1 hk.2.2),
      (hx _ (mem_uc main_arg5 (by decide))).trans (W7_arg5 m c _ _ _ hk.1 hk.2.1 hk.2.2),
      (hx _ (mem_uc main_arg6 (by decide))).trans (W7_arg6 m c _ _ _ hk.1 hk.2.1 hk.2.2),
      (hx _ (mem_uc main_arg7 (by decide))).trans (W7_arg7 m c _ _ _ hk.1 hk.2.1 hk.2.2),
      (hx _ (mem_uc main_arg8 (by decide))).trans (W7_arg8 m c _ _ _ hk.1 hk.2.1 hk.2.2),
      (hx _ (mem_uc main_arg9 (by decide))).trans (W7_arg9 m c _ _ _ hk.1 hk.2.1 hk.2.2),
      (hx _ (mem_uc main_arg10 (by decide))).trans (W7_arg10 m c _ _ _ hk.1 hk.2.1 hk.2.2),
      (hx _ (mem_uc main_arg11 (by decide))).trans (W7_arg11 m c _ _ _ hk.1 hk.2.1 hk.2.2),
      (hx _ (mem_uc main_arg12 (by decide))).trans (W7_arg12 m c _ _ _ hk.1 hk.2.1 hk.2.2),
      (hx _ (mem_uc main_arg13 (by decide))).trans (W7_arg13 m c _ _ _ hk.1 hk.2.1 hk.2.2),
      (hx _ (mem_uc main_arg14 (by decide))).trans (W7_arg14 m c _ _ _ hk.1 hk.2.1 hk.2.2),
      (hx _ (mem_uc main_arg15 (by decide))).trans (W7_arg15 m c _ _ _ hk.1 hk.2.1 hk.2.2),
      (hx _ (mem_uc main_arg16 (by decide))).trans (W7_arg16 m c _ _ _ hk.1 hk.2.1 hk.2.2),
      (hx _ (mem_uc main_arg17 (by decide))).trans (W7_arg17 m c _ _ _ hk.1 hk.2.1 hk.2.2),
      (hx _ (mem_uc main_arg18 (by decide))).trans (W7_arg18 m c _ _ _ hk.1 hk.2.1 hk.2.2)⟩) (run m ρ)

/-- The same run with the two result buffers kept in the post, each at the last valuation for SOME contents the three
    regions may have left (each satisfying its region's relation). -/
theorem run_results : θ_run (defs (F := F)) (onTc (τ := τ) (main (F := F))) ⟨m, fun _ => 0, ρ⟩ (fun r => ∀ c : Dev nD,
      ∃ x : St3 m,
        r.2.mem ((c.tc : Thread nD τ).loc main_v60) = W7 m c (x.A0 c) (x.A1 c) (x.A2 c) (Proc.devRef .tc main_v60)
        ∧ r.2.mem ((c.tc : Thread nD τ).loc main_v61) = W7 m c (x.A0 c) (x.A1 c) (x.A2 c) (Proc.devRef .tc main_v61)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)) :=
  (θ_run _ _ _).mono (fun r h c => by
    obtain ⟨x, hx⟩ := h c
    have hk := x.kept m c
    exact ⟨x, hx _ (mem_uc main_v60 (by decide)), hx _ (mem_uc main_v61 (by decide)),
      (hx _ (mem_uc main_arg0 (by decide))).trans (W7_arg0 m c _ _ _ hk.1 hk.2.1 hk.2.2),
      (hx _ (mem_uc main_arg1 (by decide))).trans (W7_arg1 m c _ _ _ hk.1 hk.2.1 hk.2.2),
      (hx _ (mem_uc main_arg2 (by decide))).trans (W7_arg2 m c _ _ _ hk.1 hk.2.1 hk.2.2),
      (hx _ (mem_uc main_arg3 (by decide))).trans (W7_arg3 m c _ _ _ hk.1 hk.2.1 hk.2.2),
      (hx _ (mem_uc main_arg4 (by decide))).trans (W7_arg4 m c _ _ _ hk.1 hk.2.1 hk.2.2),
      (hx _ (mem_uc main_arg5 (by decide))).trans (W7_arg5 m c _ _ _ hk.1 hk.2.1 hk.2.2),
      (hx _ (mem_uc main_arg6 (by decide))).trans (W7_arg6 m c _ _ _ hk.1 hk.2.1 hk.2.2),
      (hx _ (mem_uc main_arg7 (by decide))).trans (W7_arg7 m c _ _ _ hk.1 hk.2.1 hk.2.2),
      (hx _ (mem_uc main_arg8 (by decide))).trans (W7_arg8 m c _ _ _ hk.1 hk.2.1 hk.2.2),
      (hx _ (mem_uc main_arg9 (by decide))).trans (W7_arg9 m c _ _ _ hk.1 hk.2.1 hk.2.2),
      (hx _ (mem_uc main_arg10 (by decide))).trans (W7_arg10 m c _ _ _ hk.1 hk.2.1 hk.2.2),
      (hx _ (mem_uc main_arg11 (by decide))).trans (W7_arg11 m c _ _ _ hk.1 hk.2.1 hk.2.2),
      (hx _ (mem_uc main_arg12 (by decide))).trans (W7_arg12 m c _ _ _ hk.1 hk.2.1 hk.2.2),
      (hx _ (mem_uc main_arg13 (by decide))).trans (W7_arg13 m c _ _ _ hk.1 hk.2.1 hk.2.2),
      (hx _ (mem_uc main_arg14 (by decide))).trans (W7_arg14 m c _ _ _ hk.1 hk.2.1 hk.2.2),
      (hx _ (mem_uc main_arg15 (by decide))).trans (W7_arg15 m c _ _ _ hk.1 hk.2.1 hk.2.2),
      (hx _ (mem_uc main_arg16 (by decide))).trans (W7_arg16 m c _ _ _ hk.1 hk.2.1 hk.2.2),
      (hx _ (mem_uc main_arg17 (by decide))).trans (W7_arg17 m c _ _ _ hk.1 hk.2.1 hk.2.2),
      (hx _ (mem_uc main_arg18 (by decide))).trans (W7_arg18 m c _ _ _ hk.1 hk.2.1 hk.2.2)⟩) (run m ρ)

end Cert.Kernel.Hand

end
-- ==== Proof.Book.lean ====
/-
  The contents the regions enter with and the program ends with, read off the fold of valuations: each of a region's
  arrays at its entry, and the two results, as the host operations' terms over the launch memory and over the contents
  the earlier regions left in their output arrays.
-/
import proofs.«163843_j81870666596358_2_alg».proof.Proof.Vals
import proofs.«163843_j81870666596358_2_alg».proof.Proof.Glue

noncomputable section

namespace Cert.KernelIdeal.Hand

open Cert.KernelIdeal Cert.KernelIdeal.Gen Cert.KernelIdeal.Glue
open Idealize.ShloMosaic Idealize.ShloMosaic.TcCoe
open Idealize.SL Idealize.SL.Sem

variable {F : FTy → Type} [FloatOps F]
variable (m : (ℓ : Loc nD τ sig) → Buf (Elt F) ℓ)

/-! ## The regions leave every buffer that is none of their arrays as entered -/

theorem W1_keep (c : Dev nD) {r : Ref sig .tc} (h : r ∉ p0o0_W) : W1 m c (Proc.devRef .tc r) = W0 m c (Proc.devRef .tc r) :=
  p0o0_keep _ h

theorem W2_of (c : Dev nD) (A0 : ArrC (F := F) 0 c) (b : Ref sig .tc) (hb : ∀ w : Fin 4, Pipeline.arrRef spec0 w ≠ b) :
    W2 m c A0 (Proc.devRef .tc b) = W1 m c (Proc.devRef .tc b) :=
  Pipeline.withArrays_of_ne _ c _ A0 b hb

set_option backward.isDefEq.respectTransparency.types false in
theorem W2_atArr (c : Dev nD) (A0 : ArrC (F := F) 0 c) (w : Fin 4) :
    W2 m c A0 (Proc.devRef .tc (Pipeline.arrRef (sp0 (F := F)) w)) = A0 w :=
  Pipeline.withArrays_arr (sp0 (F := F)) launch0.win.arr_inj c _ A0 w

theorem W3_of (c : Dev nD) (A0 : ArrC (F := F) 0 c) (A1 : ArrC (F := F) 1 c) (b : Ref sig .tc)
    (hb : ∀ w : Fin 5, Pipeline.arrRef spec1 w ≠ b) : W3 m c A0 A1 (Proc.devRef .tc b) = W2 m c A0 (Proc.devRef .tc b) :=
  Pipeline.withArrays_of_ne _ c _ A1 b hb

set_option backward.isDefEq.respectTransparency.types false in
theorem W3_atArr (c : Dev nD) (A0 : ArrC (F := F) 0 c) (A1 : ArrC (F := F) 1 c) (w : Fin 5) :
    W3 m c A0 A1 (Proc.devRef .tc (Pipeline.arrRef (sp1 (F := F)) w)) = A1 w :=
  Pipeline.withArrays_arr (sp1 (F := F)) launch1.win.arr_inj c _ A1 w

set_option backward.isDefEq.respectTransparency.types false in
theorem W6_atArr (c : Dev nD) (A0 : ArrC (F := F) 0 c) (A1 : ArrC (F := F) 1 c) (A2 : ArrC (F := F) 2 c) (w : Fin 17) :
    W6 m c A0 A1 A2 (Proc.devRef .tc (Pipeline.arrRef (sp2 (F := F)) w)) = A2 w :=
  Pipeline.withArrays_arr (sp2 (F := F)) launch2.win.arr_inj c _ A2 w

/-- A buffer that is no array of regions 0 and 1 and that the first host stretch does not write is, after region 1, as at
    launch. -/
theorem W3_keep (c : Dev nD) (A0 : ArrC (F := F) 0 c) (A1 : ArrC (F := F) 1 c) (b : Ref sig .tc)
    (h0 : ∀ w : Fin 4, Pipeline.arrRef spec0 w ≠ b) (h1 : ∀ w : Fin 5, Pipeline.arrRef spec1 w ≠ b) (hw : b ∉ p0o0_W) :
    W3 m c A0 A1 (Proc.devRef .tc b) = W0 m c (Proc.devRef .tc b) :=
  (W3_of m c A0 A1 b h1).trans ((W2_of m c A0 b h0).trans (W1_keep m c hw))

/-! ## Region 0's entry -/

theorem W1_arg16 (c : Dev nD) : W1 m c (Proc.devRef .tc main_arg16) = W0 m c (Proc.devRef .tc main_arg16) := W1_keep m c (by decide)
theorem W1_arg17 (c : Dev nD) : W1 m c (Proc.devRef .tc main_arg17) = W0 m c (Proc.devRef .tc main_arg17) := W1_keep m c (by decide)
theorem W1_v3 (c : Dev nD) :
    (W1 m c (Proc.devRef .tc main_v3) : (⟨S1x64, .f32⟩ : BufTy).Contents (Elt F))
      = shapeCast S1x64 (W0 m c (Proc.devRef .tc main_arg18)) shapeCasts_S64_S1x64 := p0o0_v3 _

/-! ## Region 1's entry -/

set_option backward.isDefEq.respectTransparency.types false in
theorem W2_v4 (c : Dev nD) (A0 : ArrC (F := F) 0 c) : W2 m c A0 (Proc.devRef .tc main_v4) = A0 3 := W2_atArr m c A0 3
theorem W2_v1 (c : Dev nD) (A0 : ArrC (F := F) 0 c) :
    (W2 m c A0 (Proc.devRef .tc main_v1) : (⟨S64x12000, .bf16⟩ : BufTy).Contents (Elt F))
      = truncf .bf16 (transpose S64x12000 [1, 0] (W0 m c (Proc.devRef .tc main_arg15)) transposes_S12000x64_S64x12000_1_0) bitsLt_bf16_f32 :=
  (W2_of m c A0 main_v1 (by decide)).trans (p0o0_v1 _)
theorem W2_arg2 (c : Dev nD) (A0 : ArrC (F := F) 0 c) : W2 m c A0 (Proc.devRef .tc main_arg2) = W0 m c (Proc.devRef .tc main_arg2) :=
  (W2_of m c A0 main_arg2 (by decide)).trans (W1_keep m c (by decide))
theorem W2_v2 (c : Dev nD) (A0 : ArrC (F := F) 0 c) :
    (W2 m c A0 (Proc.devRef .tc main_v2) : (⟨S6000x64, .bf16⟩ : BufTy).Contents (Elt F))
      = truncf .bf16 (W0 m c (Proc.devRef .tc main_arg16)) bitsLt_bf16_f32 :=
  (W2_of m c A0 main_v2 (by decide)).trans (p0o0_v2 _)

/-! ## Region 2's entry -/

theorem W4_keep (c : Dev nD) (A0 : ArrC (F := F) 0 c) (A1 : ArrC (F := F) 1 c) {r : Ref sig .tc} (h : r ∉ p0o1_W) :
    W4 m c A0 A1 (Proc.devRef .tc r) = W3 m c A0 A1 (Proc.devRef .tc r) := p0o1_keep _ h

/-- user_rel is an array of region 0 that is never written back: after region 1 it is as at launch. -/
theorem W3_arg16 (c : Dev nD) (A0 : ArrC (F := F) 0 c) (A1 : ArrC (F := F) 1 c) (h0 : ∀ w, w ≠ 3 → A0 w = W1 m c (Proc.devRef .tc (Pipeline.arrRef (sp0 (F := F)) w))) :
    W3 m c A0 A1 (Proc.devRef .tc main_arg16) = W0 m c (Proc.devRef .tc main_arg16) :=
  (W3_of m c A0 A1 main_arg16 (by decide)).trans
    ((W2_atArr m c A0 0).trans ((h0 0 (show (0 : Fin 4) ≠ 3 by decide)).trans (W1_arg16 m c)))

theorem W5_v12 (c : Dev nD) (A0 : ArrC (F := F) 0 c) (A1 : ArrC (F := F) 1 c) :
    (W5 m c A0 A1 (Proc.devRef .tc main_v12) : (⟨S8192x64, .f32⟩ : BufTy).Contents (Elt F))
      = Host.gather gather_S6000x64_S8192x1_S8192x64_1_0_n_n_0_1_164 (W0 m c (Proc.devRef .tc main_arg3)) (rowIdx 6000#32 (W0 m c (Proc.devRef .tc main_arg0))) := by
  refine (p1o0_keep _ (by decide)).trans ((p0o1_v12 _).trans ?_)
  rw [W3_keep m c A0 A1 main_arg3 (by decide) (by decide) (by decide), W3_keep m c A0 A1 main_arg0 (by decide) (by decide) (by decide)]

theorem W5_v19 (c : Dev nD) (A0 : ArrC (F := F) 0 c) (A1 : ArrC (F := F) 1 c) :
    (W5 m c A0 A1 (Proc.devRef .tc main_v19) : (⟨S8192x64, .f32⟩ : BufTy).Contents (Elt F))
      = Host.gather gather_S12000x64_S8192x1_S8192x64_1_0_n_n_0_1_164 (W0 m c (Proc.devRef .tc main_arg4)) (rowIdx 12000#32 (W0 m c (Proc.devRef .tc main_arg1))) := by
  refine (p1o0_keep _ (by decide)).trans ((p0o1_v19 _).trans ?_)
  rw [W3_keep m c A0 A1 main_arg4 (by decide) (by decide) (by decide), W3_keep m c A0 A1 main_arg1 (by decide) (by decide) (by decide)]

theorem W5_v26 (c : Dev nD) (A0 : ArrC (F := F) 0 c) (A1 : ArrC (F := F) 1 c) :
    (W5 m c A0 A1 (Proc.devRef .tc main_v26) : (⟨S8192x256, .f32⟩ : BufTy).Contents (Elt F))
      = Host.gather gather_S6000x256_S8192x1_S8192x256_1_0_n_n_0_1_1256 (W0 m c (Proc.devRef .tc main_arg5)) (rowIdx 6000#32 (W0 m c (Proc.devRef .tc main_arg0))) := by
  refine (p1o0_keep _ (by decide)).trans ((p0o1_v26 _).trans ?_)
  rw [W3_keep m c A0 A1 main_arg5 (by decide) (by decide) (by decide), W3_keep m c A0 A1 main_arg0 (by decide) (by decide) (by decide)]

theorem W5_v33 (c : Dev nD) (A0 : ArrC (F := F) 0 c) (A1 : ArrC (F := F) 1 c) :
    (W5 m c A0 A1 (Proc.devRef .tc main_v33) : (⟨S8192x256, .f32⟩ : BufTy).Contents (Elt F))
      = Host.gather gather_S12000x256_S8192x1_S8192x256_1_0_n_n_0_1_1256 (W0 m c (Proc.devRef .tc main_arg6)) (rowIdx 12000#32 (W0 m c (Proc.devRef .tc main_arg1))) := by
  refine (p1o0_keep _ (by decide)).trans ((p0o1_v33 _).trans ?_)
  rw [W3_keep m c A0 A1 main_arg6 (by decide) (by decide) (by decide), W3_keep m c A0 A1 main_arg1 (by decide) (by decide) (by decide)]

theorem W5_v40 (c : Dev nD) (A0 : ArrC (F := F) 0 c) (A1 : ArrC (F := F) 1 c) (h0 : ∀ w, w ≠ 3 → A0 w = W1 m c (Proc.devRef .tc (Pipeline.arrRef (sp0 (F := F)) w))) :
    (W5 m c A0 A1 (Proc.devRef .tc main_v40) : (⟨S8192x64, .f32⟩ : BufTy).Contents (Elt F))
      = Host.gather gather_S6000x64_S8192x1_S8192x64_1_0_n_n_0_1_164 (W0 m c (Proc.devRef .tc main_arg16)) (rowIdx 6000#32 (W0 m c (Proc.devRef .tc main_arg0))) := by
  refine (p1o0_keep _ (by decide)).trans ((p0o1_v40 _).trans ?_)
  rw [W3_arg16 m c A0 A1 h0, W3_keep m c A0 A1 main_arg0 (by decide) (by decide) (by decide)]

theorem W5_v47 (c : Dev nD) (A0 : ArrC (F := F) 0 c) (A1 : ArrC (F := F) 1 c) :
    (W5 m c A0 A1 (Proc.devRef .tc main_v47) : (⟨S8192x64, .f32⟩ : BufTy).Contents (Elt F))
      = Host.gather gather_S12000x64_S8192x1_S8192x64_1_0_n_n_0_1_164 (W0 m c (Proc.devRef .tc main_arg15)) (rowIdx 12000#32 (W0 m c (Proc.devRef .tc main_arg1))) := by
  refine (p1o0_keep _ (by decide)).trans ((p0o1_v47 _).trans ?_)
  rw [W3_keep m c A0 A1 main_arg15 (by decide) (by decide) (by decide), W3_keep m c A0 A1 main_arg1 (by decide) (by decide) (by decide)]

set_option backward.isDefEq.respectTransparency.types false in
theorem W5_v54 (c : Dev nD) (A0 : ArrC (F := F) 0 c) (A1 : ArrC (F := F) 1 c) :
    (W5 m c A0 A1 (Proc.devRef .tc main_v54) : (⟨S8192x64, .f32⟩ : BufTy).Contents (Elt F))
      = Host.gather gather_S12000x64_S8192x1_S8192x64_1_0_n_n_0_1_164 (A1 4 : (⟨S12000x64, .f32⟩ : BufTy).Contents (Elt F)) (rowIdx 12000#32 (W0 m c (Proc.devRef .tc main_arg1))) := by
  refine (p1o0_v54 _).trans ?_
  rw [W4_keep m c A0 A1 (r := main_v5) (by decide), W4_keep m c A0 A1 (r := main_arg1) (by decide),
    W3_keep m c A0 A1 main_arg1 (by decide) (by decide) (by decide)]
  exact congrArg (fun G => Host.gather gather_S12000x64_S8192x1_S8192x64_1_0_n_n_0_1_164 G (rowIdx 12000#32 (W0 m c (Proc.devRef .tc main_arg1)))) (W3_atArr m c A0 A1 4)

/-- A buffer no region up to region 2's entry has as an array and no host stretch writes is, at region 2's entry, as at
    launch. -/
theorem W5_keep (c : Dev nD) (A0 : ArrC (F := F) 0 c) (A1 : ArrC (F := F) 1 c) (b : Ref sig .tc)
    (h0 : ∀ w : Fin 4, Pipeline.arrRef spec0 w ≠ b) (h1 : ∀ w : Fin 5, Pipeline.arrRef spec1 w ≠ b) (hw0 : b ∉ p0o0_W)
    (hw1 : b ∉ p0o1_W) (hw2 : b ∉ p1o0_W) : W5 m c A0 A1 (Proc.devRef .tc b) = W0 m c (Proc.devRef .tc b) :=
  (p1o0_keep _ hw2).trans ((p0o1_keep _ hw1).trans (W3_keep m c A0 A1 b h0 h1 hw0))
theorem W5_arg7 (c : Dev nD) (A0 : ArrC (F := F) 0 c) (A1 : ArrC (F := F) 1 c) : W5 m c A0 A1 (Proc.devRef .tc main_arg7) = W0 m c (Proc.devRef .tc main_arg7) :=
  W5_keep m c A0 A1 main_arg7 (by decide) (by decide) (by decide) (by decide) (by decide)
theorem W5_arg9 (c : Dev nD) (A0 : ArrC (F := F) 0 c) (A1 : ArrC (F := F) 1 c) : W5 m c A0 A1 (Proc.devRef .tc main_arg9) = W0 m c (Proc.devRef .tc main_arg9) :=
  W5_keep m c A0 A1 main_arg9 (by decide) (by decide) (by decide) (by decide) (by decide)
theorem W5_arg11 (c : Dev nD) (A0 : ArrC (F := F) 0 c) (A1 : ArrC (F := F) 1 c) : W5 m c A0 A1 (Proc.devRef .tc main_arg11) = W0 m c (Proc.devRef .tc main_arg11) :=
  W5_keep m c A0 A1 main_arg11 (by decide) (by decide) (by decide) (by decide) (by decide)
theorem W5_arg13 (c : Dev nD) (A0 : ArrC (F := F) 0 c) (A1 : ArrC (F := F) 1 c) : W5 m c A0 A1 (Proc.devRef .tc main_arg13) = W0 m c (Proc.devRef .tc main_arg13) :=
  W5_keep m c A0 A1 main_arg13 (by decide) (by decide) (by decide) (by decide) (by decide)

theorem W5_v55 (c : Dev nD) (A0 : ArrC (F := F) 0 c) (A1 : ArrC (F := F) 1 c) :
    (W5 m c A0 A1 (Proc.devRef .tc main_v55) : (⟨S1x256, .f32⟩ : BufTy).Contents (Elt F))
      = shapeCast S1x256 (W0 m c (Proc.devRef .tc main_arg8)) shapeCasts_S256_S1x256 := by
  refine (p1o0_v55 _).trans ?_
  rw [W4_keep m c A0 A1 (r := main_arg8) (by decide), W3_keep m c A0 A1 main_arg8 (by decide) (by decide) (by decide)]

theorem W5_v56 (c : Dev nD) (A0 : ArrC (F := F) 0 c) (A1 : ArrC (F := F) 1 c) :
    (W5 m c A0 A1 (Proc.devRef .tc main_v56) : (⟨S1x128, .f32⟩ : BufTy).Contents (Elt F))
      = shapeCast S1x128 (W0 m c (Proc.devRef .tc main_arg10)) shapeCasts_S128_S1x128 := by
  refine (p1o0_v56 _).trans ?_
  rw [W4_keep m c A0 A1 (r := main_arg10) (by decide), W3_keep m c A0 A1 main_arg10 (by decide) (by decide) (by decide)]

theorem W5_v57 (c : Dev nD) (A0 : ArrC (F := F) 0 c) (A1 : ArrC (F := F) 1 c) :
    (W5 m c A0 A1 (Proc.devRef .tc main_v57) : (⟨S1x64, .f32⟩ : BufTy).Contents (Elt F))
      = shapeCast S1x64 (W0 m c (Proc.devRef .tc main_arg12)) shapeCasts_S64_S1x64 := by
  refine (p1o0_v57 _).trans ?_
  rw [W4_keep m c A0 A1 (r := main_arg12) (by decide), W3_keep m c A0 A1 main_arg12 (by decide) (by decide) (by decide)]

theorem W5_v58 (c : Dev nD) (A0 : ArrC (F := F) 0 c) (A1 : ArrC (F := F) 1 c) :
    (W5 m c A0 A1 (Proc.devRef .tc main_v58) : (⟨S1x1, .f32⟩ : BufTy).Contents (Elt F))
      = shapeCast S1x1 (W0 m c (Proc.devRef .tc main_arg14)) shapeCasts_S1_S1x1 := by
  refine (p1o0_v58 _).trans ?_
  rw [W4_keep m c A0 A1 (r := main_arg14) (by decide), W3_keep m c A0 A1 main_arg14 (by decide) (by decide) (by decide)]

/-! ## The results -/

set_option backward.isDefEq.respectTransparency.types false in
theorem W7_v60 (c : Dev nD) (A0 : ArrC (F := F) 0 c) (A1 : ArrC (F := F) 1 c) (A2 : ArrC (F := F) 2 c) :
    (W7 m c A0 A1 A2 (Proc.devRef .tc main_v60) : (⟨S8192, .f32⟩ : BufTy).Contents (Elt F))
      = shapeCast S8192 (A2 15 : (⟨S8192x1, .f32⟩ : BufTy).Contents (Elt F)) shapeCasts_S8192x1_S8192 :=
  (p1o1_v60 _).trans (congrArg (fun o => shapeCast S8192 o shapeCasts_S8192x1_S8192) (W6_atArr m c A0 A1 A2 15))

set_option backward.isDefEq.respectTransparency.types false in
theorem W7_v61 (c : Dev nD) (A0 : ArrC (F := F) 0 c) (A1 : ArrC (F := F) 1 c) (A2 : ArrC (F := F) 2 c) :
    (W7 m c A0 A1 A2 (Proc.devRef .tc main_v61) : (⟨S8192, .f32⟩ : BufTy).Contents (Elt F))
      = shapeCast S8192 (A2 16 : (⟨S8192x1, .f32⟩ : BufTy).Contents (Elt F)) shapeCasts_S8192x1_S8192 :=
  (p1o1_v61 _).trans (congrArg (fun o => shapeCast S8192 o shapeCasts_S8192x1_S8192) (W6_atArr m c A0 A1 A2 16))

end Cert.KernelIdeal.Hand

end
-- ==== Proof.Spec.lean ====
/-
  The value both programs compute, index by index, over the extended reals.

  keys[u,d]          = Σ_k user_rel[u,k] · Watt[k,d] + batt[d]
  items_relation[i,d] = Σ_u sigmoid(Σ_e keys[u,e] · item_rel[i,e]) · mask[u,i] · user_rel[u,d]
  the tower: x = (row of eu_mlp | row of ei_mlp), h1 = relu(x·W1 + b1), h2 = relu(h1·W2 + b2), h3 = relu(h2·W3 + b3),
  prediction[b]      = Σ_k (gmf product | h3)[b,k] · Wp[k,0] + bp[0]
  rel_scores[b]      = Σ_d (user_rel row + items_relation row)[b,d] · item_rel row[b,d]
  Every formula reads ONE row b of its row-indexed operands, so it is stated for any number of rows n: a block of
  2048 rows and the whole 8192 rows are the same formula.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals over literal extents. -/
abbrev A2 (a b : Nat) : Type := (⟨2, ![a, b]⟩ : Shape).Idx → EReal
/-- A rank-1 array of extended reals. -/
abbrev A1 (a : Nat) : Type := (⟨1, ![a]⟩ : Shape).Idx → EReal

/-- A one-row rank-2 array read as a rank-1 array (a bias kept as a row). -/
def rowOf {D : Nat} (v : A2 1 D) : A1 D := fun j => v (ix2 (0 : Fin 1) (⟨(j 0).val, (j 0).isLt⟩ : Fin D))

theorem rowOf_ix1 {D : Nat} (v : A2 1 D) (d : Fin D) : rowOf v (ix1 d) = v (ix2 0 d) := rfl

/-- One entry of a matrix product with a bias row added: Σ_k x[u,k] · w[k,d] + bias[d]. -/
def affAt {n K D : Nat} (x : A2 n K) (w : A2 K D) (bias : A1 D) (u : Fin n) (d : Fin D) : EReal :=
  (∑ k : Fin K, x (ix2 u k) * w (ix2 k d)) + bias (ix1 d)

/-- keys[u,d]. -/
def keysAt (userRel : A2 6000 64) (watt : A2 64 64) (batt : A1 64) (u : Fin 6000) (d : Fin 64) : EReal :=
  affAt userRel watt batt u d

/-- One entry of the attention product for a tile of T items given column-wise (itemT[e,r] = item_rel[item r, e],
    maskT[u,r] = mask[u, item r]): Σ_u sigmoid(Σ_e keys[u,e] · itemT[e,r]) · maskT[u,r] · user_rel[u,d]. -/
def itemsTileAt {T : Nat} (keys : A2 6000 64) (itemT : A2 64 T) (maskT : A2 6000 T) (userRel : A2 6000 64)
    (r : Fin T) (d : Fin 64) : EReal :=
  ∑ u : Fin 6000, (Ideal.logistic (∑ e : Fin 64, keys (ix2 u e) * itemT (ix2 e r)) * maskT (ix2 u r)) * userRel (ix2 u d)

/-- items_relation[i,d] over the whole arrays. -/
def itemsAt (keys : A2 6000 64) (itemRel : A2 12000 64) (mask : A2 6000 12000) (userRel : A2 6000 64)
    (i : Fin 12000) (d : Fin 64) : EReal :=
  ∑ u : Fin 6000, (Ideal.logistic (∑ e : Fin 64, keys (ix2 u e) * itemRel (ix2 i e)) * mask (ix2 u i)) * userRel (ix2 u d)

/-- Two row-indexed arrays side by side along the columns. -/
def catAt {n a b : Nat} (x : Fin n → Fin a → EReal) (y : Fin n → Fin b → EReal) (r : Fin n) (k : Fin (a + b)) : EReal :=
  if h : k.val < a then x r ⟨k.val, h⟩ else y r ⟨k.val - a, by omega⟩

/-- One layer: relu(Σ_k x[r,k] · w[k,j] + bias[j]), the input given as a function of row and column. -/
def layerAt {n K D : Nat} (x : Fin n → Fin K → EReal) (w : A2 K D) (bias : A1 D) (r : Fin n) (j : Fin D) : EReal :=
  max ((∑ k : Fin K, x r k * w (ix2 k j)) + bias (ix1 j)) 0

/-- The tower's last hidden layer h3[r,j] from the two gathered MLP embeddings. -/
def h3At {n : Nat} (guMlp giMlp : A2 n 256) (W1 : A2 512 256) (b1 : A1 256) (W2 : A2 256 128) (b2 : A1 128)
    (W3 : A2 128 64) (b3 : A1 64) : Fin n → Fin 64 → EReal :=
  layerAt (layerAt (layerAt (catAt (fun r k => guMlp (ix2 r k)) (fun r k => giMlp (ix2 r k))) W1 b1) W2 b2) W3 b3

/-- prediction[r]. -/
def predAt {n : Nat} (guGmf giGmf : A2 n 64) (guMlp giMlp : A2 n 256) (W1 : A2 512 256) (b1 : A1 256) (W2 : A2 256 128)
    (b2 : A1 128) (W3 : A2 128 64) (b3 : A1 64) (Wp : A2 128 1) (bp : A1 1) (r : Fin n) : EReal :=
  (∑ k : Fin (64 + 64), catAt (fun r k => guGmf (ix2 r k) * giGmf (ix2 r k)) (h3At guMlp giMlp W1 b1 W2 b2 W3 b3) r k
      * Wp (ix2 (k.cast (by norm_num)) 0)) + bp (ix1 0)

/-- rel_scores[r]. -/
def relAt {n : Nat} (guRel gItems giRel : A2 n 64) (r : Fin n) : EReal :=
  ∑ d : Fin 64, (guRel (ix2 r d) + gItems (ix2 r d)) * giRel (ix2 r d)

/-- A tile's columns are the whole arrays' rows: the tile formula at the tile's columns is the whole formula. -/
theorem itemsTileAt_eq {T : Nat} (keys : A2 6000 64) (itemRel : A2 12000 64) (mask : A2 6000 12000) (userRel : A2 6000 64)
    (itemT : A2 64 T) (maskT : A2 6000 T) (r : Fin T) (i : Fin 12000) (d : Fin 64)
    (hi : ∀ e, itemT (ix2 e r) = itemRel (ix2 i e)) (hm : ∀ u, maskT (ix2 u r) = mask (ix2 u i)) :
    itemsTileAt keys itemT maskT userRel r d = itemsAt keys itemRel mask userRel i d := by
  unfold itemsTileAt itemsAt
  refine Finset.sum_congr rfl fun u _ => ?_
  rw [hm u, Finset.sum_congr rfl fun e _ => by rw [hi e]]

end Cert.Spec

end
-- ==== Proof.PayA.lean ====
/-
  The kernel's payloads read at an index, over the extended reals.

  Each payload is a composition of elementwise operations, layout operations and matrix products into a zero
  accumulator. Read at one index, an elementwise operation reads its operands at that index, a layout operation reads
  its operand at one index given by coordinates, and a matrix product into zero is the sum over the contraction
  coordinate of the operands' products. Chaining these gives each payload's entry as the formula of the specification.
-/
import proofs.«163843_j81870666596358_2_alg».proof.Proof.Gen.KernelIdeal.Skeleton
import proofs.«163843_j81870666596358_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.PayA

open Idealize.ShloMosaic Idealize.ShloMosaic.ValueIdx Cert.KernelIdeal Cert.KernelIdeal.Gen

/-! ### The product `[6000, 64] × [64, 64]` into zero, read at `(u, d)` -/

theorem dotK0_lhs0 (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide), dif_pos (show (0 : Fin S6000x64.rank) ∈ dot_S6000x64_S64x64_S6000x64_1_0_0_1_n_n.lhsNonContracting by decide)]
  rfl
theorem dotK0_lhs1 (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q
theorem dotK0_rhs0 (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q
theorem dotK0_rhs1 (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide), dif_pos (show (1 : Fin S64x64.rank) ∈ dot_S6000x64_S64x64_S6000x64_1_0_0_1_n_n.rhsNonContracting by decide)]
  rfl

/-- The product into the zero accumulator at `(u, d)`: the sum over the contraction coordinate `k` of the left operand
    at `(u, k)` times the right operand at `(k, d)`. -/
theorem dotK0_apply (lhs : FVec Ideal S6000x64 .bf16) (rhs : FVec Ideal S64x64 .bf16) (u : Fin 6000) (d : Fin 64) :
    matmul dot_S6000x64_S64x64_S6000x64_1_0_0_1_n_n none lhs rhs (constant S6000x64 .f32 0x00000000#32) (ix2 u d)
      = ∑ k : Fin 64, lhs (ix2 u k) * rhs (ix2 k d) := by
  refine (Ideal.matmul_constant_zero_apply dot_S6000x64_S64x64_S6000x64_1_0_0_1_n_n none lhs rhs (ix2 u d)).trans ?_
  rw [← Equiv.sum_comp (contrEquiv1 dot_S6000x64_S64x64_S6000x64_1_0_0_1_n_n 64 rfl rfl).symm]
  refine Finset.sum_congr rfl fun k _ => ?_
  have hk := contrEquiv1_symm_val dot_S6000x64_S64x64_S6000x64_1_0_0_1_n_n 64 rfl rfl k
  have el : dot_S6000x64_S64x64_S6000x64_1_0_0_1_n_n.lhsIdx (ix2 u d) ((contrEquiv1 dot_S6000x64_S64x64_S6000x64_1_0_0_1_n_n 64 rfl rfl).symm k) = ix2 u k := funext fun a => Fin.ext (by
    match a with
    | ⟨0, _⟩ => exact dotK0_lhs0 _ _
    | ⟨1, _⟩ => exact (dotK0_lhs1 _ _).trans hk)
  have er : dot_S6000x64_S64x64_S6000x64_1_0_0_1_n_n.rhsIdx (ix2 u d) ((contrEquiv1 dot_S6000x64_S64x64_S6000x64_1_0_0_1_n_n 64 rfl rfl).symm k) = ix2 k d := funext fun a => Fin.ext (by
    match a with
    | ⟨0, _⟩ => exact (dotK0_rhs0 _ _).trans hk
    | ⟨1, _⟩ => exact dotK0_rhs1 _ _)
  rw [el, er]

/-! ## The keys payload -/

/-- `keys[u, d] = Σ_k user_rel[u, k] · Watt[k, d] + batt[d]`: the narrowing casts are the identity on extended reals,
    the product into zero is the sum, and the bias row is broadcast over the rows. -/
theorem k0_pay1_apply (v0 : Vec Ideal S6000x64 .f32) (v2 : Vec Ideal S64x64 .f32) (v5 : Vec Ideal S1x64 .f32) (u : Fin 6000) (d : Fin 64) :
    k0_pay1 (F := Ideal) v0 v2 v5 (ix2 u d) = Cert.Spec.affAt v0 v2 (Cert.Spec.rowOf v5) u d := by
  have h1 : k0_pay1 (F := Ideal) v0 v2 v5 (ix2 u d)
      = matmul dot_S6000x64_S64x64_S6000x64_1_0_0_1_n_n none (truncf .bf16 v0 Facts₀.bitsLt_bf16_f32) (truncf .bf16 v2 Facts₀.bitsLt_bf16_f32)
          (constant S6000x64 .f32 0x00000000#32) (ix2 u d)
        + broadcastTo S6000x64 (shapeCast S1x64 v5 Facts₀.shapeCasts_S1x64_S1x64) Facts₀.broadcasts_S1x64_S6000x64 (ix2 u d) := rfl
  rw [h1, dotK0_apply, broadcastTo_1b_ab_apply, shapeCast_self]
  rfl

/-! ## The relation-score payload -/

/-- An `[a]` array cast to `[a, 1]` reads, at `(i, u)`, the operand at `i`, whatever the unit coordinate `u`: the two
    indices have the same row-major position `i · 1 + 0 = i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- `rel_scores[r] = Σ_d (user_rel row + items_relation row)[r, d] · item_rel row[r, d]`: the sum along the lanes of
    the elementwise expression, stored as a one-column array. -/
theorem k2_pay2_apply (v50 v52 v55 : Vec Ideal S2048x64 .f32) (r : Fin 2048) :
    k2_pay2 (F := Ideal) v50 v52 v55 (ix2 r 0) = Cert.Spec.relAt v50 v52 v55 r := by
  unfold k2_pay2 Cert.Spec.relAt
  refine (shapeCast_a_a1_apply _ _ r 0).trans ?_
  refine (Ideal.multiReduction_add_single _ _ Facts₀.reduces_S2048x64_S2048 _ _ (ix1 r)).trans ?_
  refine Finset.sum_congr rfl fun (k : Fin 64) _ => ?_
  have hl : (Facts₀.reduces_S2048x64_S2048).lift (ix1 r) k = ix2 r k := funext fun a => Fin.ext (by
    match a with
    | ⟨0, _⟩ => rfl
    | ⟨1, _⟩ => rfl)
  rw [hl, shapeCast_self, shapeCast_self, shapeCast_self]
  rfl

/-! ### The product `[6000, 64] × [64, 256]` into zero, read at `(u, d)` -/

theorem dotK1a_lhs0 (i : S6000x256.Idx) (q : dot_S6000x64_S64x256_S6000x256_1_0_0_1_n_n.contr.Idx) :
    (dot_S6000x64_S64x256_S6000x256_1_0_0_1_n_n.lhsIdx i q 0).val = (i 0).val := by
  unfold DotDims.lhsIdx
  rw [dif_neg (show ¬(0 : Fin S6000x64.rank) ∈ dot_S6000x64_S64x256_S6000x256_1_0_0_1_n_n.lhsBatch by decide), dif_pos (show (0 : Fin S6000x64.rank) ∈ dot_S6000x64_S64x256_S6000x256_1_0_0_1_n_n.lhsNonContracting by decide)]
  rfl
theorem dotK1a_lhs1 (i : S6000x256.Idx) (q : dot_S6000x64_S64x256_S6000x256_1_0_0_1_n_n.contr.Idx) :
    (dot_S6000x64_S64x256_S6000x256_1_0_0_1_n_n.lhsIdx i q 1).val = (q ⟨0, by decide⟩).val :=
  dot_S6000x64_S64x256_S6000x256_1_0_0_1_n_n.lhsIdx_val_of_single rfl i q
theorem dotK1a_rhs0 (i : S6000x256.Idx) (q : dot_S6000x64_S64x256_S6000x256_1_0_0_1_n_n.contr.Idx) :
    (dot_S6000x64_S64x256_S6000x256_1_0_0_1_n_n.rhsIdx i q 0).val = (q ⟨0, by decide⟩).val :=
  dot_S6000x64_S64x256_S6000x256_1_0_0_1_n_n.rhsIdx_val_of_single rfl i q
theorem dotK1a_rhs1 (i : S6000x256.Idx) (q : dot_S6000x64_S64x256_S6000x256_1_0_0_1_n_n.contr.Idx) :
    (dot_S6000x64_S64x256_S6000x256_1_0_0_1_n_n.rhsIdx i q 1).val = (i 1).val := by
  unfold DotDims.rhsIdx
  rw [dif_neg (show ¬(1 : Fin S64x256.rank) ∈ dot_S6000x64_S64x256_S6000x256_1_0_0_1_n_n.rhsBatch by decide), dif_pos (show (1 : Fin S64x256.rank) ∈ dot_S6000x64_S64x256_S6000x256_1_0_0_1_n_n.rhsNonContracting by decide)]
  rfl

/-- The product into the zero accumulator at `(u, d)`: the sum over the contraction coordinate `k` of the left operand
    at `(u, k)` times the right operand at `(k, d)`. -/
theorem dotK1a_apply (lhs : FVec Ideal S6000x64 .bf16) (rhs : FVec Ideal S64x256 .bf16) (u : Fin 6000) (d : Fin 256) :
    matmul dot_S6000x64_S64x256_S6000x256_1_0_0_1_n_n none lhs rhs (constant S6000x256 .f32 0x00000000#32) (ix2 u d)
      = ∑ k : Fin 64, lhs (ix2 u k) * rhs (ix2 k d) := by
  refine (Ideal.matmul_constant_zero_apply dot_S6000x64_S64x256_S6000x256_1_0_0_1_n_n none lhs rhs (ix2 u d)).trans ?_
  rw [← Equiv.sum_comp (contrEquiv1 dot_S6000x64_S64x256_S6000x256_1_0_0_1_n_n 64 rfl rfl).symm]
  refine Finset.sum_congr rfl fun k _ => ?_
  have hk := contrEquiv1_symm_val dot_S6000x64_S64x256_S6000x256_1_0_0_1_n_n 64 rfl rfl k
  have el : dot_S6000x64_S64x256_S6000x256_1_0_0_1_n_n.lhsIdx (ix2 u d) ((contrEquiv1 dot_S6000x64_S64x256_S6000x256_1_0_0_1_n_n 64 rfl rfl).symm k) = ix2 u k := funext fun a => Fin.ext (by
    match a with
    | ⟨0, _⟩ => exact dotK1a_lhs0 _ _
    | ⟨1, _⟩ => exact (dotK1a_lhs1 _ _).trans hk)
  have er : dot_S6000x64_S64x256_S6000x256_1_0_0_1_n_n.rhsIdx (ix2 u d) ((contrEquiv1 dot_S6000x64_S64x256_S6000x256_1_0_0_1_n_n 64 rfl rfl).symm k) = ix2 k d := funext fun a => Fin.ext (by
    match a with
    | ⟨0, _⟩ => exact (dotK1a_rhs0 _ _).trans hk
    | ⟨1, _⟩ => exact dotK1a_rhs1 _ _)
  rw [el, er]

/-! ### The product `[256, 6000] × [6000, 64]` into zero, read at `(u, d)` -/

theorem dotK1b_lhs0 (i : S256x64.Idx) (q : dot_S256x6000_S6000x64_S256x64_1_0_0_1_n_n.contr.Idx) :
    (dot_S256x6000_S6000x64_S256x64_1_0_0_1_n_n.lhsIdx i q 0).val = (i 0).val := by
  unfold DotDims.lhsIdx
  rw [dif_neg (show ¬(0 : Fin S256x6000.rank) ∈ dot_S256x6000_S6000x64_S256x64_1_0_0_1_n_n.lhsBatch by decide), dif_pos (show (0 : Fin S256x6000.rank) ∈ dot_S256x6000_S6000x64_S256x64_1_0_0_1_n_n.lhsNonContracting by decide)]
  rfl
theorem dotK1b_lhs1 (i : S256x64.Idx) (q : dot_S256x6000_S6000x64_S256x64_1_0_0_1_n_n.contr.Idx) :
    (dot_S256x6000_S6000x64_S256x64_1_0_0_1_n_n.lhsIdx i q 1).val = (q ⟨0, by decide⟩).val :=
  dot_S256x6000_S6000x64_S256x64_1_0_0_1_n_n.lhsIdx_val_of_single rfl i q
theorem dotK1b_rhs0 (i : S256x64.Idx) (q : dot_S256x6000_S6000x64_S256x64_1_0_0_1_n_n.contr.Idx) :
    (dot_S256x6000_S6000x64_S256x64_1_0_0_1_n_n.rhsIdx i q 0).val = (q ⟨0, by decide⟩).val :=
  dot_S256x6000_S6000x64_S256x64_1_0_0_1_n_n.rhsIdx_val_of_single rfl i q
theorem dotK1b_rhs1 (i : S256x64.Idx) (q : dot_S256x6000_S6000x64_S256x64_1_0_0_1_n_n.contr.Idx) :
    (dot_S256x6000_S6000x64_S256x64_1_0_0_1_n_n.rhsIdx i q 1).val = (i 1).val := by
  unfold DotDims.rhsIdx
  rw [dif_neg (show ¬(1 : Fin S6000x64.rank) ∈ dot_S256x6000_S6000x64_S256x64_1_0_0_1_n_n.rhsBatch by decide), dif_pos (show (1 : Fin S6000x64.rank) ∈ dot_S256x6000_S6000x64_S256x64_1_0_0_1_n_n.rhsNonContracting by decide)]
  rfl

/-- The product into the zero accumulator at `(u, d)`: the sum over the contraction coordinate `k` of the left operand
    at `(u, k)` times the right operand at `(k, d)`. -/
theorem dotK1b_apply (lhs : FVec Ideal S256x6000 .bf16) (rhs : FVec Ideal S6000x64 .bf16) (u : Fin 256) (d : Fin 64) :
    matmul dot_S256x6000_S6000x64_S256x64_1_0_0_1_n_n none lhs rhs (constant S256x64 .f32 0x00000000#32) (ix2 u d)
      = ∑ k : Fin 6000, lhs (ix2 u k) * rhs (ix2 k d) := by
  refine (Ideal.matmul_constant_zero_apply dot_S256x6000_S6000x64_S256x64_1_0_0_1_n_n none lhs rhs (ix2 u d)).trans ?_
  rw [← Equiv.sum_comp (contrEquiv1 dot_S256x6000_S6000x64_S256x64_1_0_0_1_n_n 6000 rfl rfl).symm]
  refine Finset.sum_congr rfl fun k _ => ?_
  have hk := contrEquiv1_symm_val dot_S256x6000_S6000x64_S256x64_1_0_0_1_n_n 6000 rfl rfl k
  have el : dot_S256x6000_S6000x64_S256x64_1_0_0_1_n_n.lhsIdx (ix2 u d) ((contrEquiv1 dot_S256x6000_S6000x64_S256x64_1_0_0_1_n_n 6000 rfl rfl).symm k) = ix2 u k := funext fun a => Fin.ext (by
    match a with
    | ⟨0, _⟩ => exact dotK1b_lhs0 _ _
    | ⟨1, _⟩ => exact (dotK1b_lhs1 _ _).trans hk)
  have er : dot_S256x6000_S6000x64_S256x64_1_0_0_1_n_n.rhsIdx (ix2 u d) ((contrEquiv1 dot_S256x6000_S6000x64_S256x64_1_0_0_1_n_n 6000 rfl rfl).symm k) = ix2 k d := funext fun a => Fin.ext (by
    match a with
    | ⟨0, _⟩ => exact (dotK1b_rhs0 _ _).trans hk
    | ⟨1, _⟩ => exact dotK1b_rhs1 _ _)
  rw [el, er]

/-! ## The attention payload for one tile of items -/

/-- `Σ_u sigmoid(Σ_e keys[u, e] · itemT[e, r]) · maskT[u, r] · user_rel[u, d]`: the outer product's left operand is the
    transpose of the masked sigmoid of the inner product, so at `(r, u)` it reads the masked sigmoid at `(u, r)`. -/
theorem k1_pay1_apply (v0 : Vec Ideal S64x256 .bf16) (v2 : Vec Ideal S6000x64 .f32) (v7 : Vec Ideal S6000x256 .f32) (v10 : Vec Ideal S6000x64 .bf16) (r : Fin 256) (d : Fin 64) :
    k1_pay1 (F := Ideal) v0 v2 v7 v10 (ix2 r d) = Cert.Spec.itemsTileAt v2 v0 v7 v10 r d := by
  unfold k1_pay1 Cert.Spec.itemsTileAt
  refine (dotK1b_apply _ _ r d).trans ?_
  refine Finset.sum_congr rfl fun u _ => ?_
  rw [transpose_ix2_apply, truncf_apply, mulf_apply]
  refine congrArg₂ (· * ·) (congrArg₂ (· * ·) ?_ rfl) ?_
  · refine (Ideal.logistic_def (x := _)).trans (congrArg Ideal.logistic ?_)
    refine (dotK1a_apply _ _ u r).trans ?_
    refine Finset.sum_congr rfl fun e _ => ?_
    rw [truncf_apply, shapeCast_self, shapeCast_self]
  · rw [shapeCast_self]

end Cert.KernelIdeal.PayA

end
-- ==== Proof.Reg1Val.lean ====
/-
  Region 1's output array, index by index.

  The output array is written back block by block: at point t the rows 256·t … 256·t + 255 that lie inside the array
  (all 256 for t < 46, the first 224 at t = 46, since 12000 = 46·256 + 224) take the moved part of what the body left
  in the staging buffer, and that is the tile formula of the two blocks fetched at t. Inside the array a fetched
  block's column r is the whole array's column 256·t + r, and the tile formula at column r reads its two column-wise
  operands in that column only; so every written element is the formula over the whole arrays at its own index.
  Every element of the array is covered by the block of the point (its row / 256), and an element keeps what the
  last write-back covering it wrote: by induction on the number of write-backs, the array ends at the formula
  everywhere.
-/
import proofs.«163843_j81870666596358_2_alg».proof.Proof.Reg1
import proofs.«163843_j81870666596358_2_alg».proof.Proof.PayA
import proofs.«163843_j81870666596358_2_alg».proof.Proof.Spec
import Idealize.ShloMosaic.Lib.Pipeline.Value
import Idealize.ShloMosaic.Lib.ValueIdx

noncomputable section

namespace Cert.KernelIdeal.Reg1

open Cert.KernelIdeal Cert.KernelIdeal.Gen
open Idealize.ShloMosaic Idealize.ShloMosaic.TcCoe
open Idealize.SL Idealize.SL.RA Idealize.SL.Sem
open Idealize.ShloMosaic.Pipeline (Dat RDat)

variable {U : Type} [URA U]

theorem idx_facts : ∀ t : Fin grid1.N,
    win1_4.index t 0 = t.val ∧ win1_4.index t 1 = 0 ∧ win1_0.index t 0 = 0 ∧ win1_0.index t 1 = t.val ∧ win1_1.index t 0 = 0 ∧ win1_1.index t 1 = t.val
    ∧ win1_4.xsize (grid1.coords t) 0 = min 256 (12000 - 256 * t.val) ∧ win1_4.xsize (grid1.coords t) 1 = 64
    ∧ win1_0.xsize (grid1.coords t) 0 = 64 ∧ win1_0.xsize (grid1.coords t) 1 = min 256 (12000 - 256 * t.val)
    ∧ win1_1.xsize (grid1.coords t) 0 = 6000 ∧ win1_1.xsize (grid1.coords t) 1 = min 256 (12000 - 256 * t.val) := by
  decide +kernel

/-- A property of every element a write-back may write is a property of every element some write-back below
    `n` covers: an element several write-backs cover holds the last one's value. -/
theorem arrAt_forall_of_flushed {Val : EltTy → Type} {cfg : Pipeline.Cfg sig Λ₀} {c : Dev nD}
    (rd : RDat τ Val Unit ℕ U ℕ cfg c) (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y)))
    (n : Nat) : ∀ G, rd.ArrAt w n G → ∀ (t : Fin cfg.N) (i : ((cfg.win w).arr.view.loc (c.tc : Thread nD τ)).2.ty.Idx),
      t.val < n → (cfg.win w).flush t = true → i ∈ ((cfg.win w).blk t).view.set → P i (G i) := by
  induction n with
  | zero => intro G _ t i ht; exact absurd ht (Nat.not_lt_zero _)
  | succ n ih =>
    intro G hG t i ht hf hi
    simp only [RDat.ArrAt] at hG
    by_cases hn : n < cfg.N
    swap
    · rw [dif_neg hn] at hG
      exact ih G hG t i (by have := t.isLt; omega) hf hi
    rw [dif_pos hn] at hG
    by_cases hfn : (cfg.win w).flush ⟨n, hn⟩ = true
    · rw [if_pos hfn] at hG
      obtain ⟨G₀, X, hG₀, hX, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact ih G₀ hG₀ t i (by omega) hf hi
    · rw [if_neg hfn] at hG
      have htn : t.val ≠ n := fun e => hfn (by have : t = ⟨n, hn⟩ := Fin.ext e; exact this ▸ hf)
      exact ih G hG t i (by omega) hf hi

open Idealize.ShloMosaic.ValueIdx

/-- The tile formula at column `r` reads the tile's two column-wise operands in that column only: tiles of any widths
    that agree there give one value. -/
theorem itemsTileAt_congr {T T' : Nat} (keys : Cert.Spec.A2 6000 64) (itemT : Cert.Spec.A2 64 T) (maskT : Cert.Spec.A2 6000 T)
    (itemT' : Cert.Spec.A2 64 T') (maskT' : Cert.Spec.A2 6000 T') (userRel : Cert.Spec.A2 6000 64)
    (r : Fin T) (r' : Fin T') (d : Fin 64)
    (hi : ∀ e, itemT (ix2 e r) = itemT' (ix2 e r')) (hm : ∀ u, maskT (ix2 u r) = maskT' (ix2 u r')) :
    Cert.Spec.itemsTileAt keys itemT maskT userRel r d = Cert.Spec.itemsTileAt keys itemT' maskT' userRel r' d := by
  unfold Cert.Spec.itemsTileAt
  refine Finset.sum_congr rfl fun u _ => ?_
  rw [hm u, Finset.sum_congr rfl fun e _ => by rw [hi e]]

set_option maxHeartbeats 400000 in
/-- The item block fetched at point `t`, at a column `r` inside the array, is the array's column `256·t + r`. -/
theorem fet0_apply (c : Dev nD) (V : VT (F := Ideal) c) (t : Fin cfg1.N) (d0) (e : Fin 64) (r : Fin 256)
    (h : 256 * t.val + r.val < 12000) :
    fet c V 0 t d0 (ix2 e r) = V main_v1 (ix2 e (⟨256 * t.val + r.val, h⟩ : Fin 12000)) := by
  obtain ⟨-, -, i00, i01, -, -, -, -, x00, x01, -, -⟩ := idx_facts t
  have hb : ∀ a : Fin 2, (ix2 e r a).val < (cfg1.win 0).xsize (cfg1.grid.coords t) a := fun a => by
    match a with
    | ⟨0, _⟩ => show e.val < win1_0.xsize (grid1.coords t) 0; rw [x00]; exact e.isLt
    | ⟨1, _⟩ => show r.val < win1_0.xsize (grid1.coords t) 1; rw [x01]; have := r.isLt; omega
  let j : ((cfg1.win 0).xblock (cfg1.grid.coords t)).Idx := fun a => ⟨(ix2 e r a).val, hb a⟩
  have hj : ix2 e r = (cfg1.win 0).xinj (cfg1.grid.coords t) j := funext fun a => Fin.ext (by
    match a with
    | ⟨0, _⟩ => rfl
    | ⟨1, _⟩ => rfl)
  unfold fet
  rw [hj, Pipeline.Window.fill_xinj, View.read_apply, cast_eq]
  refine congrArg (V main_v1) (funext fun a => Fin.ext ?_)
  refine ((cfg1.win 0).rect_emb_val t j a).trans ?_
  match a with
  | ⟨0, _⟩ => show win1_0.index t 0 * 64 + e.val = e.val; rw [i00]; omega
  | ⟨1, _⟩ => show win1_0.index t 1 * 256 + r.val = 256 * t.val + r.val; rw [i01]; omega

set_option maxHeartbeats 400000 in
/-- The mask block fetched at point `t`, at a column `r` inside the array, is the array's column `256·t + r`. -/
theorem fet1_apply (c : Dev nD) (V : VT (F := Ideal) c) (t : Fin cfg1.N) (d1) (u : Fin 6000) (r : Fin 256)
    (h : 256 * t.val + r.val < 12000) :
    fet c V 1 t d1 (ix2 u r) = V main_arg2 (ix2 u (⟨256 * t.val + r.val, h⟩ : Fin 12000)) := by
  obtain ⟨-, -, -, -, i10, i11, -, -, -, -, x10, x11⟩ := idx_facts t
  have hb : ∀ a : Fin 2, (ix2 u r a).val < (cfg1.win 1).xsize (cfg1.grid.coords t) a := fun a => by
    match a with
    | ⟨0, _⟩ => show u.val < win1_1.xsize (grid1.coords t) 0; rw [x10]; exact u.isLt
    | ⟨1, _⟩ => show r.val < win1_1.xsize (grid1.coords t) 1; rw [x11]; have := r.isLt; omega
  let j : ((cfg1.win 1).xblock (cfg1.grid.coords t)).Idx := fun a => ⟨(ix2 u r a).val, hb a⟩
  have hj : ix2 u r = (cfg1.win 1).xinj (cfg1.grid.coords t) j := funext fun a => Fin.ext (by
    match a with
    | ⟨0, _⟩ => rfl
    | ⟨1, _⟩ => rfl)
  unfold fet
  rw [hj, Pipeline.Window.fill_xinj, View.read_apply, cast_eq]
  refine congrArg (V main_arg2) (funext fun a => Fin.ext ?_)
  refine ((cfg1.win 1).rect_emb_val t j a).trans ?_
  match a with
  | ⟨0, _⟩ => show win1_1.index t 0 * 6000 + u.val = u.val; rw [i10]; omega
  | ⟨1, _⟩ => show win1_1.index t 1 * 256 + r.val = 256 * t.val + r.val; rw [i11]; omega

/-- The product formula over the whole arrays, as a function of the output array's index. -/
def outF (c : Dev nD) (V : VT (F := Ideal) c) : S12000x64.Idx → EReal := fun j =>
  Cert.Spec.itemsTileAt (T := 12000) (V main_v4) (V main_v1) (V main_arg2) (V main_v2) ⟨(j 0).val, (j 0).isLt⟩ ⟨(j 1).val, (j 1).isLt⟩

set_option maxHeartbeats 400000 in
/-- What a write-back at point `t` writes at an element of its block inside the array is the formula there: the body
    left the tile formula of the fetched blocks, and inside the array a fetched block's column is the array's. -/
theorem flushed_apply (c : Dev nD) (V : VT (F := Ideal) c) (t : Fin cfg1.N) (X) (hX : (rdat (U := U) c V).Leaves 4 t X)
    (y : ((cfg1.win 4).xblock (cfg1.grid.coords t)).Idx) :
    (cfg1.win 4).cut (cfg1.grid.coords t) X y = outF c V (((cfg1.win 4).blk t).view.emb y) := by
  obtain ⟨i40, i41, -, -, -, -, x40, x41, -, -, -, -⟩ := idx_facts t
  obtain ⟨Y, -, hA⟩ := hX
  obtain ⟨d0, d1, rfl⟩ := (after_4 c V t Y X).mp hA
  have hy0 : (y 0).val < min 256 (12000 - 256 * t.val) := by rw [← x40]; exact (y 0).isLt
  have hy1 : (y 1).val < 64 := by rw [← x41]; exact (y 1).isLt
  let r : Fin 256 := ⟨(y 0).val, by omega⟩
  let dd : Fin 64 := ⟨(y 1).val, hy1⟩
  have hr : 256 * t.val + r.val < 12000 := by show 256 * t.val + (y 0).val < 12000; omega
  have hxi : (cfg1.win 4).xinj (cfg1.grid.coords t) y = ix2 r dd := funext fun a => Fin.ext (by
    match a with
    | ⟨0, _⟩ => rfl
    | ⟨1, _⟩ => rfl)
  show k1_pay1 (F := Ideal) _ _ _ _ ((cfg1.win 4).xinj (cfg1.grid.coords t) y) = _
  rw [hxi]
  refine (PayA.k1_pay1_apply _ _ _ _ r dd).trans ?_
  refine (itemsTileAt_congr (V main_v4) _ _ (V main_v1) (V main_arg2) (V main_v2) r ⟨256 * t.val + r.val, hr⟩ dd
    (fun e => fet0_apply c V t d0 e r hr) (fun u => fet1_apply c V t d1 u r hr)).trans ?_
  have e0 : (((cfg1.win 4).blk t).view.emb y 0).val = 256 * t.val + r.val :=
    ((cfg1.win 4).rect_emb_val t y 0).trans (by show win1_4.index t 0 * 256 + (y 0).val = 256 * t.val + (y 0).val; rw [i40]; omega)
  have e1 : (((cfg1.win 4).blk t).view.emb y 1).val = dd.val :=
    ((cfg1.win 4).rect_emb_val t y 1).trans (by show win1_4.index t 1 * 64 + (y 1).val = (y 1).val; rw [i41]; omega)
  unfold outF
  exact congrArg₂ (Cert.Spec.itemsTileAt (T := 12000) (V main_v4) (V main_v1) (V main_arg2) (V main_v2)) (Fin.ext e0.symm) (Fin.ext e1.symm)

set_option maxHeartbeats 400000 in
/-- Region 1's output array after its 47 write-backs holds the formula at every index: every row lies in the block of
    the point `i / 256`, inside the array. -/
theorem out_det (c : Dev nD) (V : VT (F := Ideal) c) (o) (h : (rdat (U := U) c V).ArrAt 4 cfg1.N o) (i : Fin 12000) (d : Fin 64) :
    o (ValueIdx.ix2 i d) = Cert.Spec.itemsTileAt (T := 12000) (V main_v4) (V main_v1) (V main_arg2) (V main_v2) i d := by
  have hN : cfg1.N = 47 := N_1
  have hi := i.isLt
  let t : Fin cfg1.N := ⟨i.val / 256, by rw [hN]; omega⟩
  obtain ⟨i40, i41, -, -, -, -, x40, x41, -, -, -, -⟩ := idx_facts t
  let r : Fin 256 := ⟨i.val % 256, Nat.mod_lt _ (by decide)⟩
  have hb : ∀ a : Fin 2, (ix2 r d a).val < (cfg1.win 4).xsize (cfg1.grid.coords t) a := fun a => by
    match a with
    | ⟨0, _⟩ => show i.val % 256 < win1_4.xsize (grid1.coords t) 0; rw [x40]; show i.val % 256 < min 256 (12000 - 256 * (i.val / 256)); omega
    | ⟨1, _⟩ => show d.val < win1_4.xsize (grid1.coords t) 1; rw [x41]; exact d.isLt
  let y : ((cfg1.win 4).xblock (cfg1.grid.coords t)).Idx := fun a => ⟨(ix2 r d a).val, hb a⟩
  have hemb : ((cfg1.win 4).blk t).view.emb y = ix2 i d := funext fun a => Fin.ext (by
    refine ((cfg1.win 4).rect_emb_val t y a).trans ?_
    match a with
    | ⟨0, _⟩ => show win1_4.index t 0 * 256 + i.val % 256 = i.val; rw [i40]; show i.val / 256 * 256 + i.val % 256 = i.val; omega
    | ⟨1, _⟩ => show win1_4.index t 1 * 64 + d.val = d.val; rw [i41]; omega)
  have key := arrAt_forall_of_flushed (rdat (U := U) c V) 4 (fun i v => v = outF c V i)
    (fun t _ X hX y => by rw [cast_eq]; exact flushed_apply c V t X hX y) cfg1.N o h t (ix2 i d) t.isLt (flush1_4 t)
    (by rw [← hemb]; exact View.emb_mem_set _ y)
  exact key

end Cert.KernelIdeal.Reg1

end
-- ==== Proof.RefA.lean ====
/-
  The reference program's values at the ideal instance, read index by index: the keys, the attention product
  and the relation score are the sums the specification names.
-/
import proofs.«163843_j81870666596358_2_alg».proof.Proof.Gen.ReferenceIdeal.Read
import proofs.«163843_j81870666596358_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefA

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

private theorem l51 (u : Fin 6000) (d k : Fin 64) : lidx_main_v51 (ix2 u d) k = ix2 u k :=
  funext fun a => Fin.ext (by match a with | ⟨0, _⟩ => rfl | ⟨1, _⟩ => rfl)
private theorem r51 (u : Fin 6000) (d k : Fin 64) : ridx_main_v51 (ix2 u d) k = ix2 k d :=
  funext fun a => Fin.ext (by match a with | ⟨0, _⟩ => rfl | ⟨1, _⟩ => rfl)
private theorem i53 (u : Fin 6000) (d : Fin 64) : idx_main_v52 (idx_main_v53 (ix2 u d)) = ix1 d :=
  funext fun a => Fin.ext (by match a with | ⟨0, _⟩ => rfl)

set_option maxHeartbeats 400000 in
theorem keys_eq (x16 : (⟨S6000x64, .f32⟩ : BufTy).Contents (Elt Ideal)) (x17 : (⟨S64x64, .f32⟩ : BufTy).Contents (Elt Ideal))
    (x18 : (⟨S64, .f32⟩ : BufTy).Contents (Elt Ideal)) (u : Fin 6000) (d : Fin 64) :
    val_main_v54 (F := Ideal) x16 x17 x18 (ix2 u d) = Cert.Spec.keysAt x16 x17 x18 u d := by
  rw [val_main_v54_apply, val_main_v51_apply, val_main_v53_apply, val_main_v52_apply]
  simp only [l51, r51, i53, Ideal.addf_def]
  rfl

private theorem i89 (b : Fin 8192) (k : Fin 64) : idx_main_v89 (ix1 b) k = ix2 b k :=
  funext fun a => Fin.ext (by match a with | ⟨0, _⟩ => rfl | ⟨1, _⟩ => rfl)

set_option maxHeartbeats 400000 in
theorem rel_eq (x0 x1 : (⟨S8192, .i32⟩ : BufTy).Contents (Elt Ideal)) (x2 : (⟨S6000x12000, .f32⟩ : BufTy).Contents (Elt Ideal))
    (x15 : (⟨S12000x64, .f32⟩ : BufTy).Contents (Elt Ideal)) (x16 : (⟨S6000x64, .f32⟩ : BufTy).Contents (Elt Ideal))
    (x17 : (⟨S64x64, .f32⟩ : BufTy).Contents (Elt Ideal)) (x18 : (⟨S64, .f32⟩ : BufTy).Contents (Elt Ideal)) (b : Fin 8192) :
    val_main_v89 (F := Ideal) x0 x1 x2 x15 x16 x17 x18 (ix1 b)
      = Cert.Spec.relAt (val_main_v72 (F := Ideal) x0 x16) (val_main_v79 (F := Ideal) x1 x2 x15 x16 x17 x18)
          (val_main_v87 (F := Ideal) x1 x15) b := by
  rw [val_main_v89_apply, val_main_cst_14_apply]
  simp only [val_main_v88_apply, val_main_v80_apply, i89, Ideal.ofBits_def, Ideal.ofBits_zero_f32, Ideal.addf_def,
    Ideal.mulf_def, zero_add]
  rfl

private theorem l65 (i : Fin 12000) (d : Fin 64) (u : Fin 6000) : lidx_main_v65 (ix2 i d) u = ix2 i u :=
  funext fun a => Fin.ext (by match a with | ⟨0, _⟩ => rfl | ⟨1, _⟩ => rfl)
private theorem r65 (i : Fin 12000) (d : Fin 64) (u : Fin 6000) : ridx_main_v65 (ix2 i d) u = ix2 u d :=
  funext fun a => Fin.ext (by match a with | ⟨0, _⟩ => rfl | ⟨1, _⟩ => rfl)
private theorem l56 (i : Fin 12000) (u : Fin 6000) (e : Fin 64) : lidx_main_v56 (ix2 i u) e = ix2 i e :=
  funext fun a => Fin.ext (by match a with | ⟨0, _⟩ => rfl | ⟨1, _⟩ => rfl)
private theorem r56 (i : Fin 12000) (u : Fin 6000) (e : Fin 64) : idx_main_v55 (ridx_main_v56 (ix2 i u) e) = ix2 u e :=
  funext fun a => Fin.ext (by match a with | ⟨0, _⟩ => rfl | ⟨1, _⟩ => rfl)
private theorem i63 (i : Fin 12000) (u : Fin 6000) : idx_main_v63 (ix2 i u) = ix2 u i :=
  funext fun a => Fin.ext (by match a with | ⟨0, _⟩ => rfl | ⟨1, _⟩ => rfl)

/-- The f32 word of 1.0 is the extended real 1. -/
private theorem one_f32 : Ideal.ofBits .f32 0x3F800000#32 = 1 := IdealRules.sign_bit.ideal_onePat .f32

set_option maxHeartbeats 400000 in
theorem items_eq (x2 : (⟨S6000x12000, .f32⟩ : BufTy).Contents (Elt Ideal)) (x15 : (⟨S12000x64, .f32⟩ : BufTy).Contents (Elt Ideal))
    (x16 : (⟨S6000x64, .f32⟩ : BufTy).Contents (Elt Ideal)) (x17 : (⟨S64x64, .f32⟩ : BufTy).Contents (Elt Ideal))
    (x18 : (⟨S64, .f32⟩ : BufTy).Contents (Elt Ideal)) (i : Fin 12000) (d : Fin 64) :
    val_main_v65 (F := Ideal) x2 x15 x16 x17 x18 (ix2 i d)
      = Cert.Spec.itemsAt (val_main_v54 (F := Ideal) x16 x17 x18) x15 x2 x16 i d := by
  rw [val_main_v65_apply]
  unfold Cert.Spec.itemsAt
  refine Finset.sum_congr rfl fun u _ => ?_
  rw [l65, r65, val_main_v64_apply, val_main_v62_apply, val_main_v61_apply, val_main_cst_7_apply, val_main_v60_apply,
    val_main_v59_apply, val_main_cst_apply, val_main_v58_apply, val_main_v57_apply, val_main_v56_apply, val_main_v63_apply, i63]
  simp only [val_main_v55_apply, l56, r56, Ideal.ofBits_def, one_f32, Ideal.addf_def, Ideal.mulf_def, Ideal.hostDivf_def,
    Ideal.hostUnary_exp_def, Ideal.hostNegf_def, Ideal.negf_def]
  have h : (∑ e : Fin 64, x15 (ix2 i e) * val_main_v54 (F := Ideal) x16 x17 x18 (ix2 u e))
      = ∑ e : Fin 64, val_main_v54 (F := Ideal) x16 x17 x18 (ix2 u e) * x15 (ix2 i e) :=
    Finset.sum_congr rfl fun e _ => mul_comm _ _
  rw [h]
  rfl

/-- The attention product reads its keys only at the pairs (u, e): keys that agree there give the same entry. -/
theorem itemsAt_congr_keys (K K' : Cert.Spec.A2 6000 64) (itemRel : Cert.Spec.A2 12000 64) (mask : Cert.Spec.A2 6000 12000)
    (userRel : Cert.Spec.A2 6000 64) (i : Fin 12000) (d : Fin 64) (h : ∀ u e, K (ix2 u e) = K' (ix2 u e)) :
    Cert.Spec.itemsAt K itemRel mask userRel i d = Cert.Spec.itemsAt K' itemRel mask userRel i d := by
  unfold Cert.Spec.itemsAt
  refine Finset.sum_congr rfl fun u _ => ?_
  rw [Finset.sum_congr rfl fun e _ => by rw [h u e]]

/-- items_relation[i,d] of the reference, over any array holding the keys. -/
theorem items_eq_of_keys (x2 : (⟨S6000x12000, .f32⟩ : BufTy).Contents (Elt Ideal)) (x15 : (⟨S12000x64, .f32⟩ : BufTy).Contents (Elt Ideal))
    (x16 : (⟨S6000x64, .f32⟩ : BufTy).Contents (Elt Ideal)) (x17 : (⟨S64x64, .f32⟩ : BufTy).Contents (Elt Ideal))
    (x18 : (⟨S64, .f32⟩ : BufTy).Contents (Elt Ideal)) (K : Cert.Spec.A2 6000 64)
    (hK : ∀ u e, K (ix2 u e) = Cert.Spec.keysAt x16 x17 x18 u e) (i : Fin 12000) (d : Fin 64) :
    val_main_v65 (F := Ideal) x2 x15 x16 x17 x18 (ix2 i d) = Cert.Spec.itemsAt K x15 x2 x16 i d :=
  (items_eq x2 x15 x16 x17 x18 i d).trans
    (itemsAt_congr_keys _ K x15 x2 x16 i d fun u e => (keys_eq x16 x17 x18 u e).trans (hK u e).symm)

end Cert.ReferenceIdeal.RefA

end
-- ==== Proof.SpecCongr.lean ====
/-
  The specification's formulas read ONE row of their row-indexed arguments (and one column of a tile's column-wise
  arguments): two families of arguments that agree on that row give the same value. A bias enters only through its
  entries, so biases that agree entry by entry give the same value too.
-/
import proofs.«163843_j81870666596358_2_alg».proof.Proof.Spec

noncomputable section

open scoped BigOperators

namespace Cert.Spec

open Idealize.ShloMosaic Idealize.ShloMosaic.ValueIdx

/-- Two blocks side by side at row r depend only on the two blocks' rows r. -/
theorem catAt_row_congr {n n' a b : Nat} (x : Fin n → Fin a → EReal) (y : Fin n → Fin b → EReal)
    (x' : Fin n' → Fin a → EReal) (y' : Fin n' → Fin b → EReal) (r : Fin n) (r' : Fin n')
    (hx : ∀ k, x r k = x' r' k) (hy : ∀ k, y r k = y' r' k) (k : Fin (a + b)) :
    catAt x y r k = catAt x' y' r' k := by
  unfold catAt
  split
  · exact hx _
  · exact hy _

/-- One layer at row r depends only on the input's row r and on the bias's entries. -/
theorem layerAt_row_congr {n n' K D : Nat} (x : Fin n → Fin K → EReal) (x' : Fin n' → Fin K → EReal) (w : A2 K D)
    (bias bias' : A1 D) (r : Fin n) (r' : Fin n') (hx : ∀ k, x r k = x' r' k)
    (hb : ∀ j, bias (ix1 j) = bias' (ix1 j)) (j : Fin D) :
    layerAt x w bias r j = layerAt x' w bias' r' j := by
  unfold layerAt
  rw [hb j, Finset.sum_congr rfl fun k _ => by rw [hx k]]

/-- The last hidden layer at row r depends only on the two embeddings' rows r and on the biases' entries. -/
theorem h3At_row_congr {n n' : Nat} (guMlp giMlp : A2 n 256) (guMlp' giMlp' : A2 n' 256) (W1 : A2 512 256)
    (b1 b1' : A1 256) (W2 : A2 256 128) (b2 b2' : A1 128) (W3 : A2 128 64) (b3 b3' : A1 64) (r : Fin n) (r' : Fin n')
    (h3 : ∀ k, guMlp (ix2 r k) = guMlp' (ix2 r' k)) (h4 : ∀ k, giMlp (ix2 r k) = giMlp' (ix2 r' k))
    (hb1 : ∀ j, b1 (ix1 j) = b1' (ix1 j)) (hb2 : ∀ j, b2 (ix1 j) = b2' (ix1 j)) (hb3 : ∀ j, b3 (ix1 j) = b3' (ix1 j))
    (j : Fin 64) :
    h3At guMlp giMlp W1 b1 W2 b2 W3 b3 r j = h3At guMlp' giMlp' W1 b1' W2 b2' W3 b3' r' j := by
  unfold h3At
  refine layerAt_row_congr _ _ W3 b3 b3' r r' (fun k2 => ?_) hb3 j
  refine layerAt_row_congr _ _ W2 b2 b2' r r' (fun k1 => ?_) hb2 k2
  refine layerAt_row_congr _ _ W1 b1 b1' r r' (fun k0 => ?_) hb1 k1
  exact catAt_row_congr (a := 256) (b := 256) _ _ _ _ r r' h3 h4 k0

/-- The prediction at row r depends only on the four embeddings' rows r and on the biases' entries. -/
theorem predAt_congr_all {n n' : Nat} (guGmf giGmf : A2 n 64) (guMlp giMlp : A2 n 256) (guGmf' giGmf' : A2 n' 64)
    (guMlp' giMlp' : A2 n' 256) (W1 : A2 512 256) (b1 b1' : A1 256) (W2 : A2 256 128) (b2 b2' : A1 128) (W3 : A2 128 64)
    (b3 b3' : A1 64) (Wp : A2 128 1) (bp bp' : A1 1) (r : Fin n) (r' : Fin n')
    (h1 : ∀ k, guGmf (ix2 r k) = guGmf' (ix2 r' k)) (h2 : ∀ k, giGmf (ix2 r k) = giGmf' (ix2 r' k))
    (h3 : ∀ k, guMlp (ix2 r k) = guMlp' (ix2 r' k)) (h4 : ∀ k, giMlp (ix2 r k) = giMlp' (ix2 r' k))
    (hb1 : ∀ j, b1 (ix1 j) = b1' (ix1 j)) (hb2 : ∀ j, b2 (ix1 j) = b2' (ix1 j)) (hb3 : ∀ j, b3 (ix1 j) = b3' (ix1 j))
    (hbp : ∀ j, bp (ix1 j) = bp' (ix1 j)) :
    predAt guGmf giGmf guMlp giMlp W1 b1 W2 b2 W3 b3 Wp bp r
      = predAt guGmf' giGmf' guMlp' giMlp' W1 b1' W2 b2' W3 b3' Wp bp' r' := by
  unfold predAt
  rw [hbp 0]
  congr 1
  refine Finset.sum_congr rfl fun k _ => ?_
  rw [catAt_row_congr _ _ _ _ r r' (fun c => by rw [h1 c, h2 c])
    (fun c => h3At_row_congr guMlp giMlp guMlp' giMlp' W1 b1 b1' W2 b2 b2' W3 b3 b3' r r' h3 h4 hb1 hb2 hb3 c) k]

/-- The prediction at row r of one family of embeddings is the prediction at row r' of another that agrees with it
    on those rows: a block of rows and the whole arrays give the same value at corresponding rows. -/
theorem predAt_congr {n n' : Nat} (guGmf giGmf : A2 n 64) (guMlp giMlp : A2 n 256) (guGmf' giGmf' : A2 n' 64)
    (guMlp' giMlp' : A2 n' 256) (W1 : A2 512 256) (b1 : A1 256) (W2 : A2 256 128) (b2 : A1 128) (W3 : A2 128 64)
    (b3 : A1 64) (Wp : A2 128 1) (bp : A1 1) (r : Fin n) (r' : Fin n')
    (h1 : ∀ k, guGmf (ix2 r k) = guGmf' (ix2 r' k)) (h2 : ∀ k, giGmf (ix2 r k) = giGmf' (ix2 r' k))
    (h3 : ∀ k, guMlp (ix2 r k) = guMlp' (ix2 r' k)) (h4 : ∀ k, giMlp (ix2 r k) = giMlp' (ix2 r' k)) :
    predAt guGmf giGmf guMlp giMlp W1 b1 W2 b2 W3 b3 Wp bp r = predAt guGmf' giGmf' guMlp' giMlp' W1 b1 W2 b2 W3 b3 Wp bp r' :=
  predAt_congr_all guGmf giGmf guMlp giMlp guGmf' giGmf' guMlp' giMlp' W1 b1 b1 W2 b2 b2 W3 b3 b3 Wp bp bp r r' h1 h2 h3 h4
    (fun _ => rfl) (fun _ => rfl) (fun _ => rfl) (fun _ => rfl)

/-- The prediction is unchanged when each bias is replaced by one with the same entries. -/
theorem predAt_bias_congr {n : Nat} (guGmf giGmf : A2 n 64) (guMlp giMlp : A2 n 256) (W1 : A2 512 256) (b1 b1' : A1 256)
    (W2 : A2 256 128) (b2 b2' : A1 128) (W3 : A2 128 64) (b3 b3' : A1 64) (Wp : A2 128 1) (bp bp' : A1 1) (r : Fin n)
    (hb1 : ∀ j, b1 (ix1 j) = b1' (ix1 j)) (hb2 : ∀ j, b2 (ix1 j) = b2' (ix1 j)) (hb3 : ∀ j, b3 (ix1 j) = b3' (ix1 j))
    (hbp : ∀ j, bp (ix1 j) = bp' (ix1 j)) :
    predAt guGmf giGmf guMlp giMlp W1 b1 W2 b2 W3 b3 Wp bp r = predAt guGmf giGmf guMlp giMlp W1 b1' W2 b2' W3 b3' Wp bp' r :=
  predAt_congr_all guGmf giGmf guMlp giMlp guGmf giGmf guMlp giMlp W1 b1 b1' W2 b2 b2' W3 b3 b3' Wp bp bp' r r
    (fun _ => rfl) (fun _ => rfl) (fun _ => rfl) (fun _ => rfl) hb1 hb2 hb3 hbp

/-- The relation score at row r depends only on the three arrays' rows r. -/
theorem relAt_congr {n n' : Nat} (a b c : A2 n 64) (a' b' c' : A2 n' 64) (r : Fin n) (r' : Fin n')
    (ha : ∀ d, a (ix2 r d) = a' (ix2 r' d)) (hb : ∀ d, b (ix2 r d) = b' (ix2 r' d))
    (hc : ∀ d, c (ix2 r d) = c' (ix2 r' d)) :
    relAt a b c r = relAt a' b' c' r' := by
  unfold relAt
  refine Finset.sum_congr rfl fun d _ => ?_
  rw [ha d, hb d, hc d]

/-- A tile's attention product at column r and coordinate d depends only on the keys, on the tile's columns r and on
    the user relation's column d. -/
theorem itemsTileAt_congr {T T' : Nat} (keys keys' : A2 6000 64) (itemT : A2 64 T) (itemT' : A2 64 T')
    (maskT : A2 6000 T) (maskT' : A2 6000 T') (userRel userRel' : A2 6000 64) (r : Fin T) (r' : Fin T') (d : Fin 64)
    (hk : ∀ u e, keys (ix2 u e) = keys' (ix2 u e)) (hi : ∀ e, itemT (ix2 e r) = itemT' (ix2 e r'))
    (hm : ∀ u, maskT (ix2 u r) = maskT' (ix2 u r')) (hu : ∀ u, userRel (ix2 u d) = userRel' (ix2 u d)) :
    itemsTileAt keys itemT maskT userRel r d = itemsTileAt keys' itemT' maskT' userRel' r' d := by
  unfold itemsTileAt
  refine Finset.sum_congr rfl fun u _ => ?_
  rw [hm u, hu u, Finset.sum_congr rfl fun e _ => by rw [hk u e, hi e]]

/-- The whole arrays' attention product is the tile formula over all 12000 items given column-wise. -/
theorem itemsAt_eq_tile (keys : A2 6000 64) (itemRel : A2 12000 64) (mask : A2 6000 12000) (userRel : A2 6000 64)
    (itemT : A2 64 12000) (i : Fin 12000) (d : Fin 64) (hi : ∀ e, itemT (ix2 e i) = itemRel (ix2 i e)) :
    itemsAt keys itemRel mask userRel i d = itemsTileAt (T := 12000) keys itemT mask userRel i d := by
  unfold itemsAt itemsTileAt
  refine Finset.sum_congr rfl fun u _ => ?_
  rw [Finset.sum_congr rfl fun e _ => by rw [← hi e]]

end Cert.Spec

end
-- ==== Proof.ValA.lean ====
/-
  The values regions 0 and 1 leave, over the launch contents.

  Region 0's result array holds the keys of the launch user_rel, Watt and batt: its one write-back writes the keys
  payload of its entry arrays, and the first host stretch leaves those at the launch arrays (batt made a row).
  Region 1's result array holds, entry by entry, the reference's items_relation of the launch arrays: each entry is the
  tile formula over region 1's entry arrays — the keys region 0 left, the launch item_rel transposed, the launch mask and
  the launch user_rel (narrowing is the identity on extended reals) —, and the reference's items_relation is the same
  sum over any array that holds the keys. An array only input windows read leaves its region as it entered it.
-/
import proofs.«163843_j81870666596358_2_alg».proof.Proof.Vals
import proofs.«163843_j81870666596358_2_alg».proof.Proof.Glue
import proofs.«163843_j81870666596358_2_alg».proof.Proof.Reg0
import proofs.«163843_j81870666596358_2_alg».proof.Proof.Reg1
import proofs.«163843_j81870666596358_2_alg».proof.Proof.Reg1Val
import proofs.«163843_j81870666596358_2_alg».proof.Proof.PayA
import proofs.«163843_j81870666596358_2_alg».proof.Proof.RefA
import proofs.«163843_j81870666596358_2_alg».proof.Proof.SpecCongr

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat RDat)

variable (m : (ℓ : Loc nD τ sig) → Buf (Elt Ideal) ℓ)

/-- A TensorCore buffer's contents at launch. -/
abbrev M (c : Dev nD) (b : Ref sig .tc) : Buf (Elt Ideal) ((c.tc : Thread nD τ).loc b) := m ((c.tc : Thread nD τ).loc b)
/-- Region 0's proof data, entered after the first host stretch. -/
abbrev rd0 (c : Dev nD) := Reg0.rdat (F := Ideal) (U := Alg) c (tcv c (W1 m c))
/-- Region 1's proof data, entered with region 0's arrays at A0. -/
abbrev rd1 (c : Dev nD) (A0 : ArrC (F := Ideal) 0 c) := Reg1.rdat (F := Ideal) (U := Alg) c (tcv c (W2 m c A0))

/-! ## Region 0: the keys -/

set_option maxHeartbeats 400000 in
/-- Region 0 leaves its result array at the keys of the launch arrays: its one write-back writes the payload of the
    entry arrays, which the first host stretch leaves as the launch user_rel, the launch Watt, and the launch batt as a
    row. -/
theorem keys_val (c : Dev nD) (A0 : ArrC (F := Ideal) 0 c) (hA0 : ∀ w, (rd0 m c).ArrAt w cfg0.N (A0 w)) (u : Fin 6000) (e : Fin 64) :
    A0 3 (ix2 u e) = Cert.Spec.keysAt (M m c main_arg16) (M m c main_arg17) (M m c main_arg18) u e := by
  have hout := Reg0.out_det (F := Ideal) (U := Alg) c (tcv c (W1 m c)) (A0 3) (hA0 3)
  refine (congrFun hout (ix2 u e)).trans ?_
  refine (PayA.k0_pay1_apply _ _ _ u e).trans ?_
  have e16 : tcv c (W1 m c) main_arg16 = M m c main_arg16 := Glue.p0o0_keep (W0 m c) (by decide)
  have e17 : tcv c (W1 m c) main_arg17 = M m c main_arg17 := Glue.p0o0_keep (W0 m c) (by decide)
  have e3 := Glue.p0o0_v3 (W0 m c)
  unfold Cert.Spec.keysAt Cert.Spec.affAt
  rw [e16, e17, Cert.Spec.rowOf_ix1]
  refine congrArg (_ + ·) ?_
  refine (congrFun e3 (ix2 0 e)).trans ?_
  exact Glue.row_apply _ _ e

/-! ## Region 1: items_relation -/

/-- None of region 0's arrays is the buffer b, for each b region 1 reads besides the keys. -/
theorem sp0_ne_v1 : ∀ w, Pipeline.arrRef (sp0 (F := Ideal)) w ≠ main_v1
  | ⟨0, _⟩ => (by decide : main_arg16 ≠ main_v1) | ⟨1, _⟩ => (by decide : main_arg17 ≠ main_v1)
  | ⟨2, _⟩ => (by decide : main_v3 ≠ main_v1) | ⟨3, _⟩ => (by decide : main_v4 ≠ main_v1)
theorem sp0_ne_arg2 : ∀ w, Pipeline.arrRef (sp0 (F := Ideal)) w ≠ main_arg2
  | ⟨0, _⟩ => (by decide : main_arg16 ≠ main_arg2) | ⟨1, _⟩ => (by decide : main_arg17 ≠ main_arg2)
  | ⟨2, _⟩ => (by decide : main_v3 ≠ main_arg2) | ⟨3, _⟩ => (by decide : main_v4 ≠ main_arg2)
theorem sp0_ne_v2 : ∀ w, Pipeline.arrRef (sp0 (F := Ideal)) w ≠ main_v2
  | ⟨0, _⟩ => (by decide : main_arg16 ≠ main_v2) | ⟨1, _⟩ => (by decide : main_arg17 ≠ main_v2)
  | ⟨2, _⟩ => (by decide : main_v3 ≠ main_v2) | ⟨3, _⟩ => (by decide : main_v4 ≠ main_v2)

set_option maxHeartbeats 400000 in
/-- Region 1 leaves its result array at the reference's items_relation of the launch arrays: every entry is the tile
    formula over region 1's entry arrays, which are the keys region 0 left, the launch item_rel transposed, the launch
    mask and the launch user_rel; and the reference's items_relation is that formula over any array holding the keys. -/
theorem items_val (c : Dev nD) (A0 : ArrC (F := Ideal) 0 c) (A1 : ArrC (F := Ideal) 1 c)
    (hA0 : ∀ w, (rd0 m c).ArrAt w cfg0.N (A0 w)) (hA1 : ∀ w, (rd1 m c A0).ArrAt w cfg1.N (A1 w)) (i : Fin 12000) (d : Fin 64) :
    A1 4 (ix2 i d) = Cert.ReferenceIdeal.Read.val_main_v65 (F := Ideal) (M m c main_arg2) (M m c main_arg15) (M m c main_arg16)
      (M m c main_arg17) (M m c main_arg18) (ix2 i d) := by
  refine (Reg1.out_det (U := Alg) c (tcv c (W2 m c A0)) (A1 4) (hA1 4) i d).trans ?_
  have e4 : tcv c (W2 m c A0) main_v4 = A0 3 :=
    Pipeline.withArrays_arr (sp0 (F := Ideal)) launch0.win.arr_inj c (W1 m c) A0 3
  have e1 := (Pipeline.withArrays_of_ne (sp0 (F := Ideal)) c (W1 m c) A0 main_v1 sp0_ne_v1).trans (Glue.p0o0_v1 (W0 m c))
  have e2 : tcv c (W2 m c A0) main_arg2 = M m c main_arg2 :=
    (Pipeline.withArrays_of_ne (sp0 (F := Ideal)) c (W1 m c) A0 main_arg2 sp0_ne_arg2).trans (Glue.p0o0_keep (W0 m c) (by decide))
  have ev2 : tcv c (W2 m c A0) main_v2 = M m c main_arg16 :=
    (Pipeline.withArrays_of_ne (sp0 (F := Ideal)) c (W1 m c) A0 main_v2 sp0_ne_v2).trans
      ((Glue.p0o0_v2 (W0 m c)).trans (Glue.userB_eq _))
  refine Eq.symm ((Cert.ReferenceIdeal.RefA.items_eq_of_keys (M m c main_arg2) (M m c main_arg15) (M m c main_arg16) (M m c main_arg17)
    (M m c main_arg18) (A0 3) (fun u e => keys_val m c A0 hA0 u e) i d).trans ?_)
  refine (Cert.Spec.itemsAt_eq_tile (A0 3) (M m c main_arg15) (M m c main_arg2) (M m c main_arg16) (tcv c (W2 m c A0) main_v1) i d
    (fun e => (congrFun e1 (ix2 e i)).trans (Glue.itemT_apply _ e i))).trans ?_
  rw [e4, e2, ev2]

/-! ## An input window's array is as at the region's entry -/

/-- An array that only input windows read is never written back: after any number of points it holds its entry
    contents. -/
theorem arrAt_in_eq {Val : EltTy → Type} {cfg : Pipeline.Cfg sig Λ₀} {c : Dev nD} (rd : RDat τ Val Unit ℕ Alg ℕ cfg c)
    (w : Fin cfg.W) (hin : (cfg.win w).isOut = false) (n : Nat) (G) (h : rd.ArrAt w n G) : G = rd.A w :=
  (congrFun (rd.ArrAt_in w hin n) G).mp h

set_option maxHeartbeats 400000 in
/-- Region 0's three operand arrays leave the region as they entered it. -/
theorem inputs_kept0 (c : Dev nD) (A0 : ArrC (F := Ideal) 0 c) (hA0 : ∀ w, (rd0 m c).ArrAt w cfg0.N (A0 w)) :
    ∀ w, w ≠ 3 → A0 w = W1 m c (Proc.devRef .tc (Pipeline.arrRef (sp0 (F := Ideal)) w)) := by
  intro w hw
  have hin : (cfg0.win w).isOut = false := by
    match w, hw with
    | ⟨0, _⟩, _ => rfl
    | ⟨1, _⟩, _ => rfl
    | ⟨2, _⟩, _ => rfl
    | ⟨3, _⟩, h => exact absurd rfl h
  exact arrAt_in_eq (rd0 m c) w hin cfg0.N (A0 w) (hA0 w)

set_option maxHeartbeats 400000 in
/-- Region 1's four operand arrays leave the region as they entered it. -/
theorem inputs_kept1 (c : Dev nD) (A0 : ArrC (F := Ideal) 0 c) (A1 : ArrC (F := Ideal) 1 c) (hA1 : ∀ w, (rd1 m c A0).ArrAt w cfg1.N (A1 w)) :
    ∀ w, w ≠ 4 → A1 w = W2 m c A0 (Proc.devRef .tc (Pipeline.arrRef (sp1 (F := Ideal)) w)) := by
  intro w hw
  have hin : (cfg1.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  exact arrAt_in_eq (rd1 m c A0) w hin cfg1.N (A1 w) (hA1 w)

end Cert.KernelIdeal.Hand

end
-- ==== Proof.PayB.lean ====
/-
  Region 2's prediction payload read at an index over the extended reals: each layer of the tower is
  relu(x·W + b) entry by entry, the last product is the sum over the 128 columns of (gmf product | h3).
-/
import proofs.«163843_j81870666596358_2_alg».proof.Proof.Gen.KernelIdeal.Skeleton
import proofs.«163843_j81870666596358_2_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.KernelVsHost
import Idealize.ShloMosaic.Lib.StackMember

noncomputable section

open scoped BigOperators

namespace Cert.KernelIdeal.PayB

open Idealize.ShloMosaic Idealize.ShloMosaic.ValueIdx Cert.KernelIdeal Cert.KernelIdeal.Gen

/-! ## General entries: a plain product into a zero accumulator, two blocks side by side, one layer -/

/-- A plain m×k by k×n product accumulated into a zero splat, read at (a, b): the sum over the contracted
    coordinate of the products of the entries. -/
theorem matmul_zero_plain_apply {m k n : Nat} {φ₁ φ₂ : FTy}
    (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (a : Fin m) (b : Fin n) :
    matmul d none A B (constant ⟨2, ![m, n]⟩ .f32 0x00000000#32) (ix2 a b) = ∑ c : Fin k, A (ix2 a c) * B (ix2 c b) := by
  subst hd
  rw [matmul_zero_eq_dotGeneral]
  exact StackMember.dotGeneral_plain_apply none A B a b

/-- Two blocks of a and b columns side by side, read at (r, k): the first block at k when k < a, else the second
    block at k - a. -/
theorem concat_cols_apply {α : Type} {n a b c : Nat} (hc : a + b = c)
    (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (r : Fin n) (k : Fin c) :
    concatenate ⟨2, ![n, c]⟩ 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    refine concatenate_pair_apply_left 1 x y h (ix2 r k) rfl (ix2 r ⟨k.val, hk⟩) fun ax => ?_
    match ax with
    | ⟨0, _⟩ => rfl
    | ⟨1, _⟩ => rfl
  · rw [dif_neg hk]
    refine concatenate_pair_apply_right 1 x y h (ix2 r k) rfl rfl (ix2 r ⟨k.val - a, by have := k.isLt; omega⟩)
      (fun ax hax => ?_) ?_
    · match ax with
      | ⟨0, _⟩ => rfl
      | ⟨1, _⟩ => exact absurd rfl hax
    · show (k.val - a) + a = k.val
      omega

/-- One layer read at (r, j): the product with the weights into a zero accumulator, the bias row laid along the
    rows, then the maximum with a zero splat. -/
theorem layer_apply {n K D : Nat} (d : DotDims ⟨2, ![n, K]⟩ ⟨2, ![K, D]⟩ ⟨2, ![n, D]⟩) (hd : d = DotDims.plain n K D)
    (x : FVec Ideal ⟨2, ![n, K]⟩ .f32) (w : FVec Ideal ⟨2, ![K, D]⟩ .f32) (bias : FVec Ideal ⟨2, ![1, D]⟩ .f32)
    (hb : (⟨2, ![1, D]⟩ : Shape).Broadcasts ⟨2, ![n, D]⟩) (h1 : FTy.bf16.bits < FTy.f32.bits) (r : Fin n) (j : Fin D) :
    maximumf (addf (matmul d none (truncf .bf16 x h1) (truncf .bf16 w h1) (constant ⟨2, ![n, D]⟩ .f32 0x00000000#32))
        (broadcastTo ⟨2, ![n, D]⟩ bias hb)) (broadcast ⟨2, ![n, D]⟩ (Scalar.ofBits (F := Ideal) .f32 0x00000000#32)) (ix2 r j)
      = Cert.Spec.layerAt (fun r k => x (ix2 r k)) w (Cert.Spec.rowOf bias) r j := by
  rw [maximumf_apply, addf_apply, matmul_zero_plain_apply d hd, broadcastTo_1b_ab_apply, broadcast_apply]
  unfold Cert.Spec.layerAt
  rw [Cert.Spec.rowOf_ix1]
  congr 1
  exact Ideal.ofBits_zero_f32

/-! ## The tower of region 2 -/

/-- One layer as an array: the kernel's operations for relu(x·w + bias). -/
def layerV {n K D : Nat} (d : DotDims ⟨2, ![n, K]⟩ ⟨2, ![K, D]⟩ ⟨2, ![n, D]⟩)
    (x : FVec Ideal ⟨2, ![n, K]⟩ .f32) (w : FVec Ideal ⟨2, ![K, D]⟩ .f32) (bias : FVec Ideal ⟨2, ![1, D]⟩ .f32)
    (hb : (⟨2, ![1, D]⟩ : Shape).Broadcasts ⟨2, ![n, D]⟩) : FVec Ideal ⟨2, ![n, D]⟩ .f32 :=
  maximumf (addf (matmul d none (truncf .bf16 x bitsLt_bf16_f32) (truncf .bf16 w bitsLt_bf16_f32)
      (constant ⟨2, ![n, D]⟩ .f32 0x00000000#32)) (broadcastTo ⟨2, ![n, D]⟩ bias hb))
    (broadcast ⟨2, ![n, D]⟩ (Scalar.ofBits (F := Ideal) .f32 0x00000000#32))

/-- The layer array, as a function of row and column, is the layer formula on its input. -/
theorem layerV_fn {n K D : Nat} (d : DotDims ⟨2, ![n, K]⟩ ⟨2, ![K, D]⟩ ⟨2, ![n, D]⟩) (hd : d = DotDims.plain n K D)
    (x : FVec Ideal ⟨2, ![n, K]⟩ .f32) (w : FVec Ideal ⟨2, ![K, D]⟩ .f32) (bias : FVec Ideal ⟨2, ![1, D]⟩ .f32)
    (hb : (⟨2, ![1, D]⟩ : Shape).Broadcasts ⟨2, ![n, D]⟩) :
    (fun r j => layerV d x w bias hb (ix2 r j)) = Cert.Spec.layerAt (fun r k => x (ix2 r k)) w (Cert.Spec.rowOf bias) := by
  funext r j
  exact layer_apply d hd x w bias hb bitsLt_bf16_f32 r j

/-- The tower's input: the two gathered embeddings side by side. -/
def xin (v5 v7 : Vec Ideal S2048x256 .f32) : FVec Ideal S2048x512 .f32 :=
  concatenate S2048x512 1 [⟨S2048x256, v5⟩, ⟨S2048x256, v7⟩] concatenates_S2048x256_S2048x256_S2048x512_d1

theorem xin_fn (v5 v7 : Vec Ideal S2048x256 .f32) :
    (fun r k => xin v5 v7 (ix2 r k)) = Cert.Spec.catAt (fun r k => v5 (ix2 r k)) (fun r k => v7 (ix2 r k)) := by
  funext r k
  exact concat_cols_apply (by norm_num) v5 v7 concatenates_S2048x256_S2048x256_S2048x512_d1 r k

/-- The last hidden layer as an array. -/
def h3V (v5 v7 : Vec Ideal S2048x256 .f32) (v11 : Vec Ideal S512x256 .f32) (v14 : Vec Ideal S1x256 .f32)
    (v20 : Vec Ideal S256x128 .f32) (v24 : Vec Ideal S1x128 .f32) (v30 : Vec Ideal S128x64 .f32) (v34 : Vec Ideal S1x64 .f32) :
    FVec Ideal S2048x64 .f32 :=
  layerV dot_S2048x128_S128x64_S2048x64_1_0_0_1_n_n
    (layerV dot_S2048x256_S256x128_S2048x128_1_0_0_1_n_n
      (layerV dot_S2048x512_S512x256_S2048x256_1_0_0_1_n_n (xin v5 v7) v11 v14 broadcasts_S1x256_S2048x256)
      v20 v24 broadcasts_S1x128_S2048x128)
    v30 v34 broadcasts_S1x64_S2048x64

/-- The last hidden layer, as a function of row and column, is the specification's. -/
theorem h3V_fn (v5 v7 : Vec Ideal S2048x256 .f32) (v11 : Vec Ideal S512x256 .f32) (v14 : Vec Ideal S1x256 .f32)
    (v20 : Vec Ideal S256x128 .f32) (v24 : Vec Ideal S1x128 .f32) (v30 : Vec Ideal S128x64 .f32) (v34 : Vec Ideal S1x64 .f32) :
    (fun r j => h3V v5 v7 v11 v14 v20 v24 v30 v34 (ix2 r j))
      = Cert.Spec.h3At v5 v7 v11 (Cert.Spec.rowOf v14) v20 (Cert.Spec.rowOf v24) v30 (Cert.Spec.rowOf v34) := by
  unfold h3V Cert.Spec.h3At
  rw [layerV_fn dot_S2048x128_S128x64_S2048x64_1_0_0_1_n_n rfl, layerV_fn dot_S2048x256_S256x128_S2048x128_1_0_0_1_n_n rfl,
    layerV_fn dot_S2048x512_S512x256_S2048x256_1_0_0_1_n_n rfl, xin_fn]

/-! ## The prediction -/

/-- The prediction payload over the staged arrays: the casts to the same shape are identities. -/
theorem k2_pay1_eq (v0 v2 : Vec Ideal S2048x64 .f32) (v5 v7 : Vec Ideal S2048x256 .f32) (v11 : Vec Ideal S512x256 .f32)
    (v14 : Vec Ideal S1x256 .f32) (v20 : Vec Ideal S256x128 .f32) (v24 : Vec Ideal S1x128 .f32) (v30 : Vec Ideal S128x64 .f32)
    (v34 : Vec Ideal S1x64 .f32) (v42 : Vec Ideal S128x1 .f32) (v45 : Vec Ideal S1x1 .f32) :
    k2_pay1 (F := Ideal) (k2_pay3 v0 v2) (k2_pay4 v5 v7 v11 v14 v20 v24 v30) v34 v42 v45
      = addf (matmul dot_S2048x128_S128x1_S2048x1_1_0_0_1_n_n none
          (truncf .bf16 (concatenate S2048x128 1 [⟨S2048x64, mulf v0 v2⟩, ⟨S2048x64, h3V v5 v7 v11 v14 v20 v24 v30 v34⟩]
            concatenates_S2048x64_S2048x64_S2048x128_d1) bitsLt_bf16_f32)
          (truncf .bf16 v42 bitsLt_bf16_f32) (constant S2048x1 .f32 0x00000000#32))
        (broadcastTo S2048x1 v45 broadcasts_S1x1_S2048x1) := by
  unfold k2_pay1 k2_pay3 k2_pay4
  rw [shapeCast_self v0, shapeCast_self v2, shapeCast_self v5, shapeCast_self v7, shapeCast_self v14, shapeCast_self v24,
    shapeCast_self v34, shapeCast_self v45]
  rfl

/-- The prediction payload at row r is the specification's prediction. -/
theorem k2_pred_apply (v0 v2 : Vec Ideal S2048x64 .f32) (v5 v7 : Vec Ideal S2048x256 .f32) (v11 : Vec Ideal S512x256 .f32)
    (v14 : Vec Ideal S1x256 .f32) (v20 : Vec Ideal S256x128 .f32) (v24 : Vec Ideal S1x128 .f32) (v30 : Vec Ideal S128x64 .f32)
    (v34 : Vec Ideal S1x64 .f32) (v42 : Vec Ideal S128x1 .f32) (v45 : Vec Ideal S1x1 .f32) (r : Fin 2048) :
    k2_pay1 (F := Ideal) (k2_pay3 v0 v2) (k2_pay4 v5 v7 v11 v14 v20 v24 v30) v34 v42 v45 (ix2 r 0)
      = Cert.Spec.predAt v0 v2 v5 v7 v11 (Cert.Spec.rowOf v14) v20 (Cert.Spec.rowOf v24) v30 (Cert.Spec.rowOf v34) v42
          (Cert.Spec.rowOf v45) r := by
  rw [k2_pay1_eq, addf_apply, matmul_zero_plain_apply dot_S2048x128_S128x1_S2048x1_1_0_0_1_n_n rfl, broadcastTo_1b_ab_apply]
  unfold Cert.Spec.predAt
  rw [← h3V_fn]
  congr 1
  refine Finset.sum_congr rfl fun c _ => ?_
  rw [truncf_apply, truncf_apply, concat_cols_apply (by norm_num)]
  rfl

end Cert.KernelIdeal.PayB

end
-- ==== Proof.RefB.lean ====
/-
  The reference program's prediction at the ideal instance, index by index: the tower's three layers read through
  the generated stage functions, and the two concatenations read at a column on either side of the joint.
-/
import proofs.«163843_j81870666596358_2_alg».proof.Proof.Gen.ReferenceIdeal.Read
import proofs.«163843_j81870666596358_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefB

open Cert.ReferenceIdeal Cert.ReferenceIdeal.Gen Cert.ReferenceIdeal.Read Idealize.ShloMosaic Idealize.ShloMosaic.ValueIdx Cert.Spec

theorem layerAt_def {n K D : Nat} (x : Fin n → Fin K → EReal) (w : A2 K D) (bias : A1 D) (r : Fin n) (j : Fin D) :
    layerAt x w bias r j = max ((∑ k : Fin K, x r k * w (ix2 k j)) + bias (ix1 j)) 0 := rfl

/-- Side-by-side arrays agree at a row when their two halves do. -/
theorem catAt_congr {n a b : Nat} (x x' : Fin n → Fin a → EReal) (y y' : Fin n → Fin b → EReal) (r : Fin n)
    (hx : ∀ k, x r k = x' r k) (hy : ∀ k, y r k = y' r k) (k : Fin (a + b)) : catAt x y r k = catAt x' y' r k := by
  unfold catAt
  by_cases h : k.val < a
  · rw [dif_pos h, dif_pos h]; exact hx _
  · rw [dif_neg h, dif_neg h]; exact hy _

set_option maxHeartbeats 400000 in
/-- The first concatenation (two 256-column arrays side by side) at row r, column k. -/
theorem cat512 (G21 G28 : A2 8192 256) (r : Fin 8192) (k : Fin 512) :
    concatenate S8192x512 1 [⟨S8192x256, G21⟩, ⟨S8192x256, G28⟩] concatenates_S8192x256_S8192x256_S8192x512_d1 (ix2 r k)
      = catAt (a := 256) (b := 256) (fun r k => G21 (ix2 r k)) (fun r k => G28 (ix2 r k)) r k := by
  unfold catAt
  by_cases h : k.val < 256
  · rw [dif_pos h]
    exact concatenate_pair_apply_left (t := S8192x512) (s₁ := S8192x256) (s₂ := S8192x256) 1 G21 G28
      concatenates_S8192x256_S8192x256_S8192x512_d1 (ix2 r k) rfl (ix2 r ⟨k.val, h⟩) (fun b => by
      match b with
      | ⟨0, _⟩ => rfl
      | ⟨1, _⟩ => rfl)
  · rw [dif_neg h]
    exact concatenate_pair_apply_right (t := S8192x512) (s₁ := S8192x256) (s₂ := S8192x256) 1 G21 G28
      concatenates_S8192x256_S8192x256_S8192x512_d1 (ix2 r k) rfl rfl (ix2 r ⟨k.val - 256, by omega⟩)
      (fun b hb => by
        match b with
        | ⟨0, _⟩ => rfl
        | ⟨1, _⟩ => exact absurd rfl hb)
      (by show k.val - 256 + 256 = k.val; omega)

set_option maxHeartbeats 400000 in
/-- The second concatenation (two 64-column arrays side by side) at row r, column k. -/
theorem cat128 (A B : A2 8192 64) (r : Fin 8192) (k : Fin 128) :
    concatenate S8192x128 1 [⟨S8192x64, A⟩, ⟨S8192x64, B⟩] concatenates_S8192x64_S8192x64_S8192x128_d1 (ix2 r k)
      = catAt (a := 64) (b := 64) (fun r k => A (ix2 r k)) (fun r k => B (ix2 r k)) r k := by
  unfold catAt
  by_cases h : k.val < 64
  · rw [dif_pos h]
    exact concatenate_pair_apply_left (t := S8192x128) (s₁ := S8192x64) (s₂ := S8192x64) 1 A B
      concatenates_S8192x64_S8192x64_S8192x128_d1 (ix2 r k) rfl (ix2 r ⟨k.val, h⟩) (fun b => by
      match b with
      | ⟨0, _⟩ => rfl
      | ⟨1, _⟩ => rfl)
  · rw [dif_neg h]
    exact concatenate_pair_apply_right (t := S8192x128) (s₁ := S8192x64) (s₂ := S8192x64) 1 A B
      concatenates_S8192x64_S8192x64_S8192x128_d1 (ix2 r k) rfl rfl (ix2 r ⟨k.val - 64, by omega⟩)
      (fun b hb => by
        match b with
        | ⟨0, _⟩ => rfl
        | ⟨1, _⟩ => exact absurd rfl hb)
      (by show k.val - 64 + 64 = k.val; omega)

theorem lidx30 (r : Fin 8192) (j : Fin 256) (k : Fin 512) : lidx_main_v30 (ix2 r j) k = ix2 r k :=
  funext fun a => by
    match a with
    | ⟨0, _⟩ => rfl
    | ⟨1, _⟩ => rfl
theorem ridx30 (r : Fin 8192) (j : Fin 256) (k : Fin 512) : ridx_main_v30 (ix2 r j) k = ix2 k j :=
  funext fun a => by
    match a with
    | ⟨0, _⟩ => rfl
    | ⟨1, _⟩ => rfl
theorem bidx32 (r : Fin 8192) (j : Fin 256) : idx_main_v31 (idx_main_v32 (ix2 r j)) = ix1 j :=
  funext fun a => by
    match a with
    | ⟨0, _⟩ => rfl

set_option maxHeartbeats 400000 in
/-- Layer one at row r, column j: the first concatenation through W1 and b1, clamped below at zero. -/
theorem layer1 (x0 x1 : (⟨S8192, .i32⟩ : BufTy).Contents (Elt Ideal)) (x5 : (⟨S6000x256, .f32⟩ : BufTy).Contents (Elt Ideal))
    (x6 : (⟨S12000x256, .f32⟩ : BufTy).Contents (Elt Ideal)) (x7 : (⟨S512x256, .f32⟩ : BufTy).Contents (Elt Ideal))
    (x8 : (⟨S256, .f32⟩ : BufTy).Contents (Elt Ideal)) (r : Fin 8192) (j : Fin 256) :
    val_main_v34 (F := Ideal) x0 x1 x5 x6 x7 x8 (ix2 r j)
      = layerAt (catAt (a := 256) (b := 256) (fun r k => val_main_v21 (F := Ideal) x0 x5 (ix2 r k))
          (fun r k => val_main_v28 (F := Ideal) x1 x6 (ix2 r k))) x7 x8 r j := by
  rw [val_main_v34_apply, val_main_v33_apply, val_main_v30_apply, val_main_v32_apply, val_main_v31_apply,
    val_main_call0_v0_apply, val_main_call0_cst_apply, bidx32]
  show max ((∑ k : Fin 512, val_main_v29 (F := Ideal) x0 x1 x5 x6 (lidx_main_v30 (ix2 r j) k) * x7 (ridx_main_v30 (ix2 r j) k))
      + x8 (ix1 j)) (Ideal.ofBits .f32 0x00000000#32) = _
  rw [Ideal.ofBits_zero_f32]
  unfold layerAt
  refine congrArg (fun s => max (s + x8 (ix1 j)) 0) (Finset.sum_congr rfl fun k _ => ?_)
  rw [lidx30, ridx30]
  exact congrArg (· * x7 (ix2 k j)) (cat512 (val_main_v21 (F := Ideal) x0 x5) (val_main_v28 (F := Ideal) x1 x6) r k)

theorem lidx35 (r : Fin 8192) (j : Fin 128) (k : Fin 256) : lidx_main_v35 (ix2 r j) k = ix2 r k :=
  funext fun a => by
    match a with
    | ⟨0, _⟩ => rfl
    | ⟨1, _⟩ => rfl
theorem ridx35 (r : Fin 8192) (j : Fin 128) (k : Fin 256) : ridx_main_v35 (ix2 r j) k = ix2 k j :=
  funext fun a => by
    match a with
    | ⟨0, _⟩ => rfl
    | ⟨1, _⟩ => rfl
theorem bidx37 (r : Fin 8192) (j : Fin 128) : idx_main_v36 (idx_main_v37 (ix2 r j)) = ix1 j :=
  funext fun a => by
    match a with
    | ⟨0, _⟩ => rfl

set_option maxHeartbeats 400000 in
/-- Layer two at row r, column j. -/
theorem layer2 (x0 : (⟨S8192, .i32⟩ : BufTy).Contents (Elt Ideal)) (x1 : (⟨S8192, .i32⟩ : BufTy).Contents (Elt Ideal)) (x5 : (⟨S6000x256, .f32⟩ : BufTy).Contents (Elt Ideal)) (x6 : (⟨S12000x256, .f32⟩ : BufTy).Contents (Elt Ideal)) (x7 : (⟨S512x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) (r : Fin 8192) (j : Fin 128) :
    val_main_v39 (F := Ideal) x0 x1 x5 x6 x7 x8 x9 x10 (ix2 r j) = layerAt (layerAt (catAt (a := 256) (b := 256) (fun r k => val_main_v21 (F := Ideal) x0 x5 (ix2 r k)) (fun r k => val_main_v28 (F := Ideal) x1 x6 (ix2 r k))) x7 x8) x9 x10 r j := by
  rw [val_main_v39_apply, val_main_v38_apply, val_main_v35_apply, val_main_v37_apply, val_main_v36_apply,
    val_main_call1_v0_apply, val_main_call1_cst_apply, bidx37]
  show max ((∑ k : Fin 256, val_main_v34 (F := Ideal) x0 x1 x5 x6 x7 x8 (lidx_main_v35 (ix2 r j) k) * x9 (ridx_main_v35 (ix2 r j) k))
      + x10 (ix1 j)) (Ideal.ofBits .f32 0x00000000#32) = _
  rw [Ideal.ofBits_zero_f32]
  refine Eq.trans ?_ (layerAt_def _ x9 x10 r j).symm
  refine congrArg (fun s => max (s + x10 (ix1 j)) 0) (Finset.sum_congr rfl fun k _ => ?_)
  rw [lidx35, ridx35, layer1]

theorem lidx40 (r : Fin 8192) (j : Fin 64) (k : Fin 128) : lidx_main_v40 (ix2 r j) k = ix2 r k :=
  funext fun a => by
    match a with
    | ⟨0, _⟩ => rfl
    | ⟨1, _⟩ => rfl
theorem ridx40 (r : Fin 8192) (j : Fin 64) (k : Fin 128) : ridx_main_v40 (ix2 r j) k = ix2 k j :=
  funext fun a => by
    match a with
    | ⟨0, _⟩ => rfl
    | ⟨1, _⟩ => rfl
theorem bidx42 (r : Fin 8192) (j : Fin 64) : idx_main_v41 (idx_main_v42 (ix2 r j)) = ix1 j :=
  funext fun a => by
    match a with
    | ⟨0, _⟩ => rfl

set_option maxHeartbeats 400000 in
/-- Layer three at row r, column j: the tower's last hidden layer. -/
theorem layer3 (x0 : (⟨S8192, .i32⟩ : BufTy).Contents (Elt Ideal)) (x1 : (⟨S8192, .i32⟩ : BufTy).Contents (Elt Ideal)) (x5 : (⟨S6000x256, .f32⟩ : BufTy).Contents (Elt Ideal)) (x6 : (⟨S12000x256, .f32⟩ : BufTy).Contents (Elt Ideal)) (x7 : (⟨S512x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (r : Fin 8192) (j : Fin 64) :
    val_main_v44 (F := Ideal) x0 x1 x5 x6 x7 x8 x9 x10 x11 x12 (ix2 r j)
      = h3At (val_main_v21 (F := Ideal) x0 x5) (val_main_v28 (F := Ideal) x1 x6) x7 x8 x9 x10 x11 x12 r j := by
  rw [val_main_v44_apply, val_main_v43_apply, val_main_v40_apply, val_main_v42_apply, val_main_v41_apply,
    val_main_call2_v0_apply, val_main_call2_cst_apply, bidx42]
  show max ((∑ k : Fin 128, val_main_v39 (F := Ideal) x0 x1 x5 x6 x7 x8 x9 x10 (lidx_main_v40 (ix2 r j) k) * x11 (ridx_main_v40 (ix2 r j) k))
      + x12 (ix1 j)) (Ideal.ofBits .f32 0x00000000#32) = _
  rw [Ideal.ofBits_zero_f32]
  unfold h3At
  refine Eq.trans ?_ (layerAt_def _ x11 x12 r j).symm
  refine congrArg (fun s => max (s + x12 (ix1 j)) 0) (Finset.sum_congr rfl fun k _ => ?_)
  rw [lidx40, ridx40, layer2]

theorem idx50 (b : Fin 8192) : idx_main_v50 (ix1 b) = ix2 b (0 : Fin 1) :=
  funext fun a => by
    match a with
    | ⟨0, _⟩ => exact Fin.ext (Nat.div_one _)
    | ⟨1, _⟩ => rfl
theorem lidx46 (r : Fin 8192) (k : Fin 128) : lidx_main_v46 (ix2 r (0 : Fin 1)) k = ix2 r k :=
  funext fun a => by
    match a with
    | ⟨0, _⟩ => rfl
    | ⟨1, _⟩ => rfl
theorem ridx46 (r : Fin 8192) (k : Fin 128) : ridx_main_v46 (ix2 r (0 : Fin 1)) k = ix2 k (0 : Fin 1) :=
  funext fun a => by
    match a with
    | ⟨0, _⟩ => rfl
    | ⟨1, _⟩ => rfl
theorem bidx48 (r : Fin 8192) : idx_main_v47 (idx_main_v48 (ix2 r (0 : Fin 1))) = ix1 (0 : Fin 1) :=
  funext fun a => by
    match a with
    | ⟨0, _⟩ => rfl

set_option maxHeartbeats 400000 in
/-- The prediction of the reference at row b is the specification's formula over the four gathered arrays. -/
theorem pred_eq (x0 : (⟨S8192, .i32⟩ : BufTy).Contents (Elt Ideal)) (x1 : (⟨S8192, .i32⟩ : BufTy).Contents (Elt Ideal)) (x3 : (⟨S6000x64, .f32⟩ : BufTy).Contents (Elt Ideal)) (x4 : (⟨S12000x64, .f32⟩ : BufTy).Contents (Elt Ideal)) (x5 : (⟨S6000x256, .f32⟩ : BufTy).Contents (Elt Ideal)) (x6 : (⟨S12000x256, .f32⟩ : BufTy).Contents (Elt Ideal)) (x7 : (⟨S512x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (x13 : (⟨S128x1, .f32⟩ : BufTy).Contents (Elt Ideal)) (x14 : (⟨S1, .f32⟩ : BufTy).Contents (Elt Ideal)) (b : Fin 8192) :
    val_main_v50 (F := Ideal) x0 x1 x3 x4 x5 x6 x7 x8 x9 x10 x11 x12 x13 x14 (ix1 b)
      = predAt (val_main_v6 (F := Ideal) x0 x3) (val_main_v13 (F := Ideal) x1 x4) (val_main_v21 (F := Ideal) x0 x5)
          (val_main_v28 (F := Ideal) x1 x6) x7 x8 x9 x10 x11 x12 x13 x14 b := by
  rw [val_main_v50_apply, idx50, val_main_v49_apply, val_main_v46_apply, val_main_v48_apply, val_main_v47_apply, bidx48]
  show (∑ k : Fin 128, val_main_v45 (F := Ideal) x0 x1 x3 x4 x5 x6 x7 x8 x9 x10 x11 x12 (lidx_main_v46 (ix2 b (0 : Fin 1)) k)
      * x13 (ridx_main_v46 (ix2 b (0 : Fin 1)) k)) + x14 (ix1 (0 : Fin 1)) = _
  unfold predAt
  refine congrArg (· + x14 (ix1 (0 : Fin 1))) (Finset.sum_congr rfl fun k _ => ?_)
  rw [lidx46, ridx46]
  refine congrArg (· * x13 (ix2 k (0 : Fin 1))) ?_
  refine (cat128 (val_main_v14 (F := Ideal) x0 x1 x3 x4) (val_main_v44 (F := Ideal) x0 x1 x5 x6 x7 x8 x9 x10 x11 x12) b k).trans ?_
  exact catAt_congr _ _ _ _ b (fun _ => rfl) (fun j => layer3 x0 x1 x5 x6 x7 x8 x9 x10 x11 x12 b j) k

end Cert.ReferenceIdeal.RefB

end
-- ==== Proof.Reg2Val.lean ====
/-
  Region 2's two output arrays after the run: every row of either holds the body's payload of the input blocks at the
  grid point whose block contains that row; and each input block read at an index is the array at the block's rows.
-/
import proofs.«163843_j81870666596358_2_alg».proof.Proof.Reg2
import Idealize.ShloMosaic.Lib.ValueIdx
import Idealize.ShloMosaic.Lib.Pipeline.Value
import Idealize.ShloMosaic.Lib.Pipeline.Kit
import Idealize.ShloMosaic.Lib.Pipeline.Frame

noncomputable section

namespace Cert.KernelIdeal.Reg2

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat RDat)

variable {F : FTy → Type} [FloatOps F] {U : Type} [URA U]

/-- The region's grid has four points. -/
theorem N2' : cfg2.N = 4 := N_2

set_option maxHeartbeats 400000 in
/-- Window 15's block index at point t: block row t, block column 0. -/
theorem idx15 (t : Fin cfg2.N) : (cfg2.win 15).index t = ![t.val, 0] := by
  rcases fin_N2 t with rfl | rfl | rfl | rfl <;> decide

set_option maxHeartbeats 400000 in
/-- Row r of window 15's block at point t is row 2048·t + r of its array. -/
theorem emb15 (t : Fin cfg2.N) (r : Fin 2048) :
    ((cfg2.win 15).blk t).view.emb (ix2 r (0 : Fin 1)) = ix2 (⟨2048 * t.val + r.val, by have := t.isLt; have := N2'; omega⟩ : Fin 8192) (0 : Fin 1) := by
  funext a
  apply Fin.ext
  have h1 := (cfg2.win 15).rect_emb_val t (ix2 r (0 : Fin 1)) a
  rw [idx15] at h1
  match a with
  | ⟨0, _⟩ => exact h1.trans (by show t.val * 2048 + r.val = 2048 * t.val + r.val; omega)
  | ⟨1, _⟩ => exact h1.trans (by show 0 * 1 + 0 = 0; rfl)

set_option maxHeartbeats 400000 in
/-- After the write-backs of the points below n, every row of the blocks below n holds the body's payload at its point:
    the write-back at point n touches rows 2048·n … 2048·n + 2047 only. -/
theorem out_inv15 (c : Dev nD) (V : VT (F := F) c) : ∀ (n : Nat), n ≤ cfg2.N →
    ∀ G : Buf (Elt F) ((cfg2.win 15).arr.view.loc (c.tc : Thread nD τ)), (rdat (U := U) c V).ArrAt 15 n G →
    ∀ (t : Fin cfg2.N), t.val < n → ∀ r : Fin 2048,
      G (ix2 (⟨2048 * t.val + r.val, by have := t.isLt; have := N2'; omega⟩ : Fin 8192) (0 : Fin 1)) = out15 c V t (ix2 r (0 : Fin 1))
  | 0, _, _, _, _, ht, _ => absurd ht (Nat.not_lt_zero _)
  | n + 1, hn, G, hG, t, ht, r => by
    have hn' : n < cfg2.N := hn
    rw [show n + 1 = (⟨n, hn'⟩ : Fin cfg2.N).val + 1 from rfl, RDat.ArrAt_succ, if_pos (flush2_15 _)] at hG
    obtain ⟨G₀, X, hG₀, ⟨Y, _, hX⟩, rfl⟩ := hG
    have hX' : X = out15 c V ⟨n, hn'⟩ := hX
    subst hX'
    by_cases htn : t.val = n
    · have e : t = ⟨n, hn'⟩ := Fin.ext htn
      rw [e, ← emb15 ⟨n, hn'⟩ r, View.write_emb_of_mem _ _ (Finset.mem_univ _)]
      rfl
    · rw [View.write_of_not_mem]
      · exact out_inv15 c V n (Nat.le_of_lt hn') G₀ hG₀ t (by omega) r
      · rw [View.setOn_univ]
        intro hmem
        have hmem' : (ix2 (⟨2048 * t.val + r.val, by have := t.isLt; have := N2'; omega⟩ : Fin 8192) (0 : Fin 1) : S8192x1.Idx)
            ∈ ((View.whole main_v59_0 : View sig .tc _ _ _).slice ((cfg2.win 15).rect ⟨n, hn'⟩)).set := hmem
        rw [View.set_slice_whole, Rect.mem_set_unit] at hmem'
        have h0 := hmem' ⟨0, by decide⟩
        rw [idx15] at h0
        have h0' : n * 2048 ≤ 2048 * t.val + r.val ∧ 2048 * t.val + r.val < n * 2048 + 2048 := h0
        have := r.isLt
        omega

/-- The first output array after the run, row by row: row 2048·t + r holds the payload of point t at row r. -/
theorem out_det15 (c : Dev nD) (V : VT (F := F) c) (o : Buf (Elt F) ((cfg2.win 15).arr.view.loc (c.tc : Thread nD τ)))
    (h : (rdat (U := U) c V).ArrAt 15 cfg2.N o) (t : Fin cfg2.N) (r : Fin 2048) :
    o (ix2 (⟨2048 * t.val + r.val, by have := t.isLt; have := N2'; omega⟩ : Fin 8192) (0 : Fin 1)) = out15 c V t (ix2 r (0 : Fin 1)) :=
  out_inv15 c V cfg2.N (Nat.le_refl _) o h t t.isLt r

/-- The same with the point given as a number below four. -/
theorem out_det15_fin4 (c : Dev nD) (V : VT (F := F) c) (o : Buf (Elt F) ((cfg2.win 15).arr.view.loc (c.tc : Thread nD τ)))
    (h : (rdat (U := U) c V).ArrAt 15 cfg2.N o) (t : Fin 4) (r : Fin 2048) :
    o (ix2 (⟨2048 * t.val + r.val, by omega⟩ : Fin 8192) (0 : Fin 1)) = out15 c V (t.cast N2'.symm) (ix2 r (0 : Fin 1)) :=
  out_det15 c V o h (t.cast N2'.symm) r

set_option maxHeartbeats 400000 in
/-- Window 16's block index at point t: block row t, block column 0. -/
theorem idx16 (t : Fin cfg2.N) : (cfg2.win 16).index t = ![t.val, 0] := by
  rcases fin_N2 t with rfl | rfl | rfl | rfl <;> decide

set_option maxHeartbeats 400000 in
/-- Row r of window 16's block at point t is row 2048·t + r of its array. -/
theorem emb16 (t : Fin cfg2.N) (r : Fin 2048) :
    ((cfg2.win 16).blk t).view.emb (ix2 r (0 : Fin 1)) = ix2 (⟨2048 * t.val + r.val, by have := t.isLt; have := N2'; omega⟩ : Fin 8192) (0 : Fin 1) := by
  funext a
  apply Fin.ext
  have h1 := (cfg2.win 16).rect_emb_val t (ix2 r (0 : Fin 1)) a
  rw [idx16] at h1
  match a with
  | ⟨0, _⟩ => exact h1.trans (by show t.val * 2048 + r.val = 2048 * t.val + r.val; omega)
  | ⟨1, _⟩ => exact h1.trans (by show 0 * 1 + 0 = 0; rfl)

set_option maxHeartbeats 400000 in
/-- After the write-backs of the points below n, every row of the blocks below n holds the body's payload at its point:
    the write-back at point n touches rows 2048·n … 2048·n + 2047 only. -/
theorem out_inv16 (c : Dev nD) (V : VT (F := F) c) : ∀ (n : Nat), n ≤ cfg2.N →
    ∀ G : Buf (Elt F) ((cfg2.win 16).arr.view.loc (c.tc : Thread nD τ)), (rdat (U := U) c V).ArrAt 16 n G →
    ∀ (t : Fin cfg2.N), t.val < n → ∀ r : Fin 2048,
      G (ix2 (⟨2048 * t.val + r.val, by have := t.isLt; have := N2'; omega⟩ : Fin 8192) (0 : Fin 1)) = out16 c V t (ix2 r (0 : Fin 1))
  | 0, _, _, _, _, ht, _ => absurd ht (Nat.not_lt_zero _)
  | n + 1, hn, G, hG, t, ht, r => by
    have hn' : n < cfg2.N := hn
    rw [show n + 1 = (⟨n, hn'⟩ : Fin cfg2.N).val + 1 from rfl, RDat.ArrAt_succ, if_pos (flush2_16 _)] at hG
    obtain ⟨G₀, X, hG₀, ⟨Y, _, hX⟩, rfl⟩ := hG
    have hX' : X = out16 c V ⟨n, hn'⟩ := hX
    subst hX'
    by_cases htn : t.val = n
    · have e : t = ⟨n, hn'⟩ := Fin.ext htn
      rw [e, ← emb16 ⟨n, hn'⟩ r, View.write_emb_of_mem _ _ (Finset.mem_univ _)]
      rfl
    · rw [View.write_of_not_mem]
      · exact out_inv16 c V n (Nat.le_of_lt hn') G₀ hG₀ t (by omega) r
      · rw [View.setOn_univ]
        intro hmem
        have hmem' : (ix2 (⟨2048 * t.val + r.val, by have := t.isLt; have := N2'; omega⟩ : Fin 8192) (0 : Fin 1) : S8192x1.Idx)
            ∈ ((View.whole main_v59_1 : View sig .tc _ _ _).slice ((cfg2.win 16).rect ⟨n, hn'⟩)).set := hmem
        rw [View.set_slice_whole, Rect.mem_set_unit] at hmem'
        have h0 := hmem' ⟨0, by decide⟩
        rw [idx16] at h0
        have h0' : n * 2048 ≤ 2048 * t.val + r.val ∧ 2048 * t.val + r.val < n * 2048 + 2048 := h0
        have := r.isLt
        omega

/-- The second output array after the run, row by row: row 2048·t + r holds the payload of point t at row r. -/
theorem out_det16 (c : Dev nD) (V : VT (F := F) c) (o : Buf (Elt F) ((cfg2.win 16).arr.view.loc (c.tc : Thread nD τ)))
    (h : (rdat (U := U) c V).ArrAt 16 cfg2.N o) (t : Fin cfg2.N) (r : Fin 2048) :
    o (ix2 (⟨2048 * t.val + r.val, by have := t.isLt; have := N2'; omega⟩ : Fin 8192) (0 : Fin 1)) = out16 c V t (ix2 r (0 : Fin 1)) :=
  out_inv16 c V cfg2.N (Nat.le_refl _) o h t t.isLt r

/-- The same with the point given as a number below four. -/
theorem out_det16_fin4 (c : Dev nD) (V : VT (F := F) c) (o : Buf (Elt F) ((cfg2.win 16).arr.view.loc (c.tc : Thread nD τ)))
    (h : (rdat (U := U) c V).ArrAt 16 cfg2.N o) (t : Fin 4) (r : Fin 2048) :
    o (ix2 (⟨2048 * t.val + r.val, by omega⟩ : Fin 8192) (0 : Fin 1)) = out16 c V (t.cast N2'.symm) (ix2 r (0 : Fin 1)) :=
  out_det16 c V o h (t.cast N2'.symm) r

set_option maxHeartbeats 400000 in
/-- Window 0's block index at point t: block row t, block column 0. -/
theorem idx0 (t : Fin cfg2.N) : (cfg2.win 0).index t = ![t.val, 0] := by
  rcases fin_N2 t with rfl | rfl | rfl | rfl <;> decide

set_option maxHeartbeats 400000 in
/-- Row r, column k of window 0's block at point t is row 2048·t + r, column k of its array. -/
theorem emb0 (t : Fin cfg2.N) (r : Fin 2048) (k : Fin 64) :
    ((cfg2.win 0).blk t).view.emb (ix2 r k) = ix2 (⟨2048 * t.val + r.val, by have := t.isLt; have := N2'; omega⟩ : Fin 8192) k := by
  funext a
  apply Fin.ext
  have h1 := (cfg2.win 0).rect_emb_val t (ix2 r k) a
  rw [idx0] at h1
  match a with
  | ⟨0, _⟩ => exact h1.trans (by show t.val * 2048 + r.val = 2048 * t.val + r.val; omega)
  | ⟨1, _⟩ => exact h1.trans (by show 0 * 64 + k.val = k.val; omega)

set_option maxHeartbeats 400000 in
/-- Window 0's block at point t, read at row r and column k, is its array at row 2048·t + r and column k. -/
theorem B0_apply (c : Dev nD) (V : VT (F := F) c) (t : Fin cfg2.N) (r : Fin 2048) (k : Fin 64) :
    B c V 0 t (ix2 r k)
      = V (Pipeline.arrRef spec2 0) (ix2 (⟨2048 * t.val + r.val, by have := t.isLt; have := N2'; omega⟩ : Fin 8192) k) := by
  show ((cfg2.win 0).blk t).view.read (Elt F) (V (Pipeline.arrRef spec2 0)) (ix2 r k) = _
  rw [View.read_apply, emb0]
  rfl

set_option maxHeartbeats 400000 in
/-- Window 1's block index at point t: block row t, block column 0. -/
theorem idx1 (t : Fin cfg2.N) : (cfg2.win 1).index t = ![t.val, 0] := by
  rcases fin_N2 t with rfl | rfl | rfl | rfl <;> decide

set_option maxHeartbeats 400000 in
/-- Row r, column k of window 1's block at point t is row 2048·t + r, column k of its array. -/
theorem emb1 (t : Fin cfg2.N) (r : Fin 2048) (k : Fin 64) :
    ((cfg2.win 1).blk t).view.emb (ix2 r k) = ix2 (⟨2048 * t.val + r.val, by have := t.isLt; have := N2'; omega⟩ : Fin 8192) k := by
  funext a
  apply Fin.ext
  have h1 := (cfg2.win 1).rect_emb_val t (ix2 r k) a
  rw [idx1] at h1
  match a with
  | ⟨0, _⟩ => exact h1.trans (by show t.val * 2048 + r.val = 2048 * t.val + r.val; omega)
  | ⟨1, _⟩ => exact h1.trans (by show 0 * 64 + k.val = k.val; omega)

set_option maxHeartbeats 400000 in
/-- Window 1's block at point t, read at row r and column k, is its array at row 2048·t + r and column k. -/
theorem B1_apply (c : Dev nD) (V : VT (F := F) c) (t : Fin cfg2.N) (r : Fin 2048) (k : Fin 64) :
    B c V 1 t (ix2 r k)
      = V (Pipeline.arrRef spec2 1) (ix2 (⟨2048 * t.val + r.val, by have := t.isLt; have := N2'; omega⟩ : Fin 8192) k) := by
  show ((cfg2.win 1).blk t).view.read (Elt F) (V (Pipeline.arrRef spec2 1)) (ix2 r k) = _
  rw [View.read_apply, emb1]
  rfl

set_option maxHeartbeats 400000 in
/-- Window 2's block index at point t: block row t, block column 0. -/
theorem idx2 (t : Fin cfg2.N) : (cfg2.win 2).index t = ![t.val, 0] := by
  rcases fin_N2 t with rfl | rfl | rfl | rfl <;> decide

set_option maxHeartbeats 400000 in
/-- Row r, column k of window 2's block at point t is row 2048·t + r, column k of its array. -/
theorem emb2 (t : Fin cfg2.N) (r : Fin 2048) (k : Fin 256) :
    ((cfg2.win 2).blk t).view.emb (ix2 r k) = ix2 (⟨2048 * t.val + r.val, by have := t.isLt; have := N2'; omega⟩ : Fin 8192) k := by
  funext a
  apply Fin.ext
  have h1 := (cfg2.win 2).rect_emb_val t (ix2 r k) a
  rw [idx2] at h1
  match a with
  | ⟨0, _⟩ => exact h1.trans (by show t.val * 2048 + r.val = 2048 * t.val + r.val; omega)
  | ⟨1, _⟩ => exact h1.trans (by show 0 * 256 + k.val = k.val; omega)

set_option maxHeartbeats 400000 in
/-- Window 2's block at point t, read at row r and column k, is its array at row 2048·t + r and column k. -/
theorem B2_apply (c : Dev nD) (V : VT (F := F) c) (t : Fin cfg2.N) (r : Fin 2048) (k : Fin 256) :
    B c V 2 t (ix2 r k)
      = V (Pipeline.arrRef spec2 2) (ix2 (⟨2048 * t.val + r.val, by have := t.isLt; have := N2'; omega⟩ : Fin 8192) k) := by
  show ((cfg2.win 2).blk t).view.read (Elt F) (V (Pipeline.arrRef spec2 2)) (ix2 r k) = _
  rw [View.read_apply, emb2]
  rfl

set_option maxHeartbeats 400000 in
/-- Window 3's block index at point t: block row t, block column 0. -/
theorem idx3 (t : Fin cfg2.N) : (cfg2.win 3).index t = ![t.val, 0] := by
  rcases fin_N2 t with rfl | rfl | rfl | rfl <;> decide

set_option maxHeartbeats 400000 in
/-- Row r, column k of window 3's block at point t is row 2048·t + r, column k of its array. -/
theorem emb3 (t : Fin cfg2.N) (r : Fin 2048) (k : Fin 256) :
    ((cfg2.win 3).blk t).view.emb (ix2 r k) = ix2 (⟨2048 * t.val + r.val, by have := t.isLt; have := N2'; omega⟩ : Fin 8192) k := by
  funext a
  apply Fin.ext
  have h1 := (cfg2.win 3).rect_emb_val t (ix2 r k) a
  rw [idx3] at h1
  match a with
  | ⟨0, _⟩ => exact h1.trans (by show t.val * 2048 + r.val = 2048 * t.val + r.val; omega)
  | ⟨1, _⟩ => exact h1.trans (by show 0 * 256 + k.val = k.val; omega)

set_option maxHeartbeats 400000 in
/-- Window 3's block at point t, read at row r and column k, is its array at row 2048·t + r and column k. -/
theorem B3_apply (c : Dev nD) (V : VT (F := F) c) (t : Fin cfg2.N) (r : Fin 2048) (k : Fin 256) :
    B c V 3 t (ix2 r k)
      = V (Pipeline.arrRef spec2 3) (ix2 (⟨2048 * t.val + r.val, by have := t.isLt; have := N2'; omega⟩ : Fin 8192) k) := by
  show ((cfg2.win 3).blk t).view.read (Elt F) (V (Pipeline.arrRef spec2 3)) (ix2 r k) = _
  rw [View.read_apply, emb3]
  rfl

set_option maxHeartbeats 400000 in
/-- Window 4's block index at point t: block row t, block column 0. -/
theorem idx4 (t : Fin cfg2.N) : (cfg2.win 4).index t = ![t.val, 0] := by
  rcases fin_N2 t with rfl | rfl | rfl | rfl <;> decide

set_option maxHeartbeats 400000 in
/-- Row r, column k of window 4's block at point t is row 2048·t + r, column k of its array. -/
theorem emb4 (t : Fin cfg2.N) (r : Fin 2048) (k : Fin 64) :
    ((cfg2.win 4).blk t).view.emb (ix2 r k) = ix2 (⟨2048 * t.val + r.val, by have := t.isLt; have := N2'; omega⟩ : Fin 8192) k := by
  funext a
  apply Fin.ext
  have h1 := (cfg2.win 4).rect_emb_val t (ix2 r k) a
  rw [idx4] at h1
  match a with
  | ⟨0, _⟩ => exact h1.trans (by show t.val * 2048 + r.val = 2048 * t.val + r.val; omega)
  | ⟨1, _⟩ => exact h1.trans (by show 0 * 64 + k.val = k.val; omega)

set_option maxHeartbeats 400000 in
/-- Window 4's block at point t, read at row r and column k, is its array at row 2048·t + r and column k. -/
theorem B4_apply (c : Dev nD) (V : VT (F := F) c) (t : Fin cfg2.N) (r : Fin 2048) (k : Fin 64) :
    B c V 4 t (ix2 r k)
      = V (Pipeline.arrRef spec2 4) (ix2 (⟨2048 * t.val + r.val, by have := t.isLt; have := N2'; omega⟩ : Fin 8192) k) := by
  show ((cfg2.win 4).blk t).view.read (Elt F) (V (Pipeline.arrRef spec2 4)) (ix2 r k) = _
  rw [View.read_apply, emb4]
  rfl

set_option maxHeartbeats 400000 in
/-- Window 5's block index at point t: block row t, block column 0. -/
theorem idx5 (t : Fin cfg2.N) : (cfg2.win 5).index t = ![t.val, 0] := by
  rcases fin_N2 t with rfl | rfl | rfl | rfl <;> decide

set_option maxHeartbeats 400000 in
/-- Row r, column k of window 5's block at point t is row 2048·t + r, column k of its array. -/
theorem emb5 (t : Fin cfg2.N) (r : Fin 2048) (k : Fin 64) :
    ((cfg2.win 5).blk t).view.emb (ix2 r k) = ix2 (⟨2048 * t.val + r.val, by have := t.isLt; have := N2'; omega⟩ : Fin 8192) k := by
  funext a
  apply Fin.ext
  have h1 := (cfg2.win 5).rect_emb_val t (ix2 r k) a
  rw [idx5] at h1
  match a with
  | ⟨0, _⟩ => exact h1.trans (by show t.val * 2048 + r.val = 2048 * t.val + r.val; omega)
  | ⟨1, _⟩ => exact h1.trans (by show 0 * 64 + k.val = k.val; omega)

set_option maxHeartbeats 400000 in
/-- Window 5's block at point t, read at row r and column k, is its array at row 2048·t + r and column k. -/
theorem B5_apply (c : Dev nD) (V : VT (F := F) c) (t : Fin cfg2.N) (r : Fin 2048) (k : Fin 64) :
    B c V 5 t (ix2 r k)
      = V (Pipeline.arrRef spec2 5) (ix2 (⟨2048 * t.val + r.val, by have := t.isLt; have := N2'; omega⟩ : Fin 8192) k) := by
  show ((cfg2.win 5).blk t).view.read (Elt F) (V (Pipeline.arrRef spec2 5)) (ix2 r k) = _
  rw [View.read_apply, emb5]
  rfl

set_option maxHeartbeats 400000 in
/-- Window 6's block index at point t: block row t, block column 0. -/
theorem idx6 (t : Fin cfg2.N) : (cfg2.win 6).index t = ![t.val, 0] := by
  rcases fin_N2 t with rfl | rfl | rfl | rfl <;> decide

set_option maxHeartbeats 400000 in
/-- Row r, column k of window 6's block at point t is row 2048·t + r, column k of its array. -/
theorem emb6 (t : Fin cfg2.N) (r : Fin 2048) (k : Fin 64) :
    ((cfg2.win 6).blk t).view.emb (ix2 r k) = ix2 (⟨2048 * t.val + r.val, by have := t.isLt; have := N2'; omega⟩ : Fin 8192) k := by
  funext a
  apply Fin.ext
  have h1 := (cfg2.win 6).rect_emb_val t (ix2 r k) a
  rw [idx6] at h1
  match a with
  | ⟨0, _⟩ => exact h1.trans (by show t.val * 2048 + r.val = 2048 * t.val + r.val; omega)
  | ⟨1, _⟩ => exact h1.trans (by show 0 * 64 + k.val = k.val; omega)

set_option maxHeartbeats 400000 in
/-- Window 6's block at point t, read at row r and column k, is its array at row 2048·t + r and column k. -/
theorem B6_apply (c : Dev nD) (V : VT (F := F) c) (t : Fin cfg2.N) (r : Fin 2048) (k : Fin 64) :
    B c V 6 t (ix2 r k)
      = V (Pipeline.arrRef spec2 6) (ix2 (⟨2048 * t.val + r.val, by have := t.isLt; have := N2'; omega⟩ : Fin 8192) k) := by
  show ((cfg2.win 6).blk t).view.read (Elt F) (V (Pipeline.arrRef spec2 6)) (ix2 r k) = _
  rw [View.read_apply, emb6]
  rfl

end Cert.KernelIdeal.Reg2

end
-- ==== Proof.ValB.lean ====
/-
  Region 2's two output arrays, entry by entry, are the reference's prediction and relation score: the output array's
  row 2048·t + r is the payload of the blocks fetched at point t read at row r; a fetched block's row r is the whole
  array's row 2048·t + r; the formulas read one row, so the block's value is the whole arrays' value; the entry arrays
  are the reference's gather stages and the bias rows are the bias vectors.
-/
import proofs.«163843_j81870666596358_2_alg».proof.Proof.Vals
import proofs.«163843_j81870666596358_2_alg».proof.Proof.Glue
import proofs.«163843_j81870666596358_2_alg».proof.Proof.Reg2
import proofs.«163843_j81870666596358_2_alg».proof.Proof.PayA
import proofs.«163843_j81870666596358_2_alg».proof.Proof.PayB
import proofs.«163843_j81870666596358_2_alg».proof.Proof.RefA
import proofs.«163843_j81870666596358_2_alg».proof.Proof.RefB
import proofs.«163843_j81870666596358_2_alg».proof.Proof.SpecCongr
import proofs.«163843_j81870666596358_2_alg».proof.Proof.Reg2Val
import proofs.«163843_j81870666596358_2_alg».proof.Proof.Book

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The launch memory of core c read at a TensorCore reference. -/
abbrev Mc (c : Dev nD) (b : Ref sig .tc) : Buf (Elt Ideal) ((c.tc : Thread nD τ).loc b) := m ((c.tc : Thread nD τ).loc b)

/-- Region 2's entry buffers on core c. -/
abbrev V2 (c : Dev nD) (A0 : ArrC (F := Ideal) 0 c) (A1 : ArrC (F := Ideal) 1 c) : VT (F := Ideal) c := tcv c (W5 m c A0 A1)

/-- Region 2's proof data entered at those buffers. -/
abbrev rd2 (c : Dev nD) (A0 : ArrC (F := Ideal) 0 c) (A1 : ArrC (F := Ideal) 1 c) := Reg2.rdat (F := Ideal) (U := Alg) c (V2 m c A0 A1)

section Compose

variable (c : Dev nD) (A0 : ArrC (F := Ideal) 0 c) (A1 : ArrC (F := Ideal) 1 c)

local notation "V" => V2 m c A0 A1

/-- Row r of the block of point t is row 2048·t + r of the whole array. -/
theorem row_lt (t : Fin cfg2.N) (r : Fin 2048) : 2048 * t.val + r.val < 8192 := by
  have ht : t.val < 4 := lt_of_lt_of_eq t.isLt N_2
  have := r.isLt
  omega

/-- Every row of the whole array is a row of one block. -/
theorem row_split (b : Fin 8192) : ∃ (t : Fin cfg2.N) (r : Fin 2048), b = ⟨2048 * t.val + r.val, row_lt t r⟩ := by
  have hb := b.isLt
  refine ⟨⟨b.val / 2048, by rw [show cfg2.N = 4 from N_2]; omega⟩, ⟨b.val % 2048, Nat.mod_lt _ (by decide)⟩, Fin.ext ?_⟩
  show b.val = 2048 * (b.val / 2048) + b.val % 2048
  omega

set_option backward.isDefEq.respectTransparency.types false in
set_option maxHeartbeats 400000 in
/-- The prediction array, entry by entry, is the reference's prediction, GIVEN: what the write-backs leave in the
    array (each row the prediction payload of its point's blocks), the fetched blocks' rows, and the entry arrays. -/
theorem pred_val_of (o : (⟨S8192x1, .f32⟩ : BufTy).Contents (Elt Ideal))
    (hdet : ∀ (t : Fin cfg2.N) (r : Fin 2048), o (ix2 ⟨2048 * t.val + r.val, row_lt t r⟩ 0) = Reg2.out15 c V t (ix2 r 0))
    (hB0 : ∀ (t : Fin cfg2.N) (r : Fin 2048) (k : Fin 64), (Reg2.B c V 0 t : Vec Ideal S2048x64 .f32) (ix2 r k)
      = (V main_v12 : (⟨S8192x64, .f32⟩ : BufTy).Contents (Elt Ideal)) (ix2 ⟨2048 * t.val + r.val, row_lt t r⟩ k))
    (hB1 : ∀ (t : Fin cfg2.N) (r : Fin 2048) (k : Fin 64), (Reg2.B c V 1 t : Vec Ideal S2048x64 .f32) (ix2 r k)
      = (V main_v19 : (⟨S8192x64, .f32⟩ : BufTy).Contents (Elt Ideal)) (ix2 ⟨2048 * t.val + r.val, row_lt t r⟩ k))
    (hB2 : ∀ (t : Fin cfg2.N) (r : Fin 2048) (k : Fin 256), (Reg2.B c V 2 t : Vec Ideal S2048x256 .f32) (ix2 r k)
      = (V main_v26 : (⟨S8192x256, .f32⟩ : BufTy).Contents (Elt Ideal)) (ix2 ⟨2048 * t.val + r.val, row_lt t r⟩ k))
    (hB3 : ∀ (t : Fin cfg2.N) (r : Fin 2048) (k : Fin 256), (Reg2.B c V 3 t : Vec Ideal S2048x256 .f32) (ix2 r k)
      = (V main_v33 : (⟨S8192x256, .f32⟩ : BufTy).Contents (Elt Ideal)) (ix2 ⟨2048 * t.val + r.val, row_lt t r⟩ k))
    (e12 : (V main_v12 : (⟨S8192x64, .f32⟩ : BufTy).Contents (Elt Ideal)) = Cert.ReferenceIdeal.Read.val_main_v6 (F := Ideal) (Mc m c main_arg0) (Mc m c main_arg3))
    (e19 : (V main_v19 : (⟨S8192x64, .f32⟩ : BufTy).Contents (Elt Ideal)) = Cert.ReferenceIdeal.Read.val_main_v13 (F := Ideal) (Mc m c main_arg1) (Mc m c main_arg4))
    (e26 : (V main_v26 : (⟨S8192x256, .f32⟩ : BufTy).Contents (Elt Ideal)) = Cert.ReferenceIdeal.Read.val_main_v21 (F := Ideal) (Mc m c main_arg0) (Mc m c main_arg5))
    (e33 : (V main_v33 : (⟨S8192x256, .f32⟩ : BufTy).Contents (Elt Ideal)) = Cert.ReferenceIdeal.Read.val_main_v28 (F := Ideal) (Mc m c main_arg1) (Mc m c main_arg6))
    (e7 : (V main_arg7 : (⟨S512x256, .f32⟩ : BufTy).Contents (Elt Ideal)) = Mc m c main_arg7)
    (e9 : (V main_arg9 : (⟨S256x128, .f32⟩ : BufTy).Contents (Elt Ideal)) = Mc m c main_arg9)
    (e11 : (V main_arg11 : (⟨S128x64, .f32⟩ : BufTy).Contents (Elt Ideal)) = Mc m c main_arg11)
    (e13 : (V main_arg13 : (⟨S128x1, .f32⟩ : BufTy).Contents (Elt Ideal)) = Mc m c main_arg13)
    (e55 : (V main_v55 : (⟨S1x256, .f32⟩ : BufTy).Contents (Elt Ideal)) = shapeCast S1x256 (Mc m c main_arg8) shapeCasts_S256_S1x256)
    (e56 : (V main_v56 : (⟨S1x128, .f32⟩ : BufTy).Contents (Elt Ideal)) = shapeCast S1x128 (Mc m c main_arg10) shapeCasts_S128_S1x128)
    (e57 : (V main_v57 : (⟨S1x64, .f32⟩ : BufTy).Contents (Elt Ideal)) = shapeCast S1x64 (Mc m c main_arg12) shapeCasts_S64_S1x64)
    (e58 : (V main_v58 : (⟨S1x1, .f32⟩ : BufTy).Contents (Elt Ideal)) = shapeCast S1x1 (Mc m c main_arg14) shapeCasts_S1_S1x1)
    (b : Fin 8192) :
    o (ix2 b 0)
      = Cert.ReferenceIdeal.Read.val_main_v50 (F := Ideal) (Mc m c main_arg0) (Mc m c main_arg1) (Mc m c main_arg3) (Mc m c main_arg4)
          (Mc m c main_arg5) (Mc m c main_arg6) (Mc m c main_arg7) (Mc m c main_arg8) (Mc m c main_arg9) (Mc m c main_arg10)
          (Mc m c main_arg11) (Mc m c main_arg12) (Mc m c main_arg13) (Mc m c main_arg14) (ix1 b) := by
  obtain ⟨t, r, rfl⟩ := row_split b
  refine (hdet t r).trans ?_
  refine (PayB.k2_pred_apply _ _ _ _ _ _ _ _ _ _ _ _ r).trans ?_
  refine Eq.trans ?_ (Cert.ReferenceIdeal.RefB.pred_eq _ _ _ _ _ _ _ _ _ _ _ _ _ _ _).symm
  rw [e7, e9, e11, e13]
  refine Cert.Spec.predAt_congr_all _ _ _ _ _ _ _ _ _ _ _ _ _ _ _ _ _ _ _ _ _ _
    (fun k => (hB0 t r k).trans (congrFun e12 _)) (fun k => (hB1 t r k).trans (congrFun e19 _))
    (fun k => (hB2 t r k).trans (congrFun e26 _)) (fun k => (hB3 t r k).trans (congrFun e33 _))
    (fun j => ?_) (fun j => ?_) (fun j => ?_) (fun j => ?_)
  · rw [Cert.Spec.rowOf_ix1, e55]; exact Glue.row_apply _ _ j
  · rw [Cert.Spec.rowOf_ix1, e56]; exact Glue.row_apply _ _ j
  · rw [Cert.Spec.rowOf_ix1, e57]; exact Glue.row_apply _ _ j
  · rw [Cert.Spec.rowOf_ix1, e58]; exact Glue.row_apply _ _ j

set_option backward.isDefEq.respectTransparency.types false in
set_option maxHeartbeats 400000 in
/-- The relation-score array, entry by entry, is the reference's relation score, GIVEN: what the write-backs leave in
    the array, the fetched blocks' rows, and the entry arrays (the gathered items_relation being the reference's). -/
theorem rel_val_of (o : (⟨S8192x1, .f32⟩ : BufTy).Contents (Elt Ideal))
    (hdet : ∀ (t : Fin cfg2.N) (r : Fin 2048), o (ix2 ⟨2048 * t.val + r.val, row_lt t r⟩ 0) = Reg2.out16 c V t (ix2 r 0))
    (hB4 : ∀ (t : Fin cfg2.N) (r : Fin 2048) (k : Fin 64), (Reg2.B c V 4 t : Vec Ideal S2048x64 .f32) (ix2 r k)
      = (V main_v40 : (⟨S8192x64, .f32⟩ : BufTy).Contents (Elt Ideal)) (ix2 ⟨2048 * t.val + r.val, row_lt t r⟩ k))
    (hB5 : ∀ (t : Fin cfg2.N) (r : Fin 2048) (k : Fin 64), (Reg2.B c V 5 t : Vec Ideal S2048x64 .f32) (ix2 r k)
      = (V main_v47 : (⟨S8192x64, .f32⟩ : BufTy).Contents (Elt Ideal)) (ix2 ⟨2048 * t.val + r.val, row_lt t r⟩ k))
    (hB6 : ∀ (t : Fin cfg2.N) (r : Fin 2048) (k : Fin 64), (Reg2.B c V 6 t : Vec Ideal S2048x64 .f32) (ix2 r k)
      = (V main_v54 : (⟨S8192x64, .f32⟩ : BufTy).Contents (Elt Ideal)) (ix2 ⟨2048 * t.val + r.val, row_lt t r⟩ k))
    (e40 : (V main_v40 : (⟨S8192x64, .f32⟩ : BufTy).Contents (Elt Ideal)) = Cert.ReferenceIdeal.Read.val_main_v72 (F := Ideal) (Mc m c main_arg0) (Mc m c main_arg16))
    (e47 : (V main_v47 : (⟨S8192x64, .f32⟩ : BufTy).Contents (Elt Ideal)) = Cert.ReferenceIdeal.Read.val_main_v87 (F := Ideal) (Mc m c main_arg1) (Mc m c main_arg15))
    (e54 : (V main_v54 : (⟨S8192x64, .f32⟩ : BufTy).Contents (Elt Ideal))
      = Cert.ReferenceIdeal.Read.val_main_v79 (F := Ideal) (Mc m c main_arg1) (Mc m c main_arg2) (Mc m c main_arg15) (Mc m c main_arg16)
          (Mc m c main_arg17) (Mc m c main_arg18))
    (b : Fin 8192) :
    o (ix2 b 0)
      = Cert.ReferenceIdeal.Read.val_main_v89 (F := Ideal) (Mc m c main_arg0) (Mc m c main_arg1) (Mc m c main_arg2) (Mc m c main_arg15)
          (Mc m c main_arg16) (Mc m c main_arg17) (Mc m c main_arg18) (ix1 b) := by
  obtain ⟨t, r, rfl⟩ := row_split b
  refine (hdet t r).trans ?_
  refine (PayA.k2_pay2_apply _ _ _ r).trans ?_
  refine Eq.trans ?_ (Cert.ReferenceIdeal.RefA.rel_eq _ _ _ _ _ _ _ _).symm
  exact Cert.Spec.relAt_congr _ _ _ _ _ _ _ _
    (fun d => (hB4 t r d).trans (congrFun e40 _)) (fun d => (hB6 t r d).trans (congrFun e54 _))
    (fun d => (hB5 t r d).trans (congrFun e47 _))

end Compose

/-! ## The two results of region 2 -/

set_option backward.isDefEq.respectTransparency.types false in
set_option maxHeartbeats 400000 in
/-- Region 2's prediction array after its write-backs, entry by entry, is the reference's prediction over the launch
    memory. -/
theorem pred_val (c : Dev nD) (A0 : ArrC (F := Ideal) 0 c) (A1 : ArrC (F := Ideal) 1 c) (A2 : ArrC (F := Ideal) 2 c)
    (h0 : ∀ w, w ≠ 3 → A0 w = W1 m c (Proc.devRef .tc (Pipeline.arrRef (sp0 (F := Ideal)) w)))
    (h1 : ∀ w, w ≠ 4 → A1 w = W2 m c A0 (Proc.devRef .tc (Pipeline.arrRef (sp1 (F := Ideal)) w)))
    (hA2 : ∀ w, (rd2 m c A0 A1).ArrAt w cfg2.N (A2 w)) (b : Fin 8192) :
    (A2 15 : (⟨S8192x1, .f32⟩ : BufTy).Contents (Elt Ideal)) (ix2 b 0)
      = Cert.ReferenceIdeal.Read.val_main_v50 (F := Ideal) (Mc m c main_arg0) (Mc m c main_arg1) (Mc m c main_arg3) (Mc m c main_arg4)
          (Mc m c main_arg5) (Mc m c main_arg6) (Mc m c main_arg7) (Mc m c main_arg8) (Mc m c main_arg9) (Mc m c main_arg10)
          (Mc m c main_arg11) (Mc m c main_arg12) (Mc m c main_arg13) (Mc m c main_arg14) (ix1 b) :=
  pred_val_of m c A0 A1 (A2 15) (Reg2.out_det15 c (V2 m c A0 A1) (A2 15) (hA2 15))
    (Reg2.B0_apply c (V2 m c A0 A1)) (Reg2.B1_apply c (V2 m c A0 A1)) (Reg2.B2_apply c (V2 m c A0 A1)) (Reg2.B3_apply c (V2 m c A0 A1))
    ((W5_v12 m c A0 A1).trans (Glue.gather_v12_ref _ _)) ((W5_v19 m c A0 A1).trans (Glue.gather_v19_ref _ _))
    ((W5_v26 m c A0 A1).trans (Glue.gather_v26_ref _ _)) ((W5_v33 m c A0 A1).trans (Glue.gather_v33_ref _ _))
    (W5_arg7 m c A0 A1) (W5_arg9 m c A0 A1) (W5_arg11 m c A0 A1) (W5_arg13 m c A0 A1)
    (W5_v55 m c A0 A1) (W5_v56 m c A0 A1) (W5_v57 m c A0 A1) (W5_v58 m c A0 A1) b

set_option backward.isDefEq.respectTransparency.types false in
set_option maxHeartbeats 400000 in
/-- Region 2's relation-score array after its write-backs, entry by entry, is the reference's relation score over the
    launch memory, given that region 1 left the reference's items_relation in its output array. -/
theorem rel_val (c : Dev nD) (A0 : ArrC (F := Ideal) 0 c) (A1 : ArrC (F := Ideal) 1 c) (A2 : ArrC (F := Ideal) 2 c)
    (h0 : ∀ w, w ≠ 3 → A0 w = W1 m c (Proc.devRef .tc (Pipeline.arrRef (sp0 (F := Ideal)) w)))
    (h1 : ∀ w, w ≠ 4 → A1 w = W2 m c A0 (Proc.devRef .tc (Pipeline.arrRef (sp1 (F := Ideal)) w)))
    (hA2 : ∀ w, (rd2 m c A0 A1).ArrAt w cfg2.N (A2 w))
    (hitems : ∀ (i : Fin 12000) (d : Fin 64), (A1 4 : (⟨S12000x64, .f32⟩ : BufTy).Contents (Elt Ideal)) (ix2 i d)
      = Cert.ReferenceIdeal.Read.val_main_v65 (F := Ideal) (Mc m c main_arg2) (Mc m c main_arg15) (Mc m c main_arg16) (Mc m c main_arg17)
          (Mc m c main_arg18) (ix2 i d))
    (b : Fin 8192) :
    (A2 16 : (⟨S8192x1, .f32⟩ : BufTy).Contents (Elt Ideal)) (ix2 b 0)
      = Cert.ReferenceIdeal.Read.val_main_v89 (F := Ideal) (Mc m c main_arg0) (Mc m c main_arg1) (Mc m c main_arg2) (Mc m c main_arg15)
          (Mc m c main_arg16) (Mc m c main_arg17) (Mc m c main_arg18) (ix1 b) :=
  rel_val_of m c A0 A1 (A2 16) (Reg2.out_det16 c (V2 m c A0 A1) (A2 16) (hA2 16))
    (Reg2.B4_apply c (V2 m c A0 A1)) (Reg2.B5_apply c (V2 m c A0 A1)) (Reg2.B6_apply c (V2 m c A0 A1))
    ((W5_v40 m c A0 A1 h0).trans (Glue.gather_v40_ref _ _)) ((W5_v47 m c A0 A1).trans (Glue.gather_v47_ref _ _))
    ((W5_v54 m c A0 A1).trans (Glue.gather_v54_ref _ _ _ _ _ _ (A1 4) hitems)) b

end Cert.KernelIdeal.Hand

end
-- ==== Proof.Final.lean ====
/-
  The two results the program ends with are the reference's: the last host stretch makes region 2's two output columns
  vectors, and region 2 leaves in them, entry by entry, the reference's prediction and relation score over the launch
  memory.
-/
import proofs.«163843_j81870666596358_2_alg».proof.Proof.Book
import proofs.«163843_j81870666596358_2_alg».proof.Proof.ArgsKept
import proofs.«163843_j81870666596358_2_alg».proof.Proof.ValA
import proofs.«163843_j81870666596358_2_alg».proof.Proof.ValB

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

set_option backward.isDefEq.respectTransparency.types false in
/-- The prediction the program ends with is the reference's, over the launch memory. -/
theorem v60_val (c : Dev nD) (A0 : ArrC (F := Ideal) 0 c) (A1 : ArrC (F := Ideal) 1 c) (A2 : ArrC (F := Ideal) 2 c)
    (hA0 : ∀ w, (rd0 m c).ArrAt w cfg0.N (A0 w)) (hA1 : ∀ w, (rd1 m c A0).ArrAt w cfg1.N (A1 w))
    (hA2 : ∀ w, (rd2 m c A0 A1).ArrAt w cfg2.N (A2 w)) :
    (W7 m c A0 A1 A2 (Proc.devRef .tc main_v60) : (⟨S8192, .f32⟩ : BufTy).Contents (Elt Ideal))
      = Cert.ReferenceIdeal.Read.val_main_v50 (F := Ideal) (M m c main_arg0) (M m c main_arg1) (M m c main_arg3) (M m c main_arg4) (M m c main_arg5) (M m c main_arg6) (M m c main_arg7) (M m c main_arg8) (M m c main_arg9) (M m c main_arg10) (M m c main_arg11) (M m c main_arg12) (M m c main_arg13) (M m c main_arg14) := by
  funext j
  rw [eq_ix1 j]
  refine (congrFun (W7_v60 m c A0 A1 A2) (ix1 (j 0))).trans ?_
  refine (Glue.col_apply _ _ (j 0)).trans ?_
  exact pred_val m c A0 A1 A2 (inputs_kept0 m c A0 hA0) (inputs_kept1 m c A0 A1 hA1) hA2 (j 0)

set_option backward.isDefEq.respectTransparency.types false in
/-- The relation score the program ends with is the reference's, over the launch memory. -/
theorem v61_val (c : Dev nD) (A0 : ArrC (F := Ideal) 0 c) (A1 : ArrC (F := Ideal) 1 c) (A2 : ArrC (F := Ideal) 2 c)
    (hA0 : ∀ w, (rd0 m c).ArrAt w cfg0.N (A0 w)) (hA1 : ∀ w, (rd1 m c A0).ArrAt w cfg1.N (A1 w))
    (hA2 : ∀ w, (rd2 m c A0 A1).ArrAt w cfg2.N (A2 w)) :
    (W7 m c A0 A1 A2 (Proc.devRef .tc main_v61) : (⟨S8192, .f32⟩ : BufTy).Contents (Elt Ideal))
      = Cert.ReferenceIdeal.Read.val_main_v89 (F := Ideal) (M m c main_arg0) (M m c main_arg1) (M m c main_arg2) (M m c main_arg15) (M m c main_arg16) (M m c main_arg17) (M m c main_arg18) := by
  funext j
  rw [eq_ix1 j]
  refine (congrFun (W7_v61 m c A0 A1 A2) (ix1 (j 0))).trans ?_
  refine (Glue.col_apply _ _ (j 0)).trans ?_
  exact rel_val m c A0 A1 A2 (inputs_kept0 m c A0 hA0) (inputs_kept1 m c A0 A1 hA1) hA2 (items_val m c A0 A1 hA0 hA1) (j 0)

end Cert.KernelIdeal.Hand

end
-- ==== Proof.Alg.lean ====
/-
  The two idealized programs, run from memories that agree on the arguments, end with the same two result arrays:
  both are the reference's stage functions of the kernel's argument arrays.
-/
import proofs.«163843_j81870666596358_2_alg».proof.Defs
import proofs.«163843_j81870666596358_2_alg».proof.Proof.Gen.KernelIdeal
import proofs.«163843_j81870666596358_2_alg».proof.Proof.Gen.ReferenceIdeal
import proofs.«163843_j81870666596358_2_alg».proof.Proof.Gen.Pre_finite_inputs
import proofs.«163843_j81870666596358_2_alg».proof.Proof.Gen.ReferenceIdeal.Run
import proofs.«163843_j81870666596358_2_alg».proof.Proof.Gen.ReferenceIdeal.Read
import proofs.«163843_j81870666596358_2_alg».proof.Proof.FrameOf
import proofs.«163843_j81870666596358_2_alg».proof.Proof.Final

noncomputable section

namespace Cert.Proof.Alg

open Idealize.ShloMosaic Idealize.SL.Sem

/-- The prediction both programs end with, as a function of the kernel's argument arrays. -/
def kv50 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v60) :=
  Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))

/-- The relation scores both programs end with, as a function of the kernel's argument arrays. -/
def kv89 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v61) :=
  Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))

/-- The reference's run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- The kernel's run, with its two results named as the reference's stage functions of its own arguments. -/
def KernelRuns : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v60) = kv50 m c
      ∧ r.2.mem ((c.tc : Thread Cert.KernelIdeal.nD Cert.KernelIdeal.τ).loc Cert.KernelIdeal.main_v61) = kv89 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

set_option maxHeartbeats 1000000 in
/-- From the kernel's run so named, the algebraic conjunct: the reference's results are the same functions of its own
    arguments, which agree with the kernel's. -/
theorem algebraic_of (hker : KernelRuns) : Cert.algebraic_KernelIdeal_ReferenceIdeal := by
  intro m ρ m' ρ' _ hagree
  refine ⟨kv50 m, kv89 m, hker m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18⟩ := hagree c
    rw [Cert.ReferenceIdeal.Read.val_main_v50_eq, e0, e1, e3, e4, e5, e6, e7, e8, e9, e10, e11, e12, e13, e14]
    rfl
  · obtain ⟨e0, e1, e2, e3, e4, e5, e6, e7, e8, e9, e10, e11, e12, e13, e14, e15, e16, e17, e18⟩ := hagree c
    rw [Cert.ReferenceIdeal.Read.val_main_v89_eq, e0, e1, e2, e15, e16, e17, e18]
    rfl

set_option maxHeartbeats 1000000 in
/-- The kernel's run ends with the reference's stage functions of its own arguments: the run names each result at the
    last valuation for some contents the three regions may have left, and those are the reference's values whatever the
    contents, as long as they satisfy the regions' relations. -/
theorem kernel_runs : KernelRuns := fun m ρ =>
  (θ_run _ _ _).mono (fun r h c => by
    obtain ⟨x, h60, h61, hk⟩ := h c
    exact ⟨h60.trans (Cert.KernelIdeal.Hand.v60_val m c (x.A0 c) (x.A1 c) (x.A2 c) (x.h0 c) (x.h1 c) (x.h2 c)),
      h61.trans (Cert.KernelIdeal.Hand.v61_val m c (x.A0 c) (x.A1 c) (x.A2 c) (x.h0 c) (x.h1 c) (x.h2 c)), hk⟩)
    (Cert.KernelIdeal.Hand.run_results (F := Ideal) m ρ)

/-- The algebraic conjunct. -/
theorem algebraic : Cert.algebraic_KernelIdeal_ReferenceIdeal := algebraic_of kernel_runs

end Cert.Proof.Alg

end
-- ==== Proof.lean ====
/-
  The proof of `Cert.Claim` (proofs.«163843_j81870666596358_2_alg».proof.Defs): the program is three kernel regions among stretches of host operations —
  keys = user_rel · Watt + batt; items_relation = (sigmoid(keys · item_relᵀ) ⊙ mask)ᵀ · user_rel, 256 items at a time, the last
  tile of 224 items cut at the arrays' end; and, on 2048 gathered rows at a time, the product of the two GMF embeddings, a
  three-layer tower x ↦ max(x · W + b, 0) over the concatenated MLP embeddings, the prediction (gmf | tower) · Wp + bp and the
  relation score Σ_d (user_rel row + items_relation row)_d · (item_rel row)_d — against the same formulas written with whole-array
  matrix products on the host.

  The frames (both printings of the kernel program, at any float instance): the launch library's rule for a list of segments,
  with every region entered at contents that are only known to exist — what the cut tile's staging buffers hold past the arrays'
  end is named by nothing, and at the word-level instance it reaches the result through the matrix unit — so each thread state
  after a region is quantified over what the region's write-backs may have left (Proof/Kit.lean, Region.lean, Run.lean), each
  region's body obligation being a run of its kernel over whole loads, one payload and whole stores (Reg0, Reg1Body, Reg2Body).
  No host stretch writes an argument and an input window's array is never written back (ArgsKept, Kept, FrameOf).

  The values, over the extended reals: a format change is the identity and a matrix product into a zero accumulator a plain sum,
  so each payload read at an index is the specification's formula on the block it was handed (PayA, PayB; Spec); a write-back
  changes only its block's rows and the cut tile writes only rows inside the array, so each output array holds the formula at
  every index whatever the unnamed words were (Reg0, Reg1Val, Reg2Val); the formulas read one row of their row-indexed operands,
  so a block's row and the whole arrays' row agree (SpecCongr); the host stretches' gathers and reshapes are the reference's own
  (Glue, Book); and the reference's stages read at an index are the same formulas, the logistic function being 1 / (1 + e^(-x))
  and multiplication commutative (RefA, RefB). Both programs thus end with the reference's two result stages of the arguments
  (ValA, ValB, Final, Alg). No law used needs the inputs finite: the precondition is never opened.
-/
import proofs.«163843_j81870666596358_2_alg».proof.Defs
import proofs.«163843_j81870666596358_2_alg».proof.Proof.Gen.Kernel
import proofs.«163843_j81870666596358_2_alg».proof.Proof.Gen.KernelIdeal
import proofs.«163843_j81870666596358_2_alg».proof.Proof.Gen.ReferenceIdeal
import proofs.«163843_j81870666596358_2_alg».proof.Proof.Gen.Pre_finite_inputs
import proofs.«163843_j81870666596358_2_alg».proof.Proof.FrameOf
import proofs.«163843_j81870666596358_2_alg».proof.Proof.KFrameOf
import proofs.«163843_j81870666596358_2_alg».proof.Proof.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Proof.Alg.frame_ri,
    trivial,
    Cert.Proof.Alg.algebraic⟩

end Cert.Proof

end
